-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S500000x64 : Shape := ⟨2, ![500000, 64]⟩
abbrev S50000x1 : Shape := ⟨2, ![50000, 1]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S50000x1 : S_.BroadcastsInDim S50000x1 (![] : Fin 0 → Fin S50000x1.rank)
  reducesTo_S50000x1_S_d0_1 : S50000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_arg23 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg20 : FVec F S64 .f32) (main_arg21 : FVec F S64 .f32) (main_arg22 : FVec F S64 .f32) (main_arg23 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S64x64 .f32) (main_arg17 : FVec F S64 .f32) (main_arg18 : FVec F S64x64 .f32) (main_arg19 : FVec F S64 .f32) (main_arg20 : FVec F S64 .f32) (main_arg21 : FVec F S64 .f32) (main_arg22 : FVec F S64 .f32) (main_arg23 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_arg22 : FVec F S64 .f32) (main_arg23 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_arg22 : FVec F S64 .f32) (main_arg23 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_arg22 : FVec F S64 .f32) (main_arg23 : FVec F S64 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : FVec F S50000x64 .f32) (main_arg2 : FVec F S500000x64 .f32) (main_arg3 : FVec F S50000x1 .f32) (main_arg4 : IVec S500000 32) (main_arg5 : IVec S500000 32) (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_arg22 : FVec F S64 .f32) (main_arg23 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S500000x64 : Shape := ⟨2, ![500000, 64]⟩
abbrev S50000x1 : Shape := ⟨2, ![50000, 1]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S50000x128 : Shape := ⟨2, ![50000, 128]⟩
abbrev S2000x64 : Shape := ⟨2, ![2000, 64]⟩
abbrev S2000x128 : Shape := ⟨2, ![2000, 128]⟩
abbrev S_ : Shape := ⟨0, ![]⟩
abbrev S500000x1 : Shape := ⟨2, ![500000, 1]⟩
abbrev S4000x64 : Shape := ⟨2, ![4000, 64]⟩
abbrev S500000x128 : Shape := ⟨2, ![500000, 128]⟩
abbrev S4000x128 : Shape := ⟨2, ![4000, 128]⟩

abbrev nBuf : Space → Nat
  | .hbm => 163
  | .vmem => 70
  | .smem => 0
  | _ => 0

abbrev hbmTy0_0 (i : Nat) : BufTy := match i % 128 with
  | 0 => ⟨S50000x64, .f32⟩
  | 1 => ⟨S50000x64, .f32⟩
  | 2 => ⟨S500000x64, .f32⟩
  | 3 => ⟨S50000x1, .f32⟩
  | 4 => ⟨S500000, .i32⟩
  | 5 => ⟨S500000, .i32⟩
  | 6 => ⟨S128x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S64, .f32⟩
  | 23 => ⟨S64, .f32⟩
  | 24 => ⟨S64x64, .f32⟩
  | 25 => ⟨S64x64, .f32⟩
  | 26 => ⟨S64x64, .f32⟩
  | 27 => ⟨S64x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S50000x128, .f32⟩
  | 36 => ⟨S50000x128, .f32⟩
  | 37 => ⟨S50000x64, .f32⟩
  | 38 => ⟨S50000x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x64, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x64, .f32⟩
  | 57 => ⟨S500000x64, .f32⟩
  | 58 => ⟨S500000x64, .f32⟩
  | 59 => ⟨S500000x64, .f32⟩
  | 60 => ⟨S_, .f32⟩
  | 61 => ⟨S500000x64, .f32⟩
  | 62 => ⟨S500000x64, .f32⟩
  | 63 => ⟨S_, .f32⟩
  | 64 => ⟨S500000x64, .f32⟩
  | 65 => ⟨S500000x64, .f32⟩
  | 66 => ⟨S_, .f32⟩
  | 67 => ⟨S50000x64, .f32⟩
  | 68 => ⟨S500000x1, .i32⟩
  | 69 => ⟨S50000x64, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000x64, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S500000x128, .f32⟩
  | 89 => ⟨S_, .f32⟩
  | 90 => ⟨S50000x128, .f32⟩
  | 91 => ⟨S500000x1, .i32⟩
  | 92 => ⟨S50000x128, .f32⟩
  | 93 => ⟨S50000x64, .f32⟩
  | 94 => ⟨S50000x64, .f32⟩
  | 95 => ⟨S50000x64, .f32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S_, .f32⟩
  | 114 => ⟨S_, .f32⟩
  | 115 => ⟨S_, .f32⟩
  | 116 => ⟨S64, .f32⟩
  | 117 => ⟨S1x64, .f32⟩
  | 118 => ⟨S1x64, .f32⟩
  | 119 => ⟨S1x64, .f32⟩
  | 120 => ⟨S_, .f32⟩
  | 121 => ⟨S_, .i1⟩
  | 122 => ⟨S_, .f32⟩
  | 123 => ⟨S_, .f32⟩
  | 124 => ⟨S1x64, .f32⟩
  | 125 => ⟨S1x64, .f32⟩
  | 126 => ⟨S_, .f32⟩
  | 127 => ⟨S64, .f32⟩
  | _ => ⟨S50000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S500000x64, .f32⟩
  | 12 => ⟨S500000x64, .f32⟩
  | 13 => ⟨S500000x64, .f32⟩
  | 14 => ⟨S_, .f32⟩
  | 15 => ⟨S_, .f32⟩
  | 16 => ⟨S_, .f32⟩
  | 17 => ⟨S_, .f32⟩
  | 18 => ⟨S64, .f32⟩
  | 19 => ⟨S1x64, .f32⟩
  | 20 => ⟨S1x64, .f32⟩
  | 21 => ⟨S1x64, .f32⟩
  | 22 => ⟨S_, .f32⟩
  | 23 => ⟨S_, .i1⟩
  | 24 => ⟨S_, .f32⟩
  | 25 => ⟨S_, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S50000x64, .f32⟩
  | 33 => ⟨S50000x64, .f32⟩
  | 34 => ⟨S500000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S1x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S4000x64, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S4000x64, .f32⟩
  | .local _ .vmem, ⟨69, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v11_2 : Ref sig .tc := ⟨.hbm, 37, rfl⟩
abbrev main_v11_3 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_c_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_5 : Ref sig .tc := ⟨.hbm, 70, rfl⟩
abbrev main_v36 : Ref sig .tc := ⟨.hbm, 71, rfl⟩
abbrev main_v37 : Ref sig .tc := ⟨.hbm, 72, rfl⟩
abbrev main_c_6 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_7 : Ref sig .tc := ⟨.hbm, 79, rfl⟩
abbrev main_v43 : Ref sig .tc := ⟨.hbm, 80, rfl⟩
abbrev main_v44 : Ref sig .tc := ⟨.hbm, 81, rfl⟩
abbrev main_c_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_9 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_c_12 : Ref sig .tc := ⟨.hbm, 102, rfl⟩
abbrev main_call0_cst : Ref sig .tc := ⟨.hbm, 103, rfl⟩
abbrev main_call0_v0 : Ref sig .tc := ⟨.hbm, 104, rfl⟩
abbrev main_call0_v1 : Ref sig .tc := ⟨.hbm, 105, rfl⟩
abbrev main_call0_cst_0 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_cst_1 : Ref sig .tc := ⟨.hbm, 113, rfl⟩
abbrev main_call0_v8 : Ref sig .tc := ⟨.hbm, 114, rfl⟩
abbrev main_call0_cst_2 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_v12 : Ref sig .tc := ⟨.hbm, 119, rfl⟩
abbrev main_call0_cst_3 : Ref sig .tc := ⟨.hbm, 120, rfl⟩
abbrev main_call0_v13 : Ref sig .tc := ⟨.hbm, 121, rfl⟩
abbrev main_call0_cst_4 : Ref sig .tc := ⟨.hbm, 122, rfl⟩
abbrev main_call0_call0_v0 : Ref sig .tc := ⟨.hbm, 123, rfl⟩
abbrev main_call0_call0_v1 : Ref sig .tc := ⟨.hbm, 124, rfl⟩
abbrev main_v61 : Ref sig .tc := ⟨.hbm, 125, rfl⟩
abbrev main_cst_13 : Ref sig .tc := ⟨.hbm, 126, rfl⟩
abbrev main_v62 : Ref sig .tc := ⟨.hbm, 127, rfl⟩
abbrev main_v63 : Ref sig .tc := ⟨.hbm, 128, rfl⟩
abbrev main_cst_14 : Ref sig .tc := ⟨.hbm, 129, rfl⟩
abbrev main_v64 : Ref sig .tc := ⟨.hbm, 130, rfl⟩
abbrev main_v65 : Ref sig .tc := ⟨.hbm, 131, rfl⟩
abbrev main_c_15 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_cst_1 : Ref sig .tc := ⟨.hbm, 143, rfl⟩
abbrev main_call1_v8 : Ref sig .tc := ⟨.hbm, 144, rfl⟩
abbrev main_call1_cst_2 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_v12 : Ref sig .tc := ⟨.hbm, 149, rfl⟩
abbrev main_call1_cst_3 : Ref sig .tc := ⟨.hbm, 150, rfl⟩
abbrev main_call1_v13 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71_0 : Ref sig .tc := ⟨.hbm, 160, rfl⟩
abbrev main_v71_1 : Ref sig .tc := ⟨.hbm, 161, rfl⟩
abbrev main_v72 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg8_1 : Ref sig .tc := ⟨.vmem, 57, rfl⟩
abbrev cc3_stg9_0 : Ref sig .tc := ⟨.vmem, 58, rfl⟩
abbrev cc3_stg9_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg6_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem8_1 : DmaSem sig := 57
abbrev cc3_sem9_0 : DmaSem sig := 58
abbrev cc3_sem9_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc4_sem6_0 : DmaSem sig := 68
abbrev cc4_sem6_1 : DmaSem sig := 69

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x64_S2000x64_S2000x128_d1 : Shape.Concatenates [S2000x64, S2000x64] S2000x128 1
  inb_S2000x128_S2000x128_0_0 : ∀ a, (![0, 0] : Fin 2 → Nat) a + S2000x128.size a ≤ S2000x128.size a
  h_S2000x128 : 0 < S2000x128.numel
  bcast_S_S500000 : S_.BroadcastsInDim S500000 (![] : Fin 0 → Fin S500000.rank)
  bcast_S500000_S500000x1_0 : S500000.BroadcastsInDim S500000x1 (![0] : Fin 1 → Fin S500000x1.rank)
  inb_S4000x64_S4000x64_0_0 : ∀ a, (![0, 0] : Fin 2 → Nat) a + S4000x64.size a ≤ S4000x64.size a
  h_S4000x64 : 0 < S4000x64.numel
  broadcasts_S1x64_S4000x64 : S1x64.Broadcasts S4000x64
  shapeCasts_S4000x64_S4000x64 : S4000x64.ShapeCasts S4000x64
  bcast_S_S500000x64 : S_.BroadcastsInDim S500000x64 (![] : Fin 0 → Fin S500000x64.rank)
  bcast_S_S50000x64 : S_.BroadcastsInDim S50000x64 (![] : Fin 0 → Fin S50000x64.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x64 : S4000x128.Slices ![0, 0] S4000x64
  slices_S4000x128_o0_64_S4000x64 : S4000x128.Slices ![0, 64] S4000x64
  concatenates_S4000x64_S4000x64_S4000x128_d1 : Shape.Concatenates [S4000x64, S4000x64] S4000x128 1
  bcast_S_S50000x128 : S_.BroadcastsInDim S50000x128 (![] : Fin 0 → Fin S50000x128.rank)
  slices_S50000x128_S50000x64_0_0 : S50000x128.Slices ![0, 0] S50000x64
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  reducesTo_S500000x64_S64_d0 : S500000x64.ReducesTo [0] S64
  bcast_S1x64_S500000x64_0_1 : S1x64.BroadcastsInDim S500000x64 (![0, 1] : Fin 2 → Fin S500000x64.rank)
  shapeCasts_S2000x128_S2000x128 : S2000x128.ShapeCasts S2000x128
  slices_S2000x128_o0_0_S2000x64 : S2000x128.Slices ![0, 0] S2000x64
  slices_S2000x128_o0_64_S2000x64 : S2000x128.Slices ![0, 64] S2000x64
  dot_S2000x64_S64x64_S2000x64_1_0_0_1_n_n_wf : DotDims.WF S2000x64 S64x64 S2000x64 [1] [0] [0] [1] [] []
  gather_S50000x64_S500000x1_S500000x64_1_0_n_n_0_1_164_wf : GatherDims.WF S50000x64 S500000x1 S500000x64 [1] [0] [] [0] [] 1 ![1, 64]
  dot_S4000x64_S64x64_S4000x64_1_0_0_1_n_n_wf : DotDims.WF S4000x64 S64x64 S4000x64 [1] [0] [0] [1] [] []
  scatter_S50000x64_S500000x1_S500000x64_1_0_0_1_wf : ScatterDims.WF S50000x64 S500000x1 S500000x64 [1] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S50000x128.size a
  hwx0_17 : ∀ i : grid0.Coords, EltTy.bits .f32 = 32 ∨ (Rect.block (s := S50000x128) S2000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x64.size a ≤ S50000x64.size a
  hwx0_18 : ∀ i : grid0.Coords, EltTy.bits .f32 = 32 ∨ (Rect.block (s := S50000x64) S2000x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x64.size a ≤ S50000x64.size a
  hwx0_19 : ∀ i : grid0.Coords, EltTy.bits .f32 = 32 ∨ (Rect.block (s := S50000x64) S2000x64.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S500000x64.size a
  hwx1_0 : ∀ i : grid1.Coords, EltTy.bits .f32 = 32 ∨ (Rect.block (s := S500000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S500000x64.size a
  hwx1_3 : ∀ i : grid1.Coords, EltTy.bits .f32 = 32 ∨ (Rect.block (s := S500000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S500000x64.size a
  hwx1_4 : ∀ i : grid1.Coords, EltTy.bits .f32 = 32 ∨ (Rect.block (s := S500000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S500000x64.size a
  hwx1_5 : ∀ i : grid1.Coords, EltTy.bits .f32 = 32 ∨ (Rect.block (s := S500000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S500000x64.size a
  hwx2_0 : ∀ i : grid2.Coords, EltTy.bits .f32 = 32 ∨ (Rect.block (s := S500000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S500000x64.size a
  hwx2_1 : ∀ i : grid2.Coords, EltTy.bits .f32 = 32 ∨ (Rect.block (s := S500000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S500000x128.size a
  hwx2_2 : ∀ i : grid2.Coords, EltTy.bits .f32 = 32 ∨ (Rect.block (s := S500000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S500000x128.size a
  hwx2_3 : ∀ i : grid2.Coords, EltTy.bits .f32 = 32 ∨ (Rect.block (s := S500000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S50000x64.size a
  hwx3_8 : ∀ i : grid3.Coords, EltTy.bits .f32 = 32 ∨ (Rect.block (s := S50000x64) S2000x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x64.size a ≤ S50000x64.size a
  hwx3_9 : ∀ i : grid3.Coords, EltTy.bits .f32 = 32 ∨ (Rect.block (s := S50000x64) S2000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S500000x64.size a
  hwx4_0 : ∀ i : grid4.Coords, EltTy.bits .f32 = 32 ∨ (Rect.block (s := S500000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S500000x64.size a
  hwx4_1 : ∀ i : grid4.Coords, EltTy.bits .f32 = 32 ∨ (Rect.block (s := S500000x64) S4000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S500000x64.size a
  hwx4_6 : ∀ i : grid4.Coords, EltTy.bits .f32 = 32 ∨ (Rect.block (s := S500000x64) S4000x64.size (cc4_transform_6 i) (hinb4_6 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11_0) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v11_1) S2000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v11_2) S2000x64.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v11_3) S2000x64.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_arg2) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v71_0) S2000x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v71_1) S2000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v26) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x64 : Shape := ⟨2, ![50000, 64]⟩
abbrev S500000x64 : Shape := ⟨2, ![500000, 64]⟩
abbrev S50000x1 : Shape := ⟨2, ![50000, 1]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S50000x128 : Shape := ⟨2, ![50000, 128]⟩
abbrev S1x64 : Shape := ⟨2, ![1, 64]⟩
abbrev S_ : Shape := ⟨0, ![]⟩
abbrev S500000x1 : Shape := ⟨2, ![500000, 1]⟩

abbrev nBuf : Space → Nat
  | .hbm => 226
  | .vmem => 0
  | .smem => 0
  | _ => 0

abbrev hbmTy0_0 (i : Nat) : BufTy := match i % 128 with
  | 0 => ⟨S50000x64, .f32⟩
  | 1 => ⟨S50000x64, .f32⟩
  | 2 => ⟨S500000x64, .f32⟩
  | 3 => ⟨S50000x1, .f32⟩
  | 4 => ⟨S500000, .i32⟩
  | 5 => ⟨S500000, .i32⟩
  | 6 => ⟨S128x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S64, .f32⟩
  | 23 => ⟨S64, .f32⟩
  | 24 => ⟨S50000x128, .f32⟩
  | 25 => ⟨S50000x64, .f32⟩
  | 26 => ⟨S1x64, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S50000x64, .f32⟩
  | 38 => ⟨S1x64, .f32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S500000x64, .f32⟩
  | 50 => ⟨S1x64, .f32⟩
  | 51 => ⟨S500000x64, .f32⟩
  | 52 => ⟨S500000x64, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x64, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x64, .f32⟩
  | 71 => ⟨S500000x64, .f32⟩
  | 72 => ⟨S500000x64, .f32⟩
  | 73 => ⟨S500000x64, .f32⟩
  | 74 => ⟨S500000x64, .f32⟩
  | 75 => ⟨S_, .f32⟩
  | 76 => ⟨S500000x64, .f32⟩
  | 77 => ⟨S500000x64, .f32⟩
  | 78 => ⟨S_, .f32⟩
  | 79 => ⟨S500000x64, .f32⟩
  | 80 => ⟨S500000x64, .f32⟩
  | 81 => ⟨S_, .f32⟩
  | 82 => ⟨S50000x64, .f32⟩
  | 83 => ⟨S500000x1, .i32⟩
  | 84 => ⟨S50000x64, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x64, .f32⟩
  | 94 => ⟨S_, .f32⟩
  | 95 => ⟨S500000x64, .f32⟩
  | 96 => ⟨S500000x64, .f32⟩
  | 97 => ⟨S500000x64, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x64, .f32⟩
  | 107 => ⟨S500000x64, .f32⟩
  | 108 => ⟨S_, .f32⟩
  | 109 => ⟨S50000x64, .f32⟩
  | 110 => ⟨S500000x1, .i32⟩
  | 111 => ⟨S50000x64, .f32⟩
  | 112 => ⟨S50000x64, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x64, .f32⟩
  | 122 => ⟨S500000x64, .f32⟩
  | 123 => ⟨S_, .f32⟩
  | 124 => ⟨S50000x64, .f32⟩
  | 125 => ⟨S500000x1, .i32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S50000x64, .f32⟩
  | 13 => ⟨S50000x64, .f32⟩
  | 14 => ⟨S50000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S_, .f32⟩
  | 32 => ⟨S64, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S500000x64, .f32⟩
  | 60 => ⟨S500000x64, .f32⟩
  | 61 => ⟨S500000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S500000x64, .f32⟩
  | 77 => ⟨S500000x64, .f32⟩
  | 78 => ⟨S_, .f32⟩
  | 79 => ⟨S64, .f32⟩
  | 80 => ⟨S64, .f32⟩
  | 81 => ⟨S64, .f32⟩
  | 82 => ⟨S1x64, .f32⟩
  | 83 => ⟨S500000x64, .f32⟩
  | 84 => ⟨S500000x64, .f32⟩
  | 85 => ⟨S1x64, .f32⟩
  | 86 => ⟨S500000x64, .f32⟩
  | 87 => ⟨S500000x64, .f32⟩
  | 88 => ⟨S1x64, .f32⟩
  | 89 => ⟨S500000x64, .f32⟩
  | 90 => ⟨S500000x64, .f32⟩
  | 91 => ⟨S_, .f32⟩
  | 92 => ⟨S500000x64, .f32⟩
  | 93 => ⟨S500000x64, .f32⟩
  | 94 => ⟨S50000x64, .f32⟩
  | 95 => ⟨S50000x64, .f32⟩
  | 96 => ⟨S50000x64, .f32⟩
  | 97 => ⟨S500000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_1 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst : Ref sig .tc := ⟨.hbm, 75, rfl⟩
abbrev main_v47 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_cst_4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_5 : Ref sig .tc := ⟨.hbm, 85, rfl⟩
abbrev main_v54 : Ref sig .tc := ⟨.hbm, 86, rfl⟩
abbrev main_v55 : Ref sig .tc := ⟨.hbm, 87, rfl⟩
abbrev main_c_6 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_8 : Ref sig .tc := ⟨.hbm, 98, rfl⟩
abbrev main_v64 : Ref sig .tc := ⟨.hbm, 99, rfl⟩
abbrev main_v65 : Ref sig .tc := ⟨.hbm, 100, rfl⟩
abbrev main_c_9 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_11 : Ref sig .tc := ⟨.hbm, 113, rfl⟩
abbrev main_v76 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_14 : Ref sig .tc := ⟨.hbm, 128, rfl⟩
abbrev main_v88 : Ref sig .tc := ⟨.hbm, 129, rfl⟩
abbrev main_cst_15 : Ref sig .tc := ⟨.hbm, 130, rfl⟩
abbrev main_v89 : Ref sig .tc := ⟨.hbm, 131, rfl⟩
abbrev main_v90 : Ref sig .tc := ⟨.hbm, 132, rfl⟩
abbrev main_c_16 : Ref sig .tc := ⟨.hbm, 133, rfl⟩
abbrev main_call0_cst : Ref sig .tc := ⟨.hbm, 134, rfl⟩
abbrev main_call0_v0 : Ref sig .tc := ⟨.hbm, 135, rfl⟩
abbrev main_call0_v1 : Ref sig .tc := ⟨.hbm, 136, rfl⟩
abbrev main_call0_cst_0 : Ref sig .tc := ⟨.hbm, 137, rfl⟩
abbrev main_call0_v2 : Ref sig .tc := ⟨.hbm, 138, rfl⟩
abbrev main_call0_v3 : Ref sig .tc := ⟨.hbm, 139, rfl⟩
abbrev main_call0_v4 : Ref sig .tc := ⟨.hbm, 140, rfl⟩
abbrev main_call0_v5 : Ref sig .tc := ⟨.hbm, 141, rfl⟩
abbrev main_call0_v6 : Ref sig .tc := ⟨.hbm, 142, rfl⟩
abbrev main_call0_v7 : Ref sig .tc := ⟨.hbm, 143, rfl⟩
abbrev main_call0_cst_1 : Ref sig .tc := ⟨.hbm, 144, rfl⟩
abbrev main_call0_v8 : Ref sig .tc := ⟨.hbm, 145, rfl⟩
abbrev main_call0_cst_2 : Ref sig .tc := ⟨.hbm, 146, rfl⟩
abbrev main_call0_v9 : Ref sig .tc := ⟨.hbm, 147, rfl⟩
abbrev main_call0_v10 : Ref sig .tc := ⟨.hbm, 148, rfl⟩
abbrev main_call0_v11 : Ref sig .tc := ⟨.hbm, 149, rfl⟩
abbrev main_call0_cst_3 : Ref sig .tc := ⟨.hbm, 150, rfl⟩
abbrev main_call0_v12 : Ref sig .tc := ⟨.hbm, 151, rfl⟩
abbrev main_call0_cst_4 : Ref sig .tc := ⟨.hbm, 152, rfl⟩
abbrev main_call0_call0_v0 : Ref sig .tc := ⟨.hbm, 153, rfl⟩
abbrev main_call0_call0_v1 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_17 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_call1_cst : Ref sig .tc := ⟨.hbm, 172, rfl⟩
abbrev main_call1_v0 : Ref sig .tc := ⟨.hbm, 173, rfl⟩
abbrev main_v107 : Ref sig .tc := ⟨.hbm, 174, rfl⟩
abbrev main_cst_18 : Ref sig .tc := ⟨.hbm, 175, rfl⟩
abbrev main_v108 : Ref sig .tc := ⟨.hbm, 176, rfl⟩
abbrev main_cst_19 : Ref sig .tc := ⟨.hbm, 177, rfl⟩
abbrev main_v109 : Ref sig .tc := ⟨.hbm, 178, rfl⟩
abbrev main_v110 : Ref sig .tc := ⟨.hbm, 179, rfl⟩
abbrev main_c_20 : Ref sig .tc := ⟨.hbm, 180, rfl⟩
abbrev main_call2_cst : Ref sig .tc := ⟨.hbm, 181, rfl⟩
abbrev main_call2_v0 : Ref sig .tc := ⟨.hbm, 182, rfl⟩
abbrev main_call2_v1 : Ref sig .tc := ⟨.hbm, 183, rfl⟩
abbrev main_call2_cst_0 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_cst_1 : Ref sig .tc := ⟨.hbm, 191, rfl⟩
abbrev main_call2_v8 : Ref sig .tc := ⟨.hbm, 192, rfl⟩
abbrev main_call2_cst_2 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_cst_3 : Ref sig .tc := ⟨.hbm, 197, rfl⟩
abbrev main_call2_v12 : Ref sig .tc := ⟨.hbm, 198, rfl⟩
abbrev main_call2_cst_4 : Ref sig .tc := ⟨.hbm, 199, rfl⟩
abbrev main_call2_call0_v0 : Ref sig .tc := ⟨.hbm, 200, rfl⟩
abbrev main_call2_call0_v1 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_21 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_call3_cst : Ref sig .tc := ⟨.hbm, 219, rfl⟩
abbrev main_call3_v0 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S500000x64_0_1 : S1x64.BroadcastsInDim S500000x64 (![0, 1] : Fin 2 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x64 : S_.BroadcastsInDim S500000x64 (![] : Fin 0 → Fin S500000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S500000x64_S64_d0 : S500000x64.ReducesTo [0] S64
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S500000x64_S64x64_S500000x64_1_0_0_1_n_n_wf : DotDims.WF S500000x64 S64x64 S500000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.KRun.lean ====
/-
  The idealized kernel program's run with its three RESULT arrays named.

  @main is five kernel regions among stretches of host operations. The run over those segments ends, on every
  device, in a state whose every unscoped buffer holds the contents `Gen.W13 m ρ c`: the launch memory folded
  through each host stretch (the operations' pure functions) and each region (its windows' arrays after the
  region's write-backs). So the three results end at `W13` read at their buffers, and each argument array ends
  as launched (`Gen.W13_main_argK`).
-/
import proofs.«163623_j1168231104593_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the three result arrays end at the final
    fold `W13` read at their buffers, and the twenty-four argument arrays end as launched. -/
theorem run : θ_run defs (onTc (τ := τ) (main (F := F))) ⟨m, fun _ => 0, ρ⟩ (fun r => ∀ c : Dev nD,
      r.2.mem ((c.tc : Thread nD τ).loc main_v71_0) = W13 m ρ c (Proc.devRef .tc main_v71_0)
      ∧ r.2.mem ((c.tc : Thread nD τ).loc main_v71_1) = W13 m ρ c (Proc.devRef .tc main_v71_1)
      ∧ r.2.mem ((c.tc : Thread nD τ).loc main_v72) = W13 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v71_0 (by decide)),
       h c _ (mem_uc main_v71_1 (by decide)),
       h c _ (mem_uc main_v72 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c)⟩)

end Cert.KernelIdeal.KRun

end
-- ==== Proof.KStage.lean ====
/-
  The host-side stages of the idealized kernel program, as named pure functions: the small layout steps in front
  of the first region (a bias as a row, the two halves of a [128,64] matrix), the index columns a gather reads
  and a scatter writes, the row gathers and the segment sums at widths 64 and 128, the logistic function as the
  host spells it, the left 64 columns of a [50000,128] array, and the column mean and variance of a batch kept
  as [1,64] rows.
-/
import proofs.«163623_j1168231104593_2_alg».proof.KernelIdeal

noncomputable section

namespace Cert.KernelIdeal.KStage

open Cert.KernelIdeal Cert.KernelIdeal.Facts₀ Cert.KernelIdeal.Facts
open Idealize.ShloMosaic Idealize.ShloMosaic.TcCoe

variable {F : FTy → Type} [FloatOps F] [Facts]

/-- A length-64 vector as a [1,64] row. -/
def row (b : FVec F S64 .f32) : FVec F S1x64 .f32 := shapeCast S1x64 b shapeCasts_S64_S1x64

/-- Rows 0…63 of a [128,64] matrix. -/
def top (W : FVec F S128x64 .f32) : FVec F S64x64 .f32 := extractStridedSlice S64x64 ![0, 0] W slices_S128x64_S64x64_0_0

/-- Rows 64…127 of a [128,64] matrix. -/
def bot (W : FVec F S128x64 .f32) : FVec F S64x64 .f32 := extractStridedSlice S64x64 ![64, 0] W slices_S128x64_S64x64_64_0

/-- The row a gather reads for each edge: an index below zero counts from the end (s < 0 ? s + 50000 : s), as a
    [500000,1] column. -/
def rowIdx (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- The row a scatter writes for each edge: the index itself, as a [500000,1] column. -/
def colIdx (s : IVec S500000 32) : IVec S500000x1 32 := broadcastInDim S500000x1 ![0] bcast_S500000_S500000x1_0 s

/-- Rows of a [50000,64] array read at the edges' end points. -/
def take64 (x : FVec F S50000x64 .f32) (s : IVec S500000 32) : FVec F S500000x64 .f32 :=
  Host.gather gather_S50000x64_S500000x1_S500000x64_1_0_n_n_0_1_164 x (rowIdx s)

/-- Rows of a [50000,128] array read at the edges' end points. -/
def take128 (x : FVec F S50000x128 .f32) (s : IVec S500000 32) : FVec F S500000x128 .f32 :=
  Host.gather gather_S50000x128_S500000x1_S500000x128_1_0_n_n_0_1_1128 x (rowIdx s)

/-- Edge rows summed into the node rows named by s, from zero, width 64. -/
def segSum64 (s : IVec S500000 32) (u : FVec F S500000x64 .f32) : FVec F S50000x64 .f32 :=
  Host.scatterAdd scatter_S50000x64_S500000x1_S500000x64_1_0_0_1
    (broadcastInDim S50000x64 ![] bcast_S_S50000x64 (constant S_ .f32 0x00000000#32)) (colIdx s) u

/-- Edge rows summed into the node rows named by s, from zero, width 128. -/
def segSum128 (s : IVec S500000 32) (u : FVec F S500000x128 .f32) : FVec F S50000x128 .f32 :=
  Host.scatterAdd scatter_S50000x128_S500000x1_S500000x128_1_0_0_1
    (broadcastInDim S50000x128 ![] bcast_S_S50000x128 (constant S_ .f32 0x00000000#32)) (colIdx s) u

/-- The logistic function of an edge array as the host spells it: 1 / (1 + exp (−x)). -/
def logistic (x : FVec F S500000x64 .f32) : FVec F S500000x64 .f32 :=
  Host.divf (broadcastInDim S500000x64 ![] bcast_S_S500000x64 (constant S_ .f32 0x3F800000#32))
    (addf (broadcastInDim S500000x64 ![] bcast_S_S500000x64 (constant S_ .f32 0x3F800000#32)) (Host.exp (Host.negf x)))

/-- Columns 0…63 of a [50000,128] array. -/
def lcols (z : FVec F S50000x128 .f32) : FVec F S50000x64 .f32 :=
  extractStridedSlice S50000x64 ![0, 0] z slices_S50000x128_S50000x64_0_0

/-- The column sums of a [50000,64] array. -/
def colSum50 (x : FVec F S50000x64 .f32) : FVec F S64 .f32 :=
  Host.reduceAdd x (constant S_ .f32 0x00000000#32 : FVec F S_ .f32) reducesTo_S50000x64_S64_d0 h_S_

/-- The column means of a [50000,64] array, kept as a [1,64] row. -/
def meanRow50 (x : FVec F S50000x64 .f32) : FVec F S1x64 .f32 :=
  Host.divf (broadcastInDim S1x64 ![1] bcast_S64_S1x64_1 (colSum50 x))
    (broadcastInDim S1x64 ![] bcast_S_S1x64 (constant S_ .f32 0x47435000#32))

/-- The deviations of a [50000,64] array from its column means. -/
def dev50 (x : FVec F S50000x64 .f32) : FVec F S50000x64 .f32 :=
  subf x (broadcastInDim S50000x64 ![0, 1] bcast_S1x64_S50000x64_0_1 (meanRow50 x))

/-- The variance's divisor, 50000 − 0 with the zero converted from an integer. -/
def count50 : FVec F S_ .f32 := subf (constant S_ .f32 0x47435000#32) (sitofp .f32 (constantI S_ 32 0#32))

/-- The column variances of a [50000,64] array as a [1,64] row: the squared deviations summed and divided by the
    divisor where the divisor is positive, the not-a-number literal elsewhere. -/
def varRow50 (x : FVec F S50000x64 .f32) : FVec F S1x64 .f32 :=
  select (broadcastInDim S1x64 ![] bcast_S_S1x64 (cmpf .ogt (count50 (F := F)) (constant S_ .f32 0x00000000#32)))
    (Host.divf
      (broadcastInDim S1x64 ![1] bcast_S64_S1x64_1
        (Host.reduceAdd (mulf (dev50 x) (dev50 x)) (constant S_ .f32 0x00000000#32 : FVec F S_ .f32)
          reducesTo_S50000x64_S64_d0 h_S_))
      (broadcastInDim S1x64 ![] bcast_S_S1x64 (count50 (F := F))))
    (broadcastInDim S1x64 ![] bcast_S_S1x64 (id (constant S_ .f32 0x7FC00000#32 : FVec F S_ .f32)))

/-- The column sums of a [500000,64] array. -/
def colSum500 (x : FVec F S500000x64 .f32) : FVec F S64 .f32 :=
  Host.reduceAdd x (constant S_ .f32 0x00000000#32 : FVec F S_ .f32) reducesTo_S500000x64_S64_d0 h_S_

/-- The column means of a [500000,64] array, kept as a [1,64] row. -/
def meanRow500 (x : FVec F S500000x64 .f32) : FVec F S1x64 .f32 :=
  Host.divf (broadcastInDim S1x64 ![1] bcast_S64_S1x64_1 (colSum500 x))
    (broadcastInDim S1x64 ![] bcast_S_S1x64 (constant S_ .f32 0x48F42400#32))

/-- The deviations of a [500000,64] array from its column means. -/
def dev500 (x : FVec F S500000x64 .f32) : FVec F S500000x64 .f32 :=
  subf x (broadcastInDim S500000x64 ![0, 1] bcast_S1x64_S500000x64_0_1 (meanRow500 x))

/-- The variance's divisor, 500000 − 0. -/
def count500 : FVec F S_ .f32 := subf (constant S_ .f32 0x48F42400#32) (sitofp .f32 (constantI S_ 32 0#32))

/-- The column variances of a [500000,64] array as a [1,64] row. -/
def varRow500 (x : FVec F S500000x64 .f32) : FVec F S1x64 .f32 :=
  select (broadcastInDim S1x64 ![] bcast_S_S1x64 (cmpf .ogt (count500 (F := F)) (constant S_ .f32 0x00000000#32)))
    (Host.divf
      (broadcastInDim S1x64 ![1] bcast_S64_S1x64_1
        (Host.reduceAdd (mulf (dev500 x) (dev500 x)) (constant S_ .f32 0x00000000#32 : FVec F S_ .f32)
          reducesTo_S500000x64_S64_d0 h_S_))
      (broadcastInDim S1x64 ![] bcast_S_S1x64 (count500 (F := F))))
    (broadcastInDim S1x64 ![] bcast_S_S1x64 (id (constant S_ .f32 0x7FC00000#32 : FVec F S_ .f32)))

end Cert.KernelIdeal.KStage

end
-- ==== Proof.KFold.lean ====
/-
  The idealized kernel program's buffers at its segment boundaries.

  The run folds the launch memory through stretches of host operations and through five regions; `Gen.WJ m ρ c`
  is the buffer contents after J segments. Here each array a region reads through a window, and each result, is
  read back through that fold: an argument array is never written, so it is the launch contents; a host
  operation's result is its pure function of its operands' contents; a region's output array is what its
  write-backs leave, `(Gen.datK …).arrAt w N`; any other buffer passes a region or a stretch unchanged.
-/
import proofs.«163623_j1168231104593_2_alg».proof.Proof.Gen.KernelIdeal.Frame
import proofs.«163623_j1168231104593_2_alg».proof.Proof.KStage
import Idealize.ShloMosaic.Lib.StableHlo.Run

set_option maxRecDepth 16384
set_option maxHeartbeats 4000000

noncomputable section

namespace Cert.KernelIdeal.KFold

open Cert.KernelIdeal Cert.KernelIdeal.Gen Cert.KernelIdeal.KStage
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Arguments and carried buffers at the boundaries where they are read -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by
      show StableHlo.after hostOps0 (W0 m ρ c) (Proc.devRef .tc main_arg0) = _
      after_results_simp
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by
      show StableHlo.after hostOps0 (W0 m ρ c) (Proc.devRef .tc main_arg1) = _
      after_results_simp
    _ = m ((c : Thread nD τ).loc main_arg1) := rfl

theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by
      show StableHlo.after hostOps0 (W0 m ρ c) (Proc.devRef .tc main_arg10) = _
      after_results_simp
    _ = m ((c : Thread nD τ).loc main_arg10) := rfl

theorem W1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := by
      show StableHlo.after hostOps0 (W0 m ρ c) (Proc.devRef .tc main_arg12) = _
      after_results_simp
    _ = m ((c : Thread nD τ).loc main_arg12) := rfl

theorem W1_arg16 (c : Dev nD) : W1 m ρ c (Proc.devRef .tc main_arg16) = m ((c : Thread nD τ).loc main_arg16) :=
  calc W1 m ρ c (Proc.devRef .tc main_arg16)
    _ = W0 m ρ c (Proc.devRef .tc main_arg16) := by
      show StableHlo.after hostOps0 (W0 m ρ c) (Proc.devRef .tc main_arg16) = _
      after_results_simp
    _ = m ((c : Thread nD τ).loc main_arg16) := rfl

theorem W1_arg18 (c : Dev nD) : W1 m ρ c (Proc.devRef .tc main_arg18) = m ((c : Thread nD τ).loc main_arg18) :=
  calc W1 m ρ c (Proc.devRef .tc main_arg18)
    _ = W0 m ρ c (Proc.devRef .tc main_arg18) := by
      show StableHlo.after hostOps0 (W0 m ρ c) (Proc.devRef .tc main_arg18) = _
      after_results_simp
    _ = m ((c : Thread nD τ).loc main_arg18) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by
      show StableHlo.after hostOps0 (W0 m ρ c) (Proc.devRef .tc main_arg4) = _
      after_results_simp
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by
      show StableHlo.after hostOps0 (W0 m ρ c) (Proc.devRef .tc main_arg5) = _
      after_results_simp
    _ = m ((c : Thread nD τ).loc main_arg5) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by
      show StableHlo.after hostOps1 (W2 m ρ c) (Proc.devRef .tc main_arg2) = _
      after_results_simp
    _ = W1 m ρ c (Proc.devRef .tc main_arg2) := W2_of_ne m ρ c main_arg2 (by decide)
    _ = W0 m ρ c (Proc.devRef .tc main_arg2) := by
      show StableHlo.after hostOps0 (W0 m ρ c) (Proc.devRef .tc main_arg2) = _
      after_results_simp
    _ = m ((c : Thread nD τ).loc main_arg2) := rfl

theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := by
      show StableHlo.after hostOps1 (W2 m ρ c) (Proc.devRef .tc main_arg14) = _
      after_results_simp
    _ = W1 m ρ c (Proc.devRef .tc main_arg14) := W2_of_ne m ρ c main_arg14 (by decide)
    _ = W0 m ρ c (Proc.devRef .tc main_arg14) := by
      show StableHlo.after hostOps0 (W0 m ρ c) (Proc.devRef .tc main_arg14) = _
      after_results_simp
    _ = m ((c : Thread nD τ).loc main_arg14) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
      show StableHlo.after hostOps1 (W2 m ρ c) (Proc.devRef .tc main_arg4) = _
      after_results_simp
    _ = W1 m ρ c (Proc.devRef .tc main_arg4) := W2_of_ne m ρ c main_arg4 (by decide)
    _ = W0 m ρ c (Proc.devRef .tc main_arg4) := by
      show StableHlo.after hostOps0 (W0 m ρ c) (Proc.devRef .tc main_arg4) = _
      after_results_simp
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by
      show StableHlo.after hostOps1 (W2 m ρ c) (Proc.devRef .tc main_arg5) = _
      after_results_simp
    _ = W1 m ρ c (Proc.devRef .tc main_arg5) := W2_of_ne m ρ c main_arg5 (by decide)
    _ = W0 m ρ c (Proc.devRef .tc main_arg5) := by
      show StableHlo.after hostOps0 (W0 m ρ c) (Proc.devRef .tc main_arg5) = _
      after_results_simp
    _ = m ((c : Thread nD τ).loc main_arg5) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by
      show StableHlo.after hostOps2 (W4 m ρ c) (Proc.devRef .tc main_arg5) = _
      after_results_simp
    _ = W3 m ρ c (Proc.devRef .tc main_arg5) := W4_of_ne m ρ c main_arg5 (by decide)
    _ = W2 m ρ c (Proc.devRef .tc main_arg5) := by
      show StableHlo.after hostOps1 (W2 m ρ c) (Proc.devRef .tc main_arg5) = _
      after_results_simp
    _ = W1 m ρ c (Proc.devRef .tc main_arg5) := W2_of_ne m ρ c main_arg5 (by decide)
    _ = W0 m ρ c (Proc.devRef .tc main_arg5) := by
      show StableHlo.after hostOps0 (W0 m ρ c) (Proc.devRef .tc main_arg5) = _
      after_results_simp
    _ = m ((c : Thread nD τ).loc main_arg5) := rfl

theorem W6_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := by
      show StableHlo.after hostOps2 (W4 m ρ c) (Proc.devRef .tc main_arg20) = _
      after_results_simp
    _ = W3 m ρ c (Proc.devRef .tc main_arg20) := W4_of_ne m ρ c main_arg20 (by decide)
    _ = W2 m ρ c (Proc.devRef .tc main_arg20) := by
      show StableHlo.after hostOps1 (W2 m ρ c) (Proc.devRef .tc main_arg20) = _
      after_results_simp
    _ = W1 m ρ c (Proc.devRef .tc main_arg20) := W2_of_ne m ρ c main_arg20 (by decide)
    _ = W0 m ρ c (Proc.devRef .tc main_arg20) := by
      show StableHlo.after hostOps0 (W0 m ρ c) (Proc.devRef .tc main_arg20) = _
      after_results_simp
    _ = m ((c : Thread nD τ).loc main_arg20) := rfl

theorem W6_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := by
      show StableHlo.after hostOps2 (W4 m ρ c) (Proc.devRef .tc main_arg21) = _
      after_results_simp
    _ = W3 m ρ c (Proc.devRef .tc main_arg21) := W4_of_ne m ρ c main_arg21 (by decide)
    _ = W2 m ρ c (Proc.devRef .tc main_arg21) := by
      show StableHlo.after hostOps1 (W2 m ρ c) (Proc.devRef .tc main_arg21) = _
      after_results_simp
    _ = W1 m ρ c (Proc.devRef .tc main_arg21) := W2_of_ne m ρ c main_arg21 (by decide)
    _ = W0 m ρ c (Proc.devRef .tc main_arg21) := by
      show StableHlo.after hostOps0 (W0 m ρ c) (Proc.devRef .tc main_arg21) = _
      after_results_simp
    _ = m ((c : Thread nD τ).loc main_arg21) := rfl

theorem W6_arg22 (c : Dev nD) : W6 m ρ c (Proc.devRef .tc main_arg22) = m ((c : Thread nD τ).loc main_arg22) :=
  calc W6 m ρ c (Proc.devRef .tc main_arg22)
    _ = W5 m ρ c (Proc.devRef .tc main_arg22) := W6_of_ne m ρ c main_arg22 (by decide)
    _ = W4 m ρ c (Proc.devRef .tc main_arg22) := by
      show StableHlo.after hostOps2 (W4 m ρ c) (Proc.devRef .tc main_arg22) = _
      after_results_simp
    _ = W3 m ρ c (Proc.devRef .tc main_arg22) := W4_of_ne m ρ c main_arg22 (by decide)
    _ = W2 m ρ c (Proc.devRef .tc main_arg22) := by
      show StableHlo.after hostOps1 (W2 m ρ c) (Proc.devRef .tc main_arg22) = _
      after_results_simp
    _ = W1 m ρ c (Proc.devRef .tc main_arg22) := W2_of_ne m ρ c main_arg22 (by decide)
    _ = W0 m ρ c (Proc.devRef .tc main_arg22) := by
      show StableHlo.after hostOps0 (W0 m ρ c) (Proc.devRef .tc main_arg22) = _
      after_results_simp
    _ = m ((c : Thread nD τ).loc main_arg22) := rfl

theorem W6_arg23 (c : Dev nD) : W6 m ρ c (Proc.devRef .tc main_arg23) = m ((c : Thread nD τ).loc main_arg23) :=
  calc W6 m ρ c (Proc.devRef .tc main_arg23)
    _ = W5 m ρ c (Proc.devRef .tc main_arg23) := W6_of_ne m ρ c main_arg23 (by decide)
    _ = W4 m ρ c (Proc.devRef .tc main_arg23) := by
      show StableHlo.after hostOps2 (W4 m ρ c) (Proc.devRef .tc main_arg23) = _
      after_results_simp
    _ = W3 m ρ c (Proc.devRef .tc main_arg23) := W4_of_ne m ρ c main_arg23 (by decide)
    _ = W2 m ρ c (Proc.devRef .tc main_arg23) := by
      show StableHlo.after hostOps1 (W2 m ρ c) (Proc.devRef .tc main_arg23) = _
      after_results_simp
    _ = W1 m ρ c (Proc.devRef .tc main_arg23) := W2_of_ne m ρ c main_arg23 (by decide)
    _ = W0 m ρ c (Proc.devRef .tc main_arg23) := by
      show StableHlo.after hostOps0 (W0 m ρ c) (Proc.devRef .tc main_arg23) = _
      after_results_simp
    _ = m ((c : Thread nD τ).loc main_arg23) := rfl

theorem W11_arg0 (c : Dev nD) : W11 m ρ c (Proc.devRef .tc main_arg0) = m ((c : Thread nD τ).loc main_arg0) :=
  calc W11 m ρ c (Proc.devRef .tc main_arg0)
    _ = W6 m ρ c (Proc.devRef .tc main_arg0) := by
      show StableHlo.after hostOps3_4 (StableHlo.after hostOps3_3 (StableHlo.after hostOps3_2 (StableHlo.after hostOps3_1 (StableHlo.after hostOps3 (W6 m ρ c))))) (Proc.devRef .tc main_arg0) = _
      after_results_simp
    _ = W5 m ρ c (Proc.devRef .tc main_arg0) := W6_of_ne m ρ c main_arg0 (by decide)
    _ = W4 m ρ c (Proc.devRef .tc main_arg0) := by
      show StableHlo.after hostOps2 (W4 m ρ c) (Proc.devRef .tc main_arg0) = _
      after_results_simp
    _ = W3 m ρ c (Proc.devRef .tc main_arg0) := W4_of_ne m ρ c main_arg0 (by decide)
    _ = W2 m ρ c (Proc.devRef .tc main_arg0) := by
      show StableHlo.after hostOps1 (W2 m ρ c) (Proc.devRef .tc main_arg0) = _
      after_results_simp
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by
      show StableHlo.after hostOps0 (W0 m ρ c) (Proc.devRef .tc main_arg0) = _
      after_results_simp
    _ = m ((c : Thread nD τ).loc main_arg0) := rfl

theorem W11_arg1 (c : Dev nD) : W11 m ρ c (Proc.devRef .tc main_arg1) = m ((c : Thread nD τ).loc main_arg1) :=
  calc W11 m ρ c (Proc.devRef .tc main_arg1)
    _ = W6 m ρ c (Proc.devRef .tc main_arg1) := by
      show StableHlo.after hostOps3_4 (StableHlo.after hostOps3_3 (StableHlo.after hostOps3_2 (StableHlo.after hostOps3_1 (StableHlo.after hostOps3 (W6 m ρ c))))) (Proc.devRef .tc main_arg1) = _
      after_results_simp
    _ = W5 m ρ c (Proc.devRef .tc main_arg1) := W6_of_ne m ρ c main_arg1 (by decide)
    _ = W4 m ρ c (Proc.devRef .tc main_arg1) := by
      show StableHlo.after hostOps2 (W4 m ρ c) (Proc.devRef .tc main_arg1) = _
      after_results_simp
    _ = W3 m ρ c (Proc.devRef .tc main_arg1) := W4_of_ne m ρ c main_arg1 (by decide)
    _ = W2 m ρ c (Proc.devRef .tc main_arg1) := by
      show StableHlo.after hostOps1 (W2 m ρ c) (Proc.devRef .tc main_arg1) = _
      after_results_simp
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := by
      show StableHlo.after hostOps0 (W0 m ρ c) (Proc.devRef .tc main_arg1) = _
      after_results_simp
    _ = m ((c : Thread nD τ).loc main_arg1) := rfl

theorem W12_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W6 m ρ c (Proc.devRef .tc main_arg2) := by
      show StableHlo.after hostOps3_4 (StableHlo.after hostOps3_3 (StableHlo.after hostOps3_2 (StableHlo.after hostOps3_1 (StableHlo.after hostOps3 (W6 m ρ c))))) (Proc.devRef .tc main_arg2) = _
      after_results_simp
    _ = W5 m ρ c (Proc.devRef .tc main_arg2) := W6_of_ne m ρ c main_arg2 (by decide)
    _ = W4 m ρ c (Proc.devRef .tc main_arg2) := by
      show StableHlo.after hostOps2 (W4 m ρ c) (Proc.devRef .tc main_arg2) = _
      after_results_simp
    _ = W3 m ρ c (Proc.devRef .tc main_arg2) := (W4_arr m ρ c 0).trans (((dat1 (V3 m ρ) c).arrAt_in 0 rfl _).trans (A_eq1 (V3 m ρ) c 0))
    _ = W2 m ρ c (Proc.devRef .tc main_arg2) := by
      show StableHlo.after hostOps1 (W2 m ρ c) (Proc.devRef .tc main_arg2) = _
      after_results_simp
    _ = W1 m ρ c (Proc.devRef .tc main_arg2) := W2_of_ne m ρ c main_arg2 (by decide)
    _ = W0 m ρ c (Proc.devRef .tc main_arg2) := by
      show StableHlo.after hostOps0 (W0 m ρ c) (Proc.devRef .tc main_arg2) = _
      after_results_simp
    _ = m ((c : Thread nD τ).loc main_arg2) := rfl

/-! ## In front of region 0: the weights' halves and the biases as rows -/

theorem W1_v0 (c : Dev nD) : W1 m ρ c (Proc.devRef .tc main_v0) = top (m ((c : Thread nD τ).loc main_arg6)) := by
  show StableHlo.after hostOps0 (W0 m ρ c) (Proc.devRef .tc main_v0) = _
  after_results_simp
  first | done | rfl

theorem W1_v1 (c : Dev nD) : W1 m ρ c (Proc.devRef .tc main_v1) = bot (m ((c : Thread nD τ).loc main_arg6)) := by
  show StableHlo.after hostOps0 (W0 m ρ c) (Proc.devRef .tc main_v1) = _
  after_results_simp
  first | done | rfl

theorem W1_v2 (c : Dev nD) : W1 m ρ c (Proc.devRef .tc main_v2) = top (m ((c : Thread nD τ).loc main_arg8)) := by
  show StableHlo.after hostOps0 (W0 m ρ c) (Proc.devRef .tc main_v2) = _
  after_results_simp
  first | done | rfl

theorem W1_v3 (c : Dev nD) : W1 m ρ c (Proc.devRef .tc main_v3) = bot (m ((c : Thread nD τ).loc main_arg8)) := by
  show StableHlo.after hostOps0 (W0 m ρ c) (Proc.devRef .tc main_v3) = _
  after_results_simp
  first | done | rfl

theorem W1_v4 (c : Dev nD) : W1 m ρ c (Proc.devRef .tc main_v4) = row (m ((c : Thread nD τ).loc main_arg7)) := by
  show StableHlo.after hostOps0 (W0 m ρ c) (Proc.devRef .tc main_v4) = _
  after_results_simp
  first | done | rfl

theorem W1_v5 (c : Dev nD) : W1 m ρ c (Proc.devRef .tc main_v5) = row (m ((c : Thread nD τ).loc main_arg9)) := by
  show StableHlo.after hostOps0 (W0 m ρ c) (Proc.devRef .tc main_v5) = _
  after_results_simp
  first | done | rfl

theorem W1_v6 (c : Dev nD) : W1 m ρ c (Proc.devRef .tc main_v6) = row (m ((c : Thread nD τ).loc main_arg11)) := by
  show StableHlo.after hostOps0 (W0 m ρ c) (Proc.devRef .tc main_v6) = _
  after_results_simp
  first | done | rfl

theorem W1_v7 (c : Dev nD) : W1 m ρ c (Proc.devRef .tc main_v7) = row (m ((c : Thread nD τ).loc main_arg13)) := by
  show StableHlo.after hostOps0 (W0 m ρ c) (Proc.devRef .tc main_v7) = _
  after_results_simp
  first | done | rfl

theorem W1_v8 (c : Dev nD) : W1 m ρ c (Proc.devRef .tc main_v8) = row (m ((c : Thread nD τ).loc main_arg17)) := by
  show StableHlo.after hostOps0 (W0 m ρ c) (Proc.devRef .tc main_v8) = _
  after_results_simp
  first | done | rfl

theorem W1_v9 (c : Dev nD) : W1 m ρ c (Proc.devRef .tc main_v9) = row (m ((c : Thread nD τ).loc main_arg19)) := by
  show StableHlo.after hostOps0 (W0 m ρ c) (Proc.devRef .tc main_v9) = _
  after_results_simp
  first | done | rfl

theorem W1_v10 (c : Dev nD) : W1 m ρ c (Proc.devRef .tc main_v10) = row (m ((c : Thread nD τ).loc main_arg15)) := by
  show StableHlo.after hostOps0 (W0 m ρ c) (Proc.devRef .tc main_v10) = _
  after_results_simp
  first | done | rfl

/-! ## Region 0's results, and what region 1 reads -/

theorem W2_v11_0 (c : Dev nD) : W2 m ρ c (Proc.devRef .tc main_v11_0) = (dat0 (V1 m ρ) c).arrAt 16 cfg0.N := W2_arr m ρ c 16
theorem W2_v11_1 (c : Dev nD) : W2 m ρ c (Proc.devRef .tc main_v11_1) = (dat0 (V1 m ρ) c).arrAt 17 cfg0.N := W2_arr m ρ c 17
theorem W2_v11_2 (c : Dev nD) : W2 m ρ c (Proc.devRef .tc main_v11_2) = (dat0 (V1 m ρ) c).arrAt 18 cfg0.N := W2_arr m ρ c 18
theorem W2_v11_3 (c : Dev nD) : W2 m ρ c (Proc.devRef .tc main_v11_3) = (dat0 (V1 m ρ) c).arrAt 19 cfg0.N := W2_arr m ρ c 19

theorem W3_v10 (c : Dev nD) : W3 m ρ c (Proc.devRef .tc main_v10) = row (m ((c : Thread nD τ).loc main_arg15)) :=
  calc W3 m ρ c (Proc.devRef .tc main_v10)
    _ = W2 m ρ c (Proc.devRef .tc main_v10) := by
      show StableHlo.after hostOps1 (W2 m ρ c) (Proc.devRef .tc main_v10) = _
      after_results_simp
    _ = W1 m ρ c (Proc.devRef .tc main_v10) := W2_of_ne m ρ c main_v10 (by decide)
    _ = row (m ((c : Thread nD τ).loc main_arg15)) := W1_v10 m ρ c

theorem W3_v18 (c : Dev nD) : W3 m ρ c (Proc.devRef .tc main_v18) = take64 (W2 m ρ c (Proc.devRef .tc main_v11_2)) (m ((c : Thread nD τ).loc main_arg4)) := by
  show StableHlo.after hostOps1 (W2 m ρ c) (Proc.devRef .tc main_v18) = _
  after_results_simp
  rw [W2_arg4 m ρ c]
  first | done | rfl

theorem W3_v25 (c : Dev nD) : W3 m ρ c (Proc.devRef .tc main_v25) = take64 (W2 m ρ c (Proc.devRef .tc main_v11_3)) (m ((c : Thread nD τ).loc main_arg5)) := by
  show StableHlo.after hostOps1 (W2 m ρ c) (Proc.devRef .tc main_v25) = _
  after_results_simp
  rw [W2_arg5 m ρ c]
  first | done | rfl

/-! ## Region 1's result, and what region 2 reads -/

theorem W4_v26 (c : Dev nD) : W4 m ρ c (Proc.devRef .tc main_v26) = (dat1 (V3 m ρ) c).arrAt 5 cfg1.N := W4_arr m ρ c 5

theorem W4_v11_1 (c : Dev nD) : W4 m ρ c (Proc.devRef .tc main_v11_1) = W2 m ρ c (Proc.devRef .tc main_v11_1) :=
  calc W4 m ρ c (Proc.devRef .tc main_v11_1)
    _ = W3 m ρ c (Proc.devRef .tc main_v11_1) := W4_of_ne m ρ c main_v11_1 (by decide)
    _ = W2 m ρ c (Proc.devRef .tc main_v11_1) := by
      show StableHlo.after hostOps1 (W2 m ρ c) (Proc.devRef .tc main_v11_1) = _
      after_results_simp
    _ = W2 m ρ c (Proc.devRef .tc main_v11_1) := rfl

theorem W5_v26 (c : Dev nD) : W5 m ρ c (Proc.devRef .tc main_v26) = W4 m ρ c (Proc.devRef .tc main_v26) :=
  calc W5 m ρ c (Proc.devRef .tc main_v26)
    _ = W4 m ρ c (Proc.devRef .tc main_v26) := by
      show StableHlo.after hostOps2 (W4 m ρ c) (Proc.devRef .tc main_v26) = _
      after_results_simp
    _ = W4 m ρ c (Proc.devRef .tc main_v26) := rfl

theorem W5_v42 (c : Dev nD) : W5 m ρ c (Proc.devRef .tc main_v42) = take64 (segSum64 (m ((c : Thread nD τ).loc main_arg5)) (KStage.logistic (W4 m ρ c (Proc.devRef .tc main_v26)))) (m ((c : Thread nD τ).loc main_arg5)) := by
  show StableHlo.after hostOps2 (W4 m ρ c) (Proc.devRef .tc main_v42) = _
  after_results_simp
  rw [W4_arg5 m ρ c]
  first | done | rfl

theorem W5_v49 (c : Dev nD) : W5 m ρ c (Proc.devRef .tc main_v49) = take128 (W2 m ρ c (Proc.devRef .tc main_v11_1)) (m ((c : Thread nD τ).loc main_arg4)) := by
  show StableHlo.after hostOps2 (W4 m ρ c) (Proc.devRef .tc main_v49) = _
  after_results_simp
  rw [W4_arg4 m ρ c, W4_v11_1 m ρ c]
  first | done | rfl

/-! ## Region 2's result, and what regions 3 and 4 read -/

theorem W6_v50 (c : Dev nD) : W6 m ρ c (Proc.devRef .tc main_v50) = (dat2 (V5 m ρ) c).arrAt 3 cfg2.N := W6_arr m ρ c 3

theorem W6_v11_0 (c : Dev nD) : W6 m ρ c (Proc.devRef .tc main_v11_0) = W2 m ρ c (Proc.devRef .tc main_v11_0) :=
  calc W6 m ρ c (Proc.devRef .tc main_v11_0)
    _ = W5 m ρ c (Proc.devRef .tc main_v11_0) := W6_of_ne m ρ c main_v11_0 (by decide)
    _ = W4 m ρ c (Proc.devRef .tc main_v11_0) := by
      show StableHlo.after hostOps2 (W4 m ρ c) (Proc.devRef .tc main_v11_0) = _
      after_results_simp
    _ = W3 m ρ c (Proc.devRef .tc main_v11_0) := W4_of_ne m ρ c main_v11_0 (by decide)
    _ = W2 m ρ c (Proc.devRef .tc main_v11_0) := by
      show StableHlo.after hostOps1 (W2 m ρ c) (Proc.devRef .tc main_v11_0) = _
      after_results_simp
    _ = W2 m ρ c (Proc.devRef .tc main_v11_0) := rfl

theorem W6_v26 (c : Dev nD) : W6 m ρ c (Proc.devRef .tc main_v26) = W4 m ρ c (Proc.devRef .tc main_v26) :=
  calc W6 m ρ c (Proc.devRef .tc main_v26)
    _ = W5 m ρ c (Proc.devRef .tc main_v26) := (W6_arr m ρ c 0).trans (((dat2 (V5 m ρ) c).arrAt_in 0 rfl _).trans (A_eq2 (V5 m ρ) c 0))
    _ = W4 m ρ c (Proc.devRef .tc main_v26) := by
      show StableHlo.after hostOps2 (W4 m ρ c) (Proc.devRef .tc main_v26) = _
      after_results_simp
    _ = W4 m ρ c (Proc.devRef .tc main_v26) := rfl

theorem W11_v11_0 (c : Dev nD) : W11 m ρ c (Proc.devRef .tc main_v11_0) = W2 m ρ c (Proc.devRef .tc main_v11_0) :=
  calc W11 m ρ c (Proc.devRef .tc main_v11_0)
    _ = W6 m ρ c (Proc.devRef .tc main_v11_0) := by
      show StableHlo.after hostOps3_4 (StableHlo.after hostOps3_3 (StableHlo.after hostOps3_2 (StableHlo.after hostOps3_1 (StableHlo.after hostOps3 (W6 m ρ c))))) (Proc.devRef .tc main_v11_0) = _
      after_results_simp
    _ = W2 m ρ c (Proc.devRef .tc main_v11_0) := W6_v11_0 m ρ c

theorem W11_v53 (c : Dev nD) : W11 m ρ c (Proc.devRef .tc main_v53) = segSum128 (m ((c : Thread nD τ).loc main_arg5)) (W6 m ρ c (Proc.devRef .tc main_v50)) := by
  show StableHlo.after hostOps3_4 (StableHlo.after hostOps3_3 (StableHlo.after hostOps3_2 (StableHlo.after hostOps3_1 (StableHlo.after hostOps3 (W6 m ρ c))))) (Proc.devRef .tc main_v53) = _
  after_results_simp
  rw [W6_arg5 m ρ c]
  first | done | rfl

theorem W11_v60 (c : Dev nD) : W11 m ρ c (Proc.devRef .tc main_v60) = meanRow50 (addf (lcols (W2 m ρ c (Proc.devRef .tc main_v11_0))) (lcols (segSum128 (m ((c : Thread nD τ).loc main_arg5)) (W6 m ρ c (Proc.devRef .tc main_v50))))) := by
  show StableHlo.after hostOps3_4 (StableHlo.after hostOps3_3 (StableHlo.after hostOps3_2 (StableHlo.after hostOps3_1 (StableHlo.after hostOps3 (W6 m ρ c))))) (Proc.devRef .tc main_v60) = _
  after_results_simp
  rw [W6_v11_0 m ρ c, W6_arg5 m ρ c]
  first | done | rfl

theorem W11_v61 (c : Dev nD) : W11 m ρ c (Proc.devRef .tc main_v61) = varRow50 (addf (lcols (W2 m ρ c (Proc.devRef .tc main_v11_0))) (lcols (segSum128 (m ((c : Thread nD τ).loc main_arg5)) (W6 m ρ c (Proc.devRef .tc main_v50))))) := by
  show StableHlo.after hostOps3_4 (StableHlo.after hostOps3_3 (StableHlo.after hostOps3_2 (StableHlo.after hostOps3_1 (StableHlo.after hostOps3 (W6 m ρ c))))) (Proc.devRef .tc main_v61) = _
  after_results_simp
  rw [W6_v11_0 m ρ c, W6_arg5 m ρ c]
  first | done | rfl

theorem W11_v65 (c : Dev nD) : W11 m ρ c (Proc.devRef .tc main_v65) = meanRow500 (W4 m ρ c (Proc.devRef .tc main_v26)) := by
  show StableHlo.after hostOps3_4 (StableHlo.after hostOps3_3 (StableHlo.after hostOps3_2 (StableHlo.after hostOps3_1 (StableHlo.after hostOps3 (W6 m ρ c))))) (Proc.devRef .tc main_v65) = _
  after_results_simp
  rw [W6_v26 m ρ c]
  first | done | rfl

theorem W11_v66 (c : Dev nD) : W11 m ρ c (Proc.devRef .tc main_v66) = varRow500 (W4 m ρ c (Proc.devRef .tc main_v26)) := by
  show StableHlo.after hostOps3_4 (StableHlo.after hostOps3_3 (StableHlo.after hostOps3_2 (StableHlo.after hostOps3_1 (StableHlo.after hostOps3 (W6 m ρ c))))) (Proc.devRef .tc main_v66) = _
  after_results_simp
  rw [W6_v26 m ρ c]
  first | done | rfl

theorem W11_v67 (c : Dev nD) : W11 m ρ c (Proc.devRef .tc main_v67) = row (m ((c : Thread nD τ).loc main_arg20)) := by
  show StableHlo.after hostOps3_4 (StableHlo.after hostOps3_3 (StableHlo.after hostOps3_2 (StableHlo.after hostOps3_1 (StableHlo.after hostOps3 (W6 m ρ c))))) (Proc.devRef .tc main_v67) = _
  after_results_simp
  rw [W6_arg20 m ρ c]
  first | done | rfl

theorem W11_v68 (c : Dev nD) : W11 m ρ c (Proc.devRef .tc main_v68) = row (m ((c : Thread nD τ).loc main_arg21)) := by
  show StableHlo.after hostOps3_4 (StableHlo.after hostOps3_3 (StableHlo.after hostOps3_2 (StableHlo.after hostOps3_1 (StableHlo.after hostOps3 (W6 m ρ c))))) (Proc.devRef .tc main_v68) = _
  after_results_simp
  rw [W6_arg21 m ρ c]
  first | done | rfl

theorem W11_v69 (c : Dev nD) : W11 m ρ c (Proc.devRef .tc main_v69) = row (m ((c : Thread nD τ).loc main_arg22)) := by
  show StableHlo.after hostOps3_4 (StableHlo.after hostOps3_3 (StableHlo.after hostOps3_2 (StableHlo.after hostOps3_1 (StableHlo.after hostOps3 (W6 m ρ c))))) (Proc.devRef .tc main_v69) = _
  after_results_simp
  rw [W6_arg22 m ρ c]
  first | done | rfl

theorem W11_v70 (c : Dev nD) : W11 m ρ c (Proc.devRef .tc main_v70) = row (m ((c : Thread nD τ).loc main_arg23)) := by
  show StableHlo.after hostOps3_4 (StableHlo.after hostOps3_3 (StableHlo.after hostOps3_2 (StableHlo.after hostOps3_1 (StableHlo.after hostOps3 (W6 m ρ c))))) (Proc.devRef .tc main_v70) = _
  after_results_simp
  rw [W6_arg23 m ρ c]
  first | done | rfl

theorem W12_v26 (c : Dev nD) : W12 m ρ c (Proc.devRef .tc main_v26) = W4 m ρ c (Proc.devRef .tc main_v26) :=
  calc W12 m ρ c (Proc.devRef .tc main_v26)
    _ = W11 m ρ c (Proc.devRef .tc main_v26) := W12_of_ne m ρ c main_v26 (by decide)
    _ = W6 m ρ c (Proc.devRef .tc main_v26) := by
      show StableHlo.after hostOps3_4 (StableHlo.after hostOps3_3 (StableHlo.after hostOps3_2 (StableHlo.after hostOps3_1 (StableHlo.after hostOps3 (W6 m ρ c))))) (Proc.devRef .tc main_v26) = _
      after_results_simp
    _ = W4 m ρ c (Proc.devRef .tc main_v26) := W6_v26 m ρ c

theorem W12_v65 (c : Dev nD) : W12 m ρ c (Proc.devRef .tc main_v65) = meanRow500 (W4 m ρ c (Proc.devRef .tc main_v26)) :=
  calc W12 m ρ c (Proc.devRef .tc main_v65)
    _ = W11 m ρ c (Proc.devRef .tc main_v65) := W12_of_ne m ρ c main_v65 (by decide)
    _ = meanRow500 (W4 m ρ c (Proc.devRef .tc main_v26)) := W11_v65 m ρ c

theorem W12_v66 (c : Dev nD) : W12 m ρ c (Proc.devRef .tc main_v66) = varRow500 (W4 m ρ c (Proc.devRef .tc main_v26)) :=
  calc W12 m ρ c (Proc.devRef .tc main_v66)
    _ = W11 m ρ c (Proc.devRef .tc main_v66) := W12_of_ne m ρ c main_v66 (by decide)
    _ = varRow500 (W4 m ρ c (Proc.devRef .tc main_v26)) := W11_v66 m ρ c

theorem W12_v69 (c : Dev nD) : W12 m ρ c (Proc.devRef .tc main_v69) = row (m ((c : Thread nD τ).loc main_arg22)) :=
  calc W12 m ρ c (Proc.devRef .tc main_v69)
    _ = W11 m ρ c (Proc.devRef .tc main_v69) := W12_of_ne m ρ c main_v69 (by decide)
    _ = row (m ((c : Thread nD τ).loc main_arg22)) := W11_v69 m ρ c

theorem W12_v70 (c : Dev nD) : W12 m ρ c (Proc.devRef .tc main_v70) = row (m ((c : Thread nD τ).loc main_arg23)) :=
  calc W12 m ρ c (Proc.devRef .tc main_v70)
    _ = W11 m ρ c (Proc.devRef .tc main_v70) := W12_of_ne m ρ c main_v70 (by decide)
    _ = row (m ((c : Thread nD τ).loc main_arg23)) := W11_v70 m ρ c

/-! ## The three results -/

theorem W13_v71_0 (c : Dev nD) : W13 m ρ c (Proc.devRef .tc main_v71_0) = (dat3 (V11 m ρ) c).arrAt 8 cfg3.N :=
  (W13_of_ne m ρ c main_v71_0 (by decide)).trans (W12_arr m ρ c 8)
theorem W13_v71_1 (c : Dev nD) : W13 m ρ c (Proc.devRef .tc main_v71_1) = (dat3 (V11 m ρ) c).arrAt 9 cfg3.N :=
  (W13_of_ne m ρ c main_v71_1 (by decide)).trans (W12_arr m ρ c 9)
theorem W13_v72 (c : Dev nD) : W13 m ρ c (Proc.devRef .tc main_v72) = (dat4 (V12 m ρ) c).arrAt 6 cfg4.N := W13_arr m ρ c 6

end Cert.KernelIdeal.KFold

end
-- ==== Proof.Region0Spec.lean ====
/- The node-level linear kernel (region 0 of the kernel program): each of its four result arrays as ONE function of
   the arrays it reads, index by index. With h, p : [50000,64], weights w : [64,64] and biases b : [1,64], and
   x·w the row-by-column product over the 64 inner coordinates:
     result 18 = h·B1_w + B1_b,   result 19 = h·B2_w + B2_b,
     result 16 = [ (h·A1_w_h + p·A1_w_p) + A1_b | p·C1_w + C1_b ]   (two 64-wide halves side by side),
     result 17 = [ (h·A2_w_h + p·A2_w_p) + A2_b | p·C2_w + C2_b ].
   The additions are kept in the kernel's own order. -/
import Idealize.ShloMosaic.PureOps.Ideal
import Idealize.ShloMosaic.Lib.ValueIdx

noncomputable section

namespace Cert.KernelIdeal.Region0

open Idealize.ShloMosaic Idealize.ShloMosaic.ValueIdx
open scoped BigOperators

/-- A rank-2 array of extended reals with literal extents. -/
abbrev Arr (n m : Nat) : Type := (⟨2, ![n, m]⟩ : Shape).Idx → EReal

/-- Result 18: row of h times column of B1_w, plus the bias row. -/
def G0_18 (x0 : Arr 50000 64) (x8 : Arr 64 64) (x9 : Arr 1 64) : Arr 50000 64 :=
  fun i => (∑ k : Fin 64, x0 (ix2 (i 0) k) * x8 (ix2 k (i 1))) + x9 (ix2 0 (i 1))

/-- Result 19: row of h times column of B2_w, plus the bias row. -/
def G0_19 (x0 : Arr 50000 64) (x10 : Arr 64 64) (x11 : Arr 1 64) : Arr 50000 64 :=
  fun i => (∑ k : Fin 64, x0 (ix2 (i 0) k) * x10 (ix2 k (i 1))) + x11 (ix2 0 (i 1))

/-- Result 16: columns 0…63 hold (h·A1_w_h + p·A1_w_p) + A1_b, columns 64…127 hold p·C1_w + C1_b. -/
def G0_16 (x0 x1 : Arr 50000 64) (x2 x3 : Arr 64 64) (x4 : Arr 1 64) (x12 : Arr 64 64) (x13 : Arr 1 64) : Arr 50000 128 :=
  fun i =>
    if h : (i 1).val < 64 then
      ((∑ k : Fin 64, x0 (ix2 (i 0) k) * x2 (ix2 k ⟨(i 1).val, h⟩))
        + (∑ k : Fin 64, x1 (ix2 (i 0) k) * x3 (ix2 k ⟨(i 1).val, h⟩))) + x4 (ix2 0 ⟨(i 1).val, h⟩)
    else
      (∑ k : Fin 64, x1 (ix2 (i 0) k) * x12 (ix2 k ⟨(i 1).val - 64, by have := idx2_lt1 i; omega⟩))
        + x13 (ix2 0 ⟨(i 1).val - 64, by have := idx2_lt1 i; omega⟩)

/-- Result 17: columns 0…63 hold (h·A2_w_h + p·A2_w_p) + A2_b, columns 64…127 hold p·C2_w + C2_b. -/
def G0_17 (x0 x1 : Arr 50000 64) (x5 x6 : Arr 64 64) (x7 : Arr 1 64) (x14 : Arr 64 64) (x15 : Arr 1 64) : Arr 50000 128 :=
  fun i =>
    if h : (i 1).val < 64 then
      ((∑ k : Fin 64, x0 (ix2 (i 0) k) * x5 (ix2 k ⟨(i 1).val, h⟩))
        + (∑ k : Fin 64, x1 (ix2 (i 0) k) * x6 (ix2 k ⟨(i 1).val, h⟩))) + x7 (ix2 0 ⟨(i 1).val, h⟩)
    else
      (∑ k : Fin 64, x1 (ix2 (i 0) k) * x14 (ix2 k ⟨(i 1).val - 64, by have := idx2_lt1 i; omega⟩))
        + x15 (ix2 0 ⟨(i 1).val - 64, by have := idx2_lt1 i; omega⟩)

/-! ## The two halves of the 128-wide results, read at explicit coordinates -/

theorem G0_16_left (x0 x1 : Arr 50000 64) (x2 x3 : Arr 64 64) (x4 : Arr 1 64) (x12 : Arr 64 64) (x13 : Arr 1 64)
    (r : Fin 50000) (c : Fin 128) (h : c.val < 64) :
    G0_16 x0 x1 x2 x3 x4 x12 x13 (ix2 r c)
      = ((∑ k : Fin 64, x0 (ix2 r k) * x2 (ix2 k ⟨c.val, h⟩)) + (∑ k : Fin 64, x1 (ix2 r k) * x3 (ix2 k ⟨c.val, h⟩)))
          + x4 (ix2 0 ⟨c.val, h⟩) := dif_pos h

theorem G0_16_right (x0 x1 : Arr 50000 64) (x2 x3 : Arr 64 64) (x4 : Arr 1 64) (x12 : Arr 64 64) (x13 : Arr 1 64)
    (r : Fin 50000) (c : Fin 128) (h : ¬ c.val < 64) :
    G0_16 x0 x1 x2 x3 x4 x12 x13 (ix2 r c)
      = (∑ k : Fin 64, x1 (ix2 r k) * x12 (ix2 k ⟨c.val - 64, by have := c.isLt; omega⟩))
          + x13 (ix2 0 ⟨c.val - 64, by have := c.isLt; omega⟩) := dif_neg h

theorem G0_17_left (x0 x1 : Arr 50000 64) (x5 x6 : Arr 64 64) (x7 : Arr 1 64) (x14 : Arr 64 64) (x15 : Arr 1 64)
    (r : Fin 50000) (c : Fin 128) (h : c.val < 64) :
    G0_17 x0 x1 x5 x6 x7 x14 x15 (ix2 r c)
      = ((∑ k : Fin 64, x0 (ix2 r k) * x5 (ix2 k ⟨c.val, h⟩)) + (∑ k : Fin 64, x1 (ix2 r k) * x6 (ix2 k ⟨c.val, h⟩)))
          + x7 (ix2 0 ⟨c.val, h⟩) := dif_pos h

theorem G0_17_right (x0 x1 : Arr 50000 64) (x5 x6 : Arr 64 64) (x7 : Arr 1 64) (x14 : Arr 64 64) (x15 : Arr 1 64)
    (r : Fin 50000) (c : Fin 128) (h : ¬ c.val < 64) :
    G0_17 x0 x1 x5 x6 x7 x14 x15 (ix2 r c)
      = (∑ k : Fin 64, x1 (ix2 r k) * x14 (ix2 k ⟨c.val - 64, by have := c.isLt; omega⟩))
          + x15 (ix2 0 ⟨c.val - 64, by have := c.isLt; omega⟩) := dif_neg h

theorem G0_18_apply (x0 : Arr 50000 64) (x8 : Arr 64 64) (x9 : Arr 1 64) (r : Fin 50000) (c : Fin 64) :
    G0_18 x0 x8 x9 (ix2 r c) = (∑ k : Fin 64, x0 (ix2 r k) * x8 (ix2 k c)) + x9 (ix2 0 c) := rfl

theorem G0_19_apply (x0 : Arr 50000 64) (x10 : Arr 64 64) (x11 : Arr 1 64) (r : Fin 50000) (c : Fin 64) :
    G0_19 x0 x10 x11 (ix2 r c) = (∑ k : Fin 64, x0 (ix2 r k) * x10 (ix2 k c)) + x11 (ix2 0 c) := rfl

end Cert.KernelIdeal.Region0

end
-- ==== Proof.Region0Pay.lean ====
/- The node-level linear kernel's block arithmetic at the ideal values, read at an index: a zero-accumulator block
   product is the plain sum over the 64 inner coordinates, the narrowing to bf16 is the identity, a bias row
   broadcast over the rows reads the row, and two 64-wide blocks laid side by side read the left one on columns
   0…63 and the right one on columns 64…127. -/
import proofs.«163623_j1168231104593_2_alg».proof.Proof.Gen.KernelIdeal.Skeleton
import proofs.«163623_j1168231104593_2_alg».proof.Proof.Region0Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Region0

open Cert.KernelIdeal Cert.KernelIdeal.Gen Idealize.ShloMosaic.ValueIdx
open scoped BigOperators

/-- The block product into a zero accumulator, at row r and column c: the sum over the inner coordinate. -/
theorem mm_apply (A : FVec Ideal S2000x64 .bf16) (B : FVec Ideal S64x64 .bf16) (r : Fin 2000) (c : Fin 64) :
    matmul dot_S2000x64_S64x64_S2000x64_1_0_0_1_n_n none A B (constant (F := Ideal) S2000x64 .f32 0x00000000#32) (ix2 r c)
      = ∑ k : Fin 64, A (ix2 r k) * B (ix2 k c) := by
  show FloatOps.matmul _ none A B _ (ix2 r c) = _
  rw [Ideal.matmul_constant_zero_apply,
    ← Equiv.sum_comp (contrEquiv1 dot_S2000x64_S64x64_S2000x64_1_0_0_1_n_n 64 rfl rfl).symm]
  refine Finset.sum_congr rfl fun k _ => ?_
  have c2 := contrEquiv1_symm_val dot_S2000x64_S64x64_S2000x64_1_0_0_1_n_n 64 rfl rfl k
  have l2 : dot_S2000x64_S64x64_S2000x64_1_0_0_1_n_n.lhsIdx (ix2 r c) ((contrEquiv1 _ 64 rfl rfl).symm k) = ix2 r k := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact c2
  have r2 : dot_S2000x64_S64x64_S2000x64_1_0_0_1_n_n.rhsIdx (ix2 r c) ((contrEquiv1 _ 64 rfl rfl).symm k) = ix2 k c := by
    funext ax; apply Fin.ext
    match ax with
    | ⟨0, _⟩ => simp [DotDims.rhsIdx, dot_S2000x64_S64x64_S2000x64_1_0_0_1_n_n]; exact c2
    | ⟨1, _⟩ => simp [DotDims.rhsIdx, dot_S2000x64_S64x64_S2000x64_1_0_0_1_n_n]; rfl
  rw [l2, r2]

/-- The bias row, cast to its own shape and broadcast over the 2000 rows, read at row r and column c. -/
theorem bias_apply (b : Vec Ideal S1x64 .f32) (r : Fin 2000) (c : Fin 64) :
    broadcastTo S2000x64 (shapeCast S1x64 b shapeCasts_S1x64_S1x64) broadcasts_S1x64_S2000x64 (ix2 r c) = b (ix2 0 c) := by
  rw [shapeCast_self]
  exact broadcastTo_1b_ab_apply _ _ r c

/-- Result block 18 at row r and column c. -/
theorem pay18_apply (x0 : Vec Ideal S2000x64 .f32) (x8 : Vec Ideal S64x64 .f32) (x9 : Vec Ideal S1x64 .f32)
    (r : Fin 2000) (c : Fin 64) :
    k0_pay1 (k0_pay9 x0 x8) x9 (ix2 r c) = (∑ k : Fin 64, x0 (ix2 r k) * x8 (ix2 k c)) + x9 (ix2 0 c) := by
  unfold k0_pay1 k0_pay9 k0_pay5
  dsimp only
  rw [addf_apply, bias_apply, mm_apply]
  rfl

/-- Result block 19 at row r and column c. -/
theorem pay19_apply (x0 : Vec Ideal S2000x64 .f32) (x10 : Vec Ideal S64x64 .f32) (x11 : Vec Ideal S1x64 .f32)
    (r : Fin 2000) (c : Fin 64) :
    k0_pay2 (k0_pay5 x0) x10 x11 (ix2 r c) = (∑ k : Fin 64, x0 (ix2 r k) * x10 (ix2 k c)) + x11 (ix2 0 c) := by
  unfold k0_pay2 k0_pay5
  dsimp only
  rw [addf_apply, bias_apply, mm_apply]
  rfl

/-- The left half of result block 16, (h·w + p·w') + b, at row r and column c. -/
theorem pay7_apply (x0 x1 : Vec Ideal S2000x64 .f32) (x2 x3 : Vec Ideal S64x64 .f32) (x4 : Vec Ideal S1x64 .f32)
    (r : Fin 2000) (c : Fin 64) :
    k0_pay7 x0 x1 x2 x3 x4 (ix2 r c)
      = ((∑ k : Fin 64, x0 (ix2 r k) * x2 (ix2 k c)) + (∑ k : Fin 64, x1 (ix2 r k) * x3 (ix2 k c))) + x4 (ix2 0 c) := by
  unfold k0_pay7 k0_pay5 k0_pay6
  dsimp only
  rw [shapeCast_self, shapeCast_self, addf_apply, addf_apply, bias_apply, mm_apply, mm_apply]
  rfl

/-- The left half of result block 17, at row r and column c. -/
theorem pay8_apply (x0 x1 : Vec Ideal S2000x64 .f32) (x5 x6 : Vec Ideal S64x64 .f32) (x7 : Vec Ideal S1x64 .f32)
    (r : Fin 2000) (c : Fin 64) :
    k0_pay8 x0 x1 x5 x6 x7 (ix2 r c)
      = ((∑ k : Fin 64, x0 (ix2 r k) * x5 (ix2 k c)) + (∑ k : Fin 64, x1 (ix2 r k) * x6 (ix2 k c))) + x7 (ix2 0 c) := by
  unfold k0_pay8 k0_pay5 k0_pay6
  dsimp only
  rw [shapeCast_self, shapeCast_self, addf_apply, addf_apply, bias_apply, mm_apply, mm_apply]
  rfl

/-- Two 64-wide blocks side by side, read on the left half. -/
theorem concat_left (u v : FVec Ideal S2000x64 .f32) (r : Fin 2000) (c : Fin 128) (h : c.val < 64) :
    concatenate S2000x128 1 [⟨S2000x64, u⟩, ⟨S2000x64, v⟩] concatenates_S2000x64_S2000x64_S2000x128_d1 (ix2 r c)
      = u (ix2 r ⟨c.val, h⟩) :=
  concatenate_pair_apply_left _ u v concatenates_S2000x64_S2000x64_S2000x128_d1 (ix2 r c) rfl (ix2 r ⟨c.val, h⟩)
    (fun b => by match b with | ⟨0, _⟩ => rfl | ⟨1, _⟩ => rfl)

/-- Two 64-wide blocks side by side, read on the right half. -/
theorem concat_right (u v : FVec Ideal S2000x64 .f32) (r : Fin 2000) (c : Fin 128) (h : ¬ c.val < 64) :
    concatenate S2000x128 1 [⟨S2000x64, u⟩, ⟨S2000x64, v⟩] concatenates_S2000x64_S2000x64_S2000x128_d1 (ix2 r c)
      = v (ix2 r ⟨c.val - 64, by have := c.isLt; omega⟩) :=
  concatenate_pair_apply_right _ u v concatenates_S2000x64_S2000x64_S2000x128_d1 (ix2 r c) rfl rfl
    (ix2 r ⟨c.val - 64, by have := c.isLt; omega⟩)
    (fun b hb => by match b, hb with | ⟨0, _⟩, _ => rfl | ⟨1, _⟩, hb => exact absurd rfl hb)
    (by show (c.val - 64) + 64 = c.val; omega)

/-- Result block 16 at row r and column c: the left half on columns 0…63, p·C1_w + C1_b on columns 64…127. -/
theorem pay16_apply (x0 x1 : Vec Ideal S2000x64 .f32) (x2 x3 : Vec Ideal S64x64 .f32) (x4 : Vec Ideal S1x64 .f32)
    (x12 : Vec Ideal S64x64 .f32) (x13 : Vec Ideal S1x64 .f32) (r : Fin 2000) (c : Fin 128) :
    k0_pay3 (k0_pay6 x1) (k0_pay7 x0 x1 x2 x3 x4) x12 x13 (ix2 r c)
      = if h : c.val < 64 then
          ((∑ k : Fin 64, x0 (ix2 r k) * x2 (ix2 k ⟨c.val, h⟩)) + (∑ k : Fin 64, x1 (ix2 r k) * x3 (ix2 k ⟨c.val, h⟩)))
            + x4 (ix2 0 ⟨c.val, h⟩)
        else
          (∑ k : Fin 64, x1 (ix2 r k) * x12 (ix2 k ⟨c.val - 64, by have := c.isLt; omega⟩))
            + x13 (ix2 0 ⟨c.val - 64, by have := c.isLt; omega⟩) := by
  unfold k0_pay3 k0_pay6
  dsimp only
  by_cases h : c.val < 64
  · rw [dif_pos h, concat_left _ _ r c h]
    exact pay7_apply x0 x1 x2 x3 x4 r ⟨c.val, h⟩
  · rw [dif_neg h, concat_right _ _ r c h, addf_apply, bias_apply, mm_apply]
    rfl

/-- Result block 17 at row r and column c: the left half on columns 0…63, p·C2_w + C2_b on columns 64…127. -/
theorem pay17_apply (x0 x1 : Vec Ideal S2000x64 .f32) (x5 x6 : Vec Ideal S64x64 .f32) (x7 : Vec Ideal S1x64 .f32)
    (x14 : Vec Ideal S64x64 .f32) (x15 : Vec Ideal S1x64 .f32) (r : Fin 2000) (c : Fin 128) :
    k0_pay4 (k0_pay6 x1) (k0_pay8 x0 x1 x5 x6 x7) x14 x15 (ix2 r c)
      = if h : c.val < 64 then
          ((∑ k : Fin 64, x0 (ix2 r k) * x5 (ix2 k ⟨c.val, h⟩)) + (∑ k : Fin 64, x1 (ix2 r k) * x6 (ix2 k ⟨c.val, h⟩)))
            + x7 (ix2 0 ⟨c.val, h⟩)
        else
          (∑ k : Fin 64, x1 (ix2 r k) * x14 (ix2 k ⟨c.val - 64, by have := c.isLt; omega⟩))
            + x15 (ix2 0 ⟨c.val - 64, by have := c.isLt; omega⟩) := by
  unfold k0_pay4 k0_pay6
  dsimp only
  by_cases h : c.val < 64
  · rw [dif_pos h, concat_left _ _ r c h]
    exact pay8_apply x0 x1 x5 x6 x7 r ⟨c.val, h⟩
  · rw [dif_neg h, concat_right _ _ r c h, addf_apply, bias_apply, mm_apply]
    rfl

end Cert.KernelIdeal.Region0

end
-- ==== Proof.Region0Blocks.lean ====
/- The node-level linear kernel's windows on its 25-point grid: windows 0, 1 (h, p) and 16…19 (the results) move one
   block of 2000 rows per grid point (point t holds rows 2000 t … 2000 t + 1999, all columns); the weight and bias
   windows 2…15 hold their whole array at every point. Each block's element (r, q) is therefore element
   (2000 t + r, q) of its array, respectively element (r, q). -/
import proofs.«163623_j1168231104593_2_alg».proof.Proof.Gen.KernelIdeal.Frame
import proofs.«163623_j1168231104593_2_alg».proof.Proof.Region0Spec
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

theorem hz : (![0, 0] : Fin 2 → Nat) = fun _ => 0 := funext fun a => by fin_cases a <;> rfl

/-! ## The printed index maps, decided over the 25 grid points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)
theorem idx_19 : ∀ t : Fin cfg0.N, win0_19.index t (0 : Fin 2) = t.val ∧ win0_19.index t (1 : Fin 2) = 0 :=
  (by decide +kernel : ∀ t : Fin grid0.N, _)

/-- The grid has 25 points. -/
theorem point_lt (t : Fin cfg0.N) : t.val < 25 := lt_of_lt_of_eq t.isLt N_0

/-- Row r of grid point t's block is row 2000 t + r of the array. -/
def row (t : Fin cfg0.N) (r : Fin 2000) : Fin 50000 :=
  ⟨2000 * t.val + r.val, by have h := point_lt t; have := r.isLt; omega⟩

theorem row_val (t : Fin cfg0.N) (r : Fin 2000) : (row t r).val = 2000 * t.val + r.val := rfl

/-! ## Where a block's element sits in its array -/

theorem emb_0 (t : Fin cfg0.N) (r : Fin 2000) (q : Fin 64) :
    ((cfg0.win 0).blk t).view.emb (ix2 r q) = (ix2 (row t r) q : S50000x64.Idx) := by
  obtain ⟨e0, e1⟩ := idx_0 t
  funext a; apply Fin.ext
  match a with
  | ⟨0, _⟩ => show win0_0.index t (0 : Fin 2) * 2000 + 1 * r.val = 2000 * t.val + r.val; omega
  | ⟨1, _⟩ => show win0_0.index t (1 : Fin 2) * 64 + 1 * q.val = q.val; omega

theorem emb_1 (t : Fin cfg0.N) (r : Fin 2000) (q : Fin 64) :
    ((cfg0.win 1).blk t).view.emb (ix2 r q) = (ix2 (row t r) q : S50000x64.Idx) := by
  obtain ⟨e0, e1⟩ := idx_1 t
  funext a; apply Fin.ext
  match a with
  | ⟨0, _⟩ => show win0_1.index t (0 : Fin 2) * 2000 + 1 * r.val = 2000 * t.val + r.val; omega
  | ⟨1, _⟩ => show win0_1.index t (1 : Fin 2) * 64 + 1 * q.val = q.val; omega

theorem emb_16 (t : Fin cfg0.N) (r : Fin 2000) (q : Fin 128) :
    ((cfg0.win 16).blk t).view.emb (ix2 r q) = (ix2 (row t r) q : S50000x128.Idx) := by
  obtain ⟨e0, e1⟩ := idx_16 t
  funext a; apply Fin.ext
  match a with
  | ⟨0, _⟩ => show win0_16.index t (0 : Fin 2) * 2000 + 1 * r.val = 2000 * t.val + r.val; omega
  | ⟨1, _⟩ => show win0_16.index t (1 : Fin 2) * 128 + 1 * q.val = q.val; omega

theorem emb_17 (t : Fin cfg0.N) (r : Fin 2000) (q : Fin 128) :
    ((cfg0.win 17).blk t).view.emb (ix2 r q) = (ix2 (row t r) q : S50000x128.Idx) := by
  obtain ⟨e0, e1⟩ := idx_17 t
  funext a; apply Fin.ext
  match a with
  | ⟨0, _⟩ => show win0_17.index t (0 : Fin 2) * 2000 + 1 * r.val = 2000 * t.val + r.val; omega
  | ⟨1, _⟩ => show win0_17.index t (1 : Fin 2) * 128 + 1 * q.val = q.val; omega

theorem emb_18 (t : Fin cfg0.N) (r : Fin 2000) (q : Fin 64) :
    ((cfg0.win 18).blk t).view.emb (ix2 r q) = (ix2 (row t r) q : S50000x64.Idx) := by
  obtain ⟨e0, e1⟩ := idx_18 t
  funext a; apply Fin.ext
  match a with
  | ⟨0, _⟩ => show win0_18.index t (0 : Fin 2) * 2000 + 1 * r.val = 2000 * t.val + r.val; omega
  | ⟨1, _⟩ => show win0_18.index t (1 : Fin 2) * 64 + 1 * q.val = q.val; omega

theorem emb_19 (t : Fin cfg0.N) (r : Fin 2000) (q : Fin 64) :
    ((cfg0.win 19).blk t).view.emb (ix2 r q) = (ix2 (row t r) q : S50000x64.Idx) := by
  obtain ⟨e0, e1⟩ := idx_19 t
  funext a; apply Fin.ext
  match a with
  | ⟨0, _⟩ => show win0_19.index t (0 : Fin 2) * 2000 + 1 * r.val = 2000 * t.val + r.val; omega
  | ⟨1, _⟩ => show win0_19.index t (1 : Fin 2) * 64 + 1 * q.val = q.val; omega

theorem emb_2 (t : Fin cfg0.N) (k : Fin 64) (q : Fin 64) :
    ((cfg0.win 2).blk t).view.emb (ix2 k q) = (ix2 k q : S64x64.Idx) := by
  obtain ⟨e0, e1⟩ := idx_2 t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb_3 (t : Fin cfg0.N) (k : Fin 64) (q : Fin 64) :
    ((cfg0.win 3).blk t).view.emb (ix2 k q) = (ix2 k q : S64x64.Idx) := by
  obtain ⟨e0, e1⟩ := idx_3 t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

theorem emb_5 (t : Fin cfg0.N) (k : Fin 64) (q : Fin 64) :
    ((cfg0.win 5).blk t).view.emb (ix2 k q) = (ix2 k q : S64x64.Idx) := by
  obtain ⟨e0, e1⟩ := idx_5 t
  funext a; apply Fin.ext
  match a with
  | ⟨0, _⟩ => show win0_5.index t (0 : Fin 2) * 64 + 1 * k.val = k.val; omega
  | ⟨1, _⟩ => show win0_5.index t (1 : Fin 2) * 64 + 1 * q.val = q.val; omega

theorem emb_6 (t : Fin cfg0.N) (k : Fin 64) (q : Fin 64) :
    ((cfg0.win 6).blk t).view.emb (ix2 k q) = (ix2 k q : S64x64.Idx) := by
  obtain ⟨e0, e1⟩ := idx_6 t
  funext a; apply Fin.ext
  match a with
  | ⟨0, _⟩ => show win0_6.index t (0 : Fin 2) * 64 + 1 * k.val = k.val; omega
  | ⟨1, _⟩ => show win0_6.index t (1 : Fin 2) * 64 + 1 * q.val = q.val; omega

theorem emb_8 (t : Fin cfg0.N) (k : Fin 64) (q : Fin 64) :
    ((cfg0.win 8).blk t).view.emb (ix2 k q) = (ix2 k q : S64x64.Idx) := by
  obtain ⟨e0, e1⟩ := idx_8 t
  funext a; apply Fin.ext
  match a with
  | ⟨0, _⟩ => show win0_8.index t (0 : Fin 2) * 64 + 1 * k.val = k.val; omega
  | ⟨1, _⟩ => show win0_8.index t (1 : Fin 2) * 64 + 1 * q.val = q.val; omega

theorem emb_10 (t : Fin cfg0.N) (k : Fin 64) (q : Fin 64) :
    ((cfg0.win 10).blk t).view.emb (ix2 k q) = (ix2 k q : S64x64.Idx) := by
  obtain ⟨e0, e1⟩ := idx_10 t
  funext a; apply Fin.ext
  match a with
  | ⟨0, _⟩ => show win0_10.index t (0 : Fin 2) * 64 + 1 * k.val = k.val; omega
  | ⟨1, _⟩ => show win0_10.index t (1 : Fin 2) * 64 + 1 * q.val = q.val; omega

theorem emb_12 (t : Fin cfg0.N) (k : Fin 64) (q : Fin 64) :
    ((cfg0.win 12).blk t).view.emb (ix2 k q) = (ix2 k q : S64x64.Idx) := by
  obtain ⟨e0, e1⟩ := idx_12 t
  funext a; apply Fin.ext
  match a with
  | ⟨0, _⟩ => show win0_12.index t (0 : Fin 2) * 64 + 1 * k.val = k.val; omega
  | ⟨1, _⟩ => show win0_12.index t (1 : Fin 2) * 64 + 1 * q.val = q.val; omega

theorem emb_14 (t : Fin cfg0.N) (k : Fin 64) (q : Fin 64) :
    ((cfg0.win 14).blk t).view.emb (ix2 k q) = (ix2 k q : S64x64.Idx) := by
  obtain ⟨e0, e1⟩ := idx_14 t
  funext a; apply Fin.ext
  match a with
  | ⟨0, _⟩ => show win0_14.index t (0 : Fin 2) * 64 + 1 * k.val = k.val; omega
  | ⟨1, _⟩ => show win0_14.index t (1 : Fin 2) * 64 + 1 * q.val = q.val; omega

theorem emb_4 (t : Fin cfg0.N) (z : Fin 1) (q : Fin 64) :
    ((cfg0.win 4).blk t).view.emb (ix2 z q) = (ix2 z q : S1x64.Idx) := by
  obtain ⟨e0, e1⟩ := idx_4 t
  funext a; apply Fin.ext
  match a with
  | ⟨0, _⟩ => show win0_4.index t (0 : Fin 2) * 1 + 1 * z.val = z.val; omega
  | ⟨1, _⟩ => show win0_4.index t (1 : Fin 2) * 64 + 1 * q.val = q.val; omega

theorem emb_7 (t : Fin cfg0.N) (z : Fin 1) (q : Fin 64) :
    ((cfg0.win 7).blk t).view.emb (ix2 z q) = (ix2 z q : S1x64.Idx) := by
  obtain ⟨e0, e1⟩ := idx_7 t
  funext a; apply Fin.ext
  match a with
  | ⟨0, _⟩ => show win0_7.index t (0 : Fin 2) * 1 + 1 * z.val = z.val; omega
  | ⟨1, _⟩ => show win0_7.index t (1 : Fin 2) * 64 + 1 * q.val = q.val; omega

theorem emb_9 (t : Fin cfg0.N) (z : Fin 1) (q : Fin 64) :
    ((cfg0.win 9).blk t).view.emb (ix2 z q) = (ix2 z q : S1x64.Idx) := by
  obtain ⟨e0, e1⟩ := idx_9 t
  funext a; apply Fin.ext
  match a with
  | ⟨0, _⟩ => show win0_9.index t (0 : Fin 2) * 1 + 1 * z.val = z.val; omega
  | ⟨1, _⟩ => show win0_9.index t (1 : Fin 2) * 64 + 1 * q.val = q.val; omega

theorem emb_11 (t : Fin cfg0.N) (z : Fin 1) (q : Fin 64) :
    ((cfg0.win 11).blk t).view.emb (ix2 z q) = (ix2 z q : S1x64.Idx) := by
  obtain ⟨e0, e1⟩ := idx_11 t
  funext a; apply Fin.ext
  match a with
  | ⟨0, _⟩ => show win0_11.index t (0 : Fin 2) * 1 + 1 * z.val = z.val; omega
  | ⟨1, _⟩ => show win0_11.index t (1 : Fin 2) * 64 + 1 * q.val = q.val; omega

theorem emb_13 (t : Fin cfg0.N) (z : Fin 1) (q : Fin 64) :
    ((cfg0.win 13).blk t).view.emb (ix2 z q) = (ix2 z q : S1x64.Idx) := by
  obtain ⟨e0, e1⟩ := idx_13 t
  funext a; apply Fin.ext
  match a with
  | ⟨0, _⟩ => show win0_13.index t (0 : Fin 2) * 1 + 1 * z.val = z.val; omega
  | ⟨1, _⟩ => show win0_13.index t (1 : Fin 2) * 64 + 1 * q.val = q.val; omega

theorem emb_15 (t : Fin cfg0.N) (z : Fin 1) (q : Fin 64) :
    ((cfg0.win 15).blk t).view.emb (ix2 z q) = (ix2 z q : S1x64.Idx) := by
  obtain ⟨e0, e1⟩ := idx_15 t
  funext a; apply Fin.ext
  match a with
  | ⟨0, _⟩ => show win0_15.index t (0 : Fin 2) * 1 + 1 * z.val = z.val; omega
  | ⟨1, _⟩ => show win0_15.index t (1 : Fin 2) * 64 + 1 * q.val = q.val; omega

end Cert.KernelIdeal.Region0

end
-- ==== Proof.Region0Reads.lean ====
/- The node-level linear kernel (region 0): an input window's block at grid point t, read at an element, is its
   array read at that element's place (row 2000 t + r for the row-blocked windows h and p; the same place for the
   weight and bias windows, which hold their whole array). -/
import proofs.«163623_j1168231104593_2_alg».proof.Proof.Gen.KernelIdeal.Frame
import proofs.«163623_j1168231104593_2_alg».proof.Proof.Region0Blocks
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

theorem iblk_0 (V : (c : Dev nD) → (b : Ref sig .tc) → Buf (Elt Ideal) ((c : Thread nD τ).loc b)) (c : Dev nD) (t : Fin cfg0.N) (r : Fin 2000) (k : Fin 64) :
    (iblk0 V c 0 t : Vec Ideal S2000x64 .f32) (ix2 r k) = (V c (Pipeline.arrRef spec0 0) : S50000x64.Idx → EReal) (ix2 (row t r) k) := by
  show (V c (Pipeline.arrRef spec0 0) : S50000x64.Idx → EReal) (((cfg0.win 0).blk t).view.emb (ix2 r k)) = _
  rw [emb_0]

theorem iblk_1 (V : (c : Dev nD) → (b : Ref sig .tc) → Buf (Elt Ideal) ((c : Thread nD τ).loc b)) (c : Dev nD) (t : Fin cfg0.N) (r : Fin 2000) (k : Fin 64) :
    (iblk0 V c 1 t : Vec Ideal S2000x64 .f32) (ix2 r k) = (V c (Pipeline.arrRef spec0 1) : S50000x64.Idx → EReal) (ix2 (row t r) k) := by
  show (V c (Pipeline.arrRef spec0 1) : S50000x64.Idx → EReal) (((cfg0.win 1).blk t).view.emb (ix2 r k)) = _
  rw [emb_1]

theorem iblk_2 (V : (c : Dev nD) → (b : Ref sig .tc) → Buf (Elt Ideal) ((c : Thread nD τ).loc b)) (c : Dev nD) (t : Fin cfg0.N) (k : Fin 64) (q : Fin 64) :
    (iblk0 V c 2 t : Vec Ideal S64x64 .f32) (ix2 k q) = (V c (Pipeline.arrRef spec0 2) : S64x64.Idx → EReal) (ix2 k q) := by
  show (V c (Pipeline.arrRef spec0 2) : S64x64.Idx → EReal) (((cfg0.win 2).blk t).view.emb (ix2 k q)) = _
  rw [emb_2]

theorem iblk_3 (V : (c : Dev nD) → (b : Ref sig .tc) → Buf (Elt Ideal) ((c : Thread nD τ).loc b)) (c : Dev nD) (t : Fin cfg0.N) (k : Fin 64) (q : Fin 64) :
    (iblk0 V c 3 t : Vec Ideal S64x64 .f32) (ix2 k q) = (V c (Pipeline.arrRef spec0 3) : S64x64.Idx → EReal) (ix2 k q) := by
  show (V c (Pipeline.arrRef spec0 3) : S64x64.Idx → EReal) (((cfg0.win 3).blk t).view.emb (ix2 k q)) = _
  rw [emb_3]

theorem iblk_5 (V : (c : Dev nD) → (b : Ref sig .tc) → Buf (Elt Ideal) ((c : Thread nD τ).loc b)) (c : Dev nD) (t : Fin cfg0.N) (k : Fin 64) (q : Fin 64) :
    (iblk0 V c 5 t : Vec Ideal S64x64 .f32) (ix2 k q) = (V c (Pipeline.arrRef spec0 5) : S64x64.Idx → EReal) (ix2 k q) := by
  show (V c (Pipeline.arrRef spec0 5) : S64x64.Idx → EReal) (((cfg0.win 5).blk t).view.emb (ix2 k q)) = _
  rw [emb_5]

theorem iblk_6 (V : (c : Dev nD) → (b : Ref sig .tc) → Buf (Elt Ideal) ((c : Thread nD τ).loc b)) (c : Dev nD) (t : Fin cfg0.N) (k : Fin 64) (q : Fin 64) :
    (iblk0 V c 6 t : Vec Ideal S64x64 .f32) (ix2 k q) = (V c (Pipeline.arrRef spec0 6) : S64x64.Idx → EReal) (ix2 k q) := by
  show (V c (Pipeline.arrRef spec0 6) : S64x64.Idx → EReal) (((cfg0.win 6).blk t).view.emb (ix2 k q)) = _
  rw [emb_6]

theorem iblk_8 (V : (c : Dev nD) → (b : Ref sig .tc) → Buf (Elt Ideal) ((c : Thread nD τ).loc b)) (c : Dev nD) (t : Fin cfg0.N) (k : Fin 64) (q : Fin 64) :
    (iblk0 V c 8 t : Vec Ideal S64x64 .f32) (ix2 k q) = (V c (Pipeline.arrRef spec0 8) : S64x64.Idx → EReal) (ix2 k q) := by
  show (V c (Pipeline.arrRef spec0 8) : S64x64.Idx → EReal) (((cfg0.win 8).blk t).view.emb (ix2 k q)) = _
  rw [emb_8]

theorem iblk_10 (V : (c : Dev nD) → (b : Ref sig .tc) → Buf (Elt Ideal) ((c : Thread nD τ).loc b)) (c : Dev nD) (t : Fin cfg0.N) (k : Fin 64) (q : Fin 64) :
    (iblk0 V c 10 t : Vec Ideal S64x64 .f32) (ix2 k q) = (V c (Pipeline.arrRef spec0 10) : S64x64.Idx → EReal) (ix2 k q) := by
  show (V c (Pipeline.arrRef spec0 10) : S64x64.Idx → EReal) (((cfg0.win 10).blk t).view.emb (ix2 k q)) = _
  rw [emb_10]

theorem iblk_12 (V : (c : Dev nD) → (b : Ref sig .tc) → Buf (Elt Ideal) ((c : Thread nD τ).loc b)) (c : Dev nD) (t : Fin cfg0.N) (k : Fin 64) (q : Fin 64) :
    (iblk0 V c 12 t : Vec Ideal S64x64 .f32) (ix2 k q) = (V c (Pipeline.arrRef spec0 12) : S64x64.Idx → EReal) (ix2 k q) := by
  show (V c (Pipeline.arrRef spec0 12) : S64x64.Idx → EReal) (((cfg0.win 12).blk t).view.emb (ix2 k q)) = _
  rw [emb_12]

theorem iblk_14 (V : (c : Dev nD) → (b : Ref sig .tc) → Buf (Elt Ideal) ((c : Thread nD τ).loc b)) (c : Dev nD) (t : Fin cfg0.N) (k : Fin 64) (q : Fin 64) :
    (iblk0 V c 14 t : Vec Ideal S64x64 .f32) (ix2 k q) = (V c (Pipeline.arrRef spec0 14) : S64x64.Idx → EReal) (ix2 k q) := by
  show (V c (Pipeline.arrRef spec0 14) : S64x64.Idx → EReal) (((cfg0.win 14).blk t).view.emb (ix2 k q)) = _
  rw [emb_14]

theorem iblk_4 (V : (c : Dev nD) → (b : Ref sig .tc) → Buf (Elt Ideal) ((c : Thread nD τ).loc b)) (c : Dev nD) (t : Fin cfg0.N) (z : Fin 1) (q : Fin 64) :
    (iblk0 V c 4 t : Vec Ideal S1x64 .f32) (ix2 z q) = (V c (Pipeline.arrRef spec0 4) : S1x64.Idx → EReal) (ix2 z q) := by
  show (V c (Pipeline.arrRef spec0 4) : S1x64.Idx → EReal) (((cfg0.win 4).blk t).view.emb (ix2 z q)) = _
  rw [emb_4]

theorem iblk_7 (V : (c : Dev nD) → (b : Ref sig .tc) → Buf (Elt Ideal) ((c : Thread nD τ).loc b)) (c : Dev nD) (t : Fin cfg0.N) (z : Fin 1) (q : Fin 64) :
    (iblk0 V c 7 t : Vec Ideal S1x64 .f32) (ix2 z q) = (V c (Pipeline.arrRef spec0 7) : S1x64.Idx → EReal) (ix2 z q) := by
  show (V c (Pipeline.arrRef spec0 7) : S1x64.Idx → EReal) (((cfg0.win 7).blk t).view.emb (ix2 z q)) = _
  rw [emb_7]

theorem iblk_9 (V : (c : Dev nD) → (b : Ref sig .tc) → Buf (Elt Ideal) ((c : Thread nD τ).loc b)) (c : Dev nD) (t : Fin cfg0.N) (z : Fin 1) (q : Fin 64) :
    (iblk0 V c 9 t : Vec Ideal S1x64 .f32) (ix2 z q) = (V c (Pipeline.arrRef spec0 9) : S1x64.Idx → EReal) (ix2 z q) := by
  show (V c (Pipeline.arrRef spec0 9) : S1x64.Idx → EReal) (((cfg0.win 9).blk t).view.emb (ix2 z q)) = _
  rw [emb_9]

theorem iblk_11 (V : (c : Dev nD) → (b : Ref sig .tc) → Buf (Elt Ideal) ((c : Thread nD τ).loc b)) (c : Dev nD) (t : Fin cfg0.N) (z : Fin 1) (q : Fin 64) :
    (iblk0 V c 11 t : Vec Ideal S1x64 .f32) (ix2 z q) = (V c (Pipeline.arrRef spec0 11) : S1x64.Idx → EReal) (ix2 z q) := by
  show (V c (Pipeline.arrRef spec0 11) : S1x64.Idx → EReal) (((cfg0.win 11).blk t).view.emb (ix2 z q)) = _
  rw [emb_11]

theorem iblk_13 (V : (c : Dev nD) → (b : Ref sig .tc) → Buf (Elt Ideal) ((c : Thread nD τ).loc b)) (c : Dev nD) (t : Fin cfg0.N) (z : Fin 1) (q : Fin 64) :
    (iblk0 V c 13 t : Vec Ideal S1x64 .f32) (ix2 z q) = (V c (Pipeline.arrRef spec0 13) : S1x64.Idx → EReal) (ix2 z q) := by
  show (V c (Pipeline.arrRef spec0 13) : S1x64.Idx → EReal) (((cfg0.win 13).blk t).view.emb (ix2 z q)) = _
  rw [emb_13]

theorem iblk_15 (V : (c : Dev nD) → (b : Ref sig .tc) → Buf (Elt Ideal) ((c : Thread nD τ).loc b)) (c : Dev nD) (t : Fin cfg0.N) (z : Fin 1) (q : Fin 64) :
    (iblk0 V c 15 t : Vec Ideal S1x64 .f32) (ix2 z q) = (V c (Pipeline.arrRef spec0 15) : S1x64.Idx → EReal) (ix2 z q) := by
  show (V c (Pipeline.arrRef spec0 15) : S1x64.Idx → EReal) (((cfg0.win 15).blk t).view.emb (ix2 z q)) = _
  rw [emb_15]

end Cert.KernelIdeal.Region0

end
-- ==== Proof.Region0Out16.lean ====
/- The node-level linear kernel (region 0), result window 16, from blocks to the array: each grid point writes back
   block t of the closed form `G0_16` (the block arithmetic read at an index, each input block's element read in
   its array); the 25 blocks of 2000 rows cover the 50000 rows; so after the region the result array IS `G0_16` of
   the arrays the region found. -/
import proofs.«163623_j1168231104593_2_alg».proof.Proof.Gen.KernelIdeal.Frame
import proofs.«163623_j1168231104593_2_alg».proof.Proof.Region0Spec
import proofs.«163623_j1168231104593_2_alg».proof.Proof.Region0Pay
import proofs.«163623_j1168231104593_2_alg».proof.Proof.Region0Blocks
import proofs.«163623_j1168231104593_2_alg».proof.Proof.Region0Reads
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

/-! ## Result window 16 -/

set_option maxHeartbeats 1000000 in
/-- What grid point t writes back to result 16 is block t of `G0_16` of the arrays the region finds. -/
theorem flushed16_eq (V : (c : Dev nD) → (b : Ref sig .tc) → Buf (Elt Ideal) ((c : Thread nD τ).loc b)) (c : Dev nD) (t : Fin cfg0.N) :
    (dat0 (F := Ideal) V c).flushed 16 t = ((cfg0.win 16).blk t).view.read (Elt Ideal) (G0_16 (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13))) := by
  show (cfg0.win 16).cut (grid0.coords t) ((dat0 V c).after 16 t) = _
  rw [after0_16]
  unfold out0_16
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 128), j = ix2 r q := ⟨j 0, j 1, eq_ix2 j⟩
  show k0_pay3 (k0_pay6 (iblk0 V c 1 t)) (k0_pay7 (iblk0 V c 0 t) (iblk0 V c 1 t) (iblk0 V c 2 t) (iblk0 V c 3 t) (iblk0 V c 4 t)) (iblk0 V c 12 t) (iblk0 V c 13 t) (ix2 r q) = G0_16 (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13)) (((cfg0.win 16).blk t).view.emb (ix2 r q))
  rw [emb_16 t r q]
  refine (pay16_apply (iblk0 V c 0 t) (iblk0 V c 1 t) (iblk0 V c 2 t) (iblk0 V c 3 t) (iblk0 V c 4 t) (iblk0 V c 12 t) (iblk0 V c 13 t) r q).trans ?_
  by_cases h : q.val < 64
  · rw [dif_pos h]
    refine Eq.trans ?_ (G0_16_left (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13)) (row t r) q h).symm
    simp only [iblk_0, iblk_1, iblk_2, iblk_3, iblk_4]
  · rw [dif_neg h]
    refine Eq.trans ?_ (G0_16_right (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13)) (row t r) q h).symm
    simp only [iblk_1, iblk_12, iblk_13]

/-- An index of the array is in point t's block iff each coordinate is in the block's range on its axis. -/
theorem mem_blk16 (t : Fin cfg0.N) (i : S50000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v11_0).slice (win0_16.rect t)).set ↔ _
  rw [View.set_slice_whole, Rect.mem_set_unit]
  exact Iff.rfl

/-- Row i₀ of the array lies in the block of grid point i₀ / 2000. -/
theorem cover16 (i : S50000x128.Idx) :
    ∃ t : Fin cfg0.N, (cfg0.win 16).flush t = true ∧ i ∈ ((cfg0.win 16).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨e0, e1⟩ := idx_16 t
  refine ⟨t, flush0_16 t, ?_⟩
  rw [mem_blk16]
  intro a
  match a with
  | ⟨0, _⟩ => show win0_16.index t (0 : Fin 2) * 2000 ≤ (i 0).val ∧ (i 0).val < win0_16.index t (0 : Fin 2) * 2000 + 2000; omega
  | ⟨1, _⟩ => show win0_16.index t (1 : Fin 2) * 128 ≤ (i 1).val ∧ (i 1).val < win0_16.index t (1 : Fin 2) * 128 + 128; omega

/-- Result 16 after the whole region. -/
theorem final0_16 (V : (c : Dev nD) → (b : Ref sig .tc) → Buf (Elt Ideal) ((c : Thread nD τ).loc b)) (c : Dev nD) :
    (dat0 (F := Ideal) V c).arrAt 16 cfg0.N = G0_16 (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13)) :=
  (dat0 (F := Ideal) V c).arrAt_eq_of_cover 16 (G0_16 (V c (Pipeline.arrRef spec0 0)) (V c (Pipeline.arrRef spec0 1)) (V c (Pipeline.arrRef spec0 2)) (V c (Pipeline.arrRef spec0 3)) (V c (Pipeline.arrRef spec0 4)) (V c (Pipeline.arrRef spec0 12)) (V c (Pipeline.arrRef spec0 13))) (fun t _ => flushed16_eq V c t) cover16

end Cert.KernelIdeal.Region0

end
-- ==== Proof.Region0Out17.lean ====
/- The node-level linear kernel (region 0), result window 17, from blocks to the array: each grid point writes back
   block t of the closed form `G0_17` (the block arithmetic read at an index, each input block's element read in
   its array); the 25 blocks of 2000 rows cover the 50000 rows; so after the region the result array IS `G0_17` of
   the arrays the region found. -/
import proofs.«163623_j1168231104593_2_alg».proof.Proof.Gen.KernelIdeal.Frame
import proofs.«163623_j1168231104593_2_alg».proof.Proof.Region0Spec
import proofs.«163623_j1168231104593_2_alg».proof.Proof.Region0Pay
import proofs.«163623_j1168231104593_2_alg».proof.Proof.Region0Blocks
import proofs.«163623_j1168231104593_2_alg».proof.Proof.Region0Reads
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

/-! ## Result window 17 -/

set_option maxHeartbeats 1000000 in
/-- What grid point t writes back to result 17 is block t of `G0_17` of the arrays the region finds. -/
theorem flushed17_eq (V : (c : Dev nD) → (b : Ref sig .tc) → Buf (Elt Ideal) ((c : Thread nD τ).loc b)) (c : Dev nD) (t : Fin cfg0.N) :
    (dat0 (F := Ideal) V c).flushed 17 t = ((cfg0.win 17).blk t).view.read (Elt Ideal) (G0_17 (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15))) := by
  show (cfg0.win 17).cut (grid0.coords t) ((dat0 V c).after 17 t) = _
  rw [after0_17]
  unfold out0_17
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 128), j = ix2 r q := ⟨j 0, j 1, eq_ix2 j⟩
  show k0_pay4 (k0_pay6 (iblk0 V c 1 t)) (k0_pay8 (iblk0 V c 0 t) (iblk0 V c 1 t) (iblk0 V c 5 t) (iblk0 V c 6 t) (iblk0 V c 7 t)) (iblk0 V c 14 t) (iblk0 V c 15 t) (ix2 r q) = G0_17 (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15)) (((cfg0.win 17).blk t).view.emb (ix2 r q))
  rw [emb_17 t r q]
  refine (pay17_apply (iblk0 V c 0 t) (iblk0 V c 1 t) (iblk0 V c 5 t) (iblk0 V c 6 t) (iblk0 V c 7 t) (iblk0 V c 14 t) (iblk0 V c 15 t) r q).trans ?_
  by_cases h : q.val < 64
  · rw [dif_pos h]
    refine Eq.trans ?_ (G0_17_left (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15)) (row t r) q h).symm
    simp only [iblk_0, iblk_1, iblk_5, iblk_6, iblk_7]
  · rw [dif_neg h]
    refine Eq.trans ?_ (G0_17_right (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15)) (row t r) q h).symm
    simp only [iblk_1, iblk_14, iblk_15]

/-- An index of the array is in point t's block iff each coordinate is in the block's range on its axis. -/
theorem mem_blk17 (t : Fin cfg0.N) (i : S50000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v11_1).slice (win0_17.rect t)).set ↔ _
  rw [View.set_slice_whole, Rect.mem_set_unit]
  exact Iff.rfl

/-- Row i₀ of the array lies in the block of grid point i₀ / 2000. -/
theorem cover17 (i : S50000x128.Idx) :
    ∃ t : Fin cfg0.N, (cfg0.win 17).flush t = true ∧ i ∈ ((cfg0.win 17).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨e0, e1⟩ := idx_17 t
  refine ⟨t, flush0_17 t, ?_⟩
  rw [mem_blk17]
  intro a
  match a with
  | ⟨0, _⟩ => show win0_17.index t (0 : Fin 2) * 2000 ≤ (i 0).val ∧ (i 0).val < win0_17.index t (0 : Fin 2) * 2000 + 2000; omega
  | ⟨1, _⟩ => show win0_17.index t (1 : Fin 2) * 128 ≤ (i 1).val ∧ (i 1).val < win0_17.index t (1 : Fin 2) * 128 + 128; omega

/-- Result 17 after the whole region. -/
theorem final0_17 (V : (c : Dev nD) → (b : Ref sig .tc) → Buf (Elt Ideal) ((c : Thread nD τ).loc b)) (c : Dev nD) :
    (dat0 (F := Ideal) V c).arrAt 17 cfg0.N = G0_17 (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15)) :=
  (dat0 (F := Ideal) V c).arrAt_eq_of_cover 17 (G0_17 (V c (Pipeline.arrRef spec0 0)) (V c (Pipeline.arrRef spec0 1)) (V c (Pipeline.arrRef spec0 5)) (V c (Pipeline.arrRef spec0 6)) (V c (Pipeline.arrRef spec0 7)) (V c (Pipeline.arrRef spec0 14)) (V c (Pipeline.arrRef spec0 15))) (fun t _ => flushed17_eq V c t) cover17

end Cert.KernelIdeal.Region0

end
-- ==== Proof.Region0Out18.lean ====
/- The node-level linear kernel (region 0), result window 18, from blocks to the array: each grid point writes back
   block t of the closed form `G0_18` (the block arithmetic read at an index, each input block's element read in
   its array); the 25 blocks of 2000 rows cover the 50000 rows; so after the region the result array IS `G0_18` of
   the arrays the region found. -/
import proofs.«163623_j1168231104593_2_alg».proof.Proof.Gen.KernelIdeal.Frame
import proofs.«163623_j1168231104593_2_alg».proof.Proof.Region0Spec
import proofs.«163623_j1168231104593_2_alg».proof.Proof.Region0Pay
import proofs.«163623_j1168231104593_2_alg».proof.Proof.Region0Blocks
import proofs.«163623_j1168231104593_2_alg».proof.Proof.Region0Reads
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

/-! ## Result window 18 -/

/-- What grid point t writes back to result 18 is block t of `G0_18` of the arrays the region finds. -/
theorem flushed18_eq (V : (c : Dev nD) → (b : Ref sig .tc) → Buf (Elt Ideal) ((c : Thread nD τ).loc b)) (c : Dev nD) (t : Fin cfg0.N) :
    (dat0 (F := Ideal) V c).flushed 18 t = ((cfg0.win 18).blk t).view.read (Elt Ideal) (G0_18 (V c (Pipeline.arrRef spec0 0)) (V c (Pipeline.arrRef spec0 8)) (V c (Pipeline.arrRef spec0 9))) := by
  show (cfg0.win 18).cut (grid0.coords t) ((dat0 V c).after 18 t) = _
  rw [after0_18]
  unfold out0_18
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 64), j = ix2 r q := ⟨j 0, j 1, eq_ix2 j⟩
  show k0_pay1 (k0_pay9 (iblk0 V c 0 t) (iblk0 V c 8 t)) (iblk0 V c 9 t) (ix2 r q) = G0_18 _ _ _ (((cfg0.win 18).blk t).view.emb (ix2 r q))
  rw [emb_18 t r q]
  refine (pay18_apply (iblk0 V c 0 t) (iblk0 V c 8 t) (iblk0 V c 9 t) r q).trans ?_
  rw [G0_18_apply]
  simp only [iblk_0, iblk_8, iblk_9]

/-- An index of the array is in point t's block iff each coordinate is in the block's range on its axis. -/
theorem mem_blk18 (t : Fin cfg0.N) (i : S50000x64.Idx) :
    i ∈ ((cfg0.win 18).blk t).view.set ↔ ∀ a : Fin 2, win0_18.index t a * S2000x64.size a ≤ (i a).val ∧ (i a).val < win0_18.index t a * S2000x64.size a + S2000x64.size a := by
  show i ∈ ((View.whole main_v11_2).slice (win0_18.rect t)).set ↔ _
  rw [View.set_slice_whole, Rect.mem_set_unit]
  exact Iff.rfl

/-- Row i₀ of the array lies in the block of grid point i₀ / 2000. -/
theorem cover18 (i : S50000x64.Idx) :
    ∃ t : Fin cfg0.N, (cfg0.win 18).flush t = true ∧ i ∈ ((cfg0.win 18).blk t).view.set := by
  have hi0 : (i 0).val < 50000 := idx2_lt0 i
  have hi1 : (i 1).val < 64 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨e0, e1⟩ := idx_18 t
  refine ⟨t, flush0_18 t, ?_⟩
  rw [mem_blk18]
  intro a
  match a with
  | ⟨0, _⟩ => show win0_18.index t (0 : Fin 2) * 2000 ≤ (i 0).val ∧ (i 0).val < win0_18.index t (0 : Fin 2) * 2000 + 2000; omega
  | ⟨1, _⟩ => show win0_18.index t (1 : Fin 2) * 64 ≤ (i 1).val ∧ (i 1).val < win0_18.index t (1 : Fin 2) * 64 + 64; omega

/-- Result 18 after the whole region. -/
theorem final0_18 (V : (c : Dev nD) → (b : Ref sig .tc) → Buf (Elt Ideal) ((c : Thread nD τ).loc b)) (c : Dev nD) :
    (dat0 (F := Ideal) V c).arrAt 18 cfg0.N = G0_18 (V c (Pipeline.arrRef spec0 0)) (V c (Pipeline.arrRef spec0 8)) (V c (Pipeline.arrRef spec0 9)) :=
  (dat0 (F := Ideal) V c).arrAt_eq_of_cover 18 (G0_18 (V c (Pipeline.arrRef spec0 0)) (V c (Pipeline.arrRef spec0 8)) (V c (Pipeline.arrRef spec0 9))) (fun t _ => flushed18_eq V c t) cover18

end Cert.KernelIdeal.Region0

end
-- ==== Proof.Region0Out19.lean ====
/- The node-level linear kernel (region 0), result window 19, from blocks to the array: each grid point writes back
   block t of the closed form `G0_19` (the block arithmetic read at an index, each input block's element read in
   its array); the 25 blocks of 2000 rows cover the 50000 rows; so after the region the result array IS `G0_19` of
   the arrays the region found. -/
import proofs.«163623_j1168231104593_2_alg».proof.Proof.Gen.KernelIdeal.Frame
import proofs.«163623_j1168231104593_2_alg».proof.Proof.Region0Spec
import proofs.«163623_j1168231104593_2_alg».proof.Proof.Region0Pay
import proofs.«163623_j1168231104593_2_alg».proof.Proof.Region0Blocks
import proofs.«163623_j1168231104593_2_alg».proof.Proof.Region0Reads
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx
open scoped BigOperators

/-! ## Result window 19 -/

/-- What grid point t writes back to result 19 is block t of `G0_19` of the arrays the region finds. -/
theorem flushed19_eq (V : (c : Dev nD) → (b : Ref sig .tc) → Buf (Elt Ideal) ((c : Thread nD τ).loc b)) (c : Dev nD) (t : Fin cfg0.N) :
    (dat0 (F := Ideal) V c).flushed 19 t = ((cfg0.win 19).blk t).view.read (Elt Ideal) (G0_19 (V c (Pipeline.arrRef spec0 0)) (V c (Pipeline.arrRef spec0 10)) (V c (Pipeline.arrRef spec0 11))) := by
  show (cfg0.win 19).cut (grid0.coords t) ((dat0 V c).after 19 t) = _
  rw [after0_19]
  unfold out0_19
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 64), j = ix2 r q := ⟨j 0, j 1, eq_ix2 j⟩
  show k0_pay2 (k0_pay5 (iblk0 V c 0 t)) (iblk0 V c 10 t) (iblk0 V c 11 t) (ix2 r q) = G0_19 _ _ _ (((cfg0.win 19).blk t).view.emb (ix2 r q))
  rw [emb_19 t r q]
  refine (pay19_apply (iblk0 V c 0 t) (iblk0 V c 10 t) (iblk0 V c 11 t) r q).trans ?_
  rw [G0_19_apply]
  simp only [iblk_0, iblk_10, iblk_11]

/-- An index of the array is in point t's block iff each coordinate is in the block's range on its axis. -/
theorem mem_blk19 (t : Fin cfg0.N) (i : S50000x64.Idx) :
    i ∈ ((cfg0.win 19).blk t).view.set ↔ ∀ a : Fin 2, win0_19.index t a * S2000x64.size a ≤ (i a).val ∧ (i a).val < win0_19.index t a * S2000x64.size a + S2000x64.size a := by
  show i ∈ ((View.whole main_v11_3).slice (win0_19.rect t)).set ↔ _
  rw [View.set_slice_whole, Rect.mem_set_unit]
  exact Iff.rfl

/-- Row i₀ of the array lies in the block of grid point i₀ / 2000. -/
theorem cover19 (i : S50000x64.Idx) :
    ∃ t : Fin cfg0.N, (cfg0.win 19).flush t = true ∧ i ∈ ((cfg0.win 19).blk t).view.set := by
  have hi0 : (i 0).val < 50000 := idx2_lt0 i
  have hi1 : (i 1).val < 64 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨e0, e1⟩ := idx_19 t
  refine ⟨t, flush0_19 t, ?_⟩
  rw [mem_blk19]
  intro a
  match a with
  | ⟨0, _⟩ => show win0_19.index t (0 : Fin 2) * 2000 ≤ (i 0).val ∧ (i 0).val < win0_19.index t (0 : Fin 2) * 2000 + 2000; omega
  | ⟨1, _⟩ => show win0_19.index t (1 : Fin 2) * 64 ≤ (i 1).val ∧ (i 1).val < win0_19.index t (1 : Fin 2) * 64 + 64; omega

/-- Result 19 after the whole region. -/
theorem final0_19 (V : (c : Dev nD) → (b : Ref sig .tc) → Buf (Elt Ideal) ((c : Thread nD τ).loc b)) (c : Dev nD) :
    (dat0 (F := Ideal) V c).arrAt 19 cfg0.N = G0_19 (V c (Pipeline.arrRef spec0 0)) (V c (Pipeline.arrRef spec0 10)) (V c (Pipeline.arrRef spec0 11)) :=
  (dat0 (F := Ideal) V c).arrAt_eq_of_cover 19 (G0_19 (V c (Pipeline.arrRef spec0 0)) (V c (Pipeline.arrRef spec0 10)) (V c (Pipeline.arrRef spec0 11))) (fun t _ => flushed19_eq V c t) cover19

end Cert.KernelIdeal.Region0

end
-- ==== Proof.Region0.lean ====
/- The node-level linear kernel (region 0): its four result arrays after the region, each as its closed form
   (`final0_16` … `final0_19`), gathered from the per-window modules. -/
import proofs.«163623_j1168231104593_2_alg».proof.Proof.Region0Out16
import proofs.«163623_j1168231104593_2_alg».proof.Proof.Region0Out17
import proofs.«163623_j1168231104593_2_alg».proof.Proof.Region0Out18
import proofs.«163623_j1168231104593_2_alg».proof.Proof.Region0Out19
-- ==== Proof.Region1Spec.lean ====
import proofs.«163623_j1168231104593_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

/-! ## The fused edge kernel's output, index by index

Row `r`, column `q` of the [500000, 64] output is
`(B1_src r q + B2_dst r q) + ((∑ k, e r k * B3_w k q) + B3_b 0 q)`: the edge features times the
[64, 64] weights, plus the bias row, added onto the sum of the two gathered node terms. -/

/-- The whole output array of the fused edge kernel as one function of its five input arrays. -/
def G1_5 (x0 : S500000x64.Idx → EReal) (x1 : S64x64.Idx → EReal) (x2 : S1x64.Idx → EReal)
    (x3 x4 : S500000x64.Idx → EReal) : S500000x64.Idx → EReal := fun i =>
  (x3 i + x4 i) + ((∑ k : Fin 64, x0 (ix2 (i 0) k) * x1 (ix2 k (i 1))) + x2 (ix2 (0 : Fin 1) (i 1)))

/-- `G1_5` at explicit coordinates. -/
theorem G1_5_ix2 (x0 : S500000x64.Idx → EReal) (x1 : S64x64.Idx → EReal) (x2 : S1x64.Idx → EReal)
    (x3 x4 : S500000x64.Idx → EReal) (r : Fin 500000) (q : Fin 64) :
    G1_5 x0 x1 x2 x3 x4 (ix2 r q)
      = (x3 (ix2 r q) + x4 (ix2 r q)) + ((∑ k : Fin 64, x0 (ix2 r k) * x1 (ix2 k q)) + x2 (ix2 (0 : Fin 1) q)) := rfl

/-! ## The body's payload at an index -/

/-- The block product with a zero accumulator, at row `p`, column `q`: the sum over the 64 contraction
    positions of the operands' products (the contraction index is its one coordinate). -/
theorem mm_at (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  refine (Ideal.matmul_constant_zero_apply dot_S4000x64_S64x64_S4000x64_1_0_0_1_n_n none l r (ix2 p q)).trans ?_
  refine ((Equiv.sum_comp (contrEquiv1 dot_S4000x64_S64x64_S4000x64_1_0_0_1_n_n 64 rfl rfl).symm _).symm).trans ?_
  refine Finset.sum_congr rfl fun k _ => ?_
  have hk := contrEquiv1_symm_val dot_S4000x64_S64x64_S4000x64_1_0_0_1_n_n 64 rfl rfl k
  congr 1
  · congr 1
    funext a
    apply Fin.ext
    match a with
    | ⟨0, _⟩ => rfl
    | ⟨1, _⟩ =>
      refine (dot_S4000x64_S64x64_S4000x64_1_0_0_1_n_n.lhsIdx_val_of_single (cl := (1 : Fin 2)) rfl (ix2 p q) _).trans ?_
      exact hk
  · congr 1
    funext a
    apply Fin.ext
    match a with
    | ⟨0, _⟩ =>
      refine (dot_S4000x64_S64x64_S4000x64_1_0_0_1_n_n.rhsIdx_val_of_single (cr := (0 : Fin 2)) rfl (ix2 p q) _).trans ?_
      exact hk
    | ⟨1, _⟩ => rfl

/-- The body's payload at row `p`, column `q` of the block: the two node-term blocks added, plus the block
    product of the edge block with the weights plus the bias row. The narrowing conversions are the identity
    on the extended reals, the shape casts are identities, the bias row is broadcast down the rows. -/
theorem pay_at (x0 : Vec Ideal S4000x64 .f32) (x1 : Vec Ideal S64x64 .f32) (x2 : Vec Ideal S1x64 .f32)
    (x3 x4 : Vec Ideal S4000x64 .f32) (p : Fin 4000) (q : Fin 64) :
    k1_pay1 (F := Ideal) x0 x1 x2 x3 x4 (ix2 p q)
      = (x3 (ix2 p q) + x4 (ix2 p q)) + ((∑ k : Fin 64, x0 (ix2 p k) * x1 (ix2 k q)) + x2 (ix2 (0 : Fin 1) q)) := by
  unfold k1_pay1
  rw [addf_apply, addf_apply, addf_apply, shapeCast_self, shapeCast_self, shapeCast_self]
  refine congrArg (x3 (ix2 p q) + x4 (ix2 p q) + ·) ?_
  refine congrArg₂ (· + ·) ?_ ?_
  · exact mm_at _ _ p q
  · exact broadcastTo_1b_ab_apply x2 broadcasts_S1x64_S4000x64 p q

/-! ## From blocks to the array -/

/-- The whole-block access's offsets are zero. -/
theorem hz : (![0, 0] : Fin 2 → Nat) = fun _ => 0 := funext fun a => by fin_cases a <;> rfl

/-- The index maps over the 125 grid points: the row windows' block at point `t` is block `(t, 0)`, the
    weights' and the bias' is always block `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Window 0's block at point `t` is rows `4000 t … 4000 t + 3999` of its array. -/
theorem iblk_0_apply (c : Dev nD) (t : Fin cfg1.N) (x : S4000x64.Idx) (k : S500000x64.Idx)
    (hk0 : (k 0).val = t.val * 4000 + (x 0).val) (hk1 : (k 1).val = (x 1).val) :
    (iblk1 (F := Ideal) V c 0 t : Vec Ideal S4000x64 .f32) x = (V c (Pipeline.arrRef spec1 0) : S500000x64.Idx → EReal) k := by
  obtain ⟨e0, e1, -⟩ := index_facts t
  unfold iblk1
  rw [View.read_apply]
  show (V c (Pipeline.arrRef spec1 0) : S500000x64.Idx → EReal) _ = _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- Window 1's block at every point is the whole weights array. -/
theorem iblk_1_apply (c : Dev nD) (t : Fin cfg1.N) (x : S64x64.Idx) :
    (iblk1 (F := Ideal) V c 1 t : Vec Ideal S64x64 .f32) x = (V c (Pipeline.arrRef spec1 1) : S64x64.Idx → EReal) x := by
  obtain ⟨-, -, e0, e1, -⟩ := index_facts t
  unfold iblk1
  rw [View.read_apply]
  show (V c (Pipeline.arrRef spec1 1) : S64x64.Idx → EReal) _ = _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- Window 2's block at every point is the whole bias row. -/
theorem iblk_2_apply (c : Dev nD) (t : Fin cfg1.N) (x : S1x64.Idx) :
    (iblk1 (F := Ideal) V c 2 t : Vec Ideal S1x64 .f32) x = (V c (Pipeline.arrRef spec1 2) : S1x64.Idx → EReal) x := by
  obtain ⟨-, -, -, -, e0, e1, -⟩ := index_facts t
  unfold iblk1
  rw [View.read_apply]
  show (V c (Pipeline.arrRef spec1 2) : S1x64.Idx → EReal) _ = _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- Window 3's block at point `t` is rows `4000 t … 4000 t + 3999` of its array. -/
theorem iblk_3_apply (c : Dev nD) (t : Fin cfg1.N) (x : S4000x64.Idx) (k : S500000x64.Idx)
    (hk0 : (k 0).val = t.val * 4000 + (x 0).val) (hk1 : (k 1).val = (x 1).val) :
    (iblk1 (F := Ideal) V c 3 t : Vec Ideal S4000x64 .f32) x = (V c (Pipeline.arrRef spec1 3) : S500000x64.Idx → EReal) k := by
  obtain ⟨-, -, -, -, -, -, e0, e1, -⟩ := index_facts t
  unfold iblk1
  rw [View.read_apply]
  show (V c (Pipeline.arrRef spec1 3) : S500000x64.Idx → EReal) _ = _
  congr 1
  funext a
  apply Fin.ext
  match a with
  | ⟨0, _⟩ => show win1_3.index t (0 : Fin 2) * 4000 + 1 * (x 0).val = (k 0).val; rw [e0, hk0]; omega
  | ⟨1, _⟩ => show win1_3.index t (1 : Fin 2) * 64 + 1 * (x 1).val = (k 1).val; rw [e1, hk1]; omega

/-- Window 4's block at point `t` is rows `4000 t … 4000 t + 3999` of its array. -/
theorem iblk_4_apply (c : Dev nD) (t : Fin cfg1.N) (x : S4000x64.Idx) (k : S500000x64.Idx)
    (hk0 : (k 0).val = t.val * 4000 + (x 0).val) (hk1 : (k 1).val = (x 1).val) :
    (iblk1 (F := Ideal) V c 4 t : Vec Ideal S4000x64 .f32) x = (V c (Pipeline.arrRef spec1 4) : S500000x64.Idx → EReal) k := by
  obtain ⟨-, -, -, -, -, -, -, -, e0, e1, -⟩ := index_facts t
  unfold iblk1
  rw [View.read_apply]
  show (V c (Pipeline.arrRef spec1 4) : S500000x64.Idx → EReal) _ = _
  congr 1
  funext a
  apply Fin.ext
  match a with
  | ⟨0, _⟩ => show win1_4.index t (0 : Fin 2) * 4000 + 1 * (x 0).val = (k 0).val; rw [e0, hk0]; omega
  | ⟨1, _⟩ => show win1_4.index t (1 : Fin 2) * 64 + 1 * (x 1).val = (k 1).val; rw [e1, hk1]; omega

end Cert.KernelIdeal.Region1

end
-- ==== Proof.Region1.lean ====
import proofs.«163623_j1168231104593_2_alg».proof.Proof.Region1Spec

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

/-- The per-point equation over blocks and arrays as plain functions: if the five blocks are the stated rows of
    five arrays (block row `x 0` is array row `4000 b + x 0` for the three row windows; the weights and the bias
    whole), the payload at block index `j` is `G1_5` of the arrays at row `4000 b + j 0`, column `j 1`. -/
theorem point_eq_of_blocks (A0 : S500000x64.Idx → EReal) (A1 : S64x64.Idx → EReal) (A2 : S1x64.Idx → EReal)
    (A3 A4 : S500000x64.Idx → EReal)
    (x0 : Vec Ideal S4000x64 .f32) (x1 : Vec Ideal S64x64 .f32) (x2 : Vec Ideal S1x64 .f32) (x3 x4 : Vec Ideal S4000x64 .f32)
    (b : Nat)
    (h0 : ∀ (x : S4000x64.Idx) (k : S500000x64.Idx), (k 0).val = b * 4000 + (x 0).val → (k 1).val = (x 1).val → x0 x = A0 k)
    (h1 : ∀ x : S64x64.Idx, x1 x = A1 x) (h2 : ∀ x : S1x64.Idx, x2 x = A2 x)
    (h3 : ∀ (x : S4000x64.Idx) (k : S500000x64.Idx), (k 0).val = b * 4000 + (x 0).val → (k 1).val = (x 1).val → x3 x = A3 k)
    (h4 : ∀ (x : S4000x64.Idx) (k : S500000x64.Idx), (k 0).val = b * 4000 + (x 0).val → (k 1).val = (x 1).val → x4 x = A4 k)
    (j : S4000x64.Idx) (i : S500000x64.Idx) (hi0 : (i 0).val = b * 4000 + (j 0).val) (hi1 : (i 1).val = (j 1).val) :
    k1_pay1 (F := Ideal) x0 x1 x2 x3 x4 j = G1_5 A0 A1 A2 A3 A4 i := by
  obtain ⟨p, q, rfl⟩ : ∃ (p : Fin 4000) (q : Fin 64), j = ix2 p q := ⟨j 0, j 1, eq_ix2 j⟩
  obtain ⟨r, s, rfl⟩ : ∃ (r : Fin 500000) (s : Fin 64), i = ix2 r s := ⟨i 0, i 1, eq_ix2 i⟩
  have hr : r.val = b * 4000 + p.val := hi0
  obtain rfl : s = q := Fin.ext hi1
  rw [pay_at, G1_5_ix2, h3 (ix2 p s) (ix2 r s) hr rfl, h4 (ix2 p s) (ix2 r s) hr rfl, h2 (ix2 (0 : Fin 1) s)]
  have hsum : (∑ k : Fin 64, x0 (ix2 p k) * x1 (ix2 k s)) = ∑ k : Fin 64, A0 (ix2 r k) * A1 (ix2 k s) :=
    Finset.sum_congr rfl fun k _ => by rw [h0 (ix2 p k) (ix2 r k) hr rfl, h1 (ix2 k s)]
  rw [hsum]

variable (V : (c : Dev nD) → (b : Ref sig .tc) → Buf (Elt Ideal) ((c : Thread nD τ).loc b))

/-- The body's result at block index `j` of point `t` is `G1_5` of the arrays at the array index `i` in row
    `4000 t + j 0`, column `j 1`. -/
theorem point_eq (c : Dev nD) (t : Fin cfg1.N) (j : S4000x64.Idx) (i : S500000x64.Idx)
    (hi0 : (i 0).val = t.val * 4000 + (j 0).val) (hi1 : (i 1).val = (j 1).val) :
    k1_pay1 (F := Ideal) (iblk1 V c 0 t) (iblk1 V c 1 t) (iblk1 V c 2 t) (iblk1 V c 3 t) (iblk1 V c 4 t) j
      = G1_5 (V c (Pipeline.arrRef spec1 0)) (V c (Pipeline.arrRef spec1 1)) (V c (Pipeline.arrRef spec1 2))
          (V c (Pipeline.arrRef spec1 3)) (V c (Pipeline.arrRef spec1 4)) i :=
  point_eq_of_blocks (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val
    (iblk_0_apply V c t) (iblk_1_apply V c t) (iblk_2_apply V c t) (iblk_3_apply V c t) (iblk_4_apply V c t)
    j i hi0 hi1

/-- What point `t` writes back is block `t` of `G1_5` of the arrays as the region finds them. -/
theorem flushed_eq (c : Dev nD) (t : Fin cfg1.N) :
    (dat1 (F := Ideal) V c).flushed 5 t
      = ((cfg1.win 5).blk t).view.read (Elt Ideal)
          (G1_5 (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  obtain ⟨-, -, -, -, -, -, -, -, -, -, e0, e1⟩ := index_facts t
  funext j
  show k1_pay1 (F := Ideal) (iblk1 V c 0 t) (iblk1 V c 1 t) (iblk1 V c 2 t) (iblk1 V c 3 t) (iblk1 V c 4 t) j
    = G1_5 (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  refine point_eq V c t j _ ?_ ?_
  · show win1_5.index t (0 : Fin 2) * 4000 + 1 * (j 0).val = t.val * 4000 + (j 0).val; rw [e0]; omega
  · show win1_5.index t (1 : Fin 2) * 64 + 1 * (j 1).val = (j 1).val; rw [e1]; omega

/-- An index of the array is in point `t`'s block iff each coordinate is in the block's range on its axis. -/
theorem mem_blk (t : Fin cfg1.N) (i : S500000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v26).slice (win1_5.rect t)).set ↔ _
  rw [View.set_slice_whole, Rect.mem_set_unit]
  exact Iff.rfl

/-- Row `r` of the array is in the block of point `r / 4000`: the 125 blocks of 4000 rows tile the 500000 rows. -/
theorem cover (i : S500000x64.Idx) :
    ∃ t : Fin cfg1.N, (cfg1.win 5).flush t = true ∧ i ∈ ((cfg1.win 5).blk t).view.set := by
  have hi0 : (i 0).val < 500000 := idx2_lt0 i
  have hi1 : (i 1).val < 64 := idx2_lt1 i
  have hN : cfg1.N = 125 := N_1
  let t : Fin cfg1.N := ⟨(i 0).val / 4000, by rw [hN]; omega⟩
  obtain ⟨-, -, -, -, -, -, -, -, -, -, e0, e1⟩ := index_facts t
  have ht : t.val = (i 0).val / 4000 := rfl
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 64 ≤ (i 1).val ∧ (i 1).val < win1_5.index t (1 : Fin 2) * 64 + 64
    rw [e1]; omega

/-- THE ARRAY after the region: `G1_5` of the five input arrays as the region finds them. -/
theorem final1_5 (c : Dev nD) :
    (dat1 (F := Ideal) V c).arrAt 5 cfg1.N
      = G1_5 (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq V c t) cover

end Cert.KernelIdeal.Region1

end
-- ==== Proof.Region2.lean ====
import proofs.«163623_j1168231104593_2_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Region2

open Cert.KernelIdeal Cert.KernelIdeal.Gen
open Idealize.ShloMosaic Idealize.ShloMosaic.TcCoe Idealize.SL.Sem
open Idealize.ShloMosaic.ValueIdx
open Idealize.ShloMosaic.Pipeline (Dat)

/-! ## The edge gate kernel's output, index by index

Row `r`, column `q` of the [500000, 128] output is `eta r (q mod 64) * ac r q`, where
`eta r k = logistic (hat r k) / (sumsig r k + ε)`: the two 64-wide halves of `ac` are both
scaled by the same [500000, 64] gate. -/

/-- The normalised gate at row `r`, column `k`: `logistic (hat r k) / (sumsig r k + ε)`,
    with `ε` the float32 word `0x358637BD`. -/
def eta (hat sumsig : S500000x64.Idx → EReal) (r : Fin 500000) (k : Fin 64) : EReal :=
  Ideal.div (Ideal.logistic (hat (ix2 r k))) (sumsig (ix2 r k) + Ideal.ofBits .f32 0x358637BD#32)

/-- The whole output array of the edge gate kernel as one function of its three input arrays. -/
def G2_3 (x0 x1 : S500000x64.Idx → EReal) (x2 : S500000x128.Idx → EReal) : S500000x128.Idx → EReal := fun i =>
  if h : (i 1).val < 64 then eta x0 x1 (i 0) ⟨(i 1).val, h⟩ * x2 i
  else eta x0 x1 (i 0) ⟨(i 1).val - 64, by have := idx2_lt1 i; omega⟩ * x2 i

/-- `G2_3` at explicit coordinates. -/
theorem G2_3_ix2 (x0 x1 : S500000x64.Idx → EReal) (x2 : S500000x128.Idx → EReal) (r : Fin 500000) (q : Fin 128) :
    G2_3 x0 x1 x2 (ix2 r q)
      = if h : q.val < 64 then eta x0 x1 r ⟨q.val, h⟩ * x2 (ix2 r q)
        else eta x0 x1 r ⟨q.val - 64, by omega⟩ * x2 (ix2 r q) := rfl

/-! ## The body's payload at an index -/

/-- The body's payload at row `p`, column `q` of the block: the gate at column `q` (first half) or
    `q - 64` (second half), times the `ac` block's entry at `(p, q)`. The two slices and the
    concatenation along the columns are read at the index; the shape casts are identities. -/
theorem pay_at (x0 x1 : Vec Ideal S4000x64 .f32) (x2 : Vec Ideal S4000x128 .f32) (p : Fin 4000) (q : Fin 128) :
    k2_pay1 (F := Ideal) x0 x1 x2 (ix2 p q)
      = if h : q.val < 64 then
          Ideal.div (Ideal.logistic (x0 (ix2 p ⟨q.val, h⟩))) (x1 (ix2 p ⟨q.val, h⟩) + Ideal.ofBits .f32 0x358637BD#32) * x2 (ix2 p q)
        else
          Ideal.div (Ideal.logistic (x0 (ix2 p ⟨q.val - 64, by omega⟩))) (x1 (ix2 p ⟨q.val - 64, by omega⟩) + Ideal.ofBits .f32 0x358637BD#32) * x2 (ix2 p q) := by
  unfold k2_pay1
  by_cases h : q.val < 64
  · rw [dif_pos h]
    refine (concatenate_pair_apply_left (t := S4000x128) (s₁ := S4000x64) (s₂ := S4000x64) (1 : Fin 2) _ _ _ (ix2 p q) rfl (ix2 p (⟨q.val, h⟩ : Fin 64) : S4000x64.Idx) ?_).trans ?_
    · intro b; match b with
      | ⟨0, _⟩ => rfl
      | ⟨1, _⟩ => rfl
    · rw [mulf_apply, divf_apply, addf_apply, broadcast_apply, shapeCast_self, shapeCast_self, shapeCast_self,
        extractStridedSlice_apply ![0, 0] x2 slices_S4000x128_o0_0_S4000x64 (ix2 p (⟨q.val, h⟩ : Fin 64)) (ix2 p q)
          (fun a => by match a with
            | ⟨0, _⟩ => show p.val = 0 + p.val; omega
            | ⟨1, _⟩ => show q.val = 0 + q.val; omega)]
      rfl
  · rw [dif_neg h]
    refine (concatenate_pair_apply_right (t := S4000x128) (s₁ := S4000x64) (s₂ := S4000x64) (1 : Fin 2) _ _ _ (ix2 p q) rfl rfl (ix2 p (⟨q.val - 64, by omega⟩ : Fin 64) : S4000x64.Idx) ?_ ?_).trans ?_
    · intro b hb; match b with
      | ⟨0, _⟩ => rfl
      | ⟨1, _⟩ => exact absurd rfl hb
    · show (q.val - 64) + 64 = q.val; omega
    · rw [mulf_apply, divf_apply, addf_apply, broadcast_apply, shapeCast_self, shapeCast_self, shapeCast_self,
        extractStridedSlice_apply ![0, 64] x2 slices_S4000x128_o0_64_S4000x64 (ix2 p (⟨q.val - 64, by omega⟩ : Fin 64)) (ix2 p q)
          (fun a => by match a with
            | ⟨0, _⟩ => show p.val = 0 + p.val; omega
            | ⟨1, _⟩ => show q.val = 64 + (q.val - 64); omega)]
      rfl

/-! ## From blocks to the array -/

/-- The whole-block access's offsets are zero. -/
theorem hz : (![0, 0] : Fin 2 → Nat) = fun _ => 0 := funext fun a => by fin_cases a <;> rfl

/-- The index maps over the 125 grid points: every window's block at point `t` is block `(t, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Window 0's block at point `t` is rows `4000 t … 4000 t + 3999` of its array. -/
theorem iblk_0_apply (c : Dev nD) (t : Fin cfg2.N) (x : S4000x64.Idx) (k : S500000x64.Idx)
    (hk0 : (k 0).val = t.val * 4000 + (x 0).val) (hk1 : (k 1).val = (x 1).val) :
    (iblk2 (F := Ideal) V c 0 t : Vec Ideal S4000x64 .f32) x = (V c (Pipeline.arrRef spec2 0) : S500000x64.Idx → EReal) k := by
  obtain ⟨e0, e1, -⟩ := index_facts t
  unfold iblk2
  rw [View.read_apply]
  show (V c (Pipeline.arrRef spec2 0) : S500000x64.Idx → EReal) _ = _
  congr 1
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 64 + 1 * (x 1).val = (k 1).val; rw [e1, hk1]; omega

/-- Window 1's block at point `t` is rows `4000 t … 4000 t + 3999` of its array. -/
theorem iblk_1_apply (c : Dev nD) (t : Fin cfg2.N) (x : S4000x64.Idx) (k : S500000x64.Idx)
    (hk0 : (k 0).val = t.val * 4000 + (x 0).val) (hk1 : (k 1).val = (x 1).val) :
    (iblk2 (F := Ideal) V c 1 t : Vec Ideal S4000x64 .f32) x = (V c (Pipeline.arrRef spec2 1) : S500000x64.Idx → EReal) k := by
  obtain ⟨-, -, e0, e1, -⟩ := index_facts t
  unfold iblk2
  rw [View.read_apply]
  show (V c (Pipeline.arrRef spec2 1) : S500000x64.Idx → EReal) _ = _
  congr 1
  funext a
  apply Fin.ext
  match a with
  | ⟨0, _⟩ => show win2_1.index t (0 : Fin 2) * 4000 + 1 * (x 0).val = (k 0).val; rw [e0, hk0]; omega
  | ⟨1, _⟩ => show win2_1.index t (1 : Fin 2) * 64 + 1 * (x 1).val = (k 1).val; rw [e1, hk1]; omega

/-- Window 2's block at point `t` is rows `4000 t … 4000 t + 3999` of its array. -/
theorem iblk_2_apply (c : Dev nD) (t : Fin cfg2.N) (x : S4000x128.Idx) (k : S500000x128.Idx)
    (hk0 : (k 0).val = t.val * 4000 + (x 0).val) (hk1 : (k 1).val = (x 1).val) :
    (iblk2 (F := Ideal) V c 2 t : Vec Ideal S4000x128 .f32) x = (V c (Pipeline.arrRef spec2 2) : S500000x128.Idx → EReal) k := by
  obtain ⟨-, -, -, -, e0, e1, -⟩ := index_facts t
  unfold iblk2
  rw [View.read_apply]
  show (V c (Pipeline.arrRef spec2 2) : S500000x128.Idx → EReal) _ = _
  congr 1
  funext a
  apply Fin.ext
  match a with
  | ⟨0, _⟩ => show win2_2.index t (0 : Fin 2) * 4000 + 1 * (x 0).val = (k 0).val; rw [e0, hk0]; omega
  | ⟨1, _⟩ => show win2_2.index t (1 : Fin 2) * 128 + 1 * (x 1).val = (k 1).val; rw [e1, hk1]; omega

/-- The body's result at block index `j` of point `t` is `G2_3` of the arrays at the array index `i` in row
    `4000 t + j 0`, column `j 1`. -/
theorem point_eq (c : Dev nD) (t : Fin cfg2.N) (j : S4000x128.Idx) (i : S500000x128.Idx)
    (hi0 : (i 0).val = t.val * 4000 + (j 0).val) (hi1 : (i 1).val = (j 1).val) :
    k2_pay1 (F := Ideal) (iblk2 V c 0 t) (iblk2 V c 1 t) (iblk2 V c 2 t) j
      = G2_3 (V c (Pipeline.arrRef spec2 0)) (V c (Pipeline.arrRef spec2 1)) (V c (Pipeline.arrRef spec2 2)) i := by
  obtain ⟨p, q, rfl⟩ : ∃ (p : Fin 4000) (q : Fin 128), j = ix2 p q := ⟨j 0, j 1, eq_ix2 j⟩
  obtain ⟨r, s, rfl⟩ : ∃ (r : Fin 500000) (s : Fin 128), i = ix2 r s := ⟨i 0, i 1, eq_ix2 i⟩
  have hr : r.val = t.val * 4000 + p.val := hi0
  obtain rfl : s = q := Fin.ext hi1
  refine (pay_at (iblk2 V c 0 t) (iblk2 V c 1 t) (iblk2 V c 2 t) p s).trans ?_
  rw [G2_3_ix2]
  by_cases h : s.val < 64
  · rw [dif_pos h, dif_pos h]
    unfold eta
    rw [iblk_0_apply V c t (ix2 p ⟨s.val, h⟩) (ix2 r ⟨s.val, h⟩) hr rfl,
      iblk_1_apply V c t (ix2 p ⟨s.val, h⟩) (ix2 r ⟨s.val, h⟩) hr rfl,
      iblk_2_apply V c t (ix2 p s) (ix2 r s) hr rfl]
  · rw [dif_neg h, dif_neg h]
    unfold eta
    rw [iblk_0_apply V c t (ix2 p ⟨s.val - 64, by omega⟩) (ix2 r ⟨s.val - 64, by omega⟩) hr rfl,
      iblk_1_apply V c t (ix2 p ⟨s.val - 64, by omega⟩) (ix2 r ⟨s.val - 64, by omega⟩) hr rfl,
      iblk_2_apply V c t (ix2 p s) (ix2 r s) hr rfl]

/-- What point `t` writes back is block `t` of `G2_3` of the arrays as the region finds them. -/
theorem flushed_eq (c : Dev nD) (t : Fin cfg2.N) :
    (dat2 (F := Ideal) V c).flushed 3 t
      = ((cfg2.win 3).blk t).view.read (Elt Ideal)
          (G2_3 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S4000x64) hz, View.ld_unit_zero (S := S4000x128) hz]
  obtain ⟨-, -, -, -, -, -, e0, e1⟩ := index_facts t
  funext j
  show k2_pay1 (F := Ideal) (iblk2 V c 0 t) (iblk2 V c 1 t) (iblk2 V c 2 t) j
    = G2_3 (V c (Pipeline.arrRef spec2 0)) (V c (Pipeline.arrRef spec2 1)) (V c (Pipeline.arrRef spec2 2))
        (((cfg2.win 3).blk t).view.emb j)
  refine point_eq V c t j _ ?_ ?_
  · show win2_3.index t (0 : Fin 2) * 4000 + 1 * (j 0).val = t.val * 4000 + (j 0).val; rw [e0]; omega
  · show win2_3.index t (1 : Fin 2) * 128 + 1 * (j 1).val = (j 1).val; rw [e1]; omega

/-- An index of the array is in point `t`'s block iff each coordinate is in the block's range on its axis. -/
theorem mem_blk (t : Fin cfg2.N) (i : S500000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v50).slice (win2_3.rect t)).set ↔ _
  rw [View.set_slice_whole, Rect.mem_set_unit]
  exact Iff.rfl

/-- Row `r` of the array is in the block of point `r / 4000`: the 125 blocks of 4000 rows tile the 500000 rows. -/
theorem cover (i : S500000x128.Idx) :
    ∃ t : Fin cfg2.N, (cfg2.win 3).flush t = true ∧ i ∈ ((cfg2.win 3).blk t).view.set := by
  have hi0 : (i 0).val < 500000 := idx2_lt0 i
  have hi1 : (i 1).val < 128 := idx2_lt1 i
  have hN : cfg2.N = 125 := N_2
  let t : Fin cfg2.N := ⟨(i 0).val / 4000, by rw [hN]; omega⟩
  obtain ⟨-, -, -, -, -, -, e0, e1⟩ := index_facts t
  have ht : t.val = (i 0).val / 4000 := rfl
  refine ⟨t, flush2_3 t, ?_⟩
  rw [mem_blk]
  intro a
  match a with
  | ⟨0, _⟩ =>
    show win2_3.index t (0 : Fin 2) * 4000 ≤ (i 0).val ∧ (i 0).val < win2_3.index t (0 : Fin 2) * 4000 + 4000
    rw [e0, ht]; omega
  | ⟨1, _⟩ =>
    show win2_3.index t (1 : Fin 2) * 128 ≤ (i 1).val ∧ (i 1).val < win2_3.index t (1 : Fin 2) * 128 + 128
    rw [e1]; omega

/-- THE ARRAY after the region: `G2_3` of the three input arrays as the region finds them. -/
theorem final2_3 (c : Dev nD) :
    (dat2 (F := Ideal) V c).arrAt 3 cfg2.N
      = G2_3 (V c (Pipeline.arrRef spec2 0)) (V c (Pipeline.arrRef spec2 1)) (V c (Pipeline.arrRef spec2 2)) :=
  (dat2 (F := Ideal) V c).arrAt_eq_of_cover 3 _ (fun t _ => flushed_eq V c t) cover

end Cert.KernelIdeal.Region2

end
-- ==== Proof.RefSpec.lean ====
import proofs.«163623_j1168231104593_2_alg».proof.ReferenceIdeal

/-!
The reference function's named intermediate arrays, each as a pure function of the argument arrays:
every definition is the composition of exactly the pure operations the reference's statements apply, in the
statements' own spelling.  Naming of the arguments: `h` (node features), `p` (positional features), `e` (edge
features), `src`/`dst` (edge end points), then weight/bias pairs `WA1 bA1`, `WA2 bA2` (dense layers on `[h|p]`),
`WB1 bB1`, `WB2 bB2` (dense layers on `h`), `WB3 bB3` (dense layer on `e`), `WC1 bC1`, `WC2 bC2` (dense layers on `p`),
and the normalisation scales and shifts `gH bH`, `gE bE`.
-/

noncomputable section

namespace Cert.ReferenceIdeal.RefSpec

open Cert.ReferenceIdeal Idealize.ShloMosaic Idealize.ShloMosaic.TcCoe Idealize.SL.Sem
open Cert.ReferenceIdeal.Facts₀ Cert.ReferenceIdeal.Facts

variable {F : FTy → Type} [FloatOps F] [Facts]

/-! ## Small building blocks -/

/-- A length-64 vector as a [50000,64] array constant along the rows (the two broadcasts of a bias). -/
def rows50 (b : FVec F S64 .f32) : FVec F S50000x64 .f32 :=
  broadcastInDim S50000x64 ![0, 1] bcast_S1x64_S50000x64_0_1 (broadcastInDim S1x64 ![1] bcast_S64_S1x64_1 b)

/-- A length-64 vector as a [500000,64] array constant along the rows. -/
def rows500 (b : FVec F S64 .f32) : FVec F S500000x64 .f32 :=
  broadcastInDim S500000x64 ![0, 1] bcast_S1x64_S500000x64_0_1 (broadcastInDim S1x64 ![1] bcast_S64_S1x64_1 b)

/-- The dense layer x · W + b on the rows of a [50000,64] array. -/
def lin50 (x : FVec F S50000x64 .f32) (W : FVec F S64x64 .f32) (b : FVec F S64 .f32) : FVec F S50000x64 .f32 :=
  addf (Host.dotGeneral dot_S50000x64_S64x64_S50000x64_1_0_0_1_n_n none x W) (rows50 b)

/-- The dense layer x · W + b on the rows of a [50000,128] array. -/
def lin50w (x : FVec F S50000x128 .f32) (W : FVec F S128x64 .f32) (b : FVec F S64 .f32) : FVec F S50000x64 .f32 :=
  addf (Host.dotGeneral dot_S50000x128_S128x64_S50000x64_1_0_0_1_n_n none x W) (rows50 b)

/-- The dense layer x · W + b on the rows of a [500000,64] array. -/
def lin500 (x : FVec F S500000x64 .f32) (W : FVec F S64x64 .f32) (b : FVec F S64 .f32) : FVec F S500000x64 .f32 :=
  addf (Host.dotGeneral dot_S500000x64_S64x64_S500000x64_1_0_0_1_n_n none x W) (rows500 b)

/-- The row index a gather reads (%34 for src, %41/%59 for dst, %69/%81 for src): an index below zero
    counted from the end (s < 0 ? s + 50000 : s), as a [500000,1] column. -/
def rowIdx (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- The row index a scatter writes (%52, %73, %85): the index vector itself, as a [500000,1] column. -/
def colIdx (s : IVec S500000 32) : IVec S500000x1 32 :=
  broadcastInDim S500000x1 ![0] bcast_S500000_S500000x1_0 s

/-- Rows of a [50000,64] array read at the edges' end points s (a gather). -/
def take (x : FVec F S50000x64 .f32) (s : IVec S500000 32) : FVec F S500000x64 .f32 :=
  Host.gather gather_S50000x64_S500000x1_S500000x64_1_0_n_n_0_1_164 x (rowIdx s)

/-- Edge rows summed into the node rows named by s, from zero (a scatter-add). -/
def segSum (s : IVec S500000 32) (u : FVec F S500000x64 .f32) : FVec F S50000x64 .f32 :=
  Host.scatterAdd scatter_S50000x64_S500000x1_S500000x64_1_0_0_1
    (broadcastInDim S50000x64 ![] bcast_S_S50000x64 (constant S_ .f32 0x00000000#32)) (colIdx s) u

/-! ## The linear maps (%0 … %28) -/

/-- %0: h and p side by side, [50000,128]. -/
def hp (h p : FVec F S50000x64 .f32) : FVec F S50000x128 .f32 :=
  concatenate S50000x128 1 [⟨S50000x64, h⟩, ⟨S50000x64, p⟩] concatenates_S50000x64_S50000x64_S50000x128_d1

/-- %4 = [h|p] · WA1 + bA1. -/
def A1h (h p : FVec F S50000x64 .f32) (WA1 : FVec F S128x64 .f32) (bA1 : FVec F S64 .f32) : FVec F S50000x64 .f32 :=
  lin50w (hp h p) WA1 bA1

/-- %8 = [h|p] · WA2 + bA2. -/
def A2hp (h p : FVec F S50000x64 .f32) (WA2 : FVec F S128x64 .f32) (bA2 : FVec F S64 .f32) : FVec F S50000x64 .f32 :=
  lin50w (hp h p) WA2 bA2

/-- %12 = h · WB1 + bB1. -/
def B1h (h : FVec F S50000x64 .f32) (WB1 : FVec F S64x64 .f32) (bB1 : FVec F S64 .f32) : FVec F S50000x64 .f32 :=
  lin50 h WB1 bB1

/-- %16 = h · WB2 + bB2. -/
def B2h (h : FVec F S50000x64 .f32) (WB2 : FVec F S64x64 .f32) (bB2 : FVec F S64 .f32) : FVec F S50000x64 .f32 :=
  lin50 h WB2 bB2

/-- %20 = p · WC1 + bC1. -/
def C1p (p : FVec F S50000x64 .f32) (WC1 : FVec F S64x64 .f32) (bC1 : FVec F S64 .f32) : FVec F S50000x64 .f32 :=
  lin50 p WC1 bC1

/-- %24 = p · WC2 + bC2. -/
def C2p (p : FVec F S50000x64 .f32) (WC2 : FVec F S64x64 .f32) (bC2 : FVec F S64 .f32) : FVec F S50000x64 .f32 :=
  lin50 p WC2 bC2

/-- %28 = e · WB3 + bB3. -/
def B3e (e : FVec F S500000x64 .f32) (WB3 : FVec F S64x64 .f32) (bB3 : FVec F S64 .f32) : FVec F S500000x64 .f32 :=
  lin500 e WB3 bB3

/-! ## The gates (%44 … %63) -/

/-- %44: the edge pre-activation B1h[src] + B2h[dst] + B3e. -/
def hatEta (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) : FVec F S500000x64 .f32 :=
  addf (addf (take (B1h h WB1 bB1) src) (take (B2h h WB2 bB2) dst)) (B3e e WB3 bB3)

/-- The logistic function of an edge array, as the reference spells it: 1 / (1 + exp (−x)). -/
def logistic (x : FVec F S500000x64 .f32) : FVec F S500000x64 .f32 :=
  Host.divf (broadcastInDim S500000x64 ![] bcast_S_S500000x64 (constant S_ .f32 0x3F800000#32))
    (addf (broadcastInDim S500000x64 ![] bcast_S_S500000x64 (constant S_ .f32 0x3F800000#32)) (Host.exp (Host.negf x)))

/-- %50: the gate σ(hatEta). -/
def sigma (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) : FVec F S500000x64 .f32 :=
  logistic (hatEta h e src dst WB1 bB1 WB2 bB2 WB3 bB3)

/-- %53: the gates summed over the edges that end at each node. -/
def sumSigma (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) : FVec F S50000x64 .f32 :=
  segSum dst (sigma h e src dst WB1 bB1 WB2 bB2 WB3 bB3)

/-- %63: the normalised gate σ / (sumSigma[dst] + 1e-6). -/
def eta (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) : FVec F S500000x64 .f32 :=
  Host.divf (sigma h e src dst WB1 bB1 WB2 bB2 WB3 bB3)
    (addf (take (sumSigma h e src dst WB1 bB1 WB2 bB2 WB3 bB3) dst)
      (broadcastInDim S500000x64 ![] bcast_S_S500000x64 (constant S_ .f32 0x358637BD#32)))

/-! ## The node update (%71 … %75) and the positional update (%83 … %87) -/

/-- %71: the gated message η ⊙ A2hp[src]. -/
def etaV (h p : FVec F S50000x64 .f32) (e : FVec F S500000x64 .f32) (src dst : IVec S500000 32)
    (WA2 : FVec F S128x64 .f32) (bA2 : FVec F S64 .f32)
    (WB1 : FVec F S64x64 .f32) (bB1 : FVec F S64 .f32) (WB2 : FVec F S64x64 .f32) (bB2 : FVec F S64 .f32)
    (WB3 : FVec F S64x64 .f32) (bB3 : FVec F S64 .f32) : FVec F S500000x64 .f32 :=
  mulf (eta h e src dst WB1 bB1 WB2 bB2 WB3 bB3) (take (A2hp h p WA2 bA2) src)

/-- %74: the gated messages summed over the edges that end at each node. -/
def sumEtaV (h p : FVec F S50000x64 .f32) (e : FVec F S500000x64 .f32) (src dst : IVec S500000 32)
    (WA2 : FVec F S128x64 .f32) (bA2 : FVec F S64 .f32)
    (WB1 : FVec F S64x64 .f32) (bB1 : FVec F S64 .f32) (WB2 : FVec F S64x64 .f32) (bB2 : FVec F S64 .f32)
    (WB3 : FVec F S64x64 .f32) (bB3 : FVec F S64 .f32) : FVec F S50000x64 .f32 :=
  segSum dst (etaV h p e src dst WA2 bA2 WB1 bB1 WB2 bB2 WB3 bB3)

/-- %75 = A1h + sumEtaV: the node features before normalisation. -/
def hNew (h p : FVec F S50000x64 .f32) (e : FVec F S500000x64 .f32) (src dst : IVec S500000 32)
    (WA1 : FVec F S128x64 .f32) (bA1 : FVec F S64 .f32) (WA2 : FVec F S128x64 .f32) (bA2 : FVec F S64 .f32)
    (WB1 : FVec F S64x64 .f32) (bB1 : FVec F S64 .f32) (WB2 : FVec F S64x64 .f32) (bB2 : FVec F S64 .f32)
    (WB3 : FVec F S64x64 .f32) (bB3 : FVec F S64 .f32) : FVec F S50000x64 .f32 :=
  addf (A1h h p WA1 bA1) (sumEtaV h p e src dst WA2 bA2 WB1 bB1 WB2 bB2 WB3 bB3)

/-- %83: the gated positional message η ⊙ C2p[src]. -/
def etaP (h p : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (WC2 : FVec F S64x64 .f32) (bC2 : FVec F S64 .f32) :
    FVec F S500000x64 .f32 :=
  mulf (eta h e src dst WB1 bB1 WB2 bB2 WB3 bB3) (take (C2p p WC2 bC2) src)

/-- %86: the gated positional messages summed over the edges that end at each node. -/
def sumEtaP (h p : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (WC2 : FVec F S64x64 .f32) (bC2 : FVec F S64 .f32) :
    FVec F S50000x64 .f32 :=
  segSum dst (etaP h p e src dst WB1 bB1 WB2 bB2 WB3 bB3 WC2 bC2)

/-- %87 = C1p + sumEtaP: the positional features before the tanh. -/
def pNew (h p : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (WC1 : FVec F S64x64 .f32) (bC1 : FVec F S64 .f32)
    (WC2 : FVec F S64x64 .f32) (bC2 : FVec F S64 .f32) : FVec F S50000x64 .f32 :=
  addf (C1p p WC1 bC1) (sumEtaP h p e src dst WB1 bB1 WB2 bB2 WB3 bB3 WC2 bC2)

/-! ## Column statistics: the batch normalisation's mean and variance, at the two sizes -/

/-- The column sums of a [50000,64] array (a reduce-add over the rows, from zero). -/
def colSum50 (x : FVec F S50000x64 .f32) : FVec F S64 .f32 :=
  Host.reduceAdd x (constant S_ .f32 0x00000000#32 : FVec F S_ .f32) reducesTo_S50000x64_S64_d0 h_S_

/-- %90: the column means, column sums / 50000. -/
def colMean50 (x : FVec F S50000x64 .f32) : FVec F S64 .f32 :=
  Host.divf (colSum50 x) (broadcastInDim S64 ![] bcast_S_S64 (constant S_ .f32 0x47435000#32))

/-- The variance's own copy of the column means, kept as a [1,64] row (its %3). -/
def varMean50 (x : FVec F S50000x64 .f32) : FVec F S1x64 .f32 :=
  Host.divf (broadcastInDim S1x64 ![1] bcast_S64_S1x64_1 (colSum50 x))
    (broadcastInDim S1x64 ![] bcast_S_S1x64 (constant S_ .f32 0x47435000#32))

/-- The deviations from the column means (its %5). -/
def varDev50 (x : FVec F S50000x64 .f32) : FVec F S50000x64 .f32 :=
  subf x (broadcastInDim S50000x64 ![0, 1] bcast_S1x64_S50000x64_0_1 (varMean50 x))

/-- The variance's divisor 50000 − ddof with ddof = 0 converted from an integer (its %8). -/
def varCount50 : FVec F S_ .f32 :=
  subf (constant S_ .f32 0x47435000#32) (sitofp .f32 (constantI S_ 32 0#32))

/-- %91: the column variances — the squared deviations summed and divided by the divisor where the divisor is
    positive, the NaN literal elsewhere (the select against the broadcast NaN constant). -/
def colVar50 (x : FVec F S50000x64 .f32) : FVec F S64 .f32 :=
  select (broadcastInDim S64 ![] bcast_S_S64 (cmpf .ogt (varCount50 (F := F)) (constant S_ .f32 0x00000000#32)))
    (Host.divf
      (Host.reduceAdd (mulf (varDev50 x) (varDev50 x)) (constant S_ .f32 0x00000000#32 : FVec F S_ .f32)
        reducesTo_S50000x64_S64_d0 h_S_)
      (broadcastInDim S64 ![] bcast_S_S64 (varCount50 (F := F))))
    (broadcastInDim S64 ![] bcast_S_S64 (id (constant S_ .f32 0x7FC00000#32 : FVec F S_ .f32)))

/-- The column sums of a [500000,64] array. -/
def colSum500 (x : FVec F S500000x64 .f32) : FVec F S64 .f32 :=
  Host.reduceAdd x (constant S_ .f32 0x00000000#32 : FVec F S_ .f32) reducesTo_S500000x64_S64_d0 h_S_

/-- %110: the column means, column sums / 500000. -/
def colMean500 (x : FVec F S500000x64 .f32) : FVec F S64 .f32 :=
  Host.divf (colSum500 x) (broadcastInDim S64 ![] bcast_S_S64 (constant S_ .f32 0x48F42400#32))

/-- The variance's own copy of the column means, as a [1,64] row. -/
def varMean500 (x : FVec F S500000x64 .f32) : FVec F S1x64 .f32 :=
  Host.divf (broadcastInDim S1x64 ![1] bcast_S64_S1x64_1 (colSum500 x))
    (broadcastInDim S1x64 ![] bcast_S_S1x64 (constant S_ .f32 0x48F42400#32))

/-- The deviations from the column means. -/
def varDev500 (x : FVec F S500000x64 .f32) : FVec F S500000x64 .f32 :=
  subf x (broadcastInDim S500000x64 ![0, 1] bcast_S1x64_S500000x64_0_1 (varMean500 x))

/-- The variance's divisor 500000 − ddof with ddof = 0 converted from an integer. -/
def varCount500 : FVec F S_ .f32 :=
  subf (constant S_ .f32 0x48F42400#32) (sitofp .f32 (constantI S_ 32 0#32))

/-- %111: the column variances of a [500000,64] array (as `colVar50`). -/
def colVar500 (x : FVec F S500000x64 .f32) : FVec F S64 .f32 :=
  select (broadcastInDim S64 ![] bcast_S_S64 (cmpf .ogt (varCount500 (F := F)) (constant S_ .f32 0x00000000#32)))
    (Host.divf
      (Host.reduceAdd (mulf (varDev500 x) (varDev500 x)) (constant S_ .f32 0x00000000#32 : FVec F S_ .f32)
        reducesTo_S500000x64_S64_d0 h_S_)
      (broadcastInDim S64 ![] bcast_S_S64 (varCount500 (F := F))))
    (broadcastInDim S64 ![] bcast_S_S64 (id (constant S_ .f32 0x7FC00000#32 : FVec F S_ .f32)))

/-- Batch normalisation of a [50000,64] array with scale g and shift b:
    (x − mean) · rsqrt (var + 1e-5) · g + b, each factor broadcast along the rows. -/
def bn50 (x : FVec F S50000x64 .f32) (g b : FVec F S64 .f32) : FVec F S50000x64 .f32 :=
  addf (mulf (mulf (subf x (rows50 (colMean50 x)))
      (rows50 (Host.rsqrt (addf (colVar50 x) (broadcastInDim S64 ![] bcast_S_S64 (constant S_ .f32 0x3727C5AC#32))))))
    (rows50 g)) (rows50 b)

/-- Batch normalisation of a [500000,64] array. -/
def bn500 (x : FVec F S500000x64 .f32) (g b : FVec F S64 .f32) : FVec F S500000x64 .f32 :=
  addf (mulf (mulf (subf x (rows500 (colMean500 x)))
      (rows500 (Host.rsqrt (addf (colVar500 x) (broadcastInDim S64 ![] bcast_S_S64 (constant S_ .f32 0x3727C5AC#32))))))
    (rows500 g)) (rows500 b)

/-- %106: the normalised node features. -/
def bnH (h p : FVec F S50000x64 .f32) (e : FVec F S500000x64 .f32) (src dst : IVec S500000 32)
    (WA1 : FVec F S128x64 .f32) (bA1 : FVec F S64 .f32) (WA2 : FVec F S128x64 .f32) (bA2 : FVec F S64 .f32)
    (WB1 : FVec F S64x64 .f32) (bB1 : FVec F S64 .f32) (WB2 : FVec F S64x64 .f32) (bB2 : FVec F S64 .f32)
    (WB3 : FVec F S64x64 .f32) (bB3 : FVec F S64 .f32) (gH bH : FVec F S64 .f32) : FVec F S50000x64 .f32 :=
  bn50 (hNew h p e src dst WA1 bA1 WA2 bA2 WB1 bB1 WB2 bB2 WB3 bB3) gH bH

/-- %126: the normalised edge pre-activations. -/
def bnE (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (gE bE : FVec F S64 .f32) : FVec F S500000x64 .f32 :=
  bn500 (hatEta h e src dst WB1 bB1 WB2 bB2 WB3 bB3) gE bE

/-! ## The three results -/

/-- %129 = h + max (bnH, 0). -/
def hOut (h p : FVec F S50000x64 .f32) (e : FVec F S500000x64 .f32) (src dst : IVec S500000 32)
    (WA1 : FVec F S128x64 .f32) (bA1 : FVec F S64 .f32) (WA2 : FVec F S128x64 .f32) (bA2 : FVec F S64 .f32)
    (WB1 : FVec F S64x64 .f32) (bB1 : FVec F S64 .f32) (WB2 : FVec F S64x64 .f32) (bB2 : FVec F S64 .f32)
    (WB3 : FVec F S64x64 .f32) (bB3 : FVec F S64 .f32) (gH bH : FVec F S64 .f32) : FVec F S50000x64 .f32 :=
  addf h (maximumf (bnH h p e src dst WA1 bA1 WA2 bA2 WB1 bB1 WB2 bB2 WB3 bB3 gH bH)
    (broadcastInDim S50000x64 ![] bcast_S_S50000x64 (constant S_ .f32 0x00000000#32)))

/-- %130 = p + tanh pNew. -/
def pOut (h p : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (WC1 : FVec F S64x64 .f32) (bC1 : FVec F S64 .f32)
    (WC2 : FVec F S64x64 .f32) (bC2 : FVec F S64 .f32) : FVec F S50000x64 .f32 :=
  addf p (Host.tanh (pNew h p e src dst WB1 bB1 WB2 bB2 WB3 bB3 WC1 bC1 WC2 bC2))

/-- %131 = e + max (bnE, 0). -/
def eOut (h : FVec F S50000x64 .f32) (e : FVec F S500000x64 .f32) (src dst : IVec S500000 32)
    (WB1 : FVec F S64x64 .f32) (bB1 : FVec F S64 .f32) (WB2 : FVec F S64x64 .f32) (bB2 : FVec F S64 .f32)
    (WB3 : FVec F S64x64 .f32) (bB3 : FVec F S64 .f32) (gE bE : FVec F S64 .f32) : FVec F S500000x64 .f32 :=
  addf e (maximumf (bnE h e src dst WB1 bB1 WB2 bB2 WB3 bB3 gE bE)
    (broadcastInDim S500000x64 ![] bcast_S_S500000x64 (constant S_ .f32 0x00000000#32)))

end Cert.ReferenceIdeal.RefSpec

end
-- ==== Proof.Cat.lean ====
/-
  Two arrays of 64 columns side by side as one array of 128 columns: column q of the result is column q of the
  first array when q < 64 and column q − 64 of the second otherwise. Stated for any number of rows.
-/
import Idealize.ShloMosaic.Lib.ValueIdx

noncomputable section

namespace Cert.Cat

open Idealize.ShloMosaic Idealize.ShloMosaic.ValueIdx

/-- `a` and `b` side by side. -/
def cat {R : Nat} {α : Type} (a b : (⟨2, ![R, 64]⟩ : Shape).Idx → α) : (⟨2, ![R, 128]⟩ : Shape).Idx → α := fun i =>
  if h : (i 1).val < 64 then a (ix2 (i 0) ⟨(i 1).val, h⟩)
  else b (ix2 (i 0) ⟨(i 1).val - 64, by have := idx2_lt1 i; omega⟩)

theorem cat_ix2_lt {R : Nat} {α : Type} (a b : (⟨2, ![R, 64]⟩ : Shape).Idx → α) (r : Fin R) (q : Fin 128) (h : q.val < 64) :
    cat a b (ix2 r q) = a (ix2 r ⟨q.val, h⟩) := by
  unfold cat; rw [dif_pos (by exact h)]; rfl

theorem cat_ix2_ge {R : Nat} {α : Type} (a b : (⟨2, ![R, 64]⟩ : Shape).Idx → α) (r : Fin R) (q : Fin 128) (h : ¬ q.val < 64) :
    cat a b (ix2 r q) = b (ix2 r ⟨q.val - 64, by omega⟩) := by
  unfold cat; rw [dif_neg (by exact h)]; rfl

end Cert.Cat

end
-- ==== Proof.Bridge0.lean ====
/- The node-level linear kernel's closed forms against the reference's dense layers. Both sides are row-by-column
   products plus a bias row; the reference multiplies [h|p] (128 columns) by a whole [128,64] matrix where the kernel
   adds h times the top 64 rows and p times the bottom 64 rows: the sum over the 128 inner coordinates splits into the
   sum over the first 64 and the sum over the last 64. -/
import proofs.«163623_j1168231104593_2_alg».proof.Proof.RefSpec
import proofs.«163623_j1168231104593_2_alg».proof.Proof.KStage
import proofs.«163623_j1168231104593_2_alg».proof.Proof.Cat
import proofs.«163623_j1168231104593_2_alg».proof.Proof.Region0Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.Bridge

open Idealize.ShloMosaic.ValueIdx Cert.Cat
open Cert.KernelIdeal (Region0.G0_16 Region0.G0_17 Region0.G0_18 Region0.G0_19)
open scoped BigOperators

variable [Cert.KernelIdeal.Facts] [Cert.ReferenceIdeal.Facts]

local notation "R50000x64" => Cert.ReferenceIdeal.S50000x64
local notation "R50000x128" => Cert.ReferenceIdeal.S50000x128
local notation "R64x64" => Cert.ReferenceIdeal.S64x64
local notation "R128x64" => Cert.ReferenceIdeal.S128x64
local notation "R64" => Cert.ReferenceIdeal.S64

/-! ## The operations read at an index (kept in a namespace of this module's own) -/

namespace R0

/-- The reference's [50000,64] × [64,64] product at row r, column q. -/
theorem refDot64_apply (A : FVec Ideal R50000x64 .f32) (B : FVec Ideal R64x64 .f32) (r : Fin 50000) (q : Fin 64) :
    Host.dotGeneral Cert.ReferenceIdeal.dot_S50000x64_S64x64_S50000x64_1_0_0_1_n_n none A B (ix2 r q)
      = ∑ k : Fin 64, A (ix2 r k) * B (ix2 k q) := by
  show FloatOps.dotGeneral _ none _ A B (ix2 r q) = _
  rw [Ideal.dotGeneral_apply, ← Equiv.sum_comp (contrEquiv1 Cert.ReferenceIdeal.dot_S50000x64_S64x64_S50000x64_1_0_0_1_n_n 64 rfl rfl).symm]
  refine Finset.sum_congr rfl fun k _ => ?_
  have c2 := contrEquiv1_symm_val Cert.ReferenceIdeal.dot_S50000x64_S64x64_S50000x64_1_0_0_1_n_n 64 rfl rfl k
  have l2 : (Cert.ReferenceIdeal.dot_S50000x64_S64x64_S50000x64_1_0_0_1_n_n).lhsIdx (ix2 r q) ((contrEquiv1 _ 64 rfl rfl).symm k) = ix2 r k := by
    funext ax; apply Fin.ext
    match ax with
    | ⟨0, _⟩ => simp [DotDims.lhsIdx, Cert.ReferenceIdeal.dot_S50000x64_S64x64_S50000x64_1_0_0_1_n_n]; rfl
    | ⟨1, _⟩ => simp [DotDims.lhsIdx, Cert.ReferenceIdeal.dot_S50000x64_S64x64_S50000x64_1_0_0_1_n_n]; exact c2
  have r2 : (Cert.ReferenceIdeal.dot_S50000x64_S64x64_S50000x64_1_0_0_1_n_n).rhsIdx (ix2 r q) ((contrEquiv1 _ 64 rfl rfl).symm k) = ix2 k q := by
    funext ax; apply Fin.ext
    match ax with
    | ⟨0, _⟩ => simp [DotDims.rhsIdx, Cert.ReferenceIdeal.dot_S50000x64_S64x64_S50000x64_1_0_0_1_n_n]; exact c2
    | ⟨1, _⟩ => simp [DotDims.rhsIdx, Cert.ReferenceIdeal.dot_S50000x64_S64x64_S50000x64_1_0_0_1_n_n]; rfl
  rw [l2, r2]

/-- The reference's [50000,128] × [128,64] product at row r, column q. -/
theorem refDot128_apply (A : FVec Ideal R50000x128 .f32) (B : FVec Ideal R128x64 .f32) (r : Fin 50000) (q : Fin 64) :
    Host.dotGeneral Cert.ReferenceIdeal.dot_S50000x128_S128x64_S50000x64_1_0_0_1_n_n none A B (ix2 r q)
      = ∑ k : Fin 128, A (ix2 r k) * B (ix2 k q) := by
  show FloatOps.dotGeneral _ none _ A B (ix2 r q) = _
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have c2 := contrEquiv1_symm_val Cert.ReferenceIdeal.dot_S50000x128_S128x64_S50000x64_1_0_0_1_n_n 128 rfl rfl k
  have l2 : (Cert.ReferenceIdeal.dot_S50000x128_S128x64_S50000x64_1_0_0_1_n_n).lhsIdx (ix2 r q) ((contrEquiv1 _ 128 rfl rfl).symm k) = ix2 r k := by
    funext ax; apply Fin.ext
    match ax with
    | ⟨0, _⟩ => simp [DotDims.lhsIdx, Cert.ReferenceIdeal.dot_S50000x128_S128x64_S50000x64_1_0_0_1_n_n]; rfl
    | ⟨1, _⟩ => simp [DotDims.lhsIdx, Cert.ReferenceIdeal.dot_S50000x128_S128x64_S50000x64_1_0_0_1_n_n]; exact c2
  have r2 : (Cert.ReferenceIdeal.dot_S50000x128_S128x64_S50000x64_1_0_0_1_n_n).rhsIdx (ix2 r q) ((contrEquiv1 _ 128 rfl rfl).symm k) = ix2 k q := by
    funext ax; apply Fin.ext
    match ax with
    | ⟨0, _⟩ => simp [DotDims.rhsIdx, Cert.ReferenceIdeal.dot_S50000x128_S128x64_S50000x64_1_0_0_1_n_n]; exact c2
    | ⟨1, _⟩ => simp [DotDims.rhsIdx, Cert.ReferenceIdeal.dot_S50000x128_S128x64_S50000x64_1_0_0_1_n_n]; rfl
  rw [l2, r2]

/-- A bias broadcast over the 50000 rows reads its column's entry. -/
theorem rows50_apply (b : FVec Ideal R64 .f32) (r : Fin 50000) (q : Fin 64) :
    Cert.ReferenceIdeal.RefSpec.rows50 b (ix2 r q) = b (ix1 q) := by
  unfold Cert.ReferenceIdeal.RefSpec.rows50
  refine (broadcastInDim_apply _ _ _ (ix2 r q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The kernel program's bias row reads its column's entry. -/
theorem krow_apply (b : FVec Ideal Cert.KernelIdeal.S64 .f32) (z : Fin 1) (q : Fin 64) :
    Cert.KernelIdeal.KStage.row b (ix2 z q) = b (ix1 q) := by
  unfold Cert.KernelIdeal.KStage.row
  exact shapeCast_a_1a_apply _ _ z q

/-- The reference's dense layer on 64 columns at row r, column q. -/
theorem lin50_apply (x : FVec Ideal R50000x64 .f32) (W : FVec Ideal R64x64 .f32) (b : FVec Ideal R64 .f32)
    (r : Fin 50000) (q : Fin 64) :
    Cert.ReferenceIdeal.RefSpec.lin50 x W b (ix2 r q) = (∑ k : Fin 64, x (ix2 r k) * W (ix2 k q)) + b (ix1 q) := by
  unfold Cert.ReferenceIdeal.RefSpec.lin50
  rw [addf_apply, refDot64_apply, rows50_apply]

/-- [h|p] at row r: h on columns 0…63. -/
theorem hp_left (h p : FVec Ideal R50000x64 .f32) (r : Fin 50000) (k : Fin 64) :
    Cert.ReferenceIdeal.RefSpec.hp h p (ix2 r (Fin.castAdd 64 k)) = h (ix2 r k) := by
  unfold Cert.ReferenceIdeal.RefSpec.hp
  exact concatenate_pair_apply_left _ h p _ (ix2 r (Fin.castAdd 64 k)) rfl (ix2 r k)
    (fun b => by match b with | ⟨0, _⟩ => rfl | ⟨1, _⟩ => rfl)

/-- [h|p] at row r: p on columns 64…127. -/
theorem hp_right (h p : FVec Ideal R50000x64 .f32) (r : Fin 50000) (k : Fin 64) :
    Cert.ReferenceIdeal.RefSpec.hp h p (ix2 r (Fin.natAdd 64 k)) = p (ix2 r k) := by
  unfold Cert.ReferenceIdeal.RefSpec.hp
  exact concatenate_pair_apply_right _ h p _ (ix2 r (Fin.natAdd 64 k)) rfl rfl (ix2 r k)
    (fun b hb => by match b, hb with | ⟨0, _⟩, _ => rfl | ⟨1, _⟩, hb => exact absurd rfl hb)
    (by show k.val + 64 = 64 + k.val; omega)

/-- The top half of a [128,64] matrix: rows 0…63. -/
theorem top_apply (W : FVec Ideal Cert.KernelIdeal.S128x64 .f32) (k : Fin 64) (q : Fin 64) :
    Cert.KernelIdeal.KStage.top W (ix2 k q) = W (ix2 (Fin.castAdd 64 k) q) := by
  unfold Cert.KernelIdeal.KStage.top
  refine extractStridedSlice_apply _ _ _ (ix2 k q) (ix2 (Fin.castAdd 64 k) q) (fun a => ?_)
  match a with
  | ⟨0, _⟩ => show k.val = 0 + k.val; omega
  | ⟨1, _⟩ => show q.val = 0 + q.val; omega

/-- The bottom half of a [128,64] matrix: rows 64…127. -/
theorem bot_apply (W : FVec Ideal Cert.KernelIdeal.S128x64 .f32) (k : Fin 64) (q : Fin 64) :
    Cert.KernelIdeal.KStage.bot W (ix2 k q) = W (ix2 (Fin.natAdd 64 k) q) := by
  unfold Cert.KernelIdeal.KStage.bot
  refine extractStridedSlice_apply _ _ _ (ix2 k q) (ix2 (Fin.natAdd 64 k) q) (fun a => ?_)
  match a with
  | ⟨0, _⟩ => show 64 + k.val = 64 + k.val; rfl
  | ⟨1, _⟩ => show q.val = 0 + q.val; omega

/-- A sum over 128 coordinates is the sum over the first 64 plus the sum over the last 64. -/
theorem sum_split128 (f : Fin 128 → EReal) :
    ∑ k : Fin 128, f k = (∑ k : Fin 64, f (Fin.castAdd 64 k)) + ∑ k : Fin 64, f (Fin.natAdd 64 k) :=
  Fin.sum_univ_add (a := 64) (b := 64) f

/-- The reference's dense layer on [h|p] at row r, column q: the 128 inner coordinates split into h's and p's. -/
theorem lin50w_hp_apply (h p : FVec Ideal R50000x64 .f32) (W : FVec Ideal R128x64 .f32) (b : FVec Ideal R64 .f32)
    (r : Fin 50000) (q : Fin 64) :
    Cert.ReferenceIdeal.RefSpec.lin50w (Cert.ReferenceIdeal.RefSpec.hp h p) W b (ix2 r q)
      = ((∑ k : Fin 64, h (ix2 r k) * Cert.KernelIdeal.KStage.top W (ix2 k q))
          + (∑ k : Fin 64, p (ix2 r k) * Cert.KernelIdeal.KStage.bot W (ix2 k q))) + b (ix1 q) := by
  unfold Cert.ReferenceIdeal.RefSpec.lin50w
  rw [addf_apply, refDot128_apply, rows50_apply]
  congr 1
  refine (sum_split128 (fun k => Cert.ReferenceIdeal.RefSpec.hp h p (ix2 r k) * W (ix2 k q))).trans ?_
  congr 1
  · refine Finset.sum_congr rfl fun k _ => ?_
    rw [hp_left, top_apply]
  · refine Finset.sum_congr rfl fun k _ => ?_
    rw [hp_right, bot_apply]

end R0

open R0

/-! ## The four results -/

theorem b0_18 (h : FVec Ideal R50000x64 .f32) (WB1 : FVec Ideal R64x64 .f32) (bB1 : FVec Ideal R64 .f32) :
    Region0.G0_18 h WB1 (Cert.KernelIdeal.KStage.row bB1) = Cert.ReferenceIdeal.RefSpec.B1h h WB1 bB1 := by
  funext i
  obtain ⟨r, q, rfl⟩ : ∃ (r : Fin 50000) (q : Fin 64), i = ix2 r q := ⟨i 0, i 1, eq_ix2 i⟩
  unfold Cert.ReferenceIdeal.RefSpec.B1h
  rw [Cert.KernelIdeal.Region0.G0_18_apply, lin50_apply, krow_apply]

theorem b0_19 (h : FVec Ideal R50000x64 .f32) (WB2 : FVec Ideal R64x64 .f32) (bB2 : FVec Ideal R64 .f32) :
    Region0.G0_19 h WB2 (Cert.KernelIdeal.KStage.row bB2) = Cert.ReferenceIdeal.RefSpec.B2h h WB2 bB2 := by
  funext i
  obtain ⟨r, q, rfl⟩ : ∃ (r : Fin 50000) (q : Fin 64), i = ix2 r q := ⟨i 0, i 1, eq_ix2 i⟩
  unfold Cert.ReferenceIdeal.RefSpec.B2h
  rw [Cert.KernelIdeal.Region0.G0_19_apply, lin50_apply, krow_apply]

theorem b0_16 (h p : FVec Ideal R50000x64 .f32) (WA1 : FVec Ideal R128x64 .f32) (bA1 : FVec Ideal R64 .f32)
    (WC1 : FVec Ideal R64x64 .f32) (bC1 : FVec Ideal R64 .f32) :
    Region0.G0_16 h p (Cert.KernelIdeal.KStage.top WA1) (Cert.KernelIdeal.KStage.bot WA1) (Cert.KernelIdeal.KStage.row bA1)
        WC1 (Cert.KernelIdeal.KStage.row bC1)
      = cat (Cert.ReferenceIdeal.RefSpec.A1h h p WA1 bA1) (Cert.ReferenceIdeal.RefSpec.C1p p WC1 bC1) := by
  funext i
  obtain ⟨r, q, rfl⟩ : ∃ (r : Fin 50000) (q : Fin 128), i = ix2 r q := ⟨i 0, i 1, eq_ix2 i⟩
  by_cases hq : q.val < 64
  · rw [Cert.KernelIdeal.Region0.G0_16_left _ _ _ _ _ _ _ r q hq, cat_ix2_lt _ _ r q hq]
    unfold Cert.ReferenceIdeal.RefSpec.A1h
    rw [lin50w_hp_apply, krow_apply]
  · rw [Cert.KernelIdeal.Region0.G0_16_right _ _ _ _ _ _ _ r q hq, cat_ix2_ge _ _ r q hq]
    unfold Cert.ReferenceIdeal.RefSpec.C1p
    rw [lin50_apply, krow_apply]

theorem b0_17 (h p : FVec Ideal R50000x64 .f32) (WA2 : FVec Ideal R128x64 .f32) (bA2 : FVec Ideal R64 .f32)
    (WC2 : FVec Ideal R64x64 .f32) (bC2 : FVec Ideal R64 .f32) :
    Region0.G0_17 h p (Cert.KernelIdeal.KStage.top WA2) (Cert.KernelIdeal.KStage.bot WA2) (Cert.KernelIdeal.KStage.row bA2)
        WC2 (Cert.KernelIdeal.KStage.row bC2)
      = cat (Cert.ReferenceIdeal.RefSpec.A2hp h p WA2 bA2) (Cert.ReferenceIdeal.RefSpec.C2p p WC2 bC2) := by
  funext i
  obtain ⟨r, q, rfl⟩ : ∃ (r : Fin 50000) (q : Fin 128), i = ix2 r q := ⟨i 0, i 1, eq_ix2 i⟩
  by_cases hq : q.val < 64
  · rw [Cert.KernelIdeal.Region0.G0_17_left _ _ _ _ _ _ _ r q hq, cat_ix2_lt _ _ r q hq]
    unfold Cert.ReferenceIdeal.RefSpec.A2hp
    rw [lin50w_hp_apply, krow_apply]
  · rw [Cert.KernelIdeal.Region0.G0_17_right _ _ _ _ _ _ _ r q hq, cat_ix2_ge _ _ r q hq]
    unfold Cert.ReferenceIdeal.RefSpec.C2p
    rw [lin50_apply, krow_apply]

end Cert.Bridge

end
-- ==== Proof.HostIdx.lean ====
import proofs.«163623_j1168231104593_2_alg».proof.KernelIdeal
import proofs.«163623_j1168231104593_2_alg».proof.ReferenceIdeal
import Idealize.ShloMosaic.Lib.ValueIdx

/-!
# The host row gather and the host accumulating row scatter, read at an index

A matrix `x : [N, C]`, a column of row indices `idx : [R, 1]`:
* the gather `x[idx]` has row `r` equal to row `idx[r, 0]` of `x` (the index read signed and clamped into `[0, N − 1]`);
* the accumulating scatter of updates `upd : [R, C]` adds, to row `n` of `x`, every update row whose signed index is `n`
  (at the exact instance: the exact sum; rows indexed outside `[0, N)` are dropped).
Both keep columns, so each commutes with cutting a 128-column array into its two 64-column halves.
-/

noncomputable section
open Idealize.ShloMosaic Idealize.ShloMosaic.TcCoe Idealize.SL.Sem
open Idealize.ShloMosaic.ValueIdx
open scoped BigOperators

namespace Cert.HostIdx

variable {α : Type}

/-! ## The row gather -/

/-- The dimension numbers of a ROW gather `x[idx]` of a matrix `x : [N, C]` at a column of row indices `idx : [R, 1]`:
    offset axis 1, collapsed axis 0, start index map `[0]`, the index vector on axis 1, slices `[1, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at `(r, c)`: the operand's row `idx[r, 0]` (read signed, a negative index is row 0, clamped to
    the last row), column `c`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 ⟨min (idx (ix2 r 0)).toInt.toNat (N - 1), by omega⟩ c) := by
  unfold Host.gather
  congr 1
  funext a
  refine Fin.ext ?_
  match a with
  | ⟨0, _⟩ =>
    show (rowGatherDims N R C wf).start (ix2 r c) idx 0 + (rowGatherDims N R C wf).batchCoord (ix2 r c) 0
      + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
      + (rowGatherDims N R C wf).offCoord (ix2 r c) 1 = c.val
    rw [GatherDims.batchCoord_eq_zero _ _ _ List.not_mem_nil]
    have hs : (rowGatherDims N R C wf).start (ix2 r c) idx 1 = 0 := by
      unfold GatherDims.start
      rw [dif_neg (show (1 : Fin 2) ∉ (rowGatherDims N R C wf).startIndexMap from (by decide : (1 : Fin 2) ∉ ([0] : List (Fin 2))))]
    have ho : (rowGatherDims N R C wf).offCoord (ix2 r c) 1 = c.val := by
      unfold GatherDims.offCoord
      rw [dif_pos ((GatherDims.mem_sKept _ _).mpr ⟨(by decide : (1 : Fin 2) ∉ ([0] : List (Fin 2))), List.not_mem_nil⟩)]
      rfl
    rw [hs, ho]; omega

/-! ## The row scatter-add -/

/-- An update lands on operand element `i` exactly when, on every axis, its signed start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    constructor
    · intro hf a
      have := congrArg Fin.val (congrFun (Option.some.inj hf) a)
      have h0 := (h a).1
      simp only at this
      omega
    · intro hall
      congr 1
      funext a
      refine Fin.ext ?_
      show (d.start j idx a + d.window j a).toNat = (i a).val
      rw [hall a]; exact Int.toNat_natCast _
  · rename_i h
    constructor
    · intro hf; cases hf
    · intro hall
      exfalso; apply h
      intro a
      rw [hall a]
      exact ⟨Int.natCast_nonneg _, by exact_mod_cast (i a).isLt⟩

/-- The dimension numbers of a ROW scatter of updates `[R, C]` into a matrix `[N, C]` at a column of row indices
    `[R, 1]`: update window axis 1, inserted window axis 0, scatter axis 0 of the operand, the index vector on axis 1. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window starts at the update row's index, read signed. -/
theorem rowScatter_start0 (e : Fin R) (c : Fin C) : (rowScatterDims N R C wf).start (ix2 e c) idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0. -/
theorem rowScatter_start1 (e : Fin R) (c : Fin C) : (rowScatterDims N R C wf).start (ix2 e c) idx 1 = 0 := by
  unfold ScatterDims.start
  rw [dif_neg (show (1 : Fin 2) ∉ (rowScatterDims N R C wf).scatterDimsToOperandDims from
    (by decide : (1 : Fin 2) ∉ ([0] : List (Fin 2))))]

/-- The row axis is an inserted window axis: window coordinate 0. -/
theorem rowScatter_window0 (e : Fin R) (c : Fin C) : (rowScatterDims N R C wf).window (ix2 e c) 0 = 0 := by
  unfold ScatterDims.window
  rw [dif_neg (show (0 : Fin 2) ∉ (rowScatterDims N R C wf).sKept from
    (by decide : (0 : Fin 2) ∉ (List.finRange 2).filter (· ∉ ([0] : List (Fin 2)))))]

/-- The column axis carries the update's column. -/
theorem rowScatter_window1 (e : Fin R) (c : Fin C) : (rowScatterDims N R C wf).window (ix2 e c) 1 = c.val := by
  unfold ScatterDims.window
  rw [dif_pos (show (1 : Fin 2) ∈ (rowScatterDims N R C wf).sKept from
    (by decide : (1 : Fin 2) ∈ (List.finRange 2).filter (· ∉ ([0] : List (Fin 2)))))]
  rfl

/-- Update element `(e, c)` lands on operand element `(n, c')` exactly when its row's signed index is `n` and the
    columns agree. -/
theorem rowScatter_resultIdx?_iff (e : Fin R) (c : Fin C) (n : Fin N) (c' : Fin C) :
    (rowScatterDims N R C wf).resultIdx? (ix2 e c) idx = some (ix2 n c')
      ↔ (idx (ix2 e 0)).toInt = (n.val : Int) ∧ c = c' := by
  rw [resultIdx?_eq_some_iff, Fin.forall_fin_two]
  show (rowScatterDims N R C wf).start (ix2 e c) idx 0 + ((rowScatterDims N R C wf).window (ix2 e c) 0 : Nat) = (n.val : Int)
    ∧ (rowScatterDims N R C wf).start (ix2 e c) idx 1 + ((rowScatterDims N R C wf).window (ix2 e c) 1 : Nat) = (c'.val : Int) ↔ _
  rw [rowScatter_start0, rowScatter_start1, rowScatter_window0, rowScatter_window1]
  constructor
  · rintro ⟨h0, h1⟩
    exact ⟨by omega, Fin.ext (by omega)⟩
  · rintro ⟨h0, rfl⟩
    exact ⟨by omega, by omega⟩

/-- THE ROW SCATTER-ADD READ AT `(n, c)`, at the exact instance: the operand's element plus the sum of the updates' column
    `c` over the update rows whose signed index is `n` (a row whose index is outside `[0, N)` lands nowhere). -/
theorem rowScatterAdd_apply {φ : FTy} (x : FVec Ideal ⟨2, ![N, C]⟩ φ) (upd : FVec Ideal ⟨2, ![R, C]⟩ φ)
    (n : Fin N) (c : Fin C) :
    Host.scatterAdd (F := Ideal) (rowScatterDims N R C wf) x idx upd (ix2 n c)
      = x (ix2 n c)
        + ∑ e ∈ Finset.univ.filter (fun e : Fin R => (idx (ix2 e 0)).toInt = (n.val : Int)), upd (ix2 e c) := by
  show x (ix2 n c) + ∑ j ∈ Finset.univ.filter
    (fun j => (rowScatterDims N R C wf).resultIdx? j idx = some (ix2 n c)), upd j = _
  congr 1
  rw [Finset.sum_filter, sum_idx2, Finset.sum_filter]
  refine Finset.sum_congr rfl fun e _ => ?_
  simp only [rowScatter_resultIdx?_iff]
  by_cases h : (idx (ix2 e 0)).toInt = (n.val : Int)
  · simp only [h, true_and, if_true]
    exact Finset.sum_ite_eq' Finset.univ c (fun b => upd (ix2 e b)) |>.trans (if_pos (Finset.mem_univ _))
  · simp only [h, false_and, if_false]
    exact Finset.sum_const_zero

end

/-! ## A 128-column array as two 64-column arrays side by side -/

section Halves
variable {R : Nat}

/-- The left half (columns 0–63) of a 128-column array. -/
def left (z : (⟨2, ![R, 128]⟩ : Shape).Idx → α) : (⟨2, ![R, 64]⟩ : Shape).Idx → α :=
  fun i => z (ix2 ⟨(i 0).val, idx2_lt0 i⟩ ⟨(i 1).val, by have := idx2_lt1 i; omega⟩)

/-- The right half (columns 64–127) of a 128-column array. -/
def right (z : (⟨2, ![R, 128]⟩ : Shape).Idx → α) : (⟨2, ![R, 64]⟩ : Shape).Idx → α :=
  fun i => z (ix2 ⟨(i 0).val, idx2_lt0 i⟩ ⟨(i 1).val + 64, by have := idx2_lt1 i; omega⟩)

theorem left_ix2 (z : (⟨2, ![R, 128]⟩ : Shape).Idx → α) (r : Fin R) (c : Fin 64) :
    left z (ix2 r c) = z (ix2 r ⟨c.val, by omega⟩) := rfl

theorem right_ix2 (z : (⟨2, ![R, 128]⟩ : Shape).Idx → α) (r : Fin R) (c : Fin 64) :
    right z (ix2 r c) = z (ix2 r ⟨c.val + 64, by omega⟩) := rfl

end Halves

section HalvesOps
variable {N R w : Nat}

/-- A row gather keeps columns: the left half of the gathered rows is the gather of the left half. -/
theorem left_rowGather (hN : 0 < N)
    (wf128 : GatherDims.WF ⟨2, ![N, 128]⟩ ⟨2, ![R, 1]⟩ ⟨2, ![R, 128]⟩ [1] [0] [] [0] [] 1 ![1, 128])
    (wf64 : GatherDims.WF ⟨2, ![N, 64]⟩ ⟨2, ![R, 1]⟩ ⟨2, ![R, 64]⟩ [1] [0] [] [0] [] 1 ![1, 64])
    (x : (⟨2, ![N, 128]⟩ : Shape).Idx → α) (idx : IVec ⟨2, ![R, 1]⟩ w) :
    left (Host.gather (rowGatherDims N R 128 wf128) x idx) = Host.gather (rowGatherDims N R 64 wf64) (left x) idx := by
  funext i
  obtain ⟨r, c, rfl⟩ : ∃ (r : Fin R) (c : Fin 64), i = ix2 r c := ⟨i 0, i 1, eq_ix2 i⟩
  rw [left_ix2, rowGather_apply hN, rowGather_apply hN, left_ix2]

/-- … and likewise the right half. -/
theorem right_rowGather (hN : 0 < N)
    (wf128 : GatherDims.WF ⟨2, ![N, 128]⟩ ⟨2, ![R, 1]⟩ ⟨2, ![R, 128]⟩ [1] [0] [] [0] [] 1 ![1, 128])
    (wf64 : GatherDims.WF ⟨2, ![N, 64]⟩ ⟨2, ![R, 1]⟩ ⟨2, ![R, 64]⟩ [1] [0] [] [0] [] 1 ![1, 64])
    (x : (⟨2, ![N, 128]⟩ : Shape).Idx → α) (idx : IVec ⟨2, ![R, 1]⟩ w) :
    right (Host.gather (rowGatherDims N R 128 wf128) x idx) = Host.gather (rowGatherDims N R 64 wf64) (right x) idx := by
  funext i
  obtain ⟨r, c, rfl⟩ : ∃ (r : Fin R) (c : Fin 64), i = ix2 r c := ⟨i 0, i 1, eq_ix2 i⟩
  rw [right_ix2, rowGather_apply hN, rowGather_apply hN, right_ix2]

/-- A row scatter-add keeps columns: the left half of the result is the scatter-add of the left halves. -/
theorem left_rowScatterAdd {φ : FTy}
    (wf128 : ScatterDims.WF ⟨2, ![N, 128]⟩ ⟨2, ![R, 1]⟩ ⟨2, ![R, 128]⟩ [1] [0] [0] 1)
    (wf64 : ScatterDims.WF ⟨2, ![N, 64]⟩ ⟨2, ![R, 1]⟩ ⟨2, ![R, 64]⟩ [1] [0] [0] 1)
    (x : FVec Ideal ⟨2, ![N, 128]⟩ φ) (idx : IVec ⟨2, ![R, 1]⟩ w) (upd : FVec Ideal ⟨2, ![R, 128]⟩ φ) :
    left (Host.scatterAdd (F := Ideal) (rowScatterDims N R 128 wf128) x idx upd)
      = Host.scatterAdd (F := Ideal) (φ := φ) (rowScatterDims N R 64 wf64) (left x) idx (left upd) := by
  funext i
  obtain ⟨n, c, rfl⟩ : ∃ (n : Fin N) (c : Fin 64), i = ix2 n c := ⟨i 0, i 1, eq_ix2 i⟩
  rw [left_ix2, rowScatterAdd_apply, rowScatterAdd_apply]
  rfl

/-- … and likewise the right half. -/
theorem right_rowScatterAdd {φ : FTy}
    (wf128 : ScatterDims.WF ⟨2, ![N, 128]⟩ ⟨2, ![R, 1]⟩ ⟨2, ![R, 128]⟩ [1] [0] [0] 1)
    (wf64 : ScatterDims.WF ⟨2, ![N, 64]⟩ ⟨2, ![R, 1]⟩ ⟨2, ![R, 64]⟩ [1] [0] [0] 1)
    (x : FVec Ideal ⟨2, ![N, 128]⟩ φ) (idx : IVec ⟨2, ![R, 1]⟩ w) (upd : FVec Ideal ⟨2, ![R, 128]⟩ φ) :
    right (Host.scatterAdd (F := Ideal) (rowScatterDims N R 128 wf128) x idx upd)
      = Host.scatterAdd (F := Ideal) (φ := φ) (rowScatterDims N R 64 wf64) (right x) idx (right upd) := by
  funext i
  obtain ⟨n, c, rfl⟩ : ∃ (n : Fin N) (c : Fin 64), i = ix2 n c := ⟨i 0, i 1, eq_ix2 i⟩
  rw [right_ix2, rowScatterAdd_apply, rowScatterAdd_apply]
  rfl

end HalvesOps

/-! ## The kernel program's records -/

namespace Ker
section
variable [Cert.KernelIdeal.Facts₀]

/-- The program's 64-column gather record is the row gather's. -/
theorem gather64_eq : Cert.KernelIdeal.gather_S50000x64_S500000x1_S500000x64_1_0_n_n_0_1_164
    = rowGatherDims 50000 500000 64 Cert.KernelIdeal.Facts₀.gather_S50000x64_S500000x1_S500000x64_1_0_n_n_0_1_164_wf := rfl

/-- The program's 64-column scatter record is the row scatter's. -/
theorem scatter64_eq : Cert.KernelIdeal.scatter_S50000x64_S500000x1_S500000x64_1_0_0_1
    = rowScatterDims 50000 500000 64 Cert.KernelIdeal.Facts₀.scatter_S50000x64_S500000x1_S500000x64_1_0_0_1_wf := rfl

/-- The 64-column gather at `(r, c)`: row `idx[r, 0]` read signed and clamped into `[0, 49999]`, column `c`. -/
theorem gather64_apply (x : Cert.KernelIdeal.S50000x64.Idx → α) (idx : IVec Cert.KernelIdeal.S500000x1 32)
    (r : Fin 500000) (c : Fin 64) :
    Host.gather Cert.KernelIdeal.gather_S50000x64_S500000x1_S500000x64_1_0_n_n_0_1_164 x idx (ix2 r c)
      = x (ix2 ⟨min (idx (ix2 r 0)).toInt.toNat 49999, by omega⟩ c) := by
  rw [gather64_eq]
  exact rowGather_apply (by omega) _ x idx r c

/-- The same at an index `y`. -/
theorem gather64_apply' (x : Cert.KernelIdeal.S50000x64.Idx → α) (idx : IVec Cert.KernelIdeal.S500000x1 32)
    (y : Cert.KernelIdeal.S500000x64.Idx) :
    Host.gather Cert.KernelIdeal.gather_S50000x64_S500000x1_S500000x64_1_0_n_n_0_1_164 x idx y
      = x (ix2 ⟨min (idx (ix2 (y 0) 0)).toInt.toNat 49999, by omega⟩ (y 1)) := by
  obtain ⟨r, c, rfl⟩ : ∃ (r : Fin 500000) (c : Fin 64), y = ix2 r c := ⟨y 0, y 1, eq_ix2 y⟩
  exact gather64_apply x idx r c

/-- The 64-column scatter-add at `(n, c)`, at the exact instance: the operand's element plus the updates' column `c`
    summed over the update rows whose signed index is `n`. -/
theorem scatterAdd64_apply {φ : FTy} (x : FVec Ideal Cert.KernelIdeal.S50000x64 φ) (idx : IVec Cert.KernelIdeal.S500000x1 32)
    (upd : FVec Ideal Cert.KernelIdeal.S500000x64 φ) (n : Fin 50000) (c : Fin 64) :
    Host.scatterAdd (F := Ideal) Cert.KernelIdeal.scatter_S50000x64_S500000x1_S500000x64_1_0_0_1 x idx upd (ix2 n c)
      = x (ix2 n c)
        + ∑ e ∈ Finset.univ.filter (fun e : Fin 500000 => (idx (ix2 e 0)).toInt = (n.val : Int)), upd (ix2 e c) := by
  rw [scatter64_eq]
  exact rowScatterAdd_apply _ idx x upd n c

/-- The same at an index `i`. -/
theorem scatterAdd64_apply' {φ : FTy} (x : FVec Ideal Cert.KernelIdeal.S50000x64 φ) (idx : IVec Cert.KernelIdeal.S500000x1 32)
    (upd : FVec Ideal Cert.KernelIdeal.S500000x64 φ) (i : Cert.KernelIdeal.S50000x64.Idx) :
    Host.scatterAdd (F := Ideal) Cert.KernelIdeal.scatter_S50000x64_S500000x1_S500000x64_1_0_0_1 x idx upd i
      = x i + ∑ e ∈ Finset.univ.filter (fun e : Fin 500000 => (idx (ix2 e 0)).toInt = ((i 0).val : Int)),
          upd (ix2 e (i 1)) := by
  obtain ⟨n, c, rfl⟩ : ∃ (n : Fin 50000) (c : Fin 64), i = ix2 n c := ⟨i 0, i 1, eq_ix2 i⟩
  exact scatterAdd64_apply x idx upd n c

/-- The program's 128-column gather record is the row gather's. -/
theorem gather128_eq : Cert.KernelIdeal.gather_S50000x128_S500000x1_S500000x128_1_0_n_n_0_1_1128
    = rowGatherDims 50000 500000 128 Cert.KernelIdeal.Facts₀.gather_S50000x128_S500000x1_S500000x128_1_0_n_n_0_1_1128_wf := rfl

/-- The program's 128-column scatter record is the row scatter's. -/
theorem scatter128_eq : Cert.KernelIdeal.scatter_S50000x128_S500000x1_S500000x128_1_0_0_1
    = rowScatterDims 50000 500000 128 Cert.KernelIdeal.Facts₀.scatter_S50000x128_S500000x1_S500000x128_1_0_0_1_wf := rfl

/-- The 128-column gather at `(r, c)`: row `idx[r, 0]` read signed and clamped into `[0, 49999]`, column `c`. -/
theorem gather128_apply (x : Cert.KernelIdeal.S50000x128.Idx → α) (idx : IVec Cert.KernelIdeal.S500000x1 32)
    (r : Fin 500000) (c : Fin 128) :
    Host.gather Cert.KernelIdeal.gather_S50000x128_S500000x1_S500000x128_1_0_n_n_0_1_1128 x idx (ix2 r c)
      = x (ix2 ⟨min (idx (ix2 r 0)).toInt.toNat 49999, by omega⟩ c) := by
  rw [gather128_eq]
  exact rowGather_apply (by omega) _ x idx r c

/-- The same at an index `y`. -/
theorem gather128_apply' (x : Cert.KernelIdeal.S50000x128.Idx → α) (idx : IVec Cert.KernelIdeal.S500000x1 32)
    (y : Cert.KernelIdeal.S500000x128.Idx) :
    Host.gather Cert.KernelIdeal.gather_S50000x128_S500000x1_S500000x128_1_0_n_n_0_1_1128 x idx y
      = x (ix2 ⟨min (idx (ix2 (y 0) 0)).toInt.toNat 49999, by omega⟩ (y 1)) := by
  obtain ⟨r, c, rfl⟩ : ∃ (r : Fin 500000) (c : Fin 128), y = ix2 r c := ⟨y 0, y 1, eq_ix2 y⟩
  exact gather128_apply x idx r c

/-- The 128-column scatter-add at `(n, c)`, at the exact instance: the operand's element plus the updates' column `c`
    summed over the update rows whose signed index is `n`. -/
theorem scatterAdd128_apply {φ : FTy} (x : FVec Ideal Cert.KernelIdeal.S50000x128 φ) (idx : IVec Cert.KernelIdeal.S500000x1 32)
    (upd : FVec Ideal Cert.KernelIdeal.S500000x128 φ) (n : Fin 50000) (c : Fin 128) :
    Host.scatterAdd (F := Ideal) Cert.KernelIdeal.scatter_S50000x128_S500000x1_S500000x128_1_0_0_1 x idx upd (ix2 n c)
      = x (ix2 n c)
        + ∑ e ∈ Finset.univ.filter (fun e : Fin 500000 => (idx (ix2 e 0)).toInt = (n.val : Int)), upd (ix2 e c) := by
  rw [scatter128_eq]
  exact rowScatterAdd_apply _ idx x upd n c

/-- The same at an index `i`. -/
theorem scatterAdd128_apply' {φ : FTy} (x : FVec Ideal Cert.KernelIdeal.S50000x128 φ) (idx : IVec Cert.KernelIdeal.S500000x1 32)
    (upd : FVec Ideal Cert.KernelIdeal.S500000x128 φ) (i : Cert.KernelIdeal.S50000x128.Idx) :
    Host.scatterAdd (F := Ideal) Cert.KernelIdeal.scatter_S50000x128_S500000x1_S500000x128_1_0_0_1 x idx upd i
      = x i + ∑ e ∈ Finset.univ.filter (fun e : Fin 500000 => (idx (ix2 e 0)).toInt = ((i 0).val : Int)),
          upd (ix2 e (i 1)) := by
  obtain ⟨n, c, rfl⟩ : ∃ (n : Fin 50000) (c : Fin 128), i = ix2 n c := ⟨i 0, i 1, eq_ix2 i⟩
  exact scatterAdd128_apply x idx upd n c

/-- The left half of the 128-column gather is the 64-column gather of the left half. -/
theorem left_gather128 (x : Cert.KernelIdeal.S50000x128.Idx → α) (idx : IVec Cert.KernelIdeal.S500000x1 32) :
    left (Host.gather Cert.KernelIdeal.gather_S50000x128_S500000x1_S500000x128_1_0_n_n_0_1_1128 x idx)
      = Host.gather Cert.KernelIdeal.gather_S50000x64_S500000x1_S500000x64_1_0_n_n_0_1_164 (left x) idx := by
  rw [gather128_eq, gather64_eq]
  exact left_rowGather (by omega) _ _ x idx

/-- The left half of the 128-column scatter-add is the 64-column scatter-add of the left halves. -/
theorem left_scatterAdd128 {φ : FTy} (x : FVec Ideal Cert.KernelIdeal.S50000x128 φ) (idx : IVec Cert.KernelIdeal.S500000x1 32)
    (upd : FVec Ideal Cert.KernelIdeal.S500000x128 φ) :
    left (Host.scatterAdd (F := Ideal) Cert.KernelIdeal.scatter_S50000x128_S500000x1_S500000x128_1_0_0_1 x idx upd)
      = Host.scatterAdd (F := Ideal) (φ := φ) Cert.KernelIdeal.scatter_S50000x64_S500000x1_S500000x64_1_0_0_1 (left x) idx (left upd) := by
  rw [scatter128_eq, scatter64_eq]
  exact left_rowScatterAdd _ _ x idx upd

/-- The right half of the 128-column gather is the 64-column gather of the right half. -/
theorem right_gather128 (x : Cert.KernelIdeal.S50000x128.Idx → α) (idx : IVec Cert.KernelIdeal.S500000x1 32) :
    right (Host.gather Cert.KernelIdeal.gather_S50000x128_S500000x1_S500000x128_1_0_n_n_0_1_1128 x idx)
      = Host.gather Cert.KernelIdeal.gather_S50000x64_S500000x1_S500000x64_1_0_n_n_0_1_164 (right x) idx := by
  rw [gather128_eq, gather64_eq]
  exact right_rowGather (by omega) _ _ x idx

/-- The right half of the 128-column scatter-add is the 64-column scatter-add of the right halves. -/
theorem right_scatterAdd128 {φ : FTy} (x : FVec Ideal Cert.KernelIdeal.S50000x128 φ) (idx : IVec Cert.KernelIdeal.S500000x1 32)
    (upd : FVec Ideal Cert.KernelIdeal.S500000x128 φ) :
    right (Host.scatterAdd (F := Ideal) Cert.KernelIdeal.scatter_S50000x128_S500000x1_S500000x128_1_0_0_1 x idx upd)
      = Host.scatterAdd (F := Ideal) (φ := φ) Cert.KernelIdeal.scatter_S50000x64_S500000x1_S500000x64_1_0_0_1 (right x) idx (right upd) := by
  rw [scatter128_eq, scatter64_eq]
  exact right_rowScatterAdd _ _ x idx upd

end
end Ker

/-! ## The reference program's records -/

namespace Ref
section
variable [Cert.ReferenceIdeal.Facts₀]

/-- The program's 64-column gather record is the row gather's. -/
theorem gather64_eq : Cert.ReferenceIdeal.gather_S50000x64_S500000x1_S500000x64_1_0_n_n_0_1_164
    = rowGatherDims 50000 500000 64 Cert.ReferenceIdeal.Facts₀.gather_S50000x64_S500000x1_S500000x64_1_0_n_n_0_1_164_wf := rfl

/-- The program's 64-column scatter record is the row scatter's. -/
theorem scatter64_eq : Cert.ReferenceIdeal.scatter_S50000x64_S500000x1_S500000x64_1_0_0_1
    = rowScatterDims 50000 500000 64 Cert.ReferenceIdeal.Facts₀.scatter_S50000x64_S500000x1_S500000x64_1_0_0_1_wf := rfl

/-- The 64-column gather at `(r, c)`: row `idx[r, 0]` read signed and clamped into `[0, 49999]`, column `c`. -/
theorem gather64_apply (x : Cert.ReferenceIdeal.S50000x64.Idx → α) (idx : IVec Cert.ReferenceIdeal.S500000x1 32)
    (r : Fin 500000) (c : Fin 64) :
    Host.gather Cert.ReferenceIdeal.gather_S50000x64_S500000x1_S500000x64_1_0_n_n_0_1_164 x idx (ix2 r c)
      = x (ix2 ⟨min (idx (ix2 r 0)).toInt.toNat 49999, by omega⟩ c) := by
  rw [gather64_eq]
  exact rowGather_apply (by omega) _ x idx r c

/-- The same at an index `y`. -/
theorem gather64_apply' (x : Cert.ReferenceIdeal.S50000x64.Idx → α) (idx : IVec Cert.ReferenceIdeal.S500000x1 32)
    (y : Cert.ReferenceIdeal.S500000x64.Idx) :
    Host.gather Cert.ReferenceIdeal.gather_S50000x64_S500000x1_S500000x64_1_0_n_n_0_1_164 x idx y
      = x (ix2 ⟨min (idx (ix2 (y 0) 0)).toInt.toNat 49999, by omega⟩ (y 1)) := by
  obtain ⟨r, c, rfl⟩ : ∃ (r : Fin 500000) (c : Fin 64), y = ix2 r c := ⟨y 0, y 1, eq_ix2 y⟩
  exact gather64_apply x idx r c

/-- The 64-column scatter-add at `(n, c)`, at the exact instance: the operand's element plus the updates' column `c`
    summed over the update rows whose signed index is `n`. -/
theorem scatterAdd64_apply {φ : FTy} (x : FVec Ideal Cert.ReferenceIdeal.S50000x64 φ) (idx : IVec Cert.ReferenceIdeal.S500000x1 32)
    (upd : FVec Ideal Cert.ReferenceIdeal.S500000x64 φ) (n : Fin 50000) (c : Fin 64) :
    Host.scatterAdd (F := Ideal) Cert.ReferenceIdeal.scatter_S50000x64_S500000x1_S500000x64_1_0_0_1 x idx upd (ix2 n c)
      = x (ix2 n c)
        + ∑ e ∈ Finset.univ.filter (fun e : Fin 500000 => (idx (ix2 e 0)).toInt = (n.val : Int)), upd (ix2 e c) := by
  rw [scatter64_eq]
  exact rowScatterAdd_apply _ idx x upd n c

/-- The same at an index `i`. -/
theorem scatterAdd64_apply' {φ : FTy} (x : FVec Ideal Cert.ReferenceIdeal.S50000x64 φ) (idx : IVec Cert.ReferenceIdeal.S500000x1 32)
    (upd : FVec Ideal Cert.ReferenceIdeal.S500000x64 φ) (i : Cert.ReferenceIdeal.S50000x64.Idx) :
    Host.scatterAdd (F := Ideal) Cert.ReferenceIdeal.scatter_S50000x64_S500000x1_S500000x64_1_0_0_1 x idx upd i
      = x i + ∑ e ∈ Finset.univ.filter (fun e : Fin 500000 => (idx (ix2 e 0)).toInt = ((i 0).val : Int)),
          upd (ix2 e (i 1)) := by
  obtain ⟨n, c, rfl⟩ : ∃ (n : Fin 50000) (c : Fin 64), i = ix2 n c := ⟨i 0, i 1, eq_ix2 i⟩
  exact scatterAdd64_apply x idx upd n c

end
end Ref

/-! ## The two programs' 64-column records are the same records -/

section Cross
variable [Cert.KernelIdeal.Facts₀] [Cert.ReferenceIdeal.Facts₀]

theorem gather64_ker_eq_ref : Cert.KernelIdeal.gather_S50000x64_S500000x1_S500000x64_1_0_n_n_0_1_164 = Cert.ReferenceIdeal.gather_S50000x64_S500000x1_S500000x64_1_0_n_n_0_1_164 := rfl

theorem scatter64_ker_eq_ref : Cert.KernelIdeal.scatter_S50000x64_S500000x1_S500000x64_1_0_0_1 = Cert.ReferenceIdeal.scatter_S50000x64_S500000x1_S500000x64_1_0_0_1 := rfl

/-- The left half of the kernel program's 128-column gather, as the REFERENCE program's 64-column gather. -/
theorem left_gather128_ref (x : Cert.KernelIdeal.S50000x128.Idx → α) (idx : IVec Cert.KernelIdeal.S500000x1 32) :
    left (Host.gather Cert.KernelIdeal.gather_S50000x128_S500000x1_S500000x128_1_0_n_n_0_1_1128 x idx)
      = Host.gather Cert.ReferenceIdeal.gather_S50000x64_S500000x1_S500000x64_1_0_n_n_0_1_164 (left x) idx :=
  (Ker.left_gather128 x idx).trans (by rw [gather64_ker_eq_ref])

/-- The left half of the kernel program's 128-column scatter-add, as the REFERENCE program's 64-column scatter-add. -/
theorem left_scatterAdd128_ref {φ : FTy} (x : FVec Ideal Cert.KernelIdeal.S50000x128 φ)
    (idx : IVec Cert.KernelIdeal.S500000x1 32) (upd : FVec Ideal Cert.KernelIdeal.S500000x128 φ) :
    left (Host.scatterAdd (F := Ideal) Cert.KernelIdeal.scatter_S50000x128_S500000x1_S500000x128_1_0_0_1 x idx upd)
      = Host.scatterAdd (F := Ideal) (φ := φ) Cert.ReferenceIdeal.scatter_S50000x64_S500000x1_S500000x64_1_0_0_1 (left x) idx (left upd) :=
  (Ker.left_scatterAdd128 x idx upd).trans (by rw [scatter64_ker_eq_ref])

/-- The right half of the kernel program's 128-column gather, as the REFERENCE program's 64-column gather. -/
theorem right_gather128_ref (x : Cert.KernelIdeal.S50000x128.Idx → α) (idx : IVec Cert.KernelIdeal.S500000x1 32) :
    right (Host.gather Cert.KernelIdeal.gather_S50000x128_S500000x1_S500000x128_1_0_n_n_0_1_1128 x idx)
      = Host.gather Cert.ReferenceIdeal.gather_S50000x64_S500000x1_S500000x64_1_0_n_n_0_1_164 (right x) idx :=
  (Ker.right_gather128 x idx).trans (by rw [gather64_ker_eq_ref])

/-- The right half of the kernel program's 128-column scatter-add, as the REFERENCE program's 64-column scatter-add. -/
theorem right_scatterAdd128_ref {φ : FTy} (x : FVec Ideal Cert.KernelIdeal.S50000x128 φ)
    (idx : IVec Cert.KernelIdeal.S500000x1 32) (upd : FVec Ideal Cert.KernelIdeal.S500000x128 φ) :
    right (Host.scatterAdd (F := Ideal) Cert.KernelIdeal.scatter_S50000x128_S500000x1_S500000x128_1_0_0_1 x idx upd)
      = Host.scatterAdd (F := Ideal) (φ := φ) Cert.ReferenceIdeal.scatter_S50000x64_S500000x1_S500000x64_1_0_0_1 (right x) idx (right upd) :=
  (Ker.right_scatterAdd128 x idx upd).trans (by rw [scatter64_ker_eq_ref])

end Cross

end Cert.HostIdx
-- ==== Proof.HostCat.lean ====
import proofs.«163623_j1168231104593_2_alg».proof.Proof.HostIdx
import proofs.«163623_j1168231104593_2_alg».proof.Proof.KStage
import proofs.«163623_j1168231104593_2_alg».proof.Proof.Cat
import proofs.«163623_j1168231104593_2_alg».proof.Proof.RefSpec
import Idealize.ShloMosaic.Lib.Pipeline.Value
import Idealize.ShloMosaic.Lib.IdealHost

/-!
# The kernel program's host stages on two 64-column arrays side by side

A row gather and a segment sum keep columns, so on `cat a b` (two 64-column arrays side by side) each acts on the two
halves separately; the left 64 columns of `cat a b` are `a`. And the kernel program's index columns, 64-column gather,
64-column segment sum and logistic function are the reference program's, spelt the same.
-/

noncomputable section
open Idealize.ShloMosaic Idealize.ShloMosaic.TcCoe Idealize.SL.Sem
open Idealize.ShloMosaic.ValueIdx
open scoped BigOperators

namespace Cert.HostIdx

section Kernel
variable [Cert.KernelIdeal.Facts]

/-- The left 64 columns of two 64-column arrays side by side are the first array. -/
theorem lcols_cat {F : FTy → Type} [FloatOps F] (a b : FVec F Cert.KernelIdeal.S50000x64 .f32) :
    Cert.KernelIdeal.KStage.lcols (Cert.Cat.cat a b) = a := by
  funext i
  obtain ⟨r, c, rfl⟩ : ∃ (r : Fin 50000) (c : Fin 64), i = ix2 r c := ⟨i 0, i 1, eq_ix2 i⟩
  unfold Cert.KernelIdeal.KStage.lcols
  rw [extractStridedSlice_apply ![0, 0] _ _ (ix2 r c) (ix2 r ⟨c.val, by omega⟩) (fun a => by
    match a with
    | ⟨0, _⟩ => exact (Nat.zero_add _).symm
    | ⟨1, _⟩ => exact (Nat.zero_add _).symm)]
  exact Cert.Cat.cat_ix2_lt a b r ⟨c.val, by omega⟩ c.isLt

/-- Gathering rows of two arrays side by side gathers each. -/
theorem take128_cat {F : FTy → Type} [FloatOps F] (a b : FVec F Cert.KernelIdeal.S50000x64 .f32)
    (s : IVec Cert.KernelIdeal.S500000 32) :
    Cert.KernelIdeal.KStage.take128 (Cert.Cat.cat a b) s = Cert.Cat.cat (Cert.KernelIdeal.KStage.take64 a s) (Cert.KernelIdeal.KStage.take64 b s) := by
  funext i
  obtain ⟨r, q, rfl⟩ : ∃ (r : Fin 500000) (q : Fin 128), i = ix2 r q := ⟨i 0, i 1, eq_ix2 i⟩
  refine (Ker.gather128_apply _ _ r q).trans ?_
  by_cases h : q.val < 64
  · rw [Cert.Cat.cat_ix2_lt _ _ _ q h, Cert.Cat.cat_ix2_lt _ _ r q h]
    exact (Ker.gather64_apply _ _ r ⟨q.val, h⟩).symm
  · rw [Cert.Cat.cat_ix2_ge _ _ _ q h, Cert.Cat.cat_ix2_ge _ _ r q h]
    exact (Ker.gather64_apply _ _ r ⟨q.val - 64, by omega⟩).symm

/-- The segment sum of two arrays side by side is the two segment sums side by side. -/
theorem segSum128_cat (s : IVec Cert.KernelIdeal.S500000 32) (u v : FVec Ideal Cert.KernelIdeal.S500000x64 .f32) :
    Cert.KernelIdeal.KStage.segSum128 (F := Ideal) s (Cert.Cat.cat u v)
      = Cert.Cat.cat (Cert.KernelIdeal.KStage.segSum64 (F := Ideal) s u) (Cert.KernelIdeal.KStage.segSum64 (F := Ideal) s v) := by
  funext i
  obtain ⟨n, q, rfl⟩ : ∃ (n : Fin 50000) (q : Fin 128), i = ix2 n q := ⟨i 0, i 1, eq_ix2 i⟩
  refine (Ker.scatterAdd128_apply _ _ _ n q).trans ?_
  by_cases h : q.val < 64
  · rw [Cert.Cat.cat_ix2_lt _ _ n q h]
    refine Eq.trans ?_ (Ker.scatterAdd64_apply _ _ _ n ⟨q.val, h⟩).symm
    refine congrArg₂ (· + ·) ?_ ?_
    · rw [broadcastInDim_scalar_apply, broadcastInDim_scalar_apply]
    · exact Finset.sum_congr rfl fun e _ => Cert.Cat.cat_ix2_lt u v e q h
  · rw [Cert.Cat.cat_ix2_ge _ _ n q h]
    refine Eq.trans ?_ (Ker.scatterAdd64_apply _ _ _ n ⟨q.val - 64, by omega⟩).symm
    refine congrArg₂ (· + ·) ?_ ?_
    · rw [broadcastInDim_scalar_apply, broadcastInDim_scalar_apply]
    · exact Finset.sum_congr rfl fun e _ => Cert.Cat.cat_ix2_ge u v e q h

end Kernel

/-! ## The kernel program's spellings are the reference program's -/

section Transport
variable [Cert.KernelIdeal.Facts] [Cert.ReferenceIdeal.Facts]

theorem rowIdx_ker_eq_ref (s : IVec Cert.KernelIdeal.S500000 32) : Cert.KernelIdeal.KStage.rowIdx s = Cert.ReferenceIdeal.RefSpec.rowIdx s := rfl

theorem colIdx_ker_eq_ref (s : IVec Cert.KernelIdeal.S500000 32) : Cert.KernelIdeal.KStage.colIdx s = Cert.ReferenceIdeal.RefSpec.colIdx s := rfl

theorem take64_ker_eq_ref {F : FTy → Type} [FloatOps F] (x : FVec F Cert.KernelIdeal.S50000x64 .f32)
    (s : IVec Cert.KernelIdeal.S500000 32) : Cert.KernelIdeal.KStage.take64 x s = Cert.ReferenceIdeal.RefSpec.take x s := rfl

theorem segSum64_ker_eq_ref {F : FTy → Type} [FloatOps F] (s : IVec Cert.KernelIdeal.S500000 32)
    (u : FVec F Cert.KernelIdeal.S500000x64 .f32) : Cert.KernelIdeal.KStage.segSum64 s u = Cert.ReferenceIdeal.RefSpec.segSum s u := rfl

theorem logistic_ker_eq_ref {F : FTy → Type} [FloatOps F] (x : FVec F Cert.KernelIdeal.S500000x64 .f32) :
    Cert.KernelIdeal.KStage.logistic x = Cert.ReferenceIdeal.RefSpec.logistic x := rfl

end Transport

end Cert.HostIdx
-- ==== Proof.Bridge1.lean ====
import proofs.«163623_j1168231104593_2_alg».proof.Proof.Region1Spec
import proofs.«163623_j1168231104593_2_alg».proof.Proof.RefSpec
import proofs.«163623_j1168231104593_2_alg».proof.Proof.KStage
import proofs.«163623_j1168231104593_2_alg».proof.Proof.Cat
import proofs.«163623_j1168231104593_2_alg».proof.Proof.HostCat
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
The first edge kernel's output function `G1_5` against the reference: with the reference's own stages as its
inputs it is the reference's edge pre-activation. Pure functions only.
-/

noncomputable section

namespace Cert.Bridge

open Idealize.ShloMosaic Idealize.ShloMosaic.TcCoe Idealize.SL.Sem
open Idealize.ShloMosaic.ValueIdx
open Cert.Cat
open scoped BigOperators

variable [Cert.KernelIdeal.Facts] [Cert.ReferenceIdeal.Facts]

open Cert.ReferenceIdeal (S50000x64 S500000x64 S500000 S64x64 S128x64 S64 S1x64 S50000x128)

/-! ## Region 1: the fused edge kernel's function is the reference's edge pre-activation -/

namespace R1

/-- The reference's [500000,64] × [64,64] product at row `r`, column `q`: the sum over the 64 contraction
    positions of the operands' products. -/
theorem dot500_at (x : FVec Ideal S500000x64 .f32) (W : FVec Ideal S64x64 .f32) (r : Fin 500000) (q : Fin 64) :
    Host.dotGeneral Cert.ReferenceIdeal.dot_S500000x64_S64x64_S500000x64_1_0_0_1_n_n none x W (ix2 r q)
      = ∑ k : Fin 64, x (ix2 r k) * W (ix2 k q) := by
  refine (Ideal.dotGeneral_apply Cert.ReferenceIdeal.dot_S500000x64_S64x64_S500000x64_1_0_0_1_n_n none .single x W (ix2 r q)).trans ?_
  refine ((Equiv.sum_comp (contrEquiv1 Cert.ReferenceIdeal.dot_S500000x64_S64x64_S500000x64_1_0_0_1_n_n 64 rfl rfl).symm _).symm).trans ?_
  refine Finset.sum_congr rfl fun k _ => ?_
  have hk := contrEquiv1_symm_val Cert.ReferenceIdeal.dot_S500000x64_S64x64_S500000x64_1_0_0_1_n_n 64 rfl rfl k
  congr 1
  · congr 1
    funext a
    apply Fin.ext
    match a with
    | ⟨0, _⟩ => rfl
    | ⟨1, _⟩ =>
      refine (Cert.ReferenceIdeal.dot_S500000x64_S64x64_S500000x64_1_0_0_1_n_n.lhsIdx_val_of_single (cl := (1 : Fin 2)) rfl (ix2 r q) _).trans ?_
      exact hk
  · congr 1
    funext a
    apply Fin.ext
    match a with
    | ⟨0, _⟩ =>
      refine (Cert.ReferenceIdeal.dot_S500000x64_S64x64_S500000x64_1_0_0_1_n_n.rhsIdx_val_of_single (cr := (0 : Fin 2)) rfl (ix2 r q) _).trans ?_
      exact hk
    | ⟨1, _⟩ => rfl

/-- A length-64 vector broadcast along 500000 rows reads, at `(r, q)`, the vector at `q`. -/
theorem rows500_at (b : FVec Ideal S64 .f32) (r : Fin 500000) (q : Fin 64) :
    Cert.ReferenceIdeal.RefSpec.rows500 b (ix2 r q) = b (ix1 q) := by
  unfold Cert.ReferenceIdeal.RefSpec.rows500
  refine (broadcastInDim_apply _ _ _ (ix2 r q) (ix2 (0 : Fin 1) q) (fun a => by
    match a with
    | ⟨0, _⟩ => rfl
    | ⟨1, _⟩ => rfl)).trans ?_
  exact broadcastInDim_apply _ _ _ (ix2 (0 : Fin 1) q) (ix1 q) (fun a => by
    match a with
    | ⟨0, _⟩ => rfl)

/-- A length-64 vector as a [1,64] row reads, at `(0, q)`, the vector at `q`. -/
theorem row_at (b : FVec Ideal S64 .f32) (q : Fin 64) :
    Cert.KernelIdeal.KStage.row b (ix2 (0 : Fin 1) q) = b (ix1 q) := by
  unfold Cert.KernelIdeal.KStage.row
  exact shapeCast_a_1a_apply b _ (0 : Fin 1) q

end R1

/-- The fused edge kernel's output function, fed the edge features, the third edge layer's weights and bias row and
    the two node layers gathered at the edges' end points, is the reference's edge pre-activation
    `B1h[src] + B2h[dst] + (e · WB3 + bB3)`. -/
theorem b1_5 (h : FVec Ideal S50000x64 .f32) (e : FVec Ideal S500000x64 .f32) (src dst : IVec S500000 32)
    (WB1 : FVec Ideal S64x64 .f32) (bB1 : FVec Ideal S64 .f32) (WB2 : FVec Ideal S64x64 .f32) (bB2 : FVec Ideal S64 .f32)
    (WB3 : FVec Ideal S64x64 .f32) (bB3 : FVec Ideal S64 .f32) :
    Cert.KernelIdeal.Region1.G1_5 e WB3 (Cert.KernelIdeal.KStage.row bB3)
        (Cert.KernelIdeal.KStage.take64 (Cert.ReferenceIdeal.RefSpec.B1h h WB1 bB1) src)
        (Cert.KernelIdeal.KStage.take64 (Cert.ReferenceIdeal.RefSpec.B2h h WB2 bB2) dst)
      = Cert.ReferenceIdeal.RefSpec.hatEta h e src dst WB1 bB1 WB2 bB2 WB3 bB3 := by
  funext i
  obtain ⟨r, q, rfl⟩ : ∃ (r : Fin 500000) (q : Fin 64), i = ix2 r q := ⟨i 0, i 1, eq_ix2 i⟩
  rw [Cert.KernelIdeal.Region1.G1_5_ix2, Cert.HostIdx.take64_ker_eq_ref, Cert.HostIdx.take64_ker_eq_ref, R1.row_at]
  unfold Cert.ReferenceIdeal.RefSpec.hatEta Cert.ReferenceIdeal.RefSpec.B3e Cert.ReferenceIdeal.RefSpec.lin500
  rw [addf_apply, addf_apply, addf_apply, R1.dot500_at, R1.rows500_at]

end Cert.Bridge

end
-- ==== Proof.Bridge2.lean ====
import proofs.«163623_j1168231104593_2_alg».proof.Proof.Region2
import proofs.«163623_j1168231104593_2_alg».proof.Proof.RefSpec
import proofs.«163623_j1168231104593_2_alg».proof.Proof.KStage
import proofs.«163623_j1168231104593_2_alg».proof.Proof.Cat
import proofs.«163623_j1168231104593_2_alg».proof.Proof.HostCat
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
The edge gate kernel's output function `G2_3` against the reference: with the reference's own stages as its inputs
it is the two gated messages `η ⊙ A2hp[src]` and `η ⊙ C2p[src]` side by side. Pure functions only.
-/

noncomputable section

namespace Cert.Bridge

open Idealize.ShloMosaic Idealize.ShloMosaic.TcCoe Idealize.SL.Sem
open Idealize.ShloMosaic.ValueIdx
open Cert.Cat
open scoped BigOperators

variable [Cert.KernelIdeal.Facts] [Cert.ReferenceIdeal.Facts]

open Cert.ReferenceIdeal (S50000x64 S500000x64 S500000 S64x64 S128x64 S64 S1x64 S50000x128)

/-! ## Region 2: the edge gate kernel's function is the two gated messages side by side -/

namespace R2

/-- The reference's spelling of the logistic function, `1 / (1 + exp (−x))` with the literal one, is the
    logistic function of each element. -/
theorem logistic_at (x : FVec Ideal S500000x64 .f32) (i : S500000x64.Idx) :
    Cert.ReferenceIdeal.RefSpec.logistic x i = Ideal.logistic (x i) := by
  unfold Cert.ReferenceIdeal.RefSpec.logistic
  rw [hostDivf_apply, addf_apply, broadcastInDim_scalar_apply, constant_apply, Ideal.ofBits_one_f32]
  rfl

/-- The kernel's normalised gate at `(r, k)`, fed the reference's pre-activation and the gate sums gathered at the
    edges' end points, is the reference's normalised gate there. -/
theorem eta_at (h : FVec Ideal S50000x64 .f32) (e : FVec Ideal S500000x64 .f32) (src dst : IVec S500000 32)
    (WB1 : FVec Ideal S64x64 .f32) (bB1 : FVec Ideal S64 .f32) (WB2 : FVec Ideal S64x64 .f32) (bB2 : FVec Ideal S64 .f32)
    (WB3 : FVec Ideal S64x64 .f32) (bB3 : FVec Ideal S64 .f32) (r : Fin 500000) (k : Fin 64) :
    Cert.KernelIdeal.Region2.eta (Cert.ReferenceIdeal.RefSpec.hatEta h e src dst WB1 bB1 WB2 bB2 WB3 bB3)
        (Cert.KernelIdeal.KStage.take64 (Cert.KernelIdeal.KStage.segSum64 dst
          (Cert.KernelIdeal.KStage.logistic (Cert.ReferenceIdeal.RefSpec.hatEta h e src dst WB1 bB1 WB2 bB2 WB3 bB3))) dst) r k
      = Cert.ReferenceIdeal.RefSpec.eta h e src dst WB1 bB1 WB2 bB2 WB3 bB3 (ix2 r k) := by
  unfold Cert.KernelIdeal.Region2.eta Cert.ReferenceIdeal.RefSpec.eta Cert.ReferenceIdeal.RefSpec.sumSigma
    Cert.ReferenceIdeal.RefSpec.sigma
  rw [Cert.HostIdx.take64_ker_eq_ref, Cert.HostIdx.segSum64_ker_eq_ref, Cert.HostIdx.logistic_ker_eq_ref,
    hostDivf_apply, addf_apply, broadcastInDim_scalar_apply, constant_apply, logistic_at]

end R2

/-- The edge gate kernel's output function, fed the reference's pre-activation, the gate sums gathered at the edges'
    end points and the two message layers side by side gathered at the edges' start points, is the reference's two
    gated messages side by side. -/
theorem b2_3 (h p : FVec Ideal S50000x64 .f32) (e : FVec Ideal S500000x64 .f32) (src dst : IVec S500000 32)
    (WA2 : FVec Ideal S128x64 .f32) (bA2 : FVec Ideal S64 .f32)
    (WB1 : FVec Ideal S64x64 .f32) (bB1 : FVec Ideal S64 .f32) (WB2 : FVec Ideal S64x64 .f32) (bB2 : FVec Ideal S64 .f32)
    (WB3 : FVec Ideal S64x64 .f32) (bB3 : FVec Ideal S64 .f32) (WC2 : FVec Ideal S64x64 .f32) (bC2 : FVec Ideal S64 .f32) :
    Cert.KernelIdeal.Region2.G2_3 (Cert.ReferenceIdeal.RefSpec.hatEta h e src dst WB1 bB1 WB2 bB2 WB3 bB3)
        (Cert.KernelIdeal.KStage.take64 (Cert.KernelIdeal.KStage.segSum64 dst
          (Cert.KernelIdeal.KStage.logistic (Cert.ReferenceIdeal.RefSpec.hatEta h e src dst WB1 bB1 WB2 bB2 WB3 bB3))) dst)
        (Cert.KernelIdeal.KStage.take128 (cat (Cert.ReferenceIdeal.RefSpec.A2hp h p WA2 bA2) (Cert.ReferenceIdeal.RefSpec.C2p p WC2 bC2)) src)
      = cat (Cert.ReferenceIdeal.RefSpec.etaV h p e src dst WA2 bA2 WB1 bB1 WB2 bB2 WB3 bB3)
          (Cert.ReferenceIdeal.RefSpec.etaP h p e src dst WB1 bB1 WB2 bB2 WB3 bB3 WC2 bC2) := by
  funext i
  obtain ⟨r, q, rfl⟩ : ∃ (r : Fin 500000) (q : Fin 128), i = ix2 r q := ⟨i 0, i 1, eq_ix2 i⟩
  rw [Cert.KernelIdeal.Region2.G2_3_ix2, Cert.HostIdx.take128_cat]
  by_cases hq : q.val < 64
  · rw [dif_pos hq, cat_ix2_lt _ _ r q hq, cat_ix2_lt _ _ r q hq, R2.eta_at, Cert.HostIdx.take64_ker_eq_ref]
    unfold Cert.ReferenceIdeal.RefSpec.etaV
    rw [mulf_apply]
  · rw [dif_neg hq, cat_ix2_ge _ _ r q hq, cat_ix2_ge _ _ r q hq, R2.eta_at, Cert.HostIdx.take64_ker_eq_ref]
    unfold Cert.ReferenceIdeal.RefSpec.etaP
    rw [mulf_apply]

end Cert.Bridge

end
-- ==== Proof.KValueA.lean ====
/-
  The idealized kernel program's intermediate arrays as the reference's functions of the argument arrays.

  Each region's output array is one index-by-index function of the arrays its windows read (the regions'
  value theorems); those arrays are read back through the run's fold to the arguments and to earlier regions'
  outputs; and each such function of the reference's stage terms is the reference's next stage term (the bridge
  lemmas: a 128-column contraction split in two halves, a 128-column gather and segment sum as two 64-column ones
  side by side, means and variances kept as rows against vectors broadcast back). Chained in program order:
  the node maps, the edge pre-activation, the normalised gates' messages and their segment sums (the three
  results follow in the next module).
-/
import proofs.«163623_j1168231104593_2_alg».proof.Proof.KFold
import proofs.«163623_j1168231104593_2_alg».proof.Proof.Region0
import proofs.«163623_j1168231104593_2_alg».proof.Proof.Region1
import proofs.«163623_j1168231104593_2_alg».proof.Proof.Region2
import proofs.«163623_j1168231104593_2_alg».proof.Proof.Bridge0
import proofs.«163623_j1168231104593_2_alg».proof.Proof.Bridge1
import proofs.«163623_j1168231104593_2_alg».proof.Proof.Bridge2
import proofs.«163623_j1168231104593_2_alg».proof.Proof.HostCat
import proofs.«163623_j1168231104593_2_alg».proof.Proof.Gen.ReferenceIdeal

set_option maxRecDepth 16384

noncomputable section

namespace Cert.KernelIdeal.KValue

open Cert.KernelIdeal Cert.KernelIdeal.Gen Cert.KernelIdeal.KFold
open Idealize.ShloMosaic Idealize.ShloMosaic.TcCoe Idealize.SL.Sem
open Cert.Cat Cert.Bridge Cert.HostIdx

variable (m : (ℓ : Loc nD τ sig) → Buf (Elt Ideal) ℓ) (ρ : Dev nD → PrngReg)

/-! ## Region 0: the node maps -/

theorem v11_2 (c : Dev nD) : W2 m ρ c (Proc.devRef .tc main_v11_2) = (Cert.ReferenceIdeal.RefSpec.B1h (F := Ideal) (m ((c : Thread nD τ).loc main_arg0)) (m ((c : Thread nD τ).loc main_arg10)) (m ((c : Thread nD τ).loc main_arg11))) := by
  rw [W2_v11_2, Region0.final0_18 (V1 m ρ) c]
  have e0 : V1 m ρ c (Pipeline.arrRef spec0 0) = (m ((c : Thread nD τ).loc main_arg0)) := W1_arg0 m ρ c
  have e8 : V1 m ρ c (Pipeline.arrRef spec0 8) = (m ((c : Thread nD τ).loc main_arg10)) := W1_arg10 m ρ c
  have e9 : V1 m ρ c (Pipeline.arrRef spec0 9) = KStage.row (F := Ideal) (m ((c : Thread nD τ).loc main_arg11)) := W1_v6 m ρ c
  rw [e0, e8, e9]
  apply b0_18

theorem v11_3 (c : Dev nD) : W2 m ρ c (Proc.devRef .tc main_v11_3) = (Cert.ReferenceIdeal.RefSpec.B2h (F := Ideal) (m ((c : Thread nD τ).loc main_arg0)) (m ((c : Thread nD τ).loc main_arg12)) (m ((c : Thread nD τ).loc main_arg13))) := by
  rw [W2_v11_3, Region0.final0_19 (V1 m ρ) c]
  have e0 : V1 m ρ c (Pipeline.arrRef spec0 0) = (m ((c : Thread nD τ).loc main_arg0)) := W1_arg0 m ρ c
  have e10 : V1 m ρ c (Pipeline.arrRef spec0 10) = (m ((c : Thread nD τ).loc main_arg12)) := W1_arg12 m ρ c
  have e11 : V1 m ρ c (Pipeline.arrRef spec0 11) = KStage.row (F := Ideal) (m ((c : Thread nD τ).loc main_arg13)) := W1_v7 m ρ c
  rw [e0, e10, e11]
  apply b0_19

theorem v11_0 (c : Dev nD) : W2 m ρ c (Proc.devRef .tc main_v11_0) = cat (Cert.ReferenceIdeal.RefSpec.A1h (F := Ideal) (m ((c : Thread nD τ).loc main_arg0)) (m ((c : Thread nD τ).loc main_arg1)) (m ((c : Thread nD τ).loc main_arg6)) (m ((c : Thread nD τ).loc main_arg7))) (Cert.ReferenceIdeal.RefSpec.C1p (F := Ideal) (m ((c : Thread nD τ).loc main_arg1)) (m ((c : Thread nD τ).loc main_arg16)) (m ((c : Thread nD τ).loc main_arg17))) := by
  rw [W2_v11_0, Region0.final0_16 (V1 m ρ) c]
  have e0 : V1 m ρ c (Pipeline.arrRef spec0 0) = (m ((c : Thread nD τ).loc main_arg0)) := W1_arg0 m ρ c
  have e1 : V1 m ρ c (Pipeline.arrRef spec0 1) = (m ((c : Thread nD τ).loc main_arg1)) := W1_arg1 m ρ c
  have e2 : V1 m ρ c (Pipeline.arrRef spec0 2) = KStage.top (F := Ideal) (m ((c : Thread nD τ).loc main_arg6)) := W1_v0 m ρ c
  have e3 : V1 m ρ c (Pipeline.arrRef spec0 3) = KStage.bot (F := Ideal) (m ((c : Thread nD τ).loc main_arg6)) := W1_v1 m ρ c
  have e4 : V1 m ρ c (Pipeline.arrRef spec0 4) = KStage.row (F := Ideal) (m ((c : Thread nD τ).loc main_arg7)) := W1_v4 m ρ c
  have e12 : V1 m ρ c (Pipeline.arrRef spec0 12) = (m ((c : Thread nD τ).loc main_arg16)) := W1_arg16 m ρ c
  have e13 : V1 m ρ c (Pipeline.arrRef spec0 13) = KStage.row (F := Ideal) (m ((c : Thread nD τ).loc main_arg17)) := W1_v8 m ρ c
  rw [e0, e1, e2, e3, e4, e12, e13]
  apply b0_16

theorem v11_1 (c : Dev nD) : W2 m ρ c (Proc.devRef .tc main_v11_1) = cat (Cert.ReferenceIdeal.RefSpec.A2hp (F := Ideal) (m ((c : Thread nD τ).loc main_arg0)) (m ((c : Thread nD τ).loc main_arg1)) (m ((c : Thread nD τ).loc main_arg8)) (m ((c : Thread nD τ).loc main_arg9))) (Cert.ReferenceIdeal.RefSpec.C2p (F := Ideal) (m ((c : Thread nD τ).loc main_arg1)) (m ((c : Thread nD τ).loc main_arg18)) (m ((c : Thread nD τ).loc main_arg19))) := by
  rw [W2_v11_1, Region0.final0_17 (V1 m ρ) c]
  have e0 : V1 m ρ c (Pipeline.arrRef spec0 0) = (m ((c : Thread nD τ).loc main_arg0)) := W1_arg0 m ρ c
  have e1 : V1 m ρ c (Pipeline.arrRef spec0 1) = (m ((c : Thread nD τ).loc main_arg1)) := W1_arg1 m ρ c
  have e5 : V1 m ρ c (Pipeline.arrRef spec0 5) = KStage.top (F := Ideal) (m ((c : Thread nD τ).loc main_arg8)) := W1_v2 m ρ c
  have e6 : V1 m ρ c (Pipeline.arrRef spec0 6) = KStage.bot (F := Ideal) (m ((c : Thread nD τ).loc main_arg8)) := W1_v3 m ρ c
  have e7 : V1 m ρ c (Pipeline.arrRef spec0 7) = KStage.row (F := Ideal) (m ((c : Thread nD τ).loc main_arg9)) := W1_v5 m ρ c
  have e14 : V1 m ρ c (Pipeline.arrRef spec0 14) = (m ((c : Thread nD τ).loc main_arg18)) := W1_arg18 m ρ c
  have e15 : V1 m ρ c (Pipeline.arrRef spec0 15) = KStage.row (F := Ideal) (m ((c : Thread nD τ).loc main_arg19)) := W1_v9 m ρ c
  rw [e0, e1, e5, e6, e7, e14, e15]
  apply b0_17

/-! ## Region 1: the edge pre-activation -/

theorem v26 (c : Dev nD) : W4 m ρ c (Proc.devRef .tc main_v26) = (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [W4_v26, Region1.final1_5 (V3 m ρ) c]
  have e0 : V3 m ρ c (Pipeline.arrRef spec1 0) = (m ((c : Thread nD τ).loc main_arg2)) := W3_arg2 m ρ c
  have e1 : V3 m ρ c (Pipeline.arrRef spec1 1) = (m ((c : Thread nD τ).loc main_arg14)) := W3_arg14 m ρ c
  have e2 : V3 m ρ c (Pipeline.arrRef spec1 2) = KStage.row (F := Ideal) (m ((c : Thread nD τ).loc main_arg15)) := W3_v10 m ρ c
  have e3 : V3 m ρ c (Pipeline.arrRef spec1 3) = KStage.take64 (F := Ideal) (Cert.ReferenceIdeal.RefSpec.B1h (F := Ideal) (m ((c : Thread nD τ).loc main_arg0)) (m ((c : Thread nD τ).loc main_arg10)) (m ((c : Thread nD τ).loc main_arg11))) (m ((c : Thread nD τ).loc main_arg4)) := (W3_v18 m ρ c).trans (by rw [v11_2])
  have e4 : V3 m ρ c (Pipeline.arrRef spec1 4) = KStage.take64 (F := Ideal) (Cert.ReferenceIdeal.RefSpec.B2h (F := Ideal) (m ((c : Thread nD τ).loc main_arg0)) (m ((c : Thread nD τ).loc main_arg12)) (m ((c : Thread nD τ).loc main_arg13))) (m ((c : Thread nD τ).loc main_arg5)) := (W3_v25 m ρ c).trans (by rw [v11_3])
  rw [e0, e1, e2, e3, e4]
  apply b1_5

/-! ## Region 2: the gated messages, node and positional side by side -/

theorem v50 (c : Dev nD) : W6 m ρ c (Proc.devRef .tc main_v50) = cat (Cert.ReferenceIdeal.RefSpec.etaV (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.RefSpec.etaP (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19))) := by
  rw [W6_v50, Region2.final2_3 (V5 m ρ) c]
  have e0 : V5 m ρ c (Pipeline.arrRef spec2 0) = (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W5_v26 m ρ c).trans (v26 m ρ c)
  have e1 : V5 m ρ c (Pipeline.arrRef spec2 1) = KStage.take64 (F := Ideal) (KStage.segSum64 (F := Ideal) (m ((c : Thread nD τ).loc main_arg5)) (KStage.logistic (F := Ideal) (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))))) (m ((c : Thread nD τ).loc main_arg5)) := (W5_v42 m ρ c).trans (by rw [v26])
  have e2 : V5 m ρ c (Pipeline.arrRef spec2 2) = KStage.take128 (F := Ideal) (cat (Cert.ReferenceIdeal.RefSpec.A2hp (F := Ideal) (m ((c : Thread nD τ).loc main_arg0)) (m ((c : Thread nD τ).loc main_arg1)) (m ((c : Thread nD τ).loc main_arg8)) (m ((c : Thread nD τ).loc main_arg9))) (Cert.ReferenceIdeal.RefSpec.C2p (F := Ideal) (m ((c : Thread nD τ).loc main_arg1)) (m ((c : Thread nD τ).loc main_arg18)) (m ((c : Thread nD τ).loc main_arg19)))) (m ((c : Thread nD τ).loc main_arg4)) := (W5_v49 m ρ c).trans (by rw [v11_1])
  rw [e0, e1, e2]
  apply b2_3

/-! ## The segment sums of the messages, and the node features before normalisation -/

theorem v53 (c : Dev nD) : W11 m ρ c (Proc.devRef .tc main_v53) = cat (Cert.ReferenceIdeal.RefSpec.sumEtaV (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.RefSpec.sumEtaP (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19))) := by
  rw [W11_v53, v50, segSum128_cat, segSum64_ker_eq_ref, segSum64_ker_eq_ref]
  rfl

theorem hnew_eq (c : Dev nD) :
    addf (KStage.lcols (F := Ideal) (W2 m ρ c (Proc.devRef .tc main_v11_0))) (KStage.lcols (F := Ideal) (KStage.segSum128 (F := Ideal) (m ((c : Thread nD τ).loc main_arg5)) (W6 m ρ c (Proc.devRef .tc main_v50)))) = (Cert.ReferenceIdeal.RefSpec.hNew (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  have e53 := v53 m ρ c
  rw [W11_v53] at e53
  rw [e53, v11_0, lcols_cat, lcols_cat]
  rfl

end Cert.KernelIdeal.KValue

end
-- ==== Proof.Region3.lean ====
import proofs.«163623_j1168231104593_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-! # Region 3: the node finalisation, as two functions of its input arrays

The two 128-wide inputs are added; the left 64 columns of the sum are batch-normalised with the per-column statistics
(mean `x6`, variance `x7`, scale `x4`, shift `x5`, each one row of 64 columns), rectified and added to `x2`; the right 64
columns go through `tanh` and are added to `x3`. -/

/-- The first output, index by index: `x2 + max ((((x0 + x1)[·, c] - mean) * rsqrt (var + ε)) * scale + shift) 0` at
    column `c` below 64. -/
def G3_8 (x0 x1 : (⟨2, ![50000, 128]⟩ : Shape).Idx → EReal) (x2 : (⟨2, ![50000, 64]⟩ : Shape).Idx → EReal)
    (x4 x5 x6 x7 : (⟨2, ![1, 64]⟩ : Shape).Idx → EReal) : (⟨2, ![50000, 64]⟩ : Shape).Idx → EReal := fun i =>
  x2 i + max (((((x0 (ix2 (i 0) (⟨(i 1).val, by have := idx2_lt1 i; omega⟩ : Fin 128))
        + x1 (ix2 (i 0) (⟨(i 1).val, by have := idx2_lt1 i; omega⟩ : Fin 128))) - x6 (ix2 (0 : Fin 1) (i 1)))
      * Ideal.rsqrt (x7 (ix2 (0 : Fin 1) (i 1)) + Ideal.ofBits .f32 0x3727C5AC#32)) * x4 (ix2 (0 : Fin 1) (i 1)))
      + x5 (ix2 (0 : Fin 1) (i 1))) 0

/-- The second output, index by index: `x3 + tanh ((x0 + x1)[·, c + 64])`. -/
def G3_9 (x0 x1 : (⟨2, ![50000, 128]⟩ : Shape).Idx → EReal) (x3 : (⟨2, ![50000, 64]⟩ : Shape).Idx → EReal) :
    (⟨2, ![50000, 64]⟩ : Shape).Idx → EReal := fun i =>
  x3 i + Ideal.tanh (x0 (ix2 (i 0) (⟨(i 1).val + 64, by have := idx2_lt1 i; omega⟩ : Fin 128))
    + x1 (ix2 (i 0) (⟨(i 1).val + 64, by have := idx2_lt1 i; omega⟩ : Fin 128)))

/-! ## The body's payloads at an index of the block -/

/-- The sum of the two 128-wide blocks at row `p`, column `k`. -/
theorem sum_apply (v0 v2 : Vec Ideal S2000x128 .f32) (p : Fin 2000) (k : Fin 128) :
    k3_pay1 v0 v2 (ix2 p k) = v0 (ix2 p k) + v2 (ix2 p k) := by
  unfold k3_pay1
  simp only [shapeCast_self, addf_apply]

/-- What the body stores in the first output's block at row `p`, column `q`. -/
theorem pay8_apply (v0 v2 : Vec Ideal S2000x128 .f32) (v7 v12 v18 v22 : Vec Ideal S1x64 .f32) (v26 : Vec Ideal S2000x64 .f32)
    (p : Fin 2000) (q : Fin 64) :
    k3_pay2 v0 v2 v7 v12 v18 v22 v26 (ix2 p q)
      = v26 (ix2 p q) + max (((((v0 (ix2 p (⟨q.val, by omega⟩ : Fin 128)) + v2 (ix2 p (⟨q.val, by omega⟩ : Fin 128))) - v12 (ix2 (0 : Fin 1) q))
          * Ideal.rsqrt (v7 (ix2 (0 : Fin 1) q) + Ideal.ofBits .f32 0x3727C5AC#32)) * v18 (ix2 (0 : Fin 1) q)) + v22 (ix2 (0 : Fin 1) q)) 0 := by
  unfold k3_pay2
  simp only [shapeCast_self, addf_apply, maximumf_apply, mulf_apply, subf_apply, broadcast_apply]
  rw [broadcastTo_1b_ab_apply v12, broadcastTo_1b_ab_apply v18, broadcastTo_1b_ab_apply v22, broadcastTo_1b_ab_apply,
    slice2_axis1_apply 0 (k3_pay1 v0 v2) _ p q (⟨q.val, by omega⟩ : Fin 128) (by simp), sum_apply]
  rw [show (FloatOps.ofBits (F := Ideal) .f32 0x00000000#32) = 0 from Ideal.ofBits_zero_f32]
  rfl

/-- What the body stores in the second output's block at row `p`, column `q`. -/
theorem pay9_apply (v0 v2 : Vec Ideal S2000x128 .f32) (v31 : Vec Ideal S2000x64 .f32) (p : Fin 2000) (q : Fin 64) :
    k3_pay3 v0 v2 v31 (ix2 p q)
      = v31 (ix2 p q) + Ideal.tanh (v0 (ix2 p (⟨q.val + 64, by omega⟩ : Fin 128)) + v2 (ix2 p (⟨q.val + 64, by omega⟩ : Fin 128))) := by
  unfold k3_pay3
  simp only [addf_apply]
  show v31 (ix2 p q) + Ideal.tanh (extractStridedSlice S2000x64 ![0, 64] (k3_pay1 v0 v2) slices_S2000x128_o0_64_S2000x64 (ix2 p q)) = _
  rw [slice2_axis1_apply 64 (k3_pay1 v0 v2) _ p q (⟨q.val + 64, by omega⟩ : Fin 128) (by simp [Nat.add_comm]), sum_apply]

variable (V : (c : Dev nD) → (b : Ref sig .tc) → Buf (Elt Ideal) ((c : Thread nD τ).loc b))

/-! ## An input window's block, read at an index, is its array at the index under the block -/

/-- Block `t` of the first 128-wide input is rows `2000 t … 2000 t + 1999` of its array. -/
theorem blk0_apply (c : Dev nD) (t : Fin cfg3.N) (p : Fin 2000) (q : Fin 128) (k : (⟨2, ![50000, 128]⟩ : Shape).Idx)
    (hk0 : (k 0).val = t.val * 2000 + p.val) (hk1 : (k 1).val = q.val) :
    (iblk3 V c 0 t : Vec Ideal S2000x128 .f32) (ix2 p q)
      = (V c (Pipeline.arrRef spec3 0) : (⟨2, ![50000, 128]⟩ : Shape).Idx → EReal) k := by
  have hi : win3_0.index t (0 : Fin 2) = t.val ∧ win3_0.index t (1 : Fin 2) = 0 :=
    (by decide +kernel : ∀ t : Fin grid3.N, win3_0.index t (0 : Fin 2) = t.val ∧ win3_0.index t (1 : Fin 2) = 0) t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = (k 0).val; rw [hi.1, hk0]; omega
  | ⟨1, _⟩ => show win3_0.index t (1 : Fin 2) * 128 + 1 * q.val = (k 1).val; rw [hi.2, hk1]; omega

/-- Block `t` of the second 128-wide input is rows `2000 t … 2000 t + 1999` of its array. -/
theorem blk1_apply (c : Dev nD) (t : Fin cfg3.N) (p : Fin 2000) (q : Fin 128) (k : (⟨2, ![50000, 128]⟩ : Shape).Idx)
    (hk0 : (k 0).val = t.val * 2000 + p.val) (hk1 : (k 1).val = q.val) :
    (iblk3 V c 1 t : Vec Ideal S2000x128 .f32) (ix2 p q)
      = (V c (Pipeline.arrRef spec3 1) : (⟨2, ![50000, 128]⟩ : Shape).Idx → EReal) k := by
  have hi : win3_1.index t (0 : Fin 2) = t.val ∧ win3_1.index t (1 : Fin 2) = 0 :=
    (by decide +kernel : ∀ t : Fin grid3.N, win3_1.index t (0 : Fin 2) = t.val ∧ win3_1.index t (1 : Fin 2) = 0) t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 2000 + 1 * p.val = (k 0).val; rw [hi.1, hk0]; omega
  | ⟨1, _⟩ => show win3_1.index t (1 : Fin 2) * 128 + 1 * q.val = (k 1).val; rw [hi.2, hk1]; omega

/-- Block `t` of the incoming node features is rows `2000 t … 2000 t + 1999` of their array. -/
theorem blk2_apply (c : Dev nD) (t : Fin cfg3.N) (p : Fin 2000) (q : Fin 64) (k : (⟨2, ![50000, 64]⟩ : Shape).Idx)
    (hk0 : (k 0).val = t.val * 2000 + p.val) (hk1 : (k 1).val = q.val) :
    (iblk3 V c 2 t : Vec Ideal S2000x64 .f32) (ix2 p q)
      = (V c (Pipeline.arrRef spec3 2) : (⟨2, ![50000, 64]⟩ : Shape).Idx → EReal) k := by
  have hi : win3_2.index t (0 : Fin 2) = t.val ∧ win3_2.index t (1 : Fin 2) = 0 :=
    (by decide +kernel : ∀ t : Fin grid3.N, win3_2.index t (0 : Fin 2) = t.val ∧ win3_2.index t (1 : Fin 2) = 0) t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 2000 + 1 * p.val = (k 0).val; rw [hi.1, hk0]; omega
  | ⟨1, _⟩ => show win3_2.index t (1 : Fin 2) * 64 + 1 * q.val = (k 1).val; rw [hi.2, hk1]; omega

/-- Block `t` of the incoming positional features is rows `2000 t … 2000 t + 1999` of their array. -/
theorem blk3_apply (c : Dev nD) (t : Fin cfg3.N) (p : Fin 2000) (q : Fin 64) (k : (⟨2, ![50000, 64]⟩ : Shape).Idx)
    (hk0 : (k 0).val = t.val * 2000 + p.val) (hk1 : (k 1).val = q.val) :
    (iblk3 V c 3 t : Vec Ideal S2000x64 .f32) (ix2 p q)
      = (V c (Pipeline.arrRef spec3 3) : (⟨2, ![50000, 64]⟩ : Shape).Idx → EReal) k := by
  have hi : win3_3.index t (0 : Fin 2) = t.val ∧ win3_3.index t (1 : Fin 2) = 0 :=
    (by decide +kernel : ∀ t : Fin grid3.N, win3_3.index t (0 : Fin 2) = t.val ∧ win3_3.index t (1 : Fin 2) = 0) t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 2000 + 1 * p.val = (k 0).val; rw [hi.1, hk0]; omega
  | ⟨1, _⟩ => show win3_3.index t (1 : Fin 2) * 64 + 1 * q.val = (k 1).val; rw [hi.2, hk1]; omega

/-- The scale row's one block is the row itself. -/
theorem blk4_apply (c : Dev nD) (t : Fin cfg3.N) (q : Fin 64) (k : (⟨2, ![1, 64]⟩ : Shape).Idx) (hk1 : (k 1).val = q.val) :
    (iblk3 V c 4 t : Vec Ideal S1x64 .f32) (ix2 (0 : Fin 1) q)
      = (V c (Pipeline.arrRef spec3 4) : (⟨2, ![1, 64]⟩ : Shape).Idx → EReal) k := by
  have hi : win3_4.index t (0 : Fin 2) = 0 ∧ win3_4.index t (1 : Fin 2) = 0 :=
    (by decide +kernel : ∀ t : Fin grid3.N, win3_4.index t (0 : Fin 2) = 0 ∧ win3_4.index t (1 : Fin 2) = 0) t
  have hk0 : (k 0).val = 0 := by have : (k 0).val < 1 := (k 0).isLt; omega
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = (k 0).val; rw [hi.1, hk0]
  | ⟨1, _⟩ => show win3_4.index t (1 : Fin 2) * 64 + 1 * q.val = (k 1).val; rw [hi.2, hk1]; omega

/-- The shift row's one block is the row itself. -/
theorem blk5_apply (c : Dev nD) (t : Fin cfg3.N) (q : Fin 64) (k : (⟨2, ![1, 64]⟩ : Shape).Idx) (hk1 : (k 1).val = q.val) :
    (iblk3 V c 5 t : Vec Ideal S1x64 .f32) (ix2 (0 : Fin 1) q)
      = (V c (Pipeline.arrRef spec3 5) : (⟨2, ![1, 64]⟩ : Shape).Idx → EReal) k := by
  have hi : win3_5.index t (0 : Fin 2) = 0 ∧ win3_5.index t (1 : Fin 2) = 0 :=
    (by decide +kernel : ∀ t : Fin grid3.N, win3_5.index t (0 : Fin 2) = 0 ∧ win3_5.index t (1 : Fin 2) = 0) t
  have hk0 : (k 0).val = 0 := by have : (k 0).val < 1 := (k 0).isLt; omega
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * 0 = (k 0).val; rw [hi.1, hk0]
  | ⟨1, _⟩ => show win3_5.index t (1 : Fin 2) * 64 + 1 * q.val = (k 1).val; rw [hi.2, hk1]; omega

/-- The mean row's one block is the row itself. -/
theorem blk6_apply (c : Dev nD) (t : Fin cfg3.N) (q : Fin 64) (k : (⟨2, ![1, 64]⟩ : Shape).Idx) (hk1 : (k 1).val = q.val) :
    (iblk3 V c 6 t : Vec Ideal S1x64 .f32) (ix2 (0 : Fin 1) q)
      = (V c (Pipeline.arrRef spec3 6) : (⟨2, ![1, 64]⟩ : Shape).Idx → EReal) k := by
  have hi : win3_6.index t (0 : Fin 2) = 0 ∧ win3_6.index t (1 : Fin 2) = 0 :=
    (by decide +kernel : ∀ t : Fin grid3.N, win3_6.index t (0 : Fin 2) = 0 ∧ win3_6.index t (1 : Fin 2) = 0) t
  have hk0 : (k 0).val = 0 := by have : (k 0).val < 1 := (k 0).isLt; omega
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * 0 = (k 0).val; rw [hi.1, hk0]
  | ⟨1, _⟩ => show win3_6.index t (1 : Fin 2) * 64 + 1 * q.val = (k 1).val; rw [hi.2, hk1]; omega

/-- The variance row's one block is the row itself. -/
theorem blk7_apply (c : Dev nD) (t : Fin cfg3.N) (q : Fin 64) (k : (⟨2, ![1, 64]⟩ : Shape).Idx) (hk1 : (k 1).val = q.val) :
    (iblk3 V c 7 t : Vec Ideal S1x64 .f32) (ix2 (0 : Fin 1) q)
      = (V c (Pipeline.arrRef spec3 7) : (⟨2, ![1, 64]⟩ : Shape).Idx → EReal) k := by
  have hi : win3_7.index t (0 : Fin 2) = 0 ∧ win3_7.index t (1 : Fin 2) = 0 :=
    (by decide +kernel : ∀ t : Fin grid3.N, win3_7.index t (0 : Fin 2) = 0 ∧ win3_7.index t (1 : Fin 2) = 0) t
  have hk0 : (k 0).val = 0 := by have : (k 0).val < 1 := (k 0).isLt; omega
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * 0 = (k 0).val; rw [hi.1, hk0]
  | ⟨1, _⟩ => show win3_7.index t (1 : Fin 2) * 64 + 1 * q.val = (k 1).val; rw [hi.2, hk1]; omega

theorem hz : (![0, 0] : Fin 2 → Nat) = fun _ => 0 := funext fun a => by fin_cases a <;> rfl

end Cert.KernelIdeal.Region3

end
-- ==== Proof.Region3Out8.lean ====
import proofs.«163623_j1168231104593_2_alg».proof.Proof.Region3

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 3, output window 8: from the blocks to the array (the batch-normalised, rectified node features added to the incoming ones) -/

/-- The output window's index map over the grid: block row `t`, column block 0. -/
theorem index_out8 : ∀ t : Fin cfg3.N, win3_8.index t (0 : Fin 2) = t.val ∧ win3_8.index t (1 : Fin 2) = 0 :=
  (by decide +kernel : ∀ t : Fin grid3.N, _)

/-- The stored value is `G3_8` of any arrays that the blocks read: over variables, the blocks' reads as hypotheses. -/
theorem pay8_eq_of (v0 v2 : Vec Ideal S2000x128 .f32) (v7 v12 v18 v22 : Vec Ideal S1x64 .f32) (v26 : Vec Ideal S2000x64 .f32)
    (A0 A1 : (⟨2, ![50000, 128]⟩ : Shape).Idx → EReal) (A2 : (⟨2, ![50000, 64]⟩ : Shape).Idx → EReal)
    (A4 A5 A6 A7 : (⟨2, ![1, 64]⟩ : Shape).Idx → EReal)
    (p : Fin 2000) (q : Fin 64) (k : (⟨2, ![50000, 64]⟩ : Shape).Idx) (hq : q.val < 128) (hk : (k 1).val < 128)
    (h0 : v0 (ix2 p (⟨q.val, hq⟩ : Fin 128)) = A0 (ix2 (k 0) (⟨(k 1).val, hk⟩ : Fin 128)))
    (h1 : v2 (ix2 p (⟨q.val, hq⟩ : Fin 128)) = A1 (ix2 (k 0) (⟨(k 1).val, hk⟩ : Fin 128)))
    (h2 : v26 (ix2 p q) = A2 k)
    (h4 : v18 (ix2 (0 : Fin 1) q) = A4 (ix2 (0 : Fin 1) (k 1))) (h5 : v22 (ix2 (0 : Fin 1) q) = A5 (ix2 (0 : Fin 1) (k 1)))
    (h6 : v12 (ix2 (0 : Fin 1) q) = A6 (ix2 (0 : Fin 1) (k 1))) (h7 : v7 (ix2 (0 : Fin 1) q) = A7 (ix2 (0 : Fin 1) (k 1))) :
    k3_pay2 v0 v2 v7 v12 v18 v22 v26 (ix2 p q) = G3_8 A0 A1 A2 A4 A5 A6 A7 k := by
  rw [pay8_apply, h0, h1, h2, h4, h5, h6, h7]
  rfl

/-- What the body stores at row `p`, column `q` of block `t` is `G3_8` of the arrays at the index `k` under it. -/
theorem point8_eq (c : Dev nD) (t : Fin cfg3.N) (p : Fin 2000) (q : Fin 64) (k : (⟨2, ![50000, 64]⟩ : Shape).Idx)
    (hk0 : (k 0).val = t.val * 2000 + p.val) (hk1 : (k 1).val = q.val) :
    k3_pay2 (iblk3 V c 0 t) (iblk3 V c 1 t) (iblk3 V c 7 t) (iblk3 V c 6 t) (iblk3 V c 4 t) (iblk3 V c 5 t) (iblk3 V c 2 t) (ix2 p q)
      = G3_8 (V c (Pipeline.arrRef spec3 0)) (V c (Pipeline.arrRef spec3 1)) (V c (Pipeline.arrRef spec3 2)) (V c (Pipeline.arrRef spec3 4)) (V c (Pipeline.arrRef spec3 5)) (V c (Pipeline.arrRef spec3 6)) (V c (Pipeline.arrRef spec3 7)) k := by
  have hq : q.val < 128 := by have := q.isLt; omega
  have hk : (k 1).val < 128 := by have := idx2_lt1 k; omega
  exact pay8_eq_of (iblk3 V c 0 t) (iblk3 V c 1 t) (iblk3 V c 7 t) (iblk3 V c 6 t) (iblk3 V c 4 t) (iblk3 V c 5 t) (iblk3 V c 2 t)
    (V c (Pipeline.arrRef spec3 0)) (V c (Pipeline.arrRef spec3 1)) (V c (Pipeline.arrRef spec3 2)) (V c (Pipeline.arrRef spec3 4))
    (V c (Pipeline.arrRef spec3 5)) (V c (Pipeline.arrRef spec3 6)) (V c (Pipeline.arrRef spec3 7)) p q k hq hk
    (blk0_apply V c t p (⟨q.val, hq⟩ : Fin 128) (ix2 (k 0) (⟨(k 1).val, hk⟩ : Fin 128)) hk0 hk1)
    (blk1_apply V c t p (⟨q.val, hq⟩ : Fin 128) (ix2 (k 0) (⟨(k 1).val, hk⟩ : Fin 128)) hk0 hk1)
    (blk2_apply V c t p q k hk0 hk1)
    (blk4_apply V c t q (ix2 (0 : Fin 1) (k 1)) hk1) (blk5_apply V c t q (ix2 (0 : Fin 1) (k 1)) hk1)
    (blk6_apply V c t q (ix2 (0 : Fin 1) (k 1)) hk1) (blk7_apply V c t q (ix2 (0 : Fin 1) (k 1)) hk1)

/-- What grid point `t` writes back is block `t` of `G3_8` of the arrays as the region finds them. -/
theorem flushed8_eq (c : Dev nD) (t : Fin cfg3.N) :
    (dat3 (F := Ideal) V c).flushed 8 t = ((cfg3.win 8).blk t).view.read (Elt Ideal)
      (G3_8 (V c (Pipeline.arrRef spec3 0)) (V c (Pipeline.arrRef spec3 1)) (V c (Pipeline.arrRef spec3 2)) (V c (Pipeline.arrRef spec3 4)) (V c (Pipeline.arrRef spec3 5)) (V c (Pipeline.arrRef spec3 6)) (V c (Pipeline.arrRef spec3 7))) := by
  show (cfg3.win 8).cut (grid3.coords t) ((dat3 V c).after 8 t) = _
  rw [after3_8]
  unfold out3_8
  rw [View.canon_unit_zero hz]
  simp only [View.ld_unit_zero (S := S2000x128) hz, View.ld_unit_zero (S := S2000x64) hz, View.ld_unit_zero (S := S1x64) hz]
  obtain ⟨e0, e1⟩ := index_out8 t
  funext j
  obtain ⟨p, q, rfl⟩ : ∃ (p : Fin 2000) (q : Fin 64), j = ix2 p q := ⟨j 0, j 1, eq_ix2 j⟩
  show k3_pay2 (iblk3 V c 0 t) (iblk3 V c 1 t) (iblk3 V c 7 t) (iblk3 V c 6 t) (iblk3 V c 4 t) (iblk3 V c 5 t) (iblk3 V c 2 t) (ix2 p q) = _
  rw [View.read_apply]
  refine point8_eq V c t p q _ ?_ ?_
  · show win3_8.index t (0 : Fin 2) * 2000 + 1 * p.val = t.val * 2000 + p.val; rw [e0]; omega
  · show win3_8.index t (1 : Fin 2) * 64 + 1 * q.val = q.val; rw [e1]; omega

/-- An index of the array is in point `t`'s block iff each coordinate is in the block's range on its axis. -/
theorem mem_blk8 (t : Fin cfg3.N) (i : S50000x64.Idx) :
    i ∈ ((cfg3.win 8).blk t).view.set ↔ ∀ a : Fin 2, win3_8.index t a * S2000x64.size a ≤ (i a).val
      ∧ (i a).val < win3_8.index t a * S2000x64.size a + S2000x64.size a := by
  show i ∈ ((View.whole main_v71_0).slice (win3_8.rect t)).set ↔ _
  rw [View.set_slice_whole, Rect.mem_set_unit]
  exact Iff.rfl

/-- Every index of the array is in some point's block: row `r` is covered by point `r / 2000`. -/
theorem cover8 (i : S50000x64.Idx) :
    ∃ t : Fin cfg3.N, (cfg3.win 8).flush t = true ∧ i ∈ ((cfg3.win 8).blk t).view.set := by
  have hi0 : (i 0).val < 50000 := (i 0).isLt
  have hi1 : (i 1).val < 64 := (i 1).isLt
  have ht : (i 0).val / 2000 < cfg3.N := by show _ < grid3.N; rw [N_3]; omega
  obtain ⟨e0, e1⟩ := index_out8 ⟨(i 0).val / 2000, ht⟩
  refine ⟨⟨(i 0).val / 2000, ht⟩, flush3_8 _, ?_⟩
  rw [mem_blk8]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_8.index ⟨(i 0).val / 2000, ht⟩ (1 : Fin 2) * 64 ≤ (i 1).val
      ∧ (i 1).val < win3_8.index ⟨(i 0).val / 2000, ht⟩ (1 : Fin 2) * 64 + 64
    rw [e1]; omega

/-- The array after the whole region is `G3_8` of the arrays as the region finds them. -/
theorem final3_8 (c : Dev nD) :
    (dat3 (F := Ideal) V c).arrAt 8 cfg3.N
      = G3_8 (V c (Pipeline.arrRef spec3 0)) (V c (Pipeline.arrRef spec3 1)) (V c (Pipeline.arrRef spec3 2)) (V c (Pipeline.arrRef spec3 4)) (V c (Pipeline.arrRef spec3 5)) (V c (Pipeline.arrRef spec3 6)) (V c (Pipeline.arrRef spec3 7)) :=
  (dat3 (F := Ideal) V c).arrAt_eq_of_cover 8 _ (fun t _ => flushed8_eq V c t) (fun i => cover8 i)

end Cert.KernelIdeal.Region3

end
-- ==== Proof.Region3Out9.lean ====
import proofs.«163623_j1168231104593_2_alg».proof.Proof.Region3

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 3, output window 9: from the blocks to the array (the tanh of the positional half added to the incoming positional features) -/

/-- The output window's index map over the grid: block row `t`, column block 0. -/
theorem index_out9 : ∀ t : Fin cfg3.N, win3_9.index t (0 : Fin 2) = t.val ∧ win3_9.index t (1 : Fin 2) = 0 :=
  (by decide +kernel : ∀ t : Fin grid3.N, _)

/-- What the body stores at row `p`, column `q` of block `t` is `G3_9` of the arrays at the index `k` under it. -/
theorem point9_eq (c : Dev nD) (t : Fin cfg3.N) (p : Fin 2000) (q : Fin 64) (k : (⟨2, ![50000, 64]⟩ : Shape).Idx)
    (hk0 : (k 0).val = t.val * 2000 + p.val) (hk1 : (k 1).val = q.val) :
    k3_pay3 (iblk3 V c 0 t) (iblk3 V c 1 t) (iblk3 V c 3 t) (ix2 p q)
      = G3_9 (V c (Pipeline.arrRef spec3 0)) (V c (Pipeline.arrRef spec3 1)) (V c (Pipeline.arrRef spec3 3)) k := by
  have hq : q.val < 64 := q.isLt
  refine (pay9_apply (iblk3 V c 0 t) (iblk3 V c 1 t) (iblk3 V c 3 t) p q).trans ?_
  rw [blk0_apply V c t p (⟨q.val + 64, by omega⟩ : Fin 128) (ix2 (k 0) (⟨(k 1).val + 64, by have := idx2_lt1 k; omega⟩ : Fin 128)) hk0
      (by show (k 1).val + 64 = q.val + 64; omega),
    blk1_apply V c t p (⟨q.val + 64, by omega⟩ : Fin 128) (ix2 (k 0) (⟨(k 1).val + 64, by have := idx2_lt1 k; omega⟩ : Fin 128)) hk0
      (by show (k 1).val + 64 = q.val + 64; omega),
    blk3_apply V c t p q k hk0 hk1]
  rfl

/-- What grid point `t` writes back is block `t` of `G3_9` of the arrays as the region finds them. -/
theorem flushed9_eq (c : Dev nD) (t : Fin cfg3.N) :
    (dat3 (F := Ideal) V c).flushed 9 t = ((cfg3.win 9).blk t).view.read (Elt Ideal)
      (G3_9 (V c (Pipeline.arrRef spec3 0)) (V c (Pipeline.arrRef spec3 1)) (V c (Pipeline.arrRef spec3 3))) := by
  show (cfg3.win 9).cut (grid3.coords t) ((dat3 V c).after 9 t) = _
  rw [after3_9]
  unfold out3_9
  rw [View.canon_unit_zero hz]
  simp only [View.ld_unit_zero (S := S2000x128) hz, View.ld_unit_zero (S := S2000x64) hz, View.ld_unit_zero (S := S1x64) hz]
  obtain ⟨e0, e1⟩ := index_out9 t
  funext j
  obtain ⟨p, q, rfl⟩ : ∃ (p : Fin 2000) (q : Fin 64), j = ix2 p q := ⟨j 0, j 1, eq_ix2 j⟩
  show k3_pay3 (iblk3 V c 0 t) (iblk3 V c 1 t) (iblk3 V c 3 t) (ix2 p q) = _
  rw [View.read_apply]
  refine point9_eq V c t p q _ ?_ ?_
  · show win3_9.index t (0 : Fin 2) * 2000 + 1 * p.val = t.val * 2000 + p.val; rw [e0]; omega
  · show win3_9.index t (1 : Fin 2) * 64 + 1 * q.val = q.val; rw [e1]; omega

/-- An index of the array is in point `t`'s block iff each coordinate is in the block's range on its axis. -/
theorem mem_blk9 (t : Fin cfg3.N) (i : S50000x64.Idx) :
    i ∈ ((cfg3.win 9).blk t).view.set ↔ ∀ a : Fin 2, win3_9.index t a * S2000x64.size a ≤ (i a).val
      ∧ (i a).val < win3_9.index t a * S2000x64.size a + S2000x64.size a := by
  show i ∈ ((View.whole main_v71_1).slice (win3_9.rect t)).set ↔ _
  rw [View.set_slice_whole, Rect.mem_set_unit]
  exact Iff.rfl

/-- Every index of the array is in some point's block: row `r` is covered by point `r / 2000`. -/
theorem cover9 (i : S50000x64.Idx) :
    ∃ t : Fin cfg3.N, (cfg3.win 9).flush t = true ∧ i ∈ ((cfg3.win 9).blk t).view.set := by
  have hi0 : (i 0).val < 50000 := (i 0).isLt
  have hi1 : (i 1).val < 64 := (i 1).isLt
  have ht : (i 0).val / 2000 < cfg3.N := by show _ < grid3.N; rw [N_3]; omega
  obtain ⟨e0, e1⟩ := index_out9 ⟨(i 0).val / 2000, ht⟩
  refine ⟨⟨(i 0).val / 2000, ht⟩, flush3_9 _, ?_⟩
  rw [mem_blk9]
  intro a
  match a with
  | ⟨0, _⟩ =>
    show win3_9.index ⟨(i 0).val / 2000, ht⟩ (0 : Fin 2) * 2000 ≤ (i 0).val
      ∧ (i 0).val < win3_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_9.index ⟨(i 0).val / 2000, ht⟩ (1 : Fin 2) * 64 ≤ (i 1).val
      ∧ (i 1).val < win3_9.index ⟨(i 0).val / 2000, ht⟩ (1 : Fin 2) * 64 + 64
    rw [e1]; omega

/-- The array after the whole region is `G3_9` of the arrays as the region finds them. -/
theorem final3_9 (c : Dev nD) :
    (dat3 (F := Ideal) V c).arrAt 9 cfg3.N
      = G3_9 (V c (Pipeline.arrRef spec3 0)) (V c (Pipeline.arrRef spec3 1)) (V c (Pipeline.arrRef spec3 3)) :=
  (dat3 (F := Ideal) V c).arrAt_eq_of_cover 9 _ (fun t _ => flushed9_eq V c t) (fun i => cover9 i)

end Cert.KernelIdeal.Region3

end
-- ==== Proof.Region4.lean ====
import proofs.«163623_j1168231104593_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

/-! # Region 4: the edge finalisation, as one function of its input arrays

Each row of the new edge features is batch-normalised with the per-column statistics (mean `x4`, variance `x5`, scale
`x2`, shift `x3`, each a single row of 64 columns), rectified, and added to the incoming edge features `x1`. -/

/-- The output array, index by index: `x1 + max (((x0 - mean) * rsqrt (var + ε)) * scale + shift) 0`, the statistics read
    at the index's column. -/
def G4_6 (x0 x1 : (⟨2, ![500000, 64]⟩ : Shape).Idx → EReal) (x2 x3 x4 x5 : (⟨2, ![1, 64]⟩ : Shape).Idx → EReal) :
    (⟨2, ![500000, 64]⟩ : Shape).Idx → EReal := fun i =>
  x1 i + max ((((x0 i - x4 (ix2 (0 : Fin 1) (i 1))) * Ideal.rsqrt (x5 (ix2 (0 : Fin 1) (i 1)) + Ideal.ofBits .f32 0x3727C5AC#32))
      * x2 (ix2 (0 : Fin 1) (i 1))) + x3 (ix2 (0 : Fin 1) (i 1))) 0

/-! ## The body's payload at an index of the block -/

/-- The same function on one block of 4000 rows: what the body stores at row `p`, column `q` of its block. -/
theorem pay_apply (v0 : Vec Ideal S1x64 .f32) (v5 : Vec Ideal S4000x64 .f32) (v7 v13 v17 : Vec Ideal S1x64 .f32)
    (v21 : Vec Ideal S4000x64 .f32) (p : Fin 4000) (q : Fin 64) :
    k4_pay1 v0 v5 v7 v13 v17 v21 (ix2 p q)
      = v21 (ix2 p q) + max ((((v5 (ix2 p q) - v7 (ix2 (0 : Fin 1) q)) * Ideal.rsqrt (v0 (ix2 (0 : Fin 1) q) + Ideal.ofBits .f32 0x3727C5AC#32))
          * v13 (ix2 (0 : Fin 1) q)) + v17 (ix2 (0 : Fin 1) q)) 0 := by
  unfold k4_pay1
  simp only [shapeCast_self, addf_apply, maximumf_apply, mulf_apply, subf_apply, broadcast_apply]
  rw [broadcastTo_1b_ab_apply v7, broadcastTo_1b_ab_apply v13, broadcastTo_1b_ab_apply v17, broadcastTo_1b_ab_apply]
  rw [show (FloatOps.ofBits (F := Ideal) .f32 0x00000000#32) = 0 from Ideal.ofBits_zero_f32]
  rfl

/-! ## From the blocks to the array -/

variable (V : (c : Dev nD) → (b : Ref sig .tc) → Buf (Elt Ideal) ((c : Thread nD τ).loc b))

/-! ## An input window's block, read at an index, is its array at the index under the block -/

/-- Block `t` of the new edge features is rows `4000 t … 4000 t + 3999` of their array. -/
theorem blk0_apply (c : Dev nD) (t : Fin cfg4.N) (p : Fin 4000) (q : Fin 64) (k : (⟨2, ![500000, 64]⟩ : Shape).Idx)
    (hk0 : (k 0).val = t.val * 4000 + p.val) (hk1 : (k 1).val = q.val) :
    (iblk4 V c 0 t : Vec Ideal S4000x64 .f32) (ix2 p q)
      = (V c (Pipeline.arrRef spec4 0) : (⟨2, ![500000, 64]⟩ : Shape).Idx → EReal) k := by
  have hi : win4_0.index t (0 : Fin 2) = t.val ∧ win4_0.index t (1 : Fin 2) = 0 :=
    (by decide +kernel : ∀ t : Fin grid4.N, win4_0.index t (0 : Fin 2) = t.val ∧ win4_0.index t (1 : Fin 2) = 0) t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * p.val = (k 0).val; rw [hi.1, hk0]; omega
  | ⟨1, _⟩ => show win4_0.index t (1 : Fin 2) * 64 + 1 * q.val = (k 1).val; rw [hi.2, hk1]; omega

/-- Block `t` of the incoming edge features is rows `4000 t … 4000 t + 3999` of their array. -/
theorem blk1_apply (c : Dev nD) (t : Fin cfg4.N) (p : Fin 4000) (q : Fin 64) (k : (⟨2, ![500000, 64]⟩ : Shape).Idx)
    (hk0 : (k 0).val = t.val * 4000 + p.val) (hk1 : (k 1).val = q.val) :
    (iblk4 V c 1 t : Vec Ideal S4000x64 .f32) (ix2 p q)
      = (V c (Pipeline.arrRef spec4 1) : (⟨2, ![500000, 64]⟩ : Shape).Idx → EReal) k := by
  have hi : win4_1.index t (0 : Fin 2) = t.val ∧ win4_1.index t (1 : Fin 2) = 0 :=
    (by decide +kernel : ∀ t : Fin grid4.N, win4_1.index t (0 : Fin 2) = t.val ∧ win4_1.index t (1 : Fin 2) = 0) t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 4000 + 1 * p.val = (k 0).val; rw [hi.1, hk0]; omega
  | ⟨1, _⟩ => show win4_1.index t (1 : Fin 2) * 64 + 1 * q.val = (k 1).val; rw [hi.2, hk1]; omega

/-- The scale row's one block is the row itself. -/
theorem blk2_apply (c : Dev nD) (t : Fin cfg4.N) (q : Fin 64) (k : (⟨2, ![1, 64]⟩ : Shape).Idx) (hk1 : (k 1).val = q.val) :
    (iblk4 V c 2 t : Vec Ideal S1x64 .f32) (ix2 (0 : Fin 1) q)
      = (V c (Pipeline.arrRef spec4 2) : (⟨2, ![1, 64]⟩ : Shape).Idx → EReal) k := by
  have hi : win4_2.index t (0 : Fin 2) = 0 ∧ win4_2.index t (1 : Fin 2) = 0 :=
    (by decide +kernel : ∀ t : Fin grid4.N, win4_2.index t (0 : Fin 2) = 0 ∧ win4_2.index t (1 : Fin 2) = 0) t
  have hk0 : (k 0).val = 0 := by have : (k 0).val < 1 := (k 0).isLt; omega
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = (k 0).val; rw [hi.1, hk0]
  | ⟨1, _⟩ => show win4_2.index t (1 : Fin 2) * 64 + 1 * q.val = (k 1).val; rw [hi.2, hk1]; omega

/-- The shift row's one block is the row itself. -/
theorem blk3_apply (c : Dev nD) (t : Fin cfg4.N) (q : Fin 64) (k : (⟨2, ![1, 64]⟩ : Shape).Idx) (hk1 : (k 1).val = q.val) :
    (iblk4 V c 3 t : Vec Ideal S1x64 .f32) (ix2 (0 : Fin 1) q)
      = (V c (Pipeline.arrRef spec4 3) : (⟨2, ![1, 64]⟩ : Shape).Idx → EReal) k := by
  have hi : win4_3.index t (0 : Fin 2) = 0 ∧ win4_3.index t (1 : Fin 2) = 0 :=
    (by decide +kernel : ∀ t : Fin grid4.N, win4_3.index t (0 : Fin 2) = 0 ∧ win4_3.index t (1 : Fin 2) = 0) t
  have hk0 : (k 0).val = 0 := by have : (k 0).val < 1 := (k 0).isLt; omega
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * 0 = (k 0).val; rw [hi.1, hk0]
  | ⟨1, _⟩ => show win4_3.index t (1 : Fin 2) * 64 + 1 * q.val = (k 1).val; rw [hi.2, hk1]; omega

/-- The mean row's one block is the row itself. -/
theorem blk4_apply (c : Dev nD) (t : Fin cfg4.N) (q : Fin 64) (k : (⟨2, ![1, 64]⟩ : Shape).Idx) (hk1 : (k 1).val = q.val) :
    (iblk4 V c 4 t : Vec Ideal S1x64 .f32) (ix2 (0 : Fin 1) q)
      = (V c (Pipeline.arrRef spec4 4) : (⟨2, ![1, 64]⟩ : Shape).Idx → EReal) k := by
  have hi : win4_4.index t (0 : Fin 2) = 0 ∧ win4_4.index t (1 : Fin 2) = 0 :=
    (by decide +kernel : ∀ t : Fin grid4.N, win4_4.index t (0 : Fin 2) = 0 ∧ win4_4.index t (1 : Fin 2) = 0) t
  have hk0 : (k 0).val = 0 := by have : (k 0).val < 1 := (k 0).isLt; omega
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * 0 = (k 0).val; rw [hi.1, hk0]
  | ⟨1, _⟩ => show win4_4.index t (1 : Fin 2) * 64 + 1 * q.val = (k 1).val; rw [hi.2, hk1]; omega

/-- The variance row's one block is the row itself. -/
theorem blk5_apply (c : Dev nD) (t : Fin cfg4.N) (q : Fin 64) (k : (⟨2, ![1, 64]⟩ : Shape).Idx) (hk1 : (k 1).val = q.val) :
    (iblk4 V c 5 t : Vec Ideal S1x64 .f32) (ix2 (0 : Fin 1) q)
      = (V c (Pipeline.arrRef spec4 5) : (⟨2, ![1, 64]⟩ : Shape).Idx → EReal) k := by
  have hi : win4_5.index t (0 : Fin 2) = 0 ∧ win4_5.index t (1 : Fin 2) = 0 :=
    (by decide +kernel : ∀ t : Fin grid4.N, win4_5.index t (0 : Fin 2) = 0 ∧ win4_5.index t (1 : Fin 2) = 0) t
  have hk0 : (k 0).val = 0 := by have : (k 0).val < 1 := (k 0).isLt; omega
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * 0 = (k 0).val; rw [hi.1, hk0]
  | ⟨1, _⟩ => show win4_5.index t (1 : Fin 2) * 64 + 1 * q.val = (k 1).val; rw [hi.2, hk1]; omega

/-! ## From the blocks to the array -/

theorem hz : (![0, 0] : Fin 2 → Nat) = fun _ => 0 := funext fun a => by fin_cases a <;> rfl

/-- The output window's index map over the grid: block row `t`, column block 0. -/
theorem index_out : ∀ t : Fin cfg4.N, win4_6.index t (0 : Fin 2) = t.val ∧ win4_6.index t (1 : Fin 2) = 0 :=
  (by decide +kernel : ∀ t : Fin grid4.N, _)

/-- What the body stores at row `p`, column `q` of block `t` is `G4_6` of the arrays at the index `k` under it. -/
theorem point_eq (c : Dev nD) (t : Fin cfg4.N) (p : Fin 4000) (q : Fin 64) (k : (⟨2, ![500000, 64]⟩ : Shape).Idx)
    (hk0 : (k 0).val = t.val * 4000 + p.val) (hk1 : (k 1).val = q.val) :
    k4_pay1 (iblk4 V c 5 t) (iblk4 V c 0 t) (iblk4 V c 4 t) (iblk4 V c 2 t) (iblk4 V c 3 t) (iblk4 V c 1 t) (ix2 p q)
      = G4_6 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) k := by
  refine (pay_apply (iblk4 V c 5 t) (iblk4 V c 0 t) (iblk4 V c 4 t) (iblk4 V c 2 t) (iblk4 V c 3 t) (iblk4 V c 1 t) p q).trans ?_
  rw [blk0_apply V c t p q k hk0 hk1, blk1_apply V c t p q k hk0 hk1,
    blk2_apply V c t q (ix2 (0 : Fin 1) (k 1)) hk1, blk3_apply V c t q (ix2 (0 : Fin 1) (k 1)) hk1,
    blk4_apply V c t q (ix2 (0 : Fin 1) (k 1)) hk1, blk5_apply V c t q (ix2 (0 : Fin 1) (k 1)) hk1]
  rfl

/-- What grid point `t` writes back is block `t` of `G4_6` of the arrays as the region finds them. -/
theorem flushed_eq (c : Dev nD) (t : Fin cfg4.N) :
    (dat4 (F := Ideal) V c).flushed 6 t = ((cfg4.win 6).blk t).view.read (Elt Ideal)
      (G4_6 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz]
  simp only [View.ld_unit_zero (S := S4000x64) hz, View.ld_unit_zero (S := S1x64) hz]
  obtain ⟨e0, e1⟩ := index_out t
  funext j
  obtain ⟨p, q, rfl⟩ : ∃ (p : Fin 4000) (q : Fin 64), j = ix2 p q := ⟨j 0, j 1, eq_ix2 j⟩
  show k4_pay1 (iblk4 V c 5 t) (iblk4 V c 0 t) (iblk4 V c 4 t) (iblk4 V c 2 t) (iblk4 V c 3 t) (iblk4 V c 1 t) (ix2 p q) = _
  rw [View.read_apply]
  refine point_eq V c t p q _ ?_ ?_
  · show win4_6.index t (0 : Fin 2) * 4000 + 1 * p.val = t.val * 4000 + p.val; rw [e0]; omega
  · show win4_6.index t (1 : Fin 2) * 64 + 1 * q.val = q.val; rw [e1]; omega

/-- An index of the array is in point `t`'s block iff each coordinate is in the block's range on its axis. -/
theorem mem_blk (t : Fin cfg4.N) (i : S500000x64.Idx) :
    i ∈ ((cfg4.win 6).blk t).view.set ↔ ∀ a : Fin 2, win4_6.index t a * S4000x64.size a ≤ (i a).val
      ∧ (i a).val < win4_6.index t a * S4000x64.size a + S4000x64.size a := by
  show i ∈ ((View.whole main_v72).slice (win4_6.rect t)).set ↔ _
  rw [View.set_slice_whole, Rect.mem_set_unit]
  exact Iff.rfl

/-- Every index of the array is in some point's block: row `r` is covered by point `r / 4000`. -/
theorem cover (i : S500000x64.Idx) :
    ∃ t : Fin cfg4.N, (cfg4.win 6).flush t = true ∧ i ∈ ((cfg4.win 6).blk t).view.set := by
  have hi0 : (i 0).val < 500000 := (i 0).isLt
  have hi1 : (i 1).val < 64 := (i 1).isLt
  have ht : (i 0).val / 4000 < cfg4.N := by show _ < grid4.N; rw [N_4]; omega
  obtain ⟨e0, e1⟩ := index_out ⟨(i 0).val / 4000, ht⟩
  refine ⟨⟨(i 0).val / 4000, ht⟩, flush4_6 _, ?_⟩
  rw [mem_blk]
  intro a
  match a with
  | ⟨0, _⟩ =>
    show win4_6.index ⟨(i 0).val / 4000, ht⟩ (0 : Fin 2) * 4000 ≤ (i 0).val
      ∧ (i 0).val < win4_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win4_6.index ⟨(i 0).val / 4000, ht⟩ (1 : Fin 2) * 64 ≤ (i 1).val
      ∧ (i 1).val < win4_6.index ⟨(i 0).val / 4000, ht⟩ (1 : Fin 2) * 64 + 64
    rw [e1]; omega

/-- The array after the whole region is `G4_6` of the arrays as the region finds them. -/
theorem final4_6 (c : Dev nD) :
    (dat4 (F := Ideal) V c).arrAt 6 cfg4.N
      = G4_6 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 (F := Ideal) V c).arrAt_eq_of_cover 6 _ (fun t _ => flushed_eq V c t) (fun i => cover i)

end Cert.KernelIdeal.Region4

end
-- ==== Proof.BridgeStat.lean ====
import proofs.«163623_j1168231104593_2_alg».proof.Proof.RefSpec
import proofs.«163623_j1168231104593_2_alg».proof.Proof.KStage
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal

/-!
# The batch statistics in the two programs' spellings

The kernel program keeps a batch's column mean and variance as [1,64] ROWS; the reference program keeps them as length-64
VECTORS and broadcasts them back along the rows. The column sums, the deviations and the divisor are the same terms in
both; entry `q` of the reference's vector is entry `(0, q)` of the kernel program's row.
-/

noncomputable section
open Idealize.ShloMosaic Idealize.ShloMosaic.TcCoe Idealize.SL.Sem
open Idealize.ShloMosaic.ValueIdx
open scoped BigOperators

namespace Cert.Bridge

/-- A length-`n` vector as a one-row matrix (a broadcast onto axis 1) reads, at `(u, q)`, the vector at `q`. -/
theorem vecRow_apply {α : Type} {n : Nat} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) := by
  refine broadcastInDim_apply ![1] h v (ix2 u q) (ix1 q) ?_
  intro a
  obtain rfl : a = 0 := Subsingleton.elim _ _
  show q.val = if n = 1 then 0 else q.val
  split_ifs with hn
  · have := q.isLt; omega
  · rfl

section
variable [Cert.KernelIdeal.Facts] [Cert.ReferenceIdeal.Facts]

/-- A length-64 vector reshaped to a [1,64] row reads, at `(0, q)`, the vector at `q`. -/
theorem row_apply {F : FTy → Type} [FloatOps F] (g : FVec F Cert.KernelIdeal.S64 .f32) (q : Fin 64) :
    Cert.KernelIdeal.KStage.row g (ix2 (0 : Fin 1) q) = g (ix1 q) := by
  unfold Cert.KernelIdeal.KStage.row
  exact shapeCast_a_1a_apply g _ 0 q

/-! ## The statistics of a [50000,64] array -/

section Eq50
variable {F : FTy → Type} [FloatOps F]

/-- The column sums are one term in the two programs. -/
theorem colSum50_eq (x : FVec F Cert.KernelIdeal.S50000x64 .f32) : Cert.KernelIdeal.KStage.colSum50 x = Cert.ReferenceIdeal.RefSpec.colSum50 x := rfl

/-- The mean row is one term in the two programs. -/
theorem meanRow50_eq (x : FVec F Cert.KernelIdeal.S50000x64 .f32) : Cert.KernelIdeal.KStage.meanRow50 x = Cert.ReferenceIdeal.RefSpec.varMean50 x := rfl

/-- The deviations from the column means are one term in the two programs. -/
theorem dev50_eq (x : FVec F Cert.KernelIdeal.S50000x64 .f32) : Cert.KernelIdeal.KStage.dev50 x = Cert.ReferenceIdeal.RefSpec.varDev50 x := rfl

/-- The variance's divisor is one term in the two programs. -/
theorem count50_eq : Cert.KernelIdeal.KStage.count50 (F := F) = Cert.ReferenceIdeal.RefSpec.varCount50 := rfl

/-- A length-64 vector broadcast along the rows reads, at `(r, q)`, the vector at `q`. -/
theorem rows50_apply (v : FVec F Cert.ReferenceIdeal.S64 .f32) (r : Fin 50000) (q : Fin 64) :
    Cert.ReferenceIdeal.RefSpec.rows50 v (ix2 r q) = v (ix1 q) := by
  unfold Cert.ReferenceIdeal.RefSpec.rows50
  rw [broadcastInDim_oneRow_apply, vecRow_apply]

/-- The column mean as a vector entry is the mean row's entry. -/
theorem colMean50_apply (x : FVec F Cert.KernelIdeal.S50000x64 .f32) (q : Fin 64) :
    Cert.ReferenceIdeal.RefSpec.colMean50 x (ix1 q) = Cert.KernelIdeal.KStage.meanRow50 x (ix2 (0 : Fin 1) q) := by
  unfold Cert.ReferenceIdeal.RefSpec.colMean50 Cert.KernelIdeal.KStage.meanRow50 Host.divf
  rw [broadcastInDim_scalar_apply, broadcastInDim_scalar_apply, vecRow_apply]
  rfl

/-- The column means broadcast along the rows, read at `(r, q)`: the mean row at column `q`. -/
theorem rows50_colMean50_apply (x : FVec F Cert.KernelIdeal.S50000x64 .f32) (r : Fin 50000) (q : Fin 64) :
    Cert.ReferenceIdeal.RefSpec.rows50 (Cert.ReferenceIdeal.RefSpec.colMean50 x) (ix2 r q) = Cert.KernelIdeal.KStage.meanRow50 x (ix2 (0 : Fin 1) q) := by
  rw [rows50_apply, colMean50_apply]

/-- The column variance as a vector entry is the variance row's entry: the same select on the same predicate, the same
    sum of squared deviations over the same divisor, the same literal elsewhere. -/
theorem colVar50_apply (x : FVec F Cert.KernelIdeal.S50000x64 .f32) (q : Fin 64) :
    Cert.ReferenceIdeal.RefSpec.colVar50 x (ix1 q) = Cert.KernelIdeal.KStage.varRow50 x (ix2 (0 : Fin 1) q) := by
  unfold Cert.ReferenceIdeal.RefSpec.colVar50 Cert.KernelIdeal.KStage.varRow50 Host.divf
  rw [select_apply, select_apply]
  rw [broadcastInDim_scalar_apply, broadcastInDim_scalar_apply, broadcastInDim_scalar_apply, broadcastInDim_scalar_apply, broadcastInDim_scalar_apply, broadcastInDim_scalar_apply, vecRow_apply]
  rfl

end Eq50

/-- The reciprocal standard deviations broadcast along the rows, read at `(r, q)`, at the exact instance. -/
theorem rows50_rsqrt_colVar50_apply (x : FVec Ideal Cert.KernelIdeal.S50000x64 .f32) (r : Fin 50000) (q : Fin 64) :
    Cert.ReferenceIdeal.RefSpec.rows50 (Host.rsqrt (addf (Cert.ReferenceIdeal.RefSpec.colVar50 x)
        (broadcastInDim Cert.ReferenceIdeal.S64 ![] Cert.ReferenceIdeal.Facts₀.bcast_S_S64 (constant Cert.ReferenceIdeal.S_ .f32 0x3727C5AC#32)))) (ix2 r q)
      = Ideal.rsqrt (Cert.KernelIdeal.KStage.varRow50 x (ix2 (0 : Fin 1) q) + Ideal.ofBits .f32 0x3727C5AC#32) := by
  rw [rows50_apply, ← colVar50_apply]
  show Ideal.rsqrt (Cert.ReferenceIdeal.RefSpec.colVar50 x (ix1 q)
    + broadcastInDim Cert.ReferenceIdeal.S64 ![] Cert.ReferenceIdeal.Facts₀.bcast_S_S64 (constant (F := Ideal) Cert.ReferenceIdeal.S_ .f32 0x3727C5AC#32) (ix1 q)) = _
  rw [broadcastInDim_scalar_apply]
  rfl

/-! ## The statistics of a [500000,64] array -/

section Eq500
variable {F : FTy → Type} [FloatOps F]

/-- The column sums are one term in the two programs. -/
theorem colSum500_eq (x : FVec F Cert.KernelIdeal.S500000x64 .f32) : Cert.KernelIdeal.KStage.colSum500 x = Cert.ReferenceIdeal.RefSpec.colSum500 x := rfl

/-- The mean row is one term in the two programs. -/
theorem meanRow500_eq (x : FVec F Cert.KernelIdeal.S500000x64 .f32) : Cert.KernelIdeal.KStage.meanRow500 x = Cert.ReferenceIdeal.RefSpec.varMean500 x := rfl

/-- The deviations from the column means are one term in the two programs. -/
theorem dev500_eq (x : FVec F Cert.KernelIdeal.S500000x64 .f32) : Cert.KernelIdeal.KStage.dev500 x = Cert.ReferenceIdeal.RefSpec.varDev500 x := rfl

/-- The variance's divisor is one term in the two programs. -/
theorem count500_eq : Cert.KernelIdeal.KStage.count500 (F := F) = Cert.ReferenceIdeal.RefSpec.varCount500 := rfl

/-- A length-64 vector broadcast along the rows reads, at `(r, q)`, the vector at `q`. -/
theorem rows500_apply (v : FVec F Cert.ReferenceIdeal.S64 .f32) (r : Fin 500000) (q : Fin 64) :
    Cert.ReferenceIdeal.RefSpec.rows500 v (ix2 r q) = v (ix1 q) := by
  unfold Cert.ReferenceIdeal.RefSpec.rows500
  rw [broadcastInDim_oneRow_apply, vecRow_apply]

/-- The column mean as a vector entry is the mean row's entry. -/
theorem colMean500_apply (x : FVec F Cert.KernelIdeal.S500000x64 .f32) (q : Fin 64) :
    Cert.ReferenceIdeal.RefSpec.colMean500 x (ix1 q) = Cert.KernelIdeal.KStage.meanRow500 x (ix2 (0 : Fin 1) q) := by
  unfold Cert.ReferenceIdeal.RefSpec.colMean500 Cert.KernelIdeal.KStage.meanRow500 Host.divf
  rw [broadcastInDim_scalar_apply, broadcastInDim_scalar_apply, vecRow_apply]
  rfl

/-- The column means broadcast along the rows, read at `(r, q)`: the mean row at column `q`. -/
theorem rows500_colMean500_apply (x : FVec F Cert.KernelIdeal.S500000x64 .f32) (r : Fin 500000) (q : Fin 64) :
    Cert.ReferenceIdeal.RefSpec.rows500 (Cert.ReferenceIdeal.RefSpec.colMean500 x) (ix2 r q) = Cert.KernelIdeal.KStage.meanRow500 x (ix2 (0 : Fin 1) q) := by
  rw [rows500_apply, colMean500_apply]

/-- The column variance as a vector entry is the variance row's entry: the same select on the same predicate, the same
    sum of squared deviations over the same divisor, the same literal elsewhere. -/
theorem colVar500_apply (x : FVec F Cert.KernelIdeal.S500000x64 .f32) (q : Fin 64) :
    Cert.ReferenceIdeal.RefSpec.colVar500 x (ix1 q) = Cert.KernelIdeal.KStage.varRow500 x (ix2 (0 : Fin 1) q) := by
  unfold Cert.ReferenceIdeal.RefSpec.colVar500 Cert.KernelIdeal.KStage.varRow500 Host.divf
  rw [select_apply, select_apply]
  rw [broadcastInDim_scalar_apply, broadcastInDim_scalar_apply, broadcastInDim_scalar_apply, broadcastInDim_scalar_apply, broadcastInDim_scalar_apply, broadcastInDim_scalar_apply, vecRow_apply]
  rfl

end Eq500

/-- The reciprocal standard deviations broadcast along the rows, read at `(r, q)`, at the exact instance. -/
theorem rows500_rsqrt_colVar500_apply (x : FVec Ideal Cert.KernelIdeal.S500000x64 .f32) (r : Fin 500000) (q : Fin 64) :
    Cert.ReferenceIdeal.RefSpec.rows500 (Host.rsqrt (addf (Cert.ReferenceIdeal.RefSpec.colVar500 x)
        (broadcastInDim Cert.ReferenceIdeal.S64 ![] Cert.ReferenceIdeal.Facts₀.bcast_S_S64 (constant Cert.ReferenceIdeal.S_ .f32 0x3727C5AC#32)))) (ix2 r q)
      = Ideal.rsqrt (Cert.KernelIdeal.KStage.varRow500 x (ix2 (0 : Fin 1) q) + Ideal.ofBits .f32 0x3727C5AC#32) := by
  rw [rows500_apply, ← colVar500_apply]
  show Ideal.rsqrt (Cert.ReferenceIdeal.RefSpec.colVar500 x (ix1 q)
    + broadcastInDim Cert.ReferenceIdeal.S64 ![] Cert.ReferenceIdeal.Facts₀.bcast_S_S64 (constant (F := Ideal) Cert.ReferenceIdeal.S_ .f32 0x3727C5AC#32) (ix1 q)) = _
  rw [broadcastInDim_scalar_apply]
  rfl

end

end Cert.Bridge
-- ==== Proof.BridgeE.lean ====
import proofs.«163623_j1168231104593_2_alg».proof.Proof.BridgeStat
import proofs.«163623_j1168231104593_2_alg».proof.Proof.Region4
import Idealize.ShloMosaic.PureOps.Ideal.Laws

/-!
# The edge finalisation against the reference's new edge features

The kernel's last region computes the rectified batch normalisation of the new edge features added to the incoming edge
features; with the statistics read as in `BridgeStat`, this is the reference's third result.
-/

noncomputable section
open Idealize.ShloMosaic Idealize.ShloMosaic.TcCoe Idealize.SL.Sem
open Idealize.ShloMosaic.ValueIdx
open scoped BigOperators

namespace Cert.Bridge

section
variable [Cert.KernelIdeal.Facts] [Cert.ReferenceIdeal.Facts]

/-- The edge finalisation's output at `(r, q)`. -/
theorem G4_6_ix2 (x0 x1 : (⟨2, ![500000, 64]⟩ : Shape).Idx → EReal) (x2 x3 x4 x5 : (⟨2, ![1, 64]⟩ : Shape).Idx → EReal)
    (r : Fin 500000) (q : Fin 64) :
    Cert.KernelIdeal.Region4.G4_6 x0 x1 x2 x3 x4 x5 (ix2 r q)
      = x1 (ix2 r q) + max ((((x0 (ix2 r q) - x4 (ix2 (0 : Fin 1) q)) * Ideal.rsqrt (x5 (ix2 (0 : Fin 1) q) + Ideal.ofBits .f32 0x3727C5AC#32))
          * x2 (ix2 (0 : Fin 1) q)) + x3 (ix2 (0 : Fin 1) q)) 0 := rfl

/-- The output is the input plus the rectified batch normalisation of the new edge features, the statistics being
    theirs. -/
theorem G4_6_eq_bn500 (X e : FVec Ideal Cert.KernelIdeal.S500000x64 .f32) (g b : FVec Ideal Cert.KernelIdeal.S64 .f32) :
    Cert.KernelIdeal.Region4.G4_6 X e (Cert.KernelIdeal.KStage.row g) (Cert.KernelIdeal.KStage.row b) (Cert.KernelIdeal.KStage.meanRow500 X) (Cert.KernelIdeal.KStage.varRow500 X)
      = addf e (maximumf (Cert.ReferenceIdeal.RefSpec.bn500 X g b)
          (broadcastInDim Cert.ReferenceIdeal.S500000x64 ![] Cert.ReferenceIdeal.Facts₀.bcast_S_S500000x64 (constant Cert.ReferenceIdeal.S_ .f32 0x00000000#32))) := by
  funext i
  obtain ⟨r, q, rfl⟩ : ∃ (r : Fin 500000) (q : Fin 64), i = ix2 r q := ⟨i 0, i 1, eq_ix2 i⟩
  rw [G4_6_ix2]
  unfold Cert.ReferenceIdeal.RefSpec.bn500
  simp only [addf_apply, mulf_apply, subf_apply, maximumf_apply]
  rw [rows500_colMean500_apply, rows500_rsqrt_colVar500_apply, rows500_apply, rows500_apply, ← row_apply g q, ← row_apply b q,
    broadcastInDim_scalar_apply, constant_apply, Ideal.ofBits_zero_f32]

/-- The edge finalisation's output is the reference's new edge features. -/
theorem b4_6 (h : FVec Ideal Cert.KernelIdeal.S50000x64 .f32) (e : FVec Ideal Cert.KernelIdeal.S500000x64 .f32) (src dst : IVec Cert.KernelIdeal.S500000 32)
    (WB1 : FVec Ideal Cert.KernelIdeal.S64x64 .f32) (bB1 : FVec Ideal Cert.KernelIdeal.S64 .f32)
    (WB2 : FVec Ideal Cert.KernelIdeal.S64x64 .f32) (bB2 : FVec Ideal Cert.KernelIdeal.S64 .f32)
    (WB3 : FVec Ideal Cert.KernelIdeal.S64x64 .f32) (bB3 : FVec Ideal Cert.KernelIdeal.S64 .f32) (gE bE : FVec Ideal Cert.KernelIdeal.S64 .f32) :
    Cert.KernelIdeal.Region4.G4_6 (Cert.ReferenceIdeal.RefSpec.hatEta h e src dst WB1 bB1 WB2 bB2 WB3 bB3) e (Cert.KernelIdeal.KStage.row gE) (Cert.KernelIdeal.KStage.row bE)
        (Cert.KernelIdeal.KStage.meanRow500 (Cert.ReferenceIdeal.RefSpec.hatEta h e src dst WB1 bB1 WB2 bB2 WB3 bB3))
        (Cert.KernelIdeal.KStage.varRow500 (Cert.ReferenceIdeal.RefSpec.hatEta h e src dst WB1 bB1 WB2 bB2 WB3 bB3))
      = Cert.ReferenceIdeal.RefSpec.eOut h e src dst WB1 bB1 WB2 bB2 WB3 bB3 gE bE := by
  unfold Cert.ReferenceIdeal.RefSpec.eOut Cert.ReferenceIdeal.RefSpec.bnE
  exact G4_6_eq_bn500 _ e gE bE

end

end Cert.Bridge
-- ==== Proof.BridgeH.lean ====
import proofs.«163623_j1168231104593_2_alg».proof.Proof.BridgeStat
import proofs.«163623_j1168231104593_2_alg».proof.Proof.Region3
import proofs.«163623_j1168231104593_2_alg».proof.Proof.Cat
import Idealize.ShloMosaic.PureOps.Ideal.Laws

/-!
# The node finalisation against the reference's new node features

The kernel's third region computes, from the two 128-column arrays `[A | C]` and `[SV | SP]`, the rectified batch
normalisation of `A + SV` added to the node features; with `A + SV` the reference's updated node features and the
statistics read as in `BridgeStat`, this is the reference's first result.
-/

noncomputable section
open Idealize.ShloMosaic Idealize.ShloMosaic.TcCoe Idealize.SL.Sem
open Idealize.ShloMosaic.ValueIdx
open scoped BigOperators

namespace Cert.Bridge

section
variable [Cert.KernelIdeal.Facts] [Cert.ReferenceIdeal.Facts]

/-- The node finalisation's first output at `(r, q)`. -/
theorem G3_8_ix2 (x0 x1 : (⟨2, ![50000, 128]⟩ : Shape).Idx → EReal) (x2 : (⟨2, ![50000, 64]⟩ : Shape).Idx → EReal)
    (x4 x5 x6 x7 : (⟨2, ![1, 64]⟩ : Shape).Idx → EReal) (r : Fin 50000) (q : Fin 64) :
    Cert.KernelIdeal.Region3.G3_8 x0 x1 x2 x4 x5 x6 x7 (ix2 r q)
      = x2 (ix2 r q) + max (((((x0 (ix2 r (⟨q.val, by omega⟩ : Fin 128)) + x1 (ix2 r (⟨q.val, by omega⟩ : Fin 128)))
          - x6 (ix2 (0 : Fin 1) q)) * Ideal.rsqrt (x7 (ix2 (0 : Fin 1) q) + Ideal.ofBits .f32 0x3727C5AC#32)) * x4 (ix2 (0 : Fin 1) q))
          + x5 (ix2 (0 : Fin 1) q)) 0 := rfl

/-- The first output is the input plus the rectified batch normalisation of the sum's left halves, the statistics being
    those of that sum. -/
theorem G3_8_eq_bn50 (A C SV SP h : FVec Ideal Cert.KernelIdeal.S50000x64 .f32) (g b : FVec Ideal Cert.KernelIdeal.S64 .f32) :
    Cert.KernelIdeal.Region3.G3_8 (Cert.Cat.cat A C) (Cert.Cat.cat SV SP) h (Cert.KernelIdeal.KStage.row g) (Cert.KernelIdeal.KStage.row b)
        (Cert.KernelIdeal.KStage.meanRow50 (addf A SV)) (Cert.KernelIdeal.KStage.varRow50 (addf A SV))
      = addf h (maximumf (Cert.ReferenceIdeal.RefSpec.bn50 (addf A SV) g b)
          (broadcastInDim Cert.ReferenceIdeal.S50000x64 ![] Cert.ReferenceIdeal.Facts₀.bcast_S_S50000x64 (constant Cert.ReferenceIdeal.S_ .f32 0x00000000#32))) := by
  funext i
  obtain ⟨r, q, rfl⟩ : ∃ (r : Fin 50000) (q : Fin 64), i = ix2 r q := ⟨i 0, i 1, eq_ix2 i⟩
  rw [G3_8_ix2, Cert.Cat.cat_ix2_lt A C r ⟨q.val, by omega⟩ q.isLt, Cert.Cat.cat_ix2_lt SV SP r ⟨q.val, by omega⟩ q.isLt]
  unfold Cert.ReferenceIdeal.RefSpec.bn50
  simp only [addf_apply, mulf_apply, subf_apply, maximumf_apply]
  rw [rows50_colMean50_apply, rows50_rsqrt_colVar50_apply, rows50_apply, rows50_apply, ← row_apply g q, ← row_apply b q,
    broadcastInDim_scalar_apply, constant_apply, Ideal.ofBits_zero_f32]

/-- The node finalisation's first output is the reference's new node features (whatever the right halves `C1`, `SP` of
    its two 128-column inputs are: it reads the left halves only). -/
theorem b3_8 {C1 SP : FVec Ideal Cert.KernelIdeal.S50000x64 .f32} (h p : FVec Ideal Cert.KernelIdeal.S50000x64 .f32) (e : FVec Ideal Cert.KernelIdeal.S500000x64 .f32) (src dst : IVec Cert.KernelIdeal.S500000 32)
    (WA1 : FVec Ideal Cert.KernelIdeal.S128x64 .f32) (bA1 : FVec Ideal Cert.KernelIdeal.S64 .f32)
    (WA2 : FVec Ideal Cert.KernelIdeal.S128x64 .f32) (bA2 : FVec Ideal Cert.KernelIdeal.S64 .f32)
    (WB1 : FVec Ideal Cert.KernelIdeal.S64x64 .f32) (bB1 : FVec Ideal Cert.KernelIdeal.S64 .f32)
    (WB2 : FVec Ideal Cert.KernelIdeal.S64x64 .f32) (bB2 : FVec Ideal Cert.KernelIdeal.S64 .f32)
    (WB3 : FVec Ideal Cert.KernelIdeal.S64x64 .f32) (bB3 : FVec Ideal Cert.KernelIdeal.S64 .f32) (gH bH : FVec Ideal Cert.KernelIdeal.S64 .f32) :
    Cert.KernelIdeal.Region3.G3_8
        (Cert.Cat.cat (Cert.ReferenceIdeal.RefSpec.A1h h p WA1 bA1) C1)
        (Cert.Cat.cat (Cert.ReferenceIdeal.RefSpec.sumEtaV h p e src dst WA2 bA2 WB1 bB1 WB2 bB2 WB3 bB3) SP)
        h (Cert.KernelIdeal.KStage.row gH) (Cert.KernelIdeal.KStage.row bH)
        (Cert.KernelIdeal.KStage.meanRow50 (Cert.ReferenceIdeal.RefSpec.hNew h p e src dst WA1 bA1 WA2 bA2 WB1 bB1 WB2 bB2 WB3 bB3))
        (Cert.KernelIdeal.KStage.varRow50 (Cert.ReferenceIdeal.RefSpec.hNew h p e src dst WA1 bA1 WA2 bA2 WB1 bB1 WB2 bB2 WB3 bB3))
      = Cert.ReferenceIdeal.RefSpec.hOut h p e src dst WA1 bA1 WA2 bA2 WB1 bB1 WB2 bB2 WB3 bB3 gH bH := by
  unfold Cert.ReferenceIdeal.RefSpec.hOut Cert.ReferenceIdeal.RefSpec.bnH Cert.ReferenceIdeal.RefSpec.hNew
  exact G3_8_eq_bn50 _ _ _ _ h gH bH

end

end Cert.Bridge
-- ==== Proof.BridgeP.lean ====
/- The positional result of the node finalisation against the reference: the kernel reads the right 64 columns of
   its two 128-wide inputs (column q + 64), which are the second arrays of the two side-by-side pairs, adds them,
   takes tanh and adds p; the reference does the same on the 64-wide arrays. -/
import proofs.«163623_j1168231104593_2_alg».proof.Proof.RefSpec
import proofs.«163623_j1168231104593_2_alg».proof.Proof.Cat
import proofs.«163623_j1168231104593_2_alg».proof.Proof.Region3
import Idealize.ShloMosaic.Lib.ValueIdx
import Idealize.ShloMosaic.PureOps.Ideal.Laws

noncomputable section

open Idealize.ShloMosaic Idealize.ShloMosaic.TcCoe Idealize.SL.Sem

namespace Cert.Bridge

open Idealize.ShloMosaic.ValueIdx Cert.Cat
open Cert.KernelIdeal (Region3.G3_9)
open Cert.ReferenceIdeal (RefSpec.A1h RefSpec.C1p RefSpec.sumEtaV RefSpec.sumEtaP RefSpec.pOut RefSpec.pNew)

variable [Cert.ReferenceIdeal.Facts]

local notation "R50000x64" => Cert.ReferenceIdeal.S50000x64
local notation "R500000x64" => Cert.ReferenceIdeal.S500000x64
local notation "R500000" => Cert.ReferenceIdeal.S500000
local notation "R64x64" => Cert.ReferenceIdeal.S64x64
local notation "R128x64" => Cert.ReferenceIdeal.S128x64
local notation "R64" => Cert.ReferenceIdeal.S64

namespace R3P

/-- Column q + 64 of two 64-wide arrays side by side is column q of the second. -/
theorem cat_right {α : Type} (a b : (⟨2, ![50000, 64]⟩ : Shape).Idx → α) (r : Fin 50000) (q : Fin 64)
    (hq : q.val + 64 < 128) : cat a b (ix2 r (⟨q.val + 64, hq⟩ : Fin 128)) = b (ix2 r q) := by
  rw [cat_ix2_ge a b r ⟨q.val + 64, hq⟩ (by show ¬ q.val + 64 < 64; omega)]
  refine congrArg b (congrArg (ix2 r) (Fin.ext ?_))
  show q.val + 64 - 64 = q.val
  omega

/-- The kernel's positional result at row r, column q. -/
theorem G3_9_apply (x0 x1 : (⟨2, ![50000, 128]⟩ : Shape).Idx → EReal) (x3 : (⟨2, ![50000, 64]⟩ : Shape).Idx → EReal)
    (r : Fin 50000) (q : Fin 64) :
    Region3.G3_9 x0 x1 x3 (ix2 r q)
      = x3 (ix2 r q) + Ideal.tanh (x0 (ix2 r (⟨q.val + 64, by omega⟩ : Fin 128)) + x1 (ix2 r (⟨q.val + 64, by omega⟩ : Fin 128))) :=
  rfl

end R3P

theorem b3_9 (h p : FVec Ideal R50000x64 .f32) (e : FVec Ideal R500000x64 .f32) (src dst : IVec R500000 32)
    (WA1 : FVec Ideal R128x64 .f32) (bA1 : FVec Ideal R64 .f32) (WA2 : FVec Ideal R128x64 .f32) (bA2 : FVec Ideal R64 .f32)
    (WB1 : FVec Ideal R64x64 .f32) (bB1 : FVec Ideal R64 .f32) (WB2 : FVec Ideal R64x64 .f32) (bB2 : FVec Ideal R64 .f32)
    (WB3 : FVec Ideal R64x64 .f32) (bB3 : FVec Ideal R64 .f32) (WC1 : FVec Ideal R64x64 .f32) (bC1 : FVec Ideal R64 .f32)
    (WC2 : FVec Ideal R64x64 .f32) (bC2 : FVec Ideal R64 .f32) :
    Region3.G3_9 (cat (RefSpec.A1h h p WA1 bA1) (RefSpec.C1p p WC1 bC1))
        (cat (RefSpec.sumEtaV h p e src dst WA2 bA2 WB1 bB1 WB2 bB2 WB3 bB3)
          (RefSpec.sumEtaP h p e src dst WB1 bB1 WB2 bB2 WB3 bB3 WC2 bC2)) p
      = RefSpec.pOut h p e src dst WB1 bB1 WB2 bB2 WB3 bB3 WC1 bC1 WC2 bC2 := by
  funext i
  obtain ⟨r, q, rfl⟩ : ∃ (r : Fin 50000) (q : Fin 64), i = ix2 r q := ⟨i 0, i 1, eq_ix2 i⟩
  rw [R3P.G3_9_apply, R3P.cat_right, R3P.cat_right]
  unfold RefSpec.pOut RefSpec.pNew
  rfl

end Cert.Bridge

end
-- ==== Proof.KValueB.lean ====
/-
  The three results of the idealized kernel program as the reference's functions of the argument arrays: the
  node and positional results from region 3 (its windows read the node maps, the messages' segment sums, the
  residual inputs, the scale and shift rows and the batch statistics of the node features), the edge result from
  region 4 (the edge pre-activation, its batch statistics, the residual input).
-/
import proofs.«163623_j1168231104593_2_alg».proof.Proof.KValueA
import proofs.«163623_j1168231104593_2_alg».proof.Proof.Region3Out8
import proofs.«163623_j1168231104593_2_alg».proof.Proof.Region3Out9
import proofs.«163623_j1168231104593_2_alg».proof.Proof.Region4
import proofs.«163623_j1168231104593_2_alg».proof.Proof.BridgeE
import proofs.«163623_j1168231104593_2_alg».proof.Proof.BridgeH
import proofs.«163623_j1168231104593_2_alg».proof.Proof.BridgeP

set_option maxRecDepth 16384

noncomputable section

namespace Cert.KernelIdeal.KValue

open Cert.KernelIdeal Cert.KernelIdeal.Gen Cert.KernelIdeal.KFold
open Idealize.ShloMosaic Idealize.ShloMosaic.TcCoe Idealize.SL.Sem
open Cert.Cat Cert.Bridge Cert.HostIdx

variable (m : (ℓ : Loc nD τ sig) → Buf (Elt Ideal) ℓ) (ρ : Dev nD → PrngReg)

/-! ## Regions 3 and 4: the three results -/

theorem v71_0 (c : Dev nD) : W13 m ρ c (Proc.devRef .tc main_v71_0) = (Cert.ReferenceIdeal.RefSpec.hOut (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21))) := by
  rw [W13_v71_0, Region3.final3_8 (V11 m ρ) c]
  have e0 : V11 m ρ c (Pipeline.arrRef spec3 0) = cat (Cert.ReferenceIdeal.RefSpec.A1h (F := Ideal) (m ((c : Thread nD τ).loc main_arg0)) (m ((c : Thread nD τ).loc main_arg1)) (m ((c : Thread nD τ).loc main_arg6)) (m ((c : Thread nD τ).loc main_arg7))) (Cert.ReferenceIdeal.RefSpec.C1p (F := Ideal) (m ((c : Thread nD τ).loc main_arg1)) (m ((c : Thread nD τ).loc main_arg16)) (m ((c : Thread nD τ).loc main_arg17))) := (W11_v11_0 m ρ c).trans (v11_0 m ρ c)
  have e1 : V11 m ρ c (Pipeline.arrRef spec3 1) = cat (Cert.ReferenceIdeal.RefSpec.sumEtaV (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.RefSpec.sumEtaP (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19))) := v53 m ρ c
  have e2 : V11 m ρ c (Pipeline.arrRef spec3 2) = (m ((c : Thread nD τ).loc main_arg0)) := W11_arg0 m ρ c
  have e4 : V11 m ρ c (Pipeline.arrRef spec3 4) = KStage.row (F := Ideal) (m ((c : Thread nD τ).loc main_arg20)) := W11_v67 m ρ c
  have e5 : V11 m ρ c (Pipeline.arrRef spec3 5) = KStage.row (F := Ideal) (m ((c : Thread nD τ).loc main_arg21)) := W11_v68 m ρ c
  have e6 : V11 m ρ c (Pipeline.arrRef spec3 6) = KStage.meanRow50 (F := Ideal) (Cert.ReferenceIdeal.RefSpec.hNew (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W11_v60 m ρ c).trans (by rw [hnew_eq])
  have e7 : V11 m ρ c (Pipeline.arrRef spec3 7) = KStage.varRow50 (F := Ideal) (Cert.ReferenceIdeal.RefSpec.hNew (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W11_v61 m ρ c).trans (by rw [hnew_eq])
  exact (congr (congr (congr (congr (congr (congr (congrArg Region3.G3_8 e0) e1) e2) e4) e5) e6) e7).trans (by apply b3_8)

theorem v71_1 (c : Dev nD) : W13 m ρ c (Proc.devRef .tc main_v71_1) = (Cert.ReferenceIdeal.RefSpec.pOut (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [W13_v71_1, Region3.final3_9 (V11 m ρ) c]
  have e0 : V11 m ρ c (Pipeline.arrRef spec3 0) = cat (Cert.ReferenceIdeal.RefSpec.A1h (F := Ideal) (m ((c : Thread nD τ).loc main_arg0)) (m ((c : Thread nD τ).loc main_arg1)) (m ((c : Thread nD τ).loc main_arg6)) (m ((c : Thread nD τ).loc main_arg7))) (Cert.ReferenceIdeal.RefSpec.C1p (F := Ideal) (m ((c : Thread nD τ).loc main_arg1)) (m ((c : Thread nD τ).loc main_arg16)) (m ((c : Thread nD τ).loc main_arg17))) := (W11_v11_0 m ρ c).trans (v11_0 m ρ c)
  have e1 : V11 m ρ c (Pipeline.arrRef spec3 1) = cat (Cert.ReferenceIdeal.RefSpec.sumEtaV (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.RefSpec.sumEtaP (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19))) := v53 m ρ c
  have e3 : V11 m ρ c (Pipeline.arrRef spec3 3) = (m ((c : Thread nD τ).loc main_arg1)) := W11_arg1 m ρ c
  exact (congr (congr (congrArg Region3.G3_9 e0) e1) e3).trans (by apply b3_9)

theorem v72 (c : Dev nD) : W13 m ρ c (Proc.devRef .tc main_v72) = (Cert.ReferenceIdeal.RefSpec.eOut (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg22)) (m ((c : Thread nD τ).loc main_arg23))) := by
  rw [W13_v72, Region4.final4_6 (V12 m ρ) c]
  have e0 : V12 m ρ c (Pipeline.arrRef spec4 0) = (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W12_v26 m ρ c).trans (v26 m ρ c)
  have e1 : V12 m ρ c (Pipeline.arrRef spec4 1) = (m ((c : Thread nD τ).loc main_arg2)) := W12_arg2 m ρ c
  have e2 : V12 m ρ c (Pipeline.arrRef spec4 2) = KStage.row (F := Ideal) (m ((c : Thread nD τ).loc main_arg22)) := W12_v69 m ρ c
  have e3 : V12 m ρ c (Pipeline.arrRef spec4 3) = KStage.row (F := Ideal) (m ((c : Thread nD τ).loc main_arg23)) := W12_v70 m ρ c
  have e4 : V12 m ρ c (Pipeline.arrRef spec4 4) = KStage.meanRow500 (F := Ideal) (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W12_v65 m ρ c).trans (by rw [v26])
  have e5 : V12 m ρ c (Pipeline.arrRef spec4 5) = KStage.varRow500 (F := Ideal) (Cert.ReferenceIdeal.RefSpec.hatEta (F := Ideal) (m ((c : Thread nD τ).loc main_arg0)) (m ((c : Thread nD τ).loc main_arg2)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (W12_v66 m ρ c).trans (by rw [v26])
  exact (congr (congr (congr (congr (congr (congrArg Region4.G4_6 e0) e1) e2) e3) e4) e5).trans (by apply b4_6)

end Cert.KernelIdeal.KValue

end
-- ==== Proof.RefOps.lean ====
import proofs.«163623_j1168231104593_2_alg».proof.ReferenceIdeal
import Idealize.ShloMosaic.Lib.StableHlo.Run

/-!
The reference function's @main as a straight line of host operations: the four calls replaced by their bodies over the
calls' buffer records, the list `ops` is that line and `main c = seq ops`.
-/

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

variable {F : FTy → Type} [FloatOps F] [Facts]

/-- The operations of statements 1 … 60 of @main, the calls among them replaced by their bodies. -/
abbrev ops0 : List (HloOp τ sig (Elt F)) :=
  [ StableHlo.binary main_arg0 main_arg1 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v0 main_arg6 main_v1 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S50000x64 ![0, 1] bcast_S1x64_S50000x64_0_1 : (⟨S1x64, .f32⟩ : BufTy).Contents (Elt F) → (⟨S50000x64, .f32⟩ : BufTy).Contents (Elt F)),
    StableHlo.binary main_v1 main_v3 main_v4 (addf : (⟨S50000x64, .f32⟩ : BufTy).Contents (Elt F) → (⟨S50000x64, .f32⟩ : BufTy).Contents (Elt F) → (⟨S50000x64, .f32⟩ : BufTy).Contents (Elt F)),
    StableHlo.binary main_v0 main_arg8 main_v5 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.binary main_arg0 main_arg10 main_v9 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.binary main_arg0 main_arg12 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S50000x64 ![0, 1] bcast_S1x64_S50000x64_0_1 : (⟨S1x64, .f32⟩ : BufTy).Contents (Elt F) → (⟨S50000x64, .f32⟩ : BufTy).Contents (Elt F)),
    StableHlo.binary main_v13 main_v15 main_v16 (addf : (⟨S50000x64, .f32⟩ : BufTy).Contents (Elt F) → (⟨S50000x64, .f32⟩ : BufTy).Contents (Elt F) → (⟨S50000x64, .f32⟩ : BufTy).Contents (Elt F)),
    StableHlo.binary main_arg1 main_arg16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    StableHlo.binary main_arg1 main_arg18 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S50000x64 ![0, 1] bcast_S1x64_S50000x64_0_1 : (⟨S1x64, .f32⟩ : BufTy).Contents (Elt F) → (⟨S50000x64, .f32⟩ : BufTy).Contents (Elt F)),
    StableHlo.binary main_v21 main_v23 main_v24 (addf : (⟨S50000x64, .f32⟩ : BufTy).Contents (Elt F) → (⟨S50000x64, .f32⟩ : BufTy).Contents (Elt F) → (⟨S50000x64, .f32⟩ : BufTy).Contents (Elt F)),
    StableHlo.binary main_arg2 main_arg14 main_v25 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg15 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S500000x64 ![0, 1] bcast_S1x64_S500000x64_0_1 : (⟨S1x64, .f32⟩ : BufTy).Contents (Elt F) → (⟨S500000x64, .f32⟩ : BufTy).Contents (Elt F)),
    StableHlo.binary main_v25 main_v27 main_v28 (addf : (⟨S500000x64, .f32⟩ : BufTy).Contents (Elt F) → (⟨S500000x64, .f32⟩ : BufTy).Contents (Elt F) → (⟨S500000x64, .f32⟩ : BufTy).Contents (Elt F)),
    StableHlo.nullary main_c (constantI S_ 32 0#32),
    StableHlo.unary main_c main_v29 (broadcastInDim S500000 ![] bcast_S_S500000 : (⟨S_, .i32⟩ : BufTy).Contents (Elt F) → (⟨S500000, .i32⟩ : BufTy).Contents (Elt F)),
    StableHlo.binary main_arg4 main_v29 main_v30 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v31 (broadcastInDim S500000 ![] bcast_S_S500000 : (⟨S_, .i32⟩ : BufTy).Contents (Elt F) → (⟨S500000, .i32⟩ : BufTy).Contents (Elt F)),
    StableHlo.binary main_arg4 main_v31 main_v32 (addi : (⟨S500000, .i32⟩ : BufTy).Contents (Elt F) → (⟨S500000, .i32⟩ : BufTy).Contents (Elt F) → (⟨S500000, .i32⟩ : BufTy).Contents (Elt F)),
    StableHlo.ternary main_v30 main_v32 main_arg4 main_v33 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v33 main_v34 (broadcastInDim S500000x1 ![0] bcast_S500000_S500000x1_0 : (⟨S500000, .i32⟩ : BufTy).Contents (Elt F) → (⟨S500000x1, .i32⟩ : BufTy).Contents (Elt F)),
    StableHlo.binary main_v12 main_v34 main_v35 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.nullary main_c_1 (constantI S_ 32 0#32),
    StableHlo.unary main_c_1 main_v36 (broadcastInDim S500000 ![] bcast_S_S500000 : (⟨S_, .i32⟩ : BufTy).Contents (Elt F) → (⟨S500000, .i32⟩ : BufTy).Contents (Elt F)),
    StableHlo.binary main_arg5 main_v36 main_v37 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v38 (broadcastInDim S500000 ![] bcast_S_S500000 : (⟨S_, .i32⟩ : BufTy).Contents (Elt F) → (⟨S500000, .i32⟩ : BufTy).Contents (Elt F)),
    StableHlo.binary main_arg5 main_v38 main_v39 (addi : (⟨S500000, .i32⟩ : BufTy).Contents (Elt F) → (⟨S500000, .i32⟩ : BufTy).Contents (Elt F) → (⟨S500000, .i32⟩ : BufTy).Contents (Elt F)),
    StableHlo.ternary main_v37 main_v39 main_arg5 main_v40 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v40 main_v41 (broadcastInDim S500000x1 ![0] bcast_S500000_S500000x1_0 : (⟨S500000, .i32⟩ : BufTy).Contents (Elt F) → (⟨S500000x1, .i32⟩ : BufTy).Contents (Elt F)),
    StableHlo.binary main_v16 main_v41 main_v42 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v35 main_v42 main_v43 (addf : (⟨S500000x64, .f32⟩ : BufTy).Contents (Elt F) → (⟨S500000x64, .f32⟩ : BufTy).Contents (Elt F) → (⟨S500000x64, .f32⟩ : BufTy).Contents (Elt F)),
    StableHlo.binary main_v43 main_v28 main_v44 (addf : (⟨S500000x64, .f32⟩ : BufTy).Contents (Elt F) → (⟨S500000x64, .f32⟩ : BufTy).Contents (Elt F) → (⟨S500000x64, .f32⟩ : BufTy).Contents (Elt F)),
    StableHlo.unary main_v44 main_v45 (Host.negf : (⟨S500000x64, .f32⟩ : BufTy).Contents (Elt F) → (⟨S500000x64, .f32⟩ : BufTy).Contents (Elt F)),
    StableHlo.unary main_v45 main_v46 (Host.exp : (⟨S500000x64, .f32⟩ : BufTy).Contents (Elt F) → (⟨S500000x64, .f32⟩ : BufTy).Contents (Elt F)),
    StableHlo.nullary main_cst (constant S_ .f32 0x3F800000#32),
    StableHlo.unary main_cst main_v47 (broadcastInDim S500000x64 ![] bcast_S_S500000x64 : (⟨S_, .f32⟩ : BufTy).Contents (Elt F) → (⟨S500000x64, .f32⟩ : BufTy).Contents (Elt F)),
    StableHlo.binary main_v47 main_v46 main_v48 (addf : (⟨S500000x64, .f32⟩ : BufTy).Contents (Elt F) → (⟨S500000x64, .f32⟩ : BufTy).Contents (Elt F) → (⟨S500000x64, .f32⟩ : BufTy).Contents (Elt F)),
    StableHlo.nullary main_cst_3 (constant S_ .f32 0x3F800000#32),
    StableHlo.unary main_cst_3 main_v49 (broadcastInDim S500000x64 ![] bcast_S_S500000x64 : (⟨S_, .f32⟩ : BufTy).Contents (Elt F) → (⟨S500000x64, .f32⟩ : BufTy).Contents (Elt F)),
    StableHlo.binary main_v49 main_v48 main_v50 (Host.divf : (⟨S500000x64, .f32⟩ : BufTy).Contents (Elt F) → (⟨S500000x64, .f32⟩ : BufTy).Contents (Elt F) → (⟨S500000x64, .f32⟩ : BufTy).Contents (Elt F)),
    StableHlo.nullary main_cst_4 (constant S_ .f32 0x00000000#32),
    StableHlo.unary main_cst_4 main_v51 (broadcastInDim S50000x64 ![] bcast_S_S50000x64 : (⟨S_, .f32⟩ : BufTy).Contents (Elt F) → (⟨S50000x64, .f32⟩ : BufTy).Contents (Elt F)),
    StableHlo.unary main_arg5 main_v52 (broadcastInDim S500000x1 ![0] bcast_S500000_S500000x1_0 : (⟨S500000, .i32⟩ : BufTy).Contents (Elt F) → (⟨S500000x1, .i32⟩ : BufTy).Contents (Elt F)) ]

/-- The operations of statements 61 … 120 of @main, the calls among them replaced by their bodies. -/
abbrev ops1 : List (HloOp τ sig (Elt F)) :=
  [ StableHlo.ternary main_v51 main_v52 main_v50 main_v53 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_c_5 (constantI S_ 32 0#32),
    StableHlo.unary main_c_5 main_v54 (broadcastInDim S500000 ![] bcast_S_S500000 : (⟨S_, .i32⟩ : BufTy).Contents (Elt F) → (⟨S500000, .i32⟩ : BufTy).Contents (Elt F)),
    StableHlo.binary main_arg5 main_v54 main_v55 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 50000#32),
    StableHlo.unary main_c_6 main_v56 (broadcastInDim S500000 ![] bcast_S_S500000 : (⟨S_, .i32⟩ : BufTy).Contents (Elt F) → (⟨S500000, .i32⟩ : BufTy).Contents (Elt F)),
    StableHlo.binary main_arg5 main_v56 main_v57 (addi : (⟨S500000, .i32⟩ : BufTy).Contents (Elt F) → (⟨S500000, .i32⟩ : BufTy).Contents (Elt F) → (⟨S500000, .i32⟩ : BufTy).Contents (Elt F)),
    StableHlo.ternary main_v55 main_v57 main_arg5 main_v58 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v58 main_v59 (broadcastInDim S500000x1 ![0] bcast_S500000_S500000x1_0 : (⟨S500000, .i32⟩ : BufTy).Contents (Elt F) → (⟨S500000x1, .i32⟩ : BufTy).Contents (Elt F)),
    StableHlo.binary main_v53 main_v59 main_v60 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.nullary main_cst_7 (constant S_ .f32 0x358637BD#32),
    StableHlo.unary main_cst_7 main_v61 (broadcastInDim S500000x64 ![] bcast_S_S500000x64 : (⟨S_, .f32⟩ : BufTy).Contents (Elt F) → (⟨S500000x64, .f32⟩ : BufTy).Contents (Elt F)),
    StableHlo.binary main_v60 main_v61 main_v62 (addf : (⟨S500000x64, .f32⟩ : BufTy).Contents (Elt F) → (⟨S500000x64, .f32⟩ : BufTy).Contents (Elt F) → (⟨S500000x64, .f32⟩ : BufTy).Contents (Elt F)),
    StableHlo.binary main_v50 main_v62 main_v63 (Host.divf : (⟨S500000x64, .f32⟩ : BufTy).Contents (Elt F) → (⟨S500000x64, .f32⟩ : BufTy).Contents (Elt F) → (⟨S500000x64, .f32⟩ : BufTy).Contents (Elt F)),
    StableHlo.nullary main_c_8 (constantI S_ 32 0#32),
    StableHlo.unary main_c_8 main_v64 (broadcastInDim S500000 ![] bcast_S_S500000 : (⟨S_, .i32⟩ : BufTy).Contents (Elt F) → (⟨S500000, .i32⟩ : BufTy).Contents (Elt F)),
    StableHlo.binary main_arg4 main_v64 main_v65 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 50000#32),
    StableHlo.unary main_c_9 main_v66 (broadcastInDim S500000 ![] bcast_S_S500000 : (⟨S_, .i32⟩ : BufTy).Contents (Elt F) → (⟨S500000, .i32⟩ : BufTy).Contents (Elt F)),
    StableHlo.binary main_arg4 main_v66 main_v67 (addi : (⟨S500000, .i32⟩ : BufTy).Contents (Elt F) → (⟨S500000, .i32⟩ : BufTy).Contents (Elt F) → (⟨S500000, .i32⟩ : BufTy).Contents (Elt F)),
    StableHlo.ternary main_v65 main_v67 main_arg4 main_v68 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v68 main_v69 (broadcastInDim S500000x1 ![0] bcast_S500000_S500000x1_0 : (⟨S500000, .i32⟩ : BufTy).Contents (Elt F) → (⟨S500000x1, .i32⟩ : BufTy).Contents (Elt F)),
    StableHlo.binary main_v8 main_v69 main_v70 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v63 main_v70 main_v71 (mulf : (⟨S500000x64, .f32⟩ : BufTy).Contents (Elt F) → (⟨S500000x64, .f32⟩ : BufTy).Contents (Elt F) → (⟨S500000x64, .f32⟩ : BufTy).Contents (Elt F)),
    StableHlo.nullary main_cst_10 (constant S_ .f32 0x00000000#32),
    StableHlo.unary main_cst_10 main_v72 (broadcastInDim S50000x64 ![] bcast_S_S50000x64 : (⟨S_, .f32⟩ : BufTy).Contents (Elt F) → (⟨S50000x64, .f32⟩ : BufTy).Contents (Elt F)),
    StableHlo.unary main_arg5 main_v73 (broadcastInDim S500000x1 ![0] bcast_S500000_S500000x1_0 : (⟨S500000, .i32⟩ : BufTy).Contents (Elt F) → (⟨S500000x1, .i32⟩ : BufTy).Contents (Elt F)),
    StableHlo.ternary main_v72 main_v73 main_v71 main_v74 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.binary main_v4 main_v74 main_v75 (addf : (⟨S50000x64, .f32⟩ : BufTy).Contents (Elt F) → (⟨S50000x64, .f32⟩ : BufTy).Contents (Elt F) → (⟨S50000x64, .f32⟩ : BufTy).Contents (Elt F)),
    StableHlo.nullary main_c_11 (constantI S_ 32 0#32),
    StableHlo.unary main_c_11 main_v76 (broadcastInDim S500000 ![] bcast_S_S500000 : (⟨S_, .i32⟩ : BufTy).Contents (Elt F) → (⟨S500000, .i32⟩ : BufTy).Contents (Elt F)),
    StableHlo.binary main_arg4 main_v76 main_v77 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 50000#32),
    StableHlo.unary main_c_12 main_v78 (broadcastInDim S500000 ![] bcast_S_S500000 : (⟨S_, .i32⟩ : BufTy).Contents (Elt F) → (⟨S500000, .i32⟩ : BufTy).Contents (Elt F)),
    StableHlo.binary main_arg4 main_v78 main_v79 (addi : (⟨S500000, .i32⟩ : BufTy).Contents (Elt F) → (⟨S500000, .i32⟩ : BufTy).Contents (Elt F) → (⟨S500000, .i32⟩ : BufTy).Contents (Elt F)),
    StableHlo.ternary main_v77 main_v79 main_arg4 main_v80 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v80 main_v81 (broadcastInDim S500000x1 ![0] bcast_S500000_S500000x1_0 : (⟨S500000, .i32⟩ : BufTy).Contents (Elt F) → (⟨S500000x1, .i32⟩ : BufTy).Contents (Elt F)),
    StableHlo.binary main_v24 main_v81 main_v82 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v63 main_v82 main_v83 (mulf : (⟨S500000x64, .f32⟩ : BufTy).Contents (Elt F) → (⟨S500000x64, .f32⟩ : BufTy).Contents (Elt F) → (⟨S500000x64, .f32⟩ : BufTy).Contents (Elt F)),
    StableHlo.nullary main_cst_13 (constant S_ .f32 0x00000000#32),
    StableHlo.unary main_cst_13 main_v84 (broadcastInDim S50000x64 ![] bcast_S_S50000x64 : (⟨S_, .f32⟩ : BufTy).Contents (Elt F) → (⟨S50000x64, .f32⟩ : BufTy).Contents (Elt F)),
    StableHlo.unary main_arg5 main_v85 (broadcastInDim S500000x1 ![0] bcast_S500000_S500000x1_0 : (⟨S500000, .i32⟩ : BufTy).Contents (Elt F) → (⟨S500000x1, .i32⟩ : BufTy).Contents (Elt F)),
    StableHlo.ternary main_v84 main_v85 main_v83 main_v86 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.binary main_v20 main_v86 main_v87 (addf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v75 main_cst_14 main_v88 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v89 (broadcastInDim S64 ![] bcast_S_S64 : (⟨S_, .f32⟩ : BufTy).Contents (Elt F) → (⟨S64, .f32⟩ : BufTy).Contents (Elt F)),
    StableHlo.binary main_v88 main_v89 main_v90 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call0.cst (constant S_ .f32 0x00000000#32),
    StableHlo.TRef.binary (.of main_v75) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v75) main_call0.v4 main_call0.v5 subf,
    StableHlo.TRef.binary main_call0.v5 main_call0.v5 main_call0.v6 mulf,
    StableHlo.TRef.unary (.of main_c_16) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v90 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v93 main_v94 (subf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v95 (broadcastInDim S64 ![] bcast_S_S64 : (⟨S_, .f32⟩ : BufTy).Contents (Elt F) → (⟨S64, .f32⟩ : BufTy).Contents (Elt F)),
    StableHlo.binary main_v91 main_v95 main_v96 (addf : (⟨S64, .f32⟩ : BufTy).Contents (Elt F) → (⟨S64, .f32⟩ : BufTy).Contents (Elt F) → (⟨S64, .f32⟩ : BufTy).Contents (Elt F)),
    StableHlo.unary main_v96 main_v97 (Host.rsqrt : (⟨S64, .f32⟩ : BufTy).Contents (Elt F) → (⟨S64, .f32⟩ : BufTy).Contents (Elt F)),
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)) ]

/-- The operations of statements 121 … 157 of @main, the calls among them replaced by their bodies. -/
abbrev ops2 : List (HloOp τ sig (Elt F)) :=
  [ StableHlo.binary main_v94 main_v99 main_v100 (mulf : (⟨S50000x64, .f32⟩ : BufTy).Contents (Elt F) → (⟨S50000x64, .f32⟩ : BufTy).Contents (Elt F) → (⟨S50000x64, .f32⟩ : BufTy).Contents (Elt F)),
    StableHlo.unary main_arg20 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v102 main_v103 (mulf : (⟨S50000x64, .f32⟩ : BufTy).Contents (Elt F) → (⟨S50000x64, .f32⟩ : BufTy).Contents (Elt F) → (⟨S50000x64, .f32⟩ : BufTy).Contents (Elt F)),
    StableHlo.unary main_arg21 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v106) main_call1.v0 main_call1.v1 maximumf,
    StableHlo.nullary main_cst_18 (constant S_ .f32 0x00000000#32),
    StableHlo.binary main_v44 main_cst_18 main_v108 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    StableHlo.nullary main_cst_19 (constant S_ .f32 0x48F42400#32),
    StableHlo.unary main_cst_19 main_v109 (broadcastInDim S64 ![] bcast_S_S64 : (⟨S_, .f32⟩ : BufTy).Contents (Elt F) → (⟨S64, .f32⟩ : BufTy).Contents (Elt F)),
    StableHlo.binary main_v108 main_v109 main_v110 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call2.cst (constant S_ .f32 0x00000000#32),
    StableHlo.TRef.binary (.of main_v44) main_call2.cst main_call2.v0 (fun x v => Host.reduceAdd x v reducesTo_S500000x64_S64_d0 h_S_),
    StableHlo.TRef.unary main_call2.v0 main_call2.v1 (broadcastInDim S1x64 ![1] bcast_S64_S1x64_1),
    StableHlo.TRef.nullary main_call2.cst_0 (constant S_ .f32 0x48F42400#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S500000x64 ![0, 1] bcast_S1x64_S500000x64_0_1),
    StableHlo.TRef.binary (.of main_v44) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x48F42400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S500000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v110 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S500000x64 ![0, 1] bcast_S1x64_S500000x64_0_1 : (⟨S1x64, .f32⟩ : BufTy).Contents (Elt F) → (⟨S500000x64, .f32⟩ : BufTy).Contents (Elt F)),
    StableHlo.binary main_v44 main_v113 main_v114 (subf : (⟨S500000x64, .f32⟩ : BufTy).Contents (Elt F) → (⟨S500000x64, .f32⟩ : BufTy).Contents (Elt F) → (⟨S500000x64, .f32⟩ : BufTy).Contents (Elt F)),
    StableHlo.nullary main_cst_21 (constant S_ .f32 0x3727C5AC#32),
    StableHlo.unary main_cst_21 main_v115 (broadcastInDim S64 ![] bcast_S_S64 : (⟨S_, .f32⟩ : BufTy).Contents (Elt F) → (⟨S64, .f32⟩ : BufTy).Contents (Elt F)),
    StableHlo.binary main_v111 main_v115 main_v116 (addf : (⟨S64, .f32⟩ : BufTy).Contents (Elt F) → (⟨S64, .f32⟩ : BufTy).Contents (Elt F) → (⟨S64, .f32⟩ : BufTy).Contents (Elt F)),
    StableHlo.unary main_v116 main_v117 (Host.rsqrt : (⟨S64, .f32⟩ : BufTy).Contents (Elt F) → (⟨S64, .f32⟩ : BufTy).Contents (Elt F)),
    StableHlo.unary main_v117 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S500000x64 ![0, 1] bcast_S1x64_S500000x64_0_1 : (⟨S1x64, .f32⟩ : BufTy).Contents (Elt F) → (⟨S500000x64, .f32⟩ : BufTy).Contents (Elt F)),
    StableHlo.binary main_v114 main_v119 main_v120 (mulf : (⟨S500000x64, .f32⟩ : BufTy).Contents (Elt F) → (⟨S500000x64, .f32⟩ : BufTy).Contents (Elt F) → (⟨S500000x64, .f32⟩ : BufTy).Contents (Elt F)),
    StableHlo.unary main_arg22 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S500000x64 ![0, 1] bcast_S1x64_S500000x64_0_1 : (⟨S1x64, .f32⟩ : BufTy).Contents (Elt F) → (⟨S500000x64, .f32⟩ : BufTy).Contents (Elt F)),
    StableHlo.binary main_v120 main_v122 main_v123 (mulf : (⟨S500000x64, .f32⟩ : BufTy).Contents (Elt F) → (⟨S500000x64, .f32⟩ : BufTy).Contents (Elt F) → (⟨S500000x64, .f32⟩ : BufTy).Contents (Elt F)),
    StableHlo.unary main_arg23 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S500000x64 ![0, 1] bcast_S1x64_S500000x64_0_1 : (⟨S1x64, .f32⟩ : BufTy).Contents (Elt F) → (⟨S500000x64, .f32⟩ : BufTy).Contents (Elt F)),
    StableHlo.binary main_v123 main_v125 main_v126 (addf : (⟨S500000x64, .f32⟩ : BufTy).Contents (Elt F) → (⟨S500000x64, .f32⟩ : BufTy).Contents (Elt F) → (⟨S500000x64, .f32⟩ : BufTy).Contents (Elt F)),
    StableHlo.TRef.nullary main_call3.cst (constant S_ .f32 0x00000000#32),
    StableHlo.TRef.unary main_call3.cst main_call3.v0 (broadcastInDim S500000x64 ![] bcast_S_S500000x64),
    StableHlo.TRef.binary (.of main_v126) main_call3.v0 main_call3.v1 maximumf,
    StableHlo.unary main_v87 main_v128 (Host.tanh : (⟨S50000x64, .f32⟩ : BufTy).Contents (Elt F) → (⟨S50000x64, .f32⟩ : BufTy).Contents (Elt F)),
    StableHlo.binary main_arg0 main_v107 main_v129 (addf : (⟨S50000x64, .f32⟩ : BufTy).Contents (Elt F) → (⟨S50000x64, .f32⟩ : BufTy).Contents (Elt F) → (⟨S50000x64, .f32⟩ : BufTy).Contents (Elt F)),
    StableHlo.binary main_arg1 main_v128 main_v130 (addf : (⟨S50000x64, .f32⟩ : BufTy).Contents (Elt F) → (⟨S50000x64, .f32⟩ : BufTy).Contents (Elt F) → (⟨S50000x64, .f32⟩ : BufTy).Contents (Elt F)),
    StableHlo.binary main_arg2 main_v127 main_v131 (addf : (⟨S500000x64, .f32⟩ : BufTy).Contents (Elt F) → (⟨S500000x64, .f32⟩ : BufTy).Contents (Elt F) → (⟨S500000x64, .f32⟩ : BufTy).Contents (Elt F)) ]

/-- All of @main's operations, in order: the three windows one after the other. -/
abbrev ops : List (HloOp τ sig (Elt F)) :=
  [ StableHlo.binary main_arg0 main_arg1 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v0 main_arg6 main_v1 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S50000x64 ![0, 1] bcast_S1x64_S50000x64_0_1 : (⟨S1x64, .f32⟩ : BufTy).Contents (Elt F) → (⟨S50000x64, .f32⟩ : BufTy).Contents (Elt F)),
    StableHlo.binary main_v1 main_v3 main_v4 (addf : (⟨S50000x64, .f32⟩ : BufTy).Contents (Elt F) → (⟨S50000x64, .f32⟩ : BufTy).Contents (Elt F) → (⟨S50000x64, .f32⟩ : BufTy).Contents (Elt F)),
    StableHlo.binary main_v0 main_arg8 main_v5 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.binary main_arg0 main_arg10 main_v9 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.binary main_arg0 main_arg12 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S50000x64 ![0, 1] bcast_S1x64_S50000x64_0_1 : (⟨S1x64, .f32⟩ : BufTy).Contents (Elt F) → (⟨S50000x64, .f32⟩ : BufTy).Contents (Elt F)),
    StableHlo.binary main_v13 main_v15 main_v16 (addf : (⟨S50000x64, .f32⟩ : BufTy).Contents (Elt F) → (⟨S50000x64, .f32⟩ : BufTy).Contents (Elt F) → (⟨S50000x64, .f32⟩ : BufTy).Contents (Elt F)),
    StableHlo.binary main_arg1 main_arg16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    StableHlo.binary main_arg1 main_arg18 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S50000x64 ![0, 1] bcast_S1x64_S50000x64_0_1 : (⟨S1x64, .f32⟩ : BufTy).Contents (Elt F) → (⟨S50000x64, .f32⟩ : BufTy).Contents (Elt F)),
    StableHlo.binary main_v21 main_v23 main_v24 (addf : (⟨S50000x64, .f32⟩ : BufTy).Contents (Elt F) → (⟨S50000x64, .f32⟩ : BufTy).Contents (Elt F) → (⟨S50000x64, .f32⟩ : BufTy).Contents (Elt F)),
    StableHlo.binary main_arg2 main_arg14 main_v25 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg15 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S500000x64 ![0, 1] bcast_S1x64_S500000x64_0_1 : (⟨S1x64, .f32⟩ : BufTy).Contents (Elt F) → (⟨S500000x64, .f32⟩ : BufTy).Contents (Elt F)),
    StableHlo.binary main_v25 main_v27 main_v28 (addf : (⟨S500000x64, .f32⟩ : BufTy).Contents (Elt F) → (⟨S500000x64, .f32⟩ : BufTy).Contents (Elt F) → (⟨S500000x64, .f32⟩ : BufTy).Contents (Elt F)),
    StableHlo.nullary main_c (constantI S_ 32 0#32),
    StableHlo.unary main_c main_v29 (broadcastInDim S500000 ![] bcast_S_S500000 : (⟨S_, .i32⟩ : BufTy).Contents (Elt F) → (⟨S500000, .i32⟩ : BufTy).Contents (Elt F)),
    StableHlo.binary main_arg4 main_v29 main_v30 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v31 (broadcastInDim S500000 ![] bcast_S_S500000 : (⟨S_, .i32⟩ : BufTy).Contents (Elt F) → (⟨S500000, .i32⟩ : BufTy).Contents (Elt F)),
    StableHlo.binary main_arg4 main_v31 main_v32 (addi : (⟨S500000, .i32⟩ : BufTy).Contents (Elt F) → (⟨S500000, .i32⟩ : BufTy).Contents (Elt F) → (⟨S500000, .i32⟩ : BufTy).Contents (Elt F)),
    StableHlo.ternary main_v30 main_v32 main_arg4 main_v33 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v33 main_v34 (broadcastInDim S500000x1 ![0] bcast_S500000_S500000x1_0 : (⟨S500000, .i32⟩ : BufTy).Contents (Elt F) → (⟨S500000x1, .i32⟩ : BufTy).Contents (Elt F)),
    StableHlo.binary main_v12 main_v34 main_v35 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.nullary main_c_1 (constantI S_ 32 0#32),
    StableHlo.unary main_c_1 main_v36 (broadcastInDim S500000 ![] bcast_S_S500000 : (⟨S_, .i32⟩ : BufTy).Contents (Elt F) → (⟨S500000, .i32⟩ : BufTy).Contents (Elt F)),
    StableHlo.binary main_arg5 main_v36 main_v37 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v38 (broadcastInDim S500000 ![] bcast_S_S500000 : (⟨S_, .i32⟩ : BufTy).Contents (Elt F) → (⟨S500000, .i32⟩ : BufTy).Contents (Elt F)),
    StableHlo.binary main_arg5 main_v38 main_v39 (addi : (⟨S500000, .i32⟩ : BufTy).Contents (Elt F) → (⟨S500000, .i32⟩ : BufTy).Contents (Elt F) → (⟨S500000, .i32⟩ : BufTy).Contents (Elt F)),
    StableHlo.ternary main_v37 main_v39 main_arg5 main_v40 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v40 main_v41 (broadcastInDim S500000x1 ![0] bcast_S500000_S500000x1_0 : (⟨S500000, .i32⟩ : BufTy).Contents (Elt F) → (⟨S500000x1, .i32⟩ : BufTy).Contents (Elt F)),
    StableHlo.binary main_v16 main_v41 main_v42 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v35 main_v42 main_v43 (addf : (⟨S500000x64, .f32⟩ : BufTy).Contents (Elt F) → (⟨S500000x64, .f32⟩ : BufTy).Contents (Elt F) → (⟨S500000x64, .f32⟩ : BufTy).Contents (Elt F)),
    StableHlo.binary main_v43 main_v28 main_v44 (addf : (⟨S500000x64, .f32⟩ : BufTy).Contents (Elt F) → (⟨S500000x64, .f32⟩ : BufTy).Contents (Elt F) → (⟨S500000x64, .f32⟩ : BufTy).Contents (Elt F)),
    StableHlo.unary main_v44 main_v45 (Host.negf : (⟨S500000x64, .f32⟩ : BufTy).Contents (Elt F) → (⟨S500000x64, .f32⟩ : BufTy).Contents (Elt F)),
    StableHlo.unary main_v45 main_v46 (Host.exp : (⟨S500000x64, .f32⟩ : BufTy).Contents (Elt F) → (⟨S500000x64, .f32⟩ : BufTy).Contents (Elt F)),
    StableHlo.nullary main_cst (constant S_ .f32 0x3F800000#32),
    StableHlo.unary main_cst main_v47 (broadcastInDim S500000x64 ![] bcast_S_S500000x64 : (⟨S_, .f32⟩ : BufTy).Contents (Elt F) → (⟨S500000x64, .f32⟩ : BufTy).Contents (Elt F)),
    StableHlo.binary main_v47 main_v46 main_v48 (addf : (⟨S500000x64, .f32⟩ : BufTy).Contents (Elt F) → (⟨S500000x64, .f32⟩ : BufTy).Contents (Elt F) → (⟨S500000x64, .f32⟩ : BufTy).Contents (Elt F)),
    StableHlo.nullary main_cst_3 (constant S_ .f32 0x3F800000#32),
    StableHlo.unary main_cst_3 main_v49 (broadcastInDim S500000x64 ![] bcast_S_S500000x64 : (⟨S_, .f32⟩ : BufTy).Contents (Elt F) → (⟨S500000x64, .f32⟩ : BufTy).Contents (Elt F)),
    StableHlo.binary main_v49 main_v48 main_v50 (Host.divf : (⟨S500000x64, .f32⟩ : BufTy).Contents (Elt F) → (⟨S500000x64, .f32⟩ : BufTy).Contents (Elt F) → (⟨S500000x64, .f32⟩ : BufTy).Contents (Elt F)),
    StableHlo.nullary main_cst_4 (constant S_ .f32 0x00000000#32),
    StableHlo.unary main_cst_4 main_v51 (broadcastInDim S50000x64 ![] bcast_S_S50000x64 : (⟨S_, .f32⟩ : BufTy).Contents (Elt F) → (⟨S50000x64, .f32⟩ : BufTy).Contents (Elt F)),
    StableHlo.unary main_arg5 main_v52 (broadcastInDim S500000x1 ![0] bcast_S500000_S500000x1_0 : (⟨S500000, .i32⟩ : BufTy).Contents (Elt F) → (⟨S500000x1, .i32⟩ : BufTy).Contents (Elt F)),
    StableHlo.ternary main_v51 main_v52 main_v50 main_v53 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_c_5 (constantI S_ 32 0#32),
    StableHlo.unary main_c_5 main_v54 (broadcastInDim S500000 ![] bcast_S_S500000 : (⟨S_, .i32⟩ : BufTy).Contents (Elt F) → (⟨S500000, .i32⟩ : BufTy).Contents (Elt F)),
    StableHlo.binary main_arg5 main_v54 main_v55 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 50000#32),
    StableHlo.unary main_c_6 main_v56 (broadcastInDim S500000 ![] bcast_S_S500000 : (⟨S_, .i32⟩ : BufTy).Contents (Elt F) → (⟨S500000, .i32⟩ : BufTy).Contents (Elt F)),
    StableHlo.binary main_arg5 main_v56 main_v57 (addi : (⟨S500000, .i32⟩ : BufTy).Contents (Elt F) → (⟨S500000, .i32⟩ : BufTy).Contents (Elt F) → (⟨S500000, .i32⟩ : BufTy).Contents (Elt F)),
    StableHlo.ternary main_v55 main_v57 main_arg5 main_v58 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v58 main_v59 (broadcastInDim S500000x1 ![0] bcast_S500000_S500000x1_0 : (⟨S500000, .i32⟩ : BufTy).Contents (Elt F) → (⟨S500000x1, .i32⟩ : BufTy).Contents (Elt F)),
    StableHlo.binary main_v53 main_v59 main_v60 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.nullary main_cst_7 (constant S_ .f32 0x358637BD#32),
    StableHlo.unary main_cst_7 main_v61 (broadcastInDim S500000x64 ![] bcast_S_S500000x64 : (⟨S_, .f32⟩ : BufTy).Contents (Elt F) → (⟨S500000x64, .f32⟩ : BufTy).Contents (Elt F)),
    StableHlo.binary main_v60 main_v61 main_v62 (addf : (⟨S500000x64, .f32⟩ : BufTy).Contents (Elt F) → (⟨S500000x64, .f32⟩ : BufTy).Contents (Elt F) → (⟨S500000x64, .f32⟩ : BufTy).Contents (Elt F)),
    StableHlo.binary main_v50 main_v62 main_v63 (Host.divf : (⟨S500000x64, .f32⟩ : BufTy).Contents (Elt F) → (⟨S500000x64, .f32⟩ : BufTy).Contents (Elt F) → (⟨S500000x64, .f32⟩ : BufTy).Contents (Elt F)),
    StableHlo.nullary main_c_8 (constantI S_ 32 0#32),
    StableHlo.unary main_c_8 main_v64 (broadcastInDim S500000 ![] bcast_S_S500000 : (⟨S_, .i32⟩ : BufTy).Contents (Elt F) → (⟨S500000, .i32⟩ : BufTy).Contents (Elt F)),
    StableHlo.binary main_arg4 main_v64 main_v65 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 50000#32),
    StableHlo.unary main_c_9 main_v66 (broadcastInDim S500000 ![] bcast_S_S500000 : (⟨S_, .i32⟩ : BufTy).Contents (Elt F) → (⟨S500000, .i32⟩ : BufTy).Contents (Elt F)),
    StableHlo.binary main_arg4 main_v66 main_v67 (addi : (⟨S500000, .i32⟩ : BufTy).Contents (Elt F) → (⟨S500000, .i32⟩ : BufTy).Contents (Elt F) → (⟨S500000, .i32⟩ : BufTy).Contents (Elt F)),
    StableHlo.ternary main_v65 main_v67 main_arg4 main_v68 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v68 main_v69 (broadcastInDim S500000x1 ![0] bcast_S500000_S500000x1_0 : (⟨S500000, .i32⟩ : BufTy).Contents (Elt F) → (⟨S500000x1, .i32⟩ : BufTy).Contents (Elt F)),
    StableHlo.binary main_v8 main_v69 main_v70 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v63 main_v70 main_v71 (mulf : (⟨S500000x64, .f32⟩ : BufTy).Contents (Elt F) → (⟨S500000x64, .f32⟩ : BufTy).Contents (Elt F) → (⟨S500000x64, .f32⟩ : BufTy).Contents (Elt F)),
    StableHlo.nullary main_cst_10 (constant S_ .f32 0x00000000#32),
    StableHlo.unary main_cst_10 main_v72 (broadcastInDim S50000x64 ![] bcast_S_S50000x64 : (⟨S_, .f32⟩ : BufTy).Contents (Elt F) → (⟨S50000x64, .f32⟩ : BufTy).Contents (Elt F)),
    StableHlo.unary main_arg5 main_v73 (broadcastInDim S500000x1 ![0] bcast_S500000_S500000x1_0 : (⟨S500000, .i32⟩ : BufTy).Contents (Elt F) → (⟨S500000x1, .i32⟩ : BufTy).Contents (Elt F)),
    StableHlo.ternary main_v72 main_v73 main_v71 main_v74 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.binary main_v4 main_v74 main_v75 (addf : (⟨S50000x64, .f32⟩ : BufTy).Contents (Elt F) → (⟨S50000x64, .f32⟩ : BufTy).Contents (Elt F) → (⟨S50000x64, .f32⟩ : BufTy).Contents (Elt F)),
    StableHlo.nullary main_c_11 (constantI S_ 32 0#32),
    StableHlo.unary main_c_11 main_v76 (broadcastInDim S500000 ![] bcast_S_S500000 : (⟨S_, .i32⟩ : BufTy).Contents (Elt F) → (⟨S500000, .i32⟩ : BufTy).Contents (Elt F)),
    StableHlo.binary main_arg4 main_v76 main_v77 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 50000#32),
    StableHlo.unary main_c_12 main_v78 (broadcastInDim S500000 ![] bcast_S_S500000 : (⟨S_, .i32⟩ : BufTy).Contents (Elt F) → (⟨S500000, .i32⟩ : BufTy).Contents (Elt F)),
    StableHlo.binary main_arg4 main_v78 main_v79 (addi : (⟨S500000, .i32⟩ : BufTy).Contents (Elt F) → (⟨S500000, .i32⟩ : BufTy).Contents (Elt F) → (⟨S500000, .i32⟩ : BufTy).Contents (Elt F)),
    StableHlo.ternary main_v77 main_v79 main_arg4 main_v80 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v80 main_v81 (broadcastInDim S500000x1 ![0] bcast_S500000_S500000x1_0 : (⟨S500000, .i32⟩ : BufTy).Contents (Elt F) → (⟨S500000x1, .i32⟩ : BufTy).Contents (Elt F)),
    StableHlo.binary main_v24 main_v81 main_v82 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.binary main_v63 main_v82 main_v83 (mulf : (⟨S500000x64, .f32⟩ : BufTy).Contents (Elt F) → (⟨S500000x64, .f32⟩ : BufTy).Contents (Elt F) → (⟨S500000x64, .f32⟩ : BufTy).Contents (Elt F)),
    StableHlo.nullary main_cst_13 (constant S_ .f32 0x00000000#32),
    StableHlo.unary main_cst_13 main_v84 (broadcastInDim S50000x64 ![] bcast_S_S50000x64 : (⟨S_, .f32⟩ : BufTy).Contents (Elt F) → (⟨S50000x64, .f32⟩ : BufTy).Contents (Elt F)),
    StableHlo.unary main_arg5 main_v85 (broadcastInDim S500000x1 ![0] bcast_S500000_S500000x1_0 : (⟨S500000, .i32⟩ : BufTy).Contents (Elt F) → (⟨S500000x1, .i32⟩ : BufTy).Contents (Elt F)),
    StableHlo.ternary main_v84 main_v85 main_v83 main_v86 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.binary main_v20 main_v86 main_v87 (addf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v75 main_cst_14 main_v88 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v89 (broadcastInDim S64 ![] bcast_S_S64 : (⟨S_, .f32⟩ : BufTy).Contents (Elt F) → (⟨S64, .f32⟩ : BufTy).Contents (Elt F)),
    StableHlo.binary main_v88 main_v89 main_v90 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call0.cst (constant S_ .f32 0x00000000#32),
    StableHlo.TRef.binary (.of main_v75) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v75) main_call0.v4 main_call0.v5 subf,
    StableHlo.TRef.binary main_call0.v5 main_call0.v5 main_call0.v6 mulf,
    StableHlo.TRef.unary (.of main_c_16) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v90 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v93 main_v94 (subf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v95 (broadcastInDim S64 ![] bcast_S_S64 : (⟨S_, .f32⟩ : BufTy).Contents (Elt F) → (⟨S64, .f32⟩ : BufTy).Contents (Elt F)),
    StableHlo.binary main_v91 main_v95 main_v96 (addf : (⟨S64, .f32⟩ : BufTy).Contents (Elt F) → (⟨S64, .f32⟩ : BufTy).Contents (Elt F) → (⟨S64, .f32⟩ : BufTy).Contents (Elt F)),
    StableHlo.unary main_v96 main_v97 (Host.rsqrt : (⟨S64, .f32⟩ : BufTy).Contents (Elt F) → (⟨S64, .f32⟩ : BufTy).Contents (Elt F)),
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v99 main_v100 (mulf : (⟨S50000x64, .f32⟩ : BufTy).Contents (Elt F) → (⟨S50000x64, .f32⟩ : BufTy).Contents (Elt F) → (⟨S50000x64, .f32⟩ : BufTy).Contents (Elt F)),
    StableHlo.unary main_arg20 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v102 main_v103 (mulf : (⟨S50000x64, .f32⟩ : BufTy).Contents (Elt F) → (⟨S50000x64, .f32⟩ : BufTy).Contents (Elt F) → (⟨S50000x64, .f32⟩ : BufTy).Contents (Elt F)),
    StableHlo.unary main_arg21 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v106) main_call1.v0 main_call1.v1 maximumf,
    StableHlo.nullary main_cst_18 (constant S_ .f32 0x00000000#32),
    StableHlo.binary main_v44 main_cst_18 main_v108 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    StableHlo.nullary main_cst_19 (constant S_ .f32 0x48F42400#32),
    StableHlo.unary main_cst_19 main_v109 (broadcastInDim S64 ![] bcast_S_S64 : (⟨S_, .f32⟩ : BufTy).Contents (Elt F) → (⟨S64, .f32⟩ : BufTy).Contents (Elt F)),
    StableHlo.binary main_v108 main_v109 main_v110 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call2.cst (constant S_ .f32 0x00000000#32),
    StableHlo.TRef.binary (.of main_v44) main_call2.cst main_call2.v0 (fun x v => Host.reduceAdd x v reducesTo_S500000x64_S64_d0 h_S_),
    StableHlo.TRef.unary main_call2.v0 main_call2.v1 (broadcastInDim S1x64 ![1] bcast_S64_S1x64_1),
    StableHlo.TRef.nullary main_call2.cst_0 (constant S_ .f32 0x48F42400#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S500000x64 ![0, 1] bcast_S1x64_S500000x64_0_1),
    StableHlo.TRef.binary (.of main_v44) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x48F42400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S500000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v110 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S500000x64 ![0, 1] bcast_S1x64_S500000x64_0_1 : (⟨S1x64, .f32⟩ : BufTy).Contents (Elt F) → (⟨S500000x64, .f32⟩ : BufTy).Contents (Elt F)),
    StableHlo.binary main_v44 main_v113 main_v114 (subf : (⟨S500000x64, .f32⟩ : BufTy).Contents (Elt F) → (⟨S500000x64, .f32⟩ : BufTy).Contents (Elt F) → (⟨S500000x64, .f32⟩ : BufTy).Contents (Elt F)),
    StableHlo.nullary main_cst_21 (constant S_ .f32 0x3727C5AC#32),
    StableHlo.unary main_cst_21 main_v115 (broadcastInDim S64 ![] bcast_S_S64 : (⟨S_, .f32⟩ : BufTy).Contents (Elt F) → (⟨S64, .f32⟩ : BufTy).Contents (Elt F)),
    StableHlo.binary main_v111 main_v115 main_v116 (addf : (⟨S64, .f32⟩ : BufTy).Contents (Elt F) → (⟨S64, .f32⟩ : BufTy).Contents (Elt F) → (⟨S64, .f32⟩ : BufTy).Contents (Elt F)),
    StableHlo.unary main_v116 main_v117 (Host.rsqrt : (⟨S64, .f32⟩ : BufTy).Contents (Elt F) → (⟨S64, .f32⟩ : BufTy).Contents (Elt F)),
    StableHlo.unary main_v117 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S500000x64 ![0, 1] bcast_S1x64_S500000x64_0_1 : (⟨S1x64, .f32⟩ : BufTy).Contents (Elt F) → (⟨S500000x64, .f32⟩ : BufTy).Contents (Elt F)),
    StableHlo.binary main_v114 main_v119 main_v120 (mulf : (⟨S500000x64, .f32⟩ : BufTy).Contents (Elt F) → (⟨S500000x64, .f32⟩ : BufTy).Contents (Elt F) → (⟨S500000x64, .f32⟩ : BufTy).Contents (Elt F)),
    StableHlo.unary main_arg22 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S500000x64 ![0, 1] bcast_S1x64_S500000x64_0_1 : (⟨S1x64, .f32⟩ : BufTy).Contents (Elt F) → (⟨S500000x64, .f32⟩ : BufTy).Contents (Elt F)),
    StableHlo.binary main_v120 main_v122 main_v123 (mulf : (⟨S500000x64, .f32⟩ : BufTy).Contents (Elt F) → (⟨S500000x64, .f32⟩ : BufTy).Contents (Elt F) → (⟨S500000x64, .f32⟩ : BufTy).Contents (Elt F)),
    StableHlo.unary main_arg23 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S500000x64 ![0, 1] bcast_S1x64_S500000x64_0_1 : (⟨S1x64, .f32⟩ : BufTy).Contents (Elt F) → (⟨S500000x64, .f32⟩ : BufTy).Contents (Elt F)),
    StableHlo.binary main_v123 main_v125 main_v126 (addf : (⟨S500000x64, .f32⟩ : BufTy).Contents (Elt F) → (⟨S500000x64, .f32⟩ : BufTy).Contents (Elt F) → (⟨S500000x64, .f32⟩ : BufTy).Contents (Elt F)),
    StableHlo.TRef.nullary main_call3.cst (constant S_ .f32 0x00000000#32),
    StableHlo.TRef.unary main_call3.cst main_call3.v0 (broadcastInDim S500000x64 ![] bcast_S_S500000x64),
    StableHlo.TRef.binary (.of main_v126) main_call3.v0 main_call3.v1 maximumf,
    StableHlo.unary main_v87 main_v128 (Host.tanh : (⟨S50000x64, .f32⟩ : BufTy).Contents (Elt F) → (⟨S50000x64, .f32⟩ : BufTy).Contents (Elt F)),
    StableHlo.binary main_arg0 main_v107 main_v129 (addf : (⟨S50000x64, .f32⟩ : BufTy).Contents (Elt F) → (⟨S50000x64, .f32⟩ : BufTy).Contents (Elt F) → (⟨S50000x64, .f32⟩ : BufTy).Contents (Elt F)),
    StableHlo.binary main_arg1 main_v128 main_v130 (addf : (⟨S50000x64, .f32⟩ : BufTy).Contents (Elt F) → (⟨S50000x64, .f32⟩ : BufTy).Contents (Elt F) → (⟨S50000x64, .f32⟩ : BufTy).Contents (Elt F)),
    StableHlo.binary main_arg2 main_v127 main_v131 (addf : (⟨S500000x64, .f32⟩ : BufTy).Contents (Elt F) → (⟨S500000x64, .f32⟩ : BufTy).Contents (Elt F) → (⟨S500000x64, .f32⟩ : BufTy).Contents (Elt F)) ]

theorem ops_eq : (ops : List (HloOp τ sig (Elt F))) = ops0 ++ (ops1 ++ ops2) := rfl

-- each window is a chain of `hlo` steps, a call the chain of its body's: equal to `seq` of the list by computation of the binds
set_option maxRecDepth 100000 in
theorem part0_eq (c : Dev nD) : main_part0 (F := F) c = seq ops0 := rfl
set_option maxRecDepth 100000 in
theorem part1_eq (c : Dev nD) : main_part1 (F := F) c = seq ops1 := rfl
set_option maxRecDepth 100000 in
theorem part2_eq (c : Dev nD) : main_part2 (F := F) c = seq ops2 := rfl

/-- @main is the straight line `ops`: its three windows run in order, and two lines run in order are their concatenation. -/
theorem main_eq (c : Dev nD) : main (F := F) c = seq ops := by
  rw [ops_eq, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., unary_bufs_sub ..,
    ternary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., binary_bufs_sub .., binary_bufs_sub ..⟩

end Cert.ReferenceIdeal.RefRun

end
-- ==== Proof.RefReadH.lean ====
import proofs.«163623_j1168231104593_2_alg».proof.Proof.RefOps
import proofs.«163623_j1168231104593_2_alg».proof.Proof.RefSpec

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

/-! What the first result buffer holds after the reference's line: `RefSpec.hOut` of the arguments' contents. -/

variable {F : FTy → Type} [FloatOps F] [Facts]

-- after the line a buffer holds its writer's function applied to what the operands' buffers held just before it, and a buffer
-- an operation does not write keeps what it held; composing these from the result back to the arguments gives the named term
set_option maxRecDepth 100000 in
set_option maxHeartbeats 8000000 in
theorem v129_eq (V : Valuation τ sig (Elt F)) :
    after ops V (main_v129 : DevRef τ sig) = RefSpec.hOut (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg20 : DevRef τ sig)) (V (main_arg21 : DevRef τ sig)) := by
  after_results_simp
  rfl

end Cert.ReferenceIdeal.RefRun

end
-- ==== Proof.RefReadP.lean ====
import proofs.«163623_j1168231104593_2_alg».proof.Proof.RefOps
import proofs.«163623_j1168231104593_2_alg».proof.Proof.RefSpec

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

/-! What the second result buffer holds after the reference's line: `RefSpec.pOut` of the arguments' contents. -/

variable {F : FTy → Type} [FloatOps F] [Facts]

-- after the line a buffer holds its writer's function applied to what the operands' buffers held just before it, and a buffer
-- an operation does not write keeps what it held; composing these from the result back to the arguments gives the named term
set_option maxRecDepth 100000 in
set_option maxHeartbeats 8000000 in
theorem v130_eq (V : Valuation τ sig (Elt F)) :
    after ops V (main_v130 : DevRef τ sig) = RefSpec.pOut (V (main_arg0 : DevRef τ sig)) (V (main_arg1 : DevRef τ sig)) (V (main_arg2 : DevRef τ sig)) (V (main_arg4 : DevRef τ sig)) (V (main_arg5 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  after_results_simp
  rfl

end Cert.ReferenceIdeal.RefRun

end
-- ==== Proof.RefReadE.lean ====
import proofs.«163623_j1168231104593_2_alg».proof.Proof.RefOps
import proofs.«163623_j1168231104593_2_alg».proof.Proof.RefSpec

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

/-! What the third result buffer holds after the reference's line: `RefSpec.eOut` of the arguments' contents. -/

variable {F : FTy → Type} [FloatOps F] [Facts]

-- after the line a buffer holds its writer's function applied to what the operands' buffers held just before it, and a buffer
-- an operation does not write keeps what it held; composing these from the result back to the arguments gives the named term
set_option maxRecDepth 100000 in
set_option maxHeartbeats 8000000 in
theorem v131_eq (V : Valuation τ sig (Elt F)) :
    after ops V (main_v131 : DevRef τ sig) = RefSpec.eOut (V (main_arg0 : DevRef τ sig)) (V (main_arg2 : DevRef τ sig)) (V (main_arg4 : DevRef τ sig)) (V (main_arg5 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg22 : DevRef τ sig)) (V (main_arg23 : DevRef τ sig)) := by
  after_results_simp
  rfl

end Cert.ReferenceIdeal.RefRun

end
-- ==== Proof.RefFrame.lean ====
import proofs.«163623_j1168231104593_2_alg».proof.Proof.RefOps

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

/-! The reference's argument buffers are written by no operation of its line: each keeps its launch contents. -/

variable {F : FTy → Type} [FloatOps F] [Facts]

/-- The references the line writes, in order: one per operation, all distinct from the arguments'. -/
abbrev written : List (Ref sig .tc) :=
  [ main_v0, main_v1, main_v2, main_v3, main_v4, main_v5, main_v6, main_v7,
    main_v8, main_v9, main_v10, main_v11, main_v12, main_v13, main_v14, main_v15,
    main_v16, main_v17, main_v18, main_v19, main_v20, main_v21, main_v22, main_v23,
    main_v24, main_v25, main_v26, main_v27, main_v28, main_c, main_v29, main_v30,
    main_c_0, main_v31, main_v32, main_v33, main_v34, main_v35, main_c_1, main_v36,
    main_v37, main_c_2, main_v38, main_v39, main_v40, main_v41, main_v42, main_v43,
    main_v44, main_v45, main_v46, main_cst, main_v47, main_v48, main_cst_3, main_v49,
    main_v50, main_cst_4, main_v51, main_v52, main_v53, main_c_5, main_v54, main_v55,
    main_c_6, main_v56, main_v57, main_v58, main_v59, main_v60, main_cst_7, main_v61,
    main_v62, main_v63, main_c_8, main_v64, main_v65, main_c_9, main_v66, main_v67,
    main_v68, main_v69, main_v70, main_v71, main_cst_10, main_v72, main_v73, main_v74,
    main_v75, main_c_11, main_v76, main_v77, main_c_12, main_v78, main_v79, main_v80,
    main_v81, main_v82, main_v83, main_cst_13, main_v84, main_v85, main_v86, main_v87,
    main_cst_14, main_v88, main_cst_15, main_v89, main_v90, main_c_16, main_call0.cst.ref, main_call0.v0.ref,
    main_call0.v1.ref, main_call0.cst_0.ref, main_call0.v2.ref, main_call0.v3.ref, main_call0.v4.ref, main_call0.v5.ref, main_call0.v6.ref, main_call0.v7.ref,
    main_call0.cst_1.ref, main_call0.v8.ref, main_call0.cst_2.ref, main_call0.v9.ref, main_call0.v10.ref, main_call0.v11.ref, main_call0.cst_3.ref, main_call0.v12.ref,
    main_call0.cst_4.ref, main_call0.call0.v0.ref, main_call0.call0.v1.ref, main_call0.call0.v2.ref, main_v92, main_v93, main_v94, main_cst_17,
    main_v95, main_v96, main_v97, main_v98, main_v99, main_v100, main_v101, main_v102,
    main_v103, main_v104, main_v105, main_v106, main_call1.cst.ref, main_call1.v0.ref, main_call1.v1.ref, main_cst_18,
    main_v108, main_cst_19, main_v109, main_v110, main_c_20, main_call2.cst.ref, main_call2.v0.ref, main_call2.v1.ref,
    main_call2.cst_0.ref, main_call2.v2.ref, main_call2.v3.ref, main_call2.v4.ref, main_call2.v5.ref, main_call2.v6.ref, main_call2.v7.ref, main_call2.cst_1.ref,
    main_call2.v8.ref, main_call2.cst_2.ref, main_call2.v9.ref, main_call2.v10.ref, main_call2.v11.ref, main_call2.cst_3.ref, main_call2.v12.ref, main_call2.cst_4.ref,
    main_call2.call0.v0.ref, main_call2.call0.v1.ref, main_call2.call0.v2.ref, main_v112, main_v113, main_v114, main_cst_21, main_v115,
    main_v116, main_v117, main_v118, main_v119, main_v120, main_v121, main_v122, main_v123,
    main_v124, main_v125, main_v126, main_call3.cst.ref, main_call3.v0.ref, main_call3.v1.ref, main_v128, main_v129,
    main_v130, main_v131 ]

/-- A singleton of a listed reference lies in the list's set of device buffers. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation writes a reference of `written`. -/
theorem ops_writes : (ops : List (HloOp τ sig (Elt F))).Forall fun op =>
    op.writes ⊆ ((written.map (Proc.devRef (τ := τ) .tc)).toFinset) :=
  ⟨writes_sub (y := main_v0) (by decide), writes_sub (y := main_v1) (by decide), writes_sub (y := main_v2) (by decide),
    writes_sub (y := main_v3) (by decide), writes_sub (y := main_v4) (by decide), writes_sub (y := main_v5) (by decide),
    writes_sub (y := main_v6) (by decide), writes_sub (y := main_v7) (by decide), writes_sub (y := main_v8) (by decide),
    writes_sub (y := main_v9) (by decide), writes_sub (y := main_v10) (by decide), writes_sub (y := main_v11) (by decide),
    writes_sub (y := main_v12) (by decide), writes_sub (y := main_v13) (by decide), writes_sub (y := main_v14) (by decide),
    writes_sub (y := main_v15) (by decide), writes_sub (y := main_v16) (by decide), writes_sub (y := main_v17) (by decide),
    writes_sub (y := main_v18) (by decide), writes_sub (y := main_v19) (by decide), writes_sub (y := main_v20) (by decide),
    writes_sub (y := main_v21) (by decide), writes_sub (y := main_v22) (by decide), writes_sub (y := main_v23) (by decide),
    writes_sub (y := main_v24) (by decide), writes_sub (y := main_v25) (by decide), writes_sub (y := main_v26) (by decide),
    writes_sub (y := main_v27) (by decide), writes_sub (y := main_v28) (by decide), writes_sub (y := main_c) (by decide),
    writes_sub (y := main_v29) (by decide), writes_sub (y := main_v30) (by decide), writes_sub (y := main_c_0) (by decide),
    writes_sub (y := main_v31) (by decide), writes_sub (y := main_v32) (by decide), writes_sub (y := main_v33) (by decide),
    writes_sub (y := main_v34) (by decide), writes_sub (y := main_v35) (by decide), writes_sub (y := main_c_1) (by decide),
    writes_sub (y := main_v36) (by decide), writes_sub (y := main_v37) (by decide), writes_sub (y := main_c_2) (by decide),
    writes_sub (y := main_v38) (by decide), writes_sub (y := main_v39) (by decide), writes_sub (y := main_v40) (by decide),
    writes_sub (y := main_v41) (by decide), writes_sub (y := main_v42) (by decide), writes_sub (y := main_v43) (by decide),
    writes_sub (y := main_v44) (by decide), writes_sub (y := main_v45) (by decide), writes_sub (y := main_v46) (by decide),
    writes_sub (y := main_cst) (by decide), writes_sub (y := main_v47) (by decide), writes_sub (y := main_v48) (by decide),
    writes_sub (y := main_cst_3) (by decide), writes_sub (y := main_v49) (by decide), writes_sub (y := main_v50) (by decide),
    writes_sub (y := main_cst_4) (by decide), writes_sub (y := main_v51) (by decide), writes_sub (y := main_v52) (by decide),
    writes_sub (y := main_v53) (by decide), writes_sub (y := main_c_5) (by decide), writes_sub (y := main_v54) (by decide),
    writes_sub (y := main_v55) (by decide), writes_sub (y := main_c_6) (by decide), writes_sub (y := main_v56) (by decide),
    writes_sub (y := main_v57) (by decide), writes_sub (y := main_v58) (by decide), writes_sub (y := main_v59) (by decide),
    writes_sub (y := main_v60) (by decide), writes_sub (y := main_cst_7) (by decide), writes_sub (y := main_v61) (by decide),
    writes_sub (y := main_v62) (by decide), writes_sub (y := main_v63) (by decide), writes_sub (y := main_c_8) (by decide),
    writes_sub (y := main_v64) (by decide), writes_sub (y := main_v65) (by decide), writes_sub (y := main_c_9) (by decide),
    writes_sub (y := main_v66) (by decide), writes_sub (y := main_v67) (by decide), writes_sub (y := main_v68) (by decide),
    writes_sub (y := main_v69) (by decide), writes_sub (y := main_v70) (by decide), writes_sub (y := main_v71) (by decide),
    writes_sub (y := main_cst_10) (by decide), writes_sub (y := main_v72) (by decide), writes_sub (y := main_v73) (by decide),
    writes_sub (y := main_v74) (by decide), writes_sub (y := main_v75) (by decide), writes_sub (y := main_c_11) (by decide),
    writes_sub (y := main_v76) (by decide), writes_sub (y := main_v77) (by decide), writes_sub (y := main_c_12) (by decide),
    writes_sub (y := main_v78) (by decide), writes_sub (y := main_v79) (by decide), writes_sub (y := main_v80) (by decide),
    writes_sub (y := main_v81) (by decide), writes_sub (y := main_v82) (by decide), writes_sub (y := main_v83) (by decide),
    writes_sub (y := main_cst_13) (by decide), writes_sub (y := main_v84) (by decide), writes_sub (y := main_v85) (by decide),
    writes_sub (y := main_v86) (by decide), writes_sub (y := main_v87) (by decide), writes_sub (y := main_cst_14) (by decide),
    writes_sub (y := main_v88) (by decide), writes_sub (y := main_cst_15) (by decide), writes_sub (y := main_v89) (by decide),
    writes_sub (y := main_v90) (by decide), writes_sub (y := main_c_16) (by decide), writes_sub (y := main_call0.cst.ref) (by decide),
    writes_sub (y := main_call0.v0.ref) (by decide), writes_sub (y := main_call0.v1.ref) (by decide), writes_sub (y := main_call0.cst_0.ref) (by decide),
    writes_sub (y := main_call0.v2.ref) (by decide), writes_sub (y := main_call0.v3.ref) (by decide), writes_sub (y := main_call0.v4.ref) (by decide),
    writes_sub (y := main_call0.v5.ref) (by decide), writes_sub (y := main_call0.v6.ref) (by decide), writes_sub (y := main_call0.v7.ref) (by decide),
    writes_sub (y := main_call0.cst_1.ref) (by decide), writes_sub (y := main_call0.v8.ref) (by decide), writes_sub (y := main_call0.cst_2.ref) (by decide),
    writes_sub (y := main_call0.v9.ref) (by decide), writes_sub (y := main_call0.v10.ref) (by decide), writes_sub (y := main_call0.v11.ref) (by decide),
    writes_sub (y := main_call0.cst_3.ref) (by decide), writes_sub (y := main_call0.v12.ref) (by decide), writes_sub (y := main_call0.cst_4.ref) (by decide),
    writes_sub (y := main_call0.call0.v0.ref) (by decide), writes_sub (y := main_call0.call0.v1.ref) (by decide), writes_sub (y := main_call0.call0.v2.ref) (by decide),
    writes_sub (y := main_v92) (by decide), writes_sub (y := main_v93) (by decide), writes_sub (y := main_v94) (by decide),
    writes_sub (y := main_cst_17) (by decide), writes_sub (y := main_v95) (by decide), writes_sub (y := main_v96) (by decide),
    writes_sub (y := main_v97) (by decide), writes_sub (y := main_v98) (by decide), writes_sub (y := main_v99) (by decide),
    writes_sub (y := main_v100) (by decide), writes_sub (y := main_v101) (by decide), writes_sub (y := main_v102) (by decide),
    writes_sub (y := main_v103) (by decide), writes_sub (y := main_v104) (by decide), writes_sub (y := main_v105) (by decide),
    writes_sub (y := main_v106) (by decide), writes_sub (y := main_call1.cst.ref) (by decide), writes_sub (y := main_call1.v0.ref) (by decide),
    writes_sub (y := main_call1.v1.ref) (by decide), writes_sub (y := main_cst_18) (by decide), writes_sub (y := main_v108) (by decide),
    writes_sub (y := main_cst_19) (by decide), writes_sub (y := main_v109) (by decide), writes_sub (y := main_v110) (by decide),
    writes_sub (y := main_c_20) (by decide), writes_sub (y := main_call2.cst.ref) (by decide), writes_sub (y := main_call2.v0.ref) (by decide),
    writes_sub (y := main_call2.v1.ref) (by decide), writes_sub (y := main_call2.cst_0.ref) (by decide), writes_sub (y := main_call2.v2.ref) (by decide),
    writes_sub (y := main_call2.v3.ref) (by decide), writes_sub (y := main_call2.v4.ref) (by decide), writes_sub (y := main_call2.v5.ref) (by decide),
    writes_sub (y := main_call2.v6.ref) (by decide), writes_sub (y := main_call2.v7.ref) (by decide), writes_sub (y := main_call2.cst_1.ref) (by decide),
    writes_sub (y := main_call2.v8.ref) (by decide), writes_sub (y := main_call2.cst_2.ref) (by decide), writes_sub (y := main_call2.v9.ref) (by decide),
    writes_sub (y := main_call2.v10.ref) (by decide), writes_sub (y := main_call2.v11.ref) (by decide), writes_sub (y := main_call2.cst_3.ref) (by decide),
    writes_sub (y := main_call2.v12.ref) (by decide), writes_sub (y := main_call2.cst_4.ref) (by decide), writes_sub (y := main_call2.call0.v0.ref) (by decide),
    writes_sub (y := main_call2.call0.v1.ref) (by decide), writes_sub (y := main_call2.call0.v2.ref) (by decide), writes_sub (y := main_v112) (by decide),
    writes_sub (y := main_v113) (by decide), writes_sub (y := main_v114) (by decide), writes_sub (y := main_cst_21) (by decide),
    writes_sub (y := main_v115) (by decide), writes_sub (y := main_v116) (by decide), writes_sub (y := main_v117) (by decide),
    writes_sub (y := main_v118) (by decide), writes_sub (y := main_v119) (by decide), writes_sub (y := main_v120) (by decide),
    writes_sub (y := main_v121) (by decide), writes_sub (y := main_v122) (by decide), writes_sub (y := main_v123) (by decide),
    writes_sub (y := main_v124) (by decide), writes_sub (y := main_v125) (by decide), writes_sub (y := main_v126) (by decide),
    writes_sub (y := main_call3.cst.ref) (by decide), writes_sub (y := main_call3.v0.ref) (by decide), writes_sub (y := main_call3.v1.ref) (by decide),
    writes_sub (y := main_v128) (by decide), writes_sub (y := main_v129) (by decide), writes_sub (y := main_v130) (by decide),
    writes_sub (y := main_v131) (by decide)⟩

/-- An argument buffer is written by no operation: it keeps its launch contents. -/
theorem arg_eq (V : Valuation τ sig (Elt F)) {r : Ref sig .tc} (hr : r ∉ written) :
    after ops V (r : DevRef τ sig) = V (r : DevRef τ sig) :=
  after_of_writes_sub ops V ops_writes hr

/-- Every operation determines its results: none allocates a buffer of contents not chosen. -/
theorem ops_fresh : ∀ op ∈ (ops : List (HloOp τ sig (Elt F))), op.fresh = ∅ :=
  List.forall_iff_forall_mem.1 (show (ops : List (HloOp τ sig (Elt F))).Forall fun op => op.fresh = ∅ from
    ⟨rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl, rfl, rfl, rfl, rfl,
     rfl, rfl⟩)

end Cert.ReferenceIdeal.RefRun

end
-- ==== Proof.RefRun.lean ====
import proofs.«163623_j1168231104593_2_alg».proof.Proof.RefReadH
import proofs.«163623_j1168231104593_2_alg».proof.Proof.RefReadP
import proofs.«163623_j1168231104593_2_alg».proof.Proof.RefReadE
import proofs.«163623_j1168231104593_2_alg».proof.Proof.RefFrame

/-!
The reference function's run: every weakly fair execution of its @main terminates with the three result buffers at
`RefSpec.hOut`, `RefSpec.pOut`, `RefSpec.eOut` of the argument buffers' launch contents, and the arguments unchanged.
-/

noncomputable section

namespace Cert.ReferenceIdeal.RefRun

open Cert.ReferenceIdeal Idealize.ShloMosaic Idealize.ShloMosaic.TcCoe Idealize.SL.Sem
  Idealize.ShloMosaic.StableHlo
open Cert.ReferenceIdeal.Facts₀ Cert.ReferenceIdeal.Facts

variable {F : FTy → Type} [FloatOps F] [Facts]

/-- On every device, for any float values, from any memory with zero counters: every weakly fair execution of @main
    terminates with each result at the named composed term of the arguments' launch contents and the arguments
    unchanged (the straight line's run, each buffer read back after the line). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = RefSpec.hOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21))
      ∧ r.2.mem ((c.tc : Thread nD τ).loc main_v130) = RefSpec.pOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v131) = RefSpec.eOut (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v129).trans (v129_eq (launchContents m c)),
      (h c main_v130).trans (v130_eq (launchContents m c)),
      (h c main_v131).trans (v131_eq (launchContents m c)),
      (h c main_arg0).trans (arg_eq (launchContents m c) (by decide)),
      (h c main_arg1).trans (arg_eq (launchContents m c) (by decide)),
      (h c main_arg2).trans (arg_eq (launchContents m c) (by decide)),
      (h c main_arg3).trans (arg_eq (launchContents m c) (by decide)),
      (h c main_arg4).trans (arg_eq (launchContents m c) (by decide)),
      (h c main_arg5).trans (arg_eq (launchContents m c) (by decide)),
      (h c main_arg6).trans (arg_eq (launchContents m c) (by decide)),
      (h c main_arg7).trans (arg_eq (launchContents m c) (by decide)),
      (h c main_arg8).trans (arg_eq (launchContents m c) (by decide)),
      (h c main_arg9).trans (arg_eq (launchContents m c) (by decide)),
      (h c main_arg10).trans (arg_eq (launchContents m c) (by decide)),
      (h c main_arg11).trans (arg_eq (launchContents m c) (by decide)),
      (h c main_arg12).trans (arg_eq (launchContents m c) (by decide)),
      (h c main_arg13).trans (arg_eq (launchContents m c) (by decide)),
      (h c main_arg14).trans (arg_eq (launchContents m c) (by decide)),
      (h c main_arg15).trans (arg_eq (launchContents m c) (by decide)),
      (h c main_arg16).trans (arg_eq (launchContents m c) (by decide)),
      (h c main_arg17).trans (arg_eq (launchContents m c) (by decide)),
      (h c main_arg18).trans (arg_eq (launchContents m c) (by decide)),
      (h c main_arg19).trans (arg_eq (launchContents m c) (by decide)),
      (h c main_arg20).trans (arg_eq (launchContents m c) (by decide)),
      (h c main_arg21).trans (arg_eq (launchContents m c) (by decide)),
      (h c main_arg22).trans (arg_eq (launchContents m c) (by decide)),
      (h c main_arg23).trans (arg_eq (launchContents m c) (by decide))⟩)
    (run_seq scopedRefs_eq scopedSems_eq defs main (fun _ => ops) main_eq (fun _ => ops_sub) m ρ (fun _ => ops_fresh))

end Cert.ReferenceIdeal.RefRun

end
-- ==== Proof.lean ====
/-
  A gated graph-convolution layer with positional features, at the exact (extended-real) reading: the kernel
  program — five kernel regions (the node-level linear maps, two columns of them side by side; the edge
  pre-activation B1h[src] + B2h[dst] + e·B3 + b; the normalised gates' two messages side by side; the node
  finalisation; the edge finalisation) among host gathers, segment sums and batch statistics — against the plain
  reference. Both compute, for every node row and edge row, the same extended reals:

    h_out = h + max (bn (A1h + Σ_{dst} η ⊙ A2hp[src]), 0),  p_out = p + tanh (C1p + Σ_{dst} η ⊙ C2p[src]),
    e_out = e + max (bn (η̂), 0),   η = σ(η̂) / (Σ_{dst} σ(η̂) [dst] + ε),

  the kernel with [h|p]·W contracted half by half, the two messages gathered, multiplied and summed 128 columns
  wide, and the batch statistics kept as rows; none of these regroupings uses more than the commutative monoid
  laws of the extended reals, so the precondition (finite inputs) is not opened.

  The three frames: the kernel programs' are their generated frame certificates; the reference's is its run with
  the results dropped. The idealization rewrote nothing, so `preserves` is `True`. `algebraic`: the kernel
  program's run names its results at the last segment boundary's contents, which are read back region by region
  to the reference's functions of the arguments (KValue); the reference's run gives the same functions of its own
  arguments, which agree with the kernel's.
-/
import proofs.«163623_j1168231104593_2_alg».proof.Defs
import proofs.«163623_j1168231104593_2_alg».proof.Proof.Gen.Kernel
import proofs.«163623_j1168231104593_2_alg».proof.Proof.Gen.Kernel.Frame
import proofs.«163623_j1168231104593_2_alg».proof.Proof.Gen.KernelIdeal
import proofs.«163623_j1168231104593_2_alg».proof.Proof.Gen.KernelIdeal.Frame
import proofs.«163623_j1168231104593_2_alg».proof.Proof.Gen.ReferenceIdeal
import proofs.«163623_j1168231104593_2_alg».proof.Proof.Gen.Pre_finite_inputs
import proofs.«163623_j1168231104593_2_alg».proof.Proof.KRun
import proofs.«163623_j1168231104593_2_alg».proof.Proof.KValueB
import proofs.«163623_j1168231104593_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.RefRun.run (F := Ideal) m ρ)

/-- The kernel program's run with its three results at the reference's functions of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v71_0) = (Cert.ReferenceIdeal.RefSpec.hOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
        ∧ r.2.mem ((c.tc : Thread Cert.KernelIdeal.nD Cert.KernelIdeal.τ).loc Cert.KernelIdeal.main_v71_1) = (Cert.ReferenceIdeal.RefSpec.pOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
        ∧ r.2.mem ((c.tc : Thread Cert.KernelIdeal.nD Cert.KernelIdeal.τ).loc Cert.KernelIdeal.main_v72) = (Cert.ReferenceIdeal.RefSpec.eOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run Cert.KernelIdeal.defs _ _).mono
    (fun _ h c => ⟨(h c).1.trans (Cert.KernelIdeal.KValue.v71_0 m ρ c), (h c).2.1.trans (Cert.KernelIdeal.KValue.v71_1 m ρ c),
      (h c).2.2.1.trans (Cert.KernelIdeal.KValue.v72 m ρ c), (h c).2.2.2⟩)
    (Cert.KernelIdeal.KRun.run (F := Ideal) m ρ)

theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ?_) (Cert.ReferenceIdeal.RefRun.run (F := Ideal) m' ρ')
  obtain ⟨a0, a1, a2, a3, a4, a5, a6, a7, a8, a9, a10, a11, a12, a13, a14, a15, a16, a17, a18, a19, a20, a21, a22, a23⟩ := hagree c
  refine ⟨(h c).1.trans ?_, (h c).2.1.trans ?_, (h c).2.2.1.trans ?_, (h c).2.2.2⟩
  · rw [a0, a1, a2, a4, a5, a6, a7, a8, a9, a10, a11, a12, a13, a14, a15, a20, a21]
  · rw [a0, a1, a2, a4, a5, a10, a11, a12, a13, a14, a15, a16, a17, a18, a19]
  · rw [a0, a2, a4, a5, a10, a11, a12, a13, a14, a15, a22, a23]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
